-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S384x64 : Shape := ⟨2, ![384, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1 .f32) (main_arg12 : FVec F S1 .f32) (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S128 .f32) (main_arg8 : FVec F S384x64 .f32) (main_arg9 : FVec F S64 .f32) (main_arg10 : FVec F S64x1 .f32) (main_arg11 : FVec F S1 .f32) (main_arg12 : FVec F S1 .f32) (main_arg13 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x64 .f32 := Host.absf main_arg8
  let main_cst_14 : FVec F S_ .f32 := constant S_ .f32 0x7F800000#32
  let main_v40 : FVec F S384x64 .f32 := broadcastInDim S384x64 ![] bcast_S_S384x64 main_cst_14
  let main_v41 : IVec S384x64 1 := cmpf .olt main_v39 main_v40
  let main_c_15 : IVec S_ 1 := constantI S_ 1 1#1
  let main_v42 : IVec S_ 1 := (fun x v => Host.reduce IntOp.andi x v reducesTo_S384x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_arg12 main_arg13 main_v48 main_v49 main_v50

def fn_part1 {F : FTy → Type} [FloatOps F] (main_arg4 : FVec F S256 .f32) (main_arg5 : FVec F S256 .f32) (main_arg6 : FVec F S256x128 .f32) (main_arg7 : FVec F S128 .f32) (main_arg8 : FVec F S384x64 .f32) (main_arg9 : FVec F S64 .f32) (main_arg10 : FVec F S64x1 .f32) (main_arg11 : FVec F S1 .f32) (main_arg12 : FVec F S1 .f32) (main_arg13 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x512 .f32) (main_arg1 : FVec F S65536x512 .f32) (main_arg2 : FVec F S512x256 .f32) (main_arg3 : FVec F S256 .f32) (main_arg4 : FVec F S256 .f32) (main_arg5 : FVec F S256 .f32) (main_arg6 : FVec F S256x128 .f32) (main_arg7 : FVec F S128 .f32) (main_arg8 : FVec F S384x64 .f32) (main_arg9 : FVec F S64 .f32) (main_arg10 : FVec F S64x1 .f32) (main_arg11 : FVec F S1 .f32) (main_arg12 : FVec F S1 .f32) (main_arg13 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x512 : Shape := ⟨2, ![65536, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S384x64 : Shape := ⟨2, ![384, 64]⟩
abbrev S64 : Shape := ⟨1, ![64]⟩
abbrev S64x1 : Shape := ⟨2, ![64, 1]⟩
abbrev S1 : Shape := ⟨1, ![1]⟩
abbrev S1x256 : Shape := ⟨2, ![1, 256]⟩
abbrev S1x128 : Shape := ⟨2, ![1, 128]⟩
abbrev S1x64 : Shape := ⟨2, ![1, 64]⟩
abbrev S1x1 : Shape := ⟨2, ![1, 1]⟩
abbrev S128x64 : Shape := ⟨2, ![128, 64]⟩
abbrev S65536x256 : Shape := ⟨2, ![65536, 256]⟩
abbrev S16x256 : Shape := ⟨2, ![16, 256]⟩
abbrev S4096x512 : Shape := ⟨2, ![4096, 512]⟩
abbrev S4096x256 : Shape := ⟨2, ![4096, 256]⟩
abbrev S8x256 : Shape := ⟨2, ![8, 256]⟩
abbrev S_ : Shape := ⟨0, ![]⟩
abbrev S65536x1 : Shape := ⟨2, ![65536, 1]⟩
abbrev S2048x256 : Shape := ⟨2, ![2048, 256]⟩
abbrev S2048x1 : Shape := ⟨2, ![2048, 1]⟩
abbrev S2048x128 : Shape := ⟨2, ![2048, 128]⟩
abbrev S2048 : Shape := ⟨1, ![2048]⟩
abbrev S2048x64 : Shape := ⟨2, ![2048, 64]⟩
abbrev S65536 : Shape := ⟨1, ![65536]⟩

abbrev nBuf : Space → Nat
  | .hbm => 67
  | .vmem => 42
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S384x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x128, .f32⟩
  | .hbm, ⟨18, _⟩ => ⟨S1x64, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S65536x256, .bf16⟩
  | .hbm, ⟨26, _⟩ => ⟨S16x256, .f32⟩
  | .hbm, ⟨27, _⟩ => ⟨S16x256, .f32⟩
  | .hbm, ⟨28, _⟩ => ⟨S65536x256, .bf16⟩
  | .hbm, ⟨29, _⟩ => ⟨S16x256, .f32⟩
  | .hbm, ⟨30, _⟩ => ⟨S16x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S_, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S_, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S65536x1, .f32⟩
  | .hbm, ⟨66, _⟩ => ⟨S65536, .f32⟩
  | .local _ .vmem, ⟨0, _⟩ => ⟨S4096x512, .f32⟩
  | .local _ .vmem, ⟨1, _⟩ => ⟨S4096x512, .f32⟩
  | .local _ .vmem, ⟨2, _⟩ => ⟨S512x256, .f32⟩
  | .local _ .vmem, ⟨3, _⟩ => ⟨S1x256, .f32⟩
  | .local _ .vmem, ⟨4, _⟩ => ⟨S4096x256, .bf16⟩
  | .local _ .vmem, ⟨5, _⟩ => ⟨S4096x256, .bf16⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S4096x512, .f32⟩
  | .local _ .vmem, ⟨11, _⟩ => ⟨S4096x512, .f32⟩
  | .local _ .vmem, ⟨12, _⟩ => ⟨S512x256, .f32⟩
  | .local _ .vmem, ⟨13, _⟩ => ⟨S1x256, .f32⟩
  | .local _ .vmem, ⟨14, _⟩ => ⟨S4096x256, .bf16⟩
  | .local _ .vmem, ⟨15, _⟩ => ⟨S4096x256, .bf16⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S256x128, .f32⟩
  | .local _ .vmem, ⟨31, _⟩ => ⟨S1x128, .f32⟩
  | .local _ .vmem, ⟨32, _⟩ => ⟨S128x64, .f32⟩
  | .local _ .vmem, ⟨33, _⟩ => ⟨S128x64, .f32⟩
  | .local _ .vmem, ⟨34, _⟩ => ⟨S128x64, .f32⟩
  | .local _ .vmem, ⟨35, _⟩ => ⟨S1x64, .f32⟩
  | .local _ .vmem, ⟨36, _⟩ => ⟨S64x1, .f32⟩
  | .local _ .vmem, ⟨37, _⟩ => ⟨S1x1, .f32⟩
  | .local _ .vmem, ⟨38, _⟩ => ⟨S1x1, .f32⟩
  | .local _ .vmem, ⟨39, _⟩ => ⟨S1x1, .f32⟩
  | .local _ .vmem, ⟨40, _⟩ => ⟨S2048x1, .f32⟩
  | .local _ .vmem, ⟨41, _⟩ => ⟨S2048x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg11_0 : Ref sig .tc := ⟨.vmem, 33, rfl⟩
abbrev cc2_stg12_0 : Ref sig .tc := ⟨.vmem, 34, rfl⟩
abbrev cc2_stg13_0 : Ref sig .tc := ⟨.vmem, 35, rfl⟩
abbrev cc2_stg14_0 : Ref sig .tc := ⟨.vmem, 36, rfl⟩
abbrev cc2_stg15_0 : Ref sig .tc := ⟨.vmem, 37, rfl⟩
abbrev cc2_stg16_0 : Ref sig .tc := ⟨.vmem, 38, rfl⟩
abbrev cc2_stg17_0 : Ref sig .tc := ⟨.vmem, 39, rfl⟩
abbrev cc2_stg18_0 : Ref sig .tc := ⟨.vmem, 40, rfl⟩
abbrev cc2_stg18_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem12_0 : DmaSem sig := 34
abbrev cc2_sem13_0 : DmaSem sig := 35
abbrev cc2_sem14_0 : DmaSem sig := 36
abbrev cc2_sem15_0 : DmaSem sig := 37
abbrev cc2_sem16_0 : DmaSem sig := 38
abbrev cc2_sem17_0 : DmaSem sig := 39
abbrev cc2_sem18_0 : DmaSem sig := 40
abbrev cc2_sem18_1 : DmaSem sig := 41

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x1 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S2048x1 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  shapeCasts_S256_S1x256 : S256.ShapeCasts S1x256
  shapeCasts_S128_S1x128 : S128.ShapeCasts S1x128
  shapeCasts_S64_S1x64 : S64.ShapeCasts S1x64
  shapeCasts_S1_S1x1 : S1.ShapeCasts S1x1
  slices_S384x64_S128x64_0_0 : S384x64.Slices ![0, 0] S128x64
  slices_S384x64_S128x64_128_0 : S384x64.Slices ![128, 0] S128x64
  slices_S384x64_S128x64_256_0 : S384x64.Slices ![256, 0] S128x64
  inb_S8x256_S8x256_0_0 : ∀ a, (![0, 0] : Fin 2 → Nat) a + S8x256.size a ≤ S8x256.size a
  h_S8x256 : 0 < S8x256.numel
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S256 : S4096x256.Reduces [0] S256
  shapeCasts_S8x256_S8x256 : S8x256.ShapeCasts S8x256
  broadcasts_S1x256_S8x256 : S1x256.Broadcasts S8x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  slices_S16x256_S1x256_0_0 : S16x256.Slices ![0, 0] S1x256
  slices_S16x256_S1x256_8_0 : S16x256.Slices ![8, 0] S1x256
  bcast_S_S1x256 : S_.BroadcastsInDim S1x256 (![] : Fin 0 → Fin S1x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S65536x1_S65536 : S65536x1.ShapeCasts S65536
  dot_S4096x512_S512x256_S4096x256_1_0_0_1_n_n_wf : DotDims.WF S4096x512 S512x256 S4096x256 [1] [0] [0] [1] [] []
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S65536x256.size a
  hwx0_3 : ∀ i : grid0.Coords, EltTy.bits .bf16 = 32 ∨ (Rect.block (s := S65536x256) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S16x256.size a
  hwx0_4 : ∀ i : grid0.Coords, EltTy.bits .f32 = 32 ∨ (Rect.block (s := S16x256) S8x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S16x256.size a
  hwx0_5 : ∀ i : grid0.Coords, EltTy.bits .f32 = 32 ∨ (Rect.block (s := S16x256) S8x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S65536x512.size a
  hwx1_0 : ∀ i : grid1.Coords, EltTy.bits .f32 = 32 ∨ (Rect.block (s := S65536x512) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S65536x256.size a
  hwx1_3 : ∀ i : grid1.Coords, EltTy.bits .bf16 = 32 ∨ (Rect.block (s := S65536x256) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S16x256.size a
  hwx1_4 : ∀ i : grid1.Coords, EltTy.bits .f32 = 32 ∨ (Rect.block (s := S16x256) S8x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S16x256.size a
  hwx1_5 : ∀ i : grid1.Coords, EltTy.bits .f32 = 32 ∨ (Rect.block (s := S16x256) S8x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .bf16 = 32 ∨ (Rect.block (s := S65536x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S65536x256.size a
  hwx2_1 : ∀ i : grid2.Coords, EltTy.bits .bf16 = 32 ∨ (Rect.block (s := S65536x256) S2048x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x64.size a ≤ S128x64.size a
  hwx2_10 : ∀ i : grid2.Coords, EltTy.bits .f32 = 32 ∨ (Rect.block (s := S128x64) S128x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x64.size a ≤ S128x64.size a
  hwx2_11 : ∀ i : grid2.Coords, EltTy.bits .f32 = 32 ∨ (Rect.block (s := S128x64) S128x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x64.size a ≤ S128x64.size a
  hwx2_12 : ∀ i : grid2.Coords, EltTy.bits .f32 = 32 ∨ (Rect.block (s := S128x64) S128x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64x1.size a ≤ S64x1.size a
  hwx2_14 : ∀ i : grid2.Coords, EltTy.bits .f32 = 32 ∨ (Rect.block (s := S64x1) S64x1.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x1.size a ≤ S1x1.size a
  hwx2_15 : ∀ i : grid2.Coords, EltTy.bits .f32 = 32 ∨ (Rect.block (s := S1x1) S1x1.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x1.size a ≤ S1x1.size a
  hwx2_16 : ∀ i : grid2.Coords, EltTy.bits .f32 = 32 ∨ (Rect.block (s := S1x1) S1x1.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S1x1.size a ≤ S1x1.size a
  hwx2_17 : ∀ i : grid2.Coords, EltTy.bits .f32 = 32 ∨ (Rect.block (s := S1x1) S1x1.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2048x1.size a ≤ S65536x1.size a
  hwx2_18 : ∀ i : grid2.Coords, EltTy.bits .f32 = 32 ∨ (Rect.block (s := S65536x1) S2048x1.size (cc2_transform_18 i) (hinb2_18 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S4096x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S8x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S4096x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S8x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12_2) S8x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_0) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v1) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v3) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v8) S128x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v9) S128x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v10) S128x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v4) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg10) S64x1.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v5) S1x1.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v6) S1x1.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v7) S1x1.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v41) S2048x1.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S65536x512 : Shape := ⟨2, ![65536, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S384x64 : Shape := ⟨2, ![384, 64]⟩
abbrev S64 : Shape := ⟨1, ![64]⟩
abbrev S64x1 : Shape := ⟨2, ![64, 1]⟩
abbrev S1 : Shape := ⟨1, ![1]⟩
abbrev S65536x256 : Shape := ⟨2, ![65536, 256]⟩
abbrev S1x256 : Shape := ⟨2, ![1, 256]⟩
abbrev S_ : Shape := ⟨0, ![]⟩
abbrev S65536x128 : Shape := ⟨2, ![65536, 128]⟩
abbrev S1x128 : Shape := ⟨2, ![1, 128]⟩
abbrev S65536 : Shape := ⟨1, ![65536]⟩
abbrev S65536x384 : Shape := ⟨2, ![65536, 384]⟩
abbrev S65536x64 : Shape := ⟨2, ![65536, 64]⟩
abbrev S1x64 : Shape := ⟨2, ![1, 64]⟩
abbrev S65536x1 : Shape := ⟨2, ![65536, 1]⟩
abbrev S1x1 : Shape := ⟨2, ![1, 1]⟩

abbrev nBuf : Space → Nat
  | .hbm => 201
  | .vmem => 0
  | .smem => 0
  | _ => 0

abbrev hbmTy0_0 (i : Nat) : BufTy := match i % 128 with
  | 0 => ⟨S65536x512, .f32⟩
  | 1 => ⟨S65536x512, .f32⟩
  | 2 => ⟨S512x256, .f32⟩
  | 3 => ⟨S256, .f32⟩
  | 4 => ⟨S256, .f32⟩
  | 5 => ⟨S256, .f32⟩
  | 6 => ⟨S256x128, .f32⟩
  | 7 => ⟨S128, .f32⟩
  | 8 => ⟨S384x64, .f32⟩
  | 9 => ⟨S64, .f32⟩
  | 10 => ⟨S64x1, .f32⟩
  | 11 => ⟨S1, .f32⟩
  | 12 => ⟨S1, .f32⟩
  | 13 => ⟨S1, .f32⟩
  | 14 => ⟨S65536x256, .f32⟩
  | 15 => ⟨S1x256, .f32⟩
  | 16 => ⟨S65536x256, .f32⟩
  | 17 => ⟨S65536x256, .f32⟩
  | 18 => ⟨S_, .f32⟩
  | 19 => ⟨S256, .f32⟩
  | 20 => ⟨S_, .f32⟩
  | 21 => ⟨S256, .f32⟩
  | 22 => ⟨S256, .f32⟩
  | 23 => ⟨S_, .i32⟩
  | 24 => ⟨S_, .f32⟩
  | 25 => ⟨S256, .f32⟩
  | 26 => ⟨S1x256, .f32⟩
  | 27 => ⟨S_, .f32⟩
  | 28 => ⟨S1x256, .f32⟩
  | 29 => ⟨S1x256, .f32⟩
  | 30 => ⟨S65536x256, .f32⟩
  | 31 => ⟨S65536x256, .f32⟩
  | 32 => ⟨S65536x256, .f32⟩
  | 33 => ⟨S_, .f32⟩
  | 34 => ⟨S_, .f32⟩
  | 35 => ⟨S_, .f32⟩
  | 36 => ⟨S_, .f32⟩
  | 37 => ⟨S256, .f32⟩
  | 38 => ⟨S256, .f32⟩
  | 39 => ⟨S256, .f32⟩
  | 40 => ⟨S_, .f32⟩
  | 41 => ⟨S_, .i1⟩
  | 42 => ⟨S_, .f32⟩
  | 43 => ⟨S_, .f32⟩
  | 44 => ⟨S256, .f32⟩
  | 45 => ⟨S256, .f32⟩
  | 46 => ⟨S1x256, .f32⟩
  | 47 => ⟨S65536x256, .f32⟩
  | 48 => ⟨S65536x256, .f32⟩
  | 49 => ⟨S1x256, .f32⟩
  | 50 => ⟨S65536x256, .f32⟩
  | 51 => ⟨S65536x256, .f32⟩
  | 52 => ⟨S_, .f32⟩
  | 53 => ⟨S256, .f32⟩
  | 54 => ⟨S256, .f32⟩
  | 55 => ⟨S256, .f32⟩
  | 56 => ⟨S1x256, .f32⟩
  | 57 => ⟨S65536x256, .f32⟩
  | 58 => ⟨S65536x256, .f32⟩
  | 59 => ⟨S1x256, .f32⟩
  | 60 => ⟨S65536x256, .f32⟩
  | 61 => ⟨S65536x256, .f32⟩
  | 62 => ⟨S_, .f32⟩
  | 63 => ⟨S65536x256, .f32⟩
  | 64 => ⟨S65536x256, .f32⟩
  | 65 => ⟨S65536x128, .f32⟩
  | 66 => ⟨S1x128, .f32⟩
  | 67 => ⟨S65536x128, .f32⟩
  | 68 => ⟨S65536x128, .f32⟩
  | 69 => ⟨S_, .f32⟩
  | 70 => ⟨S65536x128, .f32⟩
  | 71 => ⟨S65536x128, .f32⟩
  | 72 => ⟨S65536x256, .f32⟩
  | 73 => ⟨S1x256, .f32⟩
  | 74 => ⟨S65536x256, .f32⟩
  | 75 => ⟨S65536x256, .f32⟩
  | 76 => ⟨S_, .f32⟩
  | 77 => ⟨S256, .f32⟩
  | 78 => ⟨S_, .f32⟩
  | 79 => ⟨S256, .f32⟩
  | 80 => ⟨S256, .f32⟩
  | 81 => ⟨S_, .i32⟩
  | 82 => ⟨S_, .f32⟩
  | 83 => ⟨S256, .f32⟩
  | 84 => ⟨S1x256, .f32⟩
  | 85 => ⟨S_, .f32⟩
  | 86 => ⟨S1x256, .f32⟩
  | 87 => ⟨S1x256, .f32⟩
  | 88 => ⟨S65536x256, .f32⟩
  | 89 => ⟨S65536x256, .f32⟩
  | 90 => ⟨S65536x256, .f32⟩
  | 91 => ⟨S_, .f32⟩
  | 92 => ⟨S_, .f32⟩
  | 93 => ⟨S_, .f32⟩
  | 94 => ⟨S_, .f32⟩
  | 95 => ⟨S256, .f32⟩
  | 96 => ⟨S256, .f32⟩
  | 97 => ⟨S256, .f32⟩
  | 98 => ⟨S_, .f32⟩
  | 99 => ⟨S_, .i1⟩
  | 100 => ⟨S_, .f32⟩
  | 101 => ⟨S_, .f32⟩
  | 102 => ⟨S256, .f32⟩
  | 103 => ⟨S256, .f32⟩
  | 104 => ⟨S1x256, .f32⟩
  | 105 => ⟨S65536x256, .f32⟩
  | 106 => ⟨S65536x256, .f32⟩
  | 107 => ⟨S1x256, .f32⟩
  | 108 => ⟨S65536x256, .f32⟩
  | 109 => ⟨S65536x256, .f32⟩
  | 110 => ⟨S_, .f32⟩
  | 111 => ⟨S256, .f32⟩
  | 112 => ⟨S256, .f32⟩
  | 113 => ⟨S256, .f32⟩
  | 114 => ⟨S1x256, .f32⟩
  | 115 => ⟨S65536x256, .f32⟩
  | 116 => ⟨S65536x256, .f32⟩
  | 117 => ⟨S1x256, .f32⟩
  | 118 => ⟨S65536x256, .f32⟩
  | 119 => ⟨S65536x256, .f32⟩
  | 120 => ⟨S_, .f32⟩
  | 121 => ⟨S65536x256, .f32⟩
  | 122 => ⟨S65536x256, .f32⟩
  | 123 => ⟨S65536x128, .f32⟩
  | 124 => ⟨S1x128, .f32⟩
  | 125 => ⟨S65536x128, .f32⟩
  | 126 => ⟨S65536x128, .f32⟩
  | 127 => ⟨S_, .f32⟩
  | _ => ⟨S65536x512, .f32⟩

abbrev hbmTy0_1 (i : Nat) : BufTy := match i % 128 with
  | 0 => ⟨S65536x128, .f32⟩
  | 1 => ⟨S65536x128, .f32⟩
  | 2 => ⟨S65536x128, .f32⟩
  | 3 => ⟨S_, .f32⟩
  | 4 => ⟨S65536, .f32⟩
  | 5 => ⟨S65536x128, .f32⟩
  | 6 => ⟨S_, .f32⟩
  | 7 => ⟨S65536, .f32⟩
  | 8 => ⟨S65536, .f32⟩
  | 9 => ⟨S_, .f32⟩
  | 10 => ⟨S65536, .f32⟩
  | 11 => ⟨S65536, .f32⟩
  | 12 => ⟨S_, .f32⟩
  | 13 => ⟨S65536, .f32⟩
  | 14 => ⟨S65536, .f32⟩
  | 15 => ⟨S65536x128, .f32⟩
  | 16 => ⟨S_, .f32⟩
  | 17 => ⟨S65536, .f32⟩
  | 18 => ⟨S65536, .f32⟩
  | 19 => ⟨S_, .f32⟩
  | 20 => ⟨S65536, .f32⟩
  | 21 => ⟨S65536, .f32⟩
  | 22 => ⟨S_, .f32⟩
  | 23 => ⟨S65536, .f32⟩
  | 24 => ⟨S65536, .f32⟩
  | 25 => ⟨S65536, .f32⟩
  | 26 => ⟨S65536, .f32⟩
  | 27 => ⟨S_, .f32⟩
  | 28 => ⟨S_, .f32⟩
  | 29 => ⟨S_, .f32⟩
  | 30 => ⟨S65536, .f32⟩
  | 31 => ⟨S65536, .f32⟩
  | 32 => ⟨S_, .f32⟩
  | 33 => ⟨S65536, .f32⟩
  | 34 => ⟨S65536, .f32⟩
  | 35 => ⟨S65536x128, .f32⟩
  | 36 => ⟨S65536x128, .f32⟩
  | 37 => ⟨S65536x128, .f32⟩
  | 38 => ⟨S65536x128, .f32⟩
  | 39 => ⟨S65536x384, .f32⟩
  | 40 => ⟨S65536x64, .f32⟩
  | 41 => ⟨S1x64, .f32⟩
  | 42 => ⟨S65536x64, .f32⟩
  | 43 => ⟨S65536x64, .f32⟩
  | 44 => ⟨S_, .f32⟩
  | 45 => ⟨S65536x64, .f32⟩
  | 46 => ⟨S65536x64, .f32⟩
  | 47 => ⟨S65536x1, .f32⟩
  | 48 => ⟨S1x1, .f32⟩
  | 49 => ⟨S65536x1, .f32⟩
  | 50 => ⟨S65536x1, .f32⟩
  | 51 => ⟨S65536, .f32⟩
  | 52 => ⟨S65536, .f32⟩
  | 53 => ⟨S65536, .f32⟩
  | 54 => ⟨S65536, .f32⟩
  | 55 => ⟨S65536, .f32⟩
  | 56 => ⟨S_, .f32⟩
  | 57 => ⟨S65536, .f32⟩
  | 58 => ⟨S65536, .f32⟩
  | 59 => ⟨S_, .f32⟩
  | 60 => ⟨S65536, .f32⟩
  | 61 => ⟨S65536, .f32⟩
  | 62 => ⟨S65536, .f32⟩
  | 63 => ⟨S65536, .f32⟩
  | 64 => ⟨S65536, .f32⟩
  | 65 => ⟨S_, .f32⟩
  | 66 => ⟨S_, .f32⟩
  | 67 => ⟨S_, .f32⟩
  | 68 => ⟨S65536, .f32⟩
  | 69 => ⟨S65536, .f32⟩
  | 70 => ⟨S_, .f32⟩
  | 71 => ⟨S65536, .f32⟩
  | 72 => ⟨S65536, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_call1_cst : Ref sig .tc := ⟨.hbm, 62, rfl⟩
abbrev main_call1_v0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_call2_cst : Ref sig .tc := ⟨.hbm, 69, rfl⟩
abbrev main_call2_v0 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_2 : Ref sig .tc := ⟨.hbm, 76, rfl⟩
abbrev main_v33 : Ref sig .tc := ⟨.hbm, 77, rfl⟩
abbrev main_cst_3 : Ref sig .tc := ⟨.hbm, 78, rfl⟩
abbrev main_v34 : Ref sig .tc := ⟨.hbm, 79, rfl⟩
abbrev main_v35 : Ref sig .tc := ⟨.hbm, 80, rfl⟩
abbrev main_c_4 : Ref sig .tc := ⟨.hbm, 81, rfl⟩
abbrev main_call3_cst : Ref sig .tc := ⟨.hbm, 82, rfl⟩
abbrev main_call3_v0 : Ref sig .tc := ⟨.hbm, 83, rfl⟩
abbrev main_call3_v1 : Ref sig .tc := ⟨.hbm, 84, rfl⟩
abbrev main_call3_cst_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_cst_1 : Ref sig .tc := ⟨.hbm, 92, rfl⟩
abbrev main_call3_v8 : Ref sig .tc := ⟨.hbm, 93, rfl⟩
abbrev main_call3_cst_2 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_cst_3 : Ref sig .tc := ⟨.hbm, 98, rfl⟩
abbrev main_call3_v12 : Ref sig .tc := ⟨.hbm, 99, rfl⟩
abbrev main_call3_cst_4 : Ref sig .tc := ⟨.hbm, 100, rfl⟩
abbrev main_call3_call0_v0 : Ref sig .tc := ⟨.hbm, 101, rfl⟩
abbrev main_call3_call0_v1 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_5 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_call4_cst : Ref sig .tc := ⟨.hbm, 120, rfl⟩
abbrev main_call4_v0 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_call5_cst : Ref sig .tc := ⟨.hbm, 127, rfl⟩
abbrev main_call5_v0 : Ref sig .tc := ⟨.hbm, 128, rfl⟩
abbrev main_v57 : Ref sig .tc := ⟨.hbm, 129, rfl⟩
abbrev main_v58 : Ref sig .tc := ⟨.hbm, 130, rfl⟩
abbrev main_cst_6 : Ref sig .tc := ⟨.hbm, 131, rfl⟩
abbrev main_v59 : Ref sig .tc := ⟨.hbm, 132, rfl⟩
abbrev main_v60 : Ref sig .tc := ⟨.hbm, 133, rfl⟩
abbrev main_cst_7 : Ref sig .tc := ⟨.hbm, 134, rfl⟩
abbrev main_v61 : Ref sig .tc := ⟨.hbm, 135, rfl⟩
abbrev main_v62 : Ref sig .tc := ⟨.hbm, 136, rfl⟩
abbrev main_cst_8 : Ref sig .tc := ⟨.hbm, 137, rfl⟩
abbrev main_v63 : Ref sig .tc := ⟨.hbm, 138, rfl⟩
abbrev main_v64 : Ref sig .tc := ⟨.hbm, 139, rfl⟩
abbrev main_cst_9 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_cst_10 : Ref sig .tc := ⟨.hbm, 144, rfl⟩
abbrev main_v68 : Ref sig .tc := ⟨.hbm, 145, rfl⟩
abbrev main_v69 : Ref sig .tc := ⟨.hbm, 146, rfl⟩
abbrev main_cst_11 : Ref sig .tc := ⟨.hbm, 147, rfl⟩
abbrev main_v70 : Ref sig .tc := ⟨.hbm, 148, rfl⟩
abbrev main_v71 : Ref sig .tc := ⟨.hbm, 149, rfl⟩
abbrev main_cst_12 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_cst_13 : Ref sig .tc := ⟨.hbm, 155, rfl⟩
abbrev main_cst_14 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_call7_cst : Ref sig .tc := ⟨.hbm, 172, rfl⟩
abbrev main_call7_v0 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_cst_15 : Ref sig .tc := ⟨.hbm, 184, rfl⟩
abbrev main_v96 : Ref sig .tc := ⟨.hbm, 185, rfl⟩
abbrev main_v97 : Ref sig .tc := ⟨.hbm, 186, rfl⟩
abbrev main_cst_16 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_cst_17 : Ref sig .tc := ⟨.hbm, 193, rfl⟩
abbrev main_cst_18 : Ref sig .tc := ⟨.hbm, 194, rfl⟩
abbrev main_call8_v0 : Ref sig .tc := ⟨.hbm, 195, rfl⟩
abbrev main_call8_v1 : Ref sig .tc := ⟨.hbm, 196, rfl⟩
abbrev main_call8_v2 : Ref sig .tc := ⟨.hbm, 197, rfl⟩
abbrev main_call8_v3 : Ref sig .tc := ⟨.hbm, 198, rfl⟩
abbrev main_call8_v4 : Ref sig .tc := ⟨.hbm, 199, rfl⟩
abbrev main_v103 : Ref sig .tc := ⟨.hbm, 200, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S256_d0 : S65536x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S65536x256 : S_.BroadcastsInDim S65536x256 (![] : Fin 0 → Fin S65536x256.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  reducesTo_S65536x128_S65536_d1 : S65536x128.ReducesTo [1] S65536
  bcast_S_S65536 : S_.BroadcastsInDim S65536 (![] : Fin 0 → Fin S65536.rank)
  concatenates_S65536x128_S65536x128_S65536x128_S65536x384_d1 : Shape.Concatenates [S65536x128, S65536x128, S65536x128] S65536x384 1
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  bcast_S1_S65536_0 : S1.BroadcastsInDim S65536 (![0] : Fin 1 → Fin S65536.rank)
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x384_S384x64_S65536x64_1_0_0_1_n_n_wf : DotDims.WF S65536x384 S384x64 S65536x64 [1] [0] [0] [1] [] []
  dot_S65536x64_S64x1_S65536x1_1_0_0_1_n_n_wf : DotDims.WF S65536x64 S64x1 S65536x1 [1] [0] [0] [1] [] []

variable [Facts₀]

def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x384_S384x64_S65536x64_1_0_0_1_n_n : DotDims S65536x384 S384x64 S65536x64 where
  lhsContracting := [1]
  rhsContracting := [0]
  lhsNonContracting := [0]
  rhsNonContracting := [1]
  lhsBatch := []
  rhsBatch := []
  wf := dot_S65536x384_S384x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

class Facts : Prop extends Facts₀ where

variable [Facts]
-- ==== Proof.KernelRun.lean ====
/-
  The idealized kernel program's run with its result named.

  The program is six segments: host reshapes and slices, the projection kernel on each of the two inputs, the
  host reduction of the column statistics, the fused row-local kernel, and a last reshape. Every weakly fair
  execution ends with each unscoped buffer at the contents the segments' fold leaves; read at the result buffer
  this names the result, and read at the arguments it gives them back unchanged.
-/
import proofs.«166000_j82308753261052_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents and every argument array as launched. -/
theorem run : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.RunValue

end
-- ==== Proof.Relation.lean ====
/-
  The relation network's forward pass, entry by entry, as plain functions of matrices over the extended reals.

  A pair of inputs x1, x2 : [65536, 512] is projected by one shared layer h = x·W1 + b1, batch-normalised per
  column (mean and variance over all 65536 rows), rectified, projected again by W2, and the two hidden rows
  p, q : [128] of one sample are scored twice: by their clamped cosine, and by a small perceptron over the
  concatenation [p∘q, |p − q|, p + q]; the result is a clamped affine mix of the two scores.

  Everything after the column statistics is local to one row, so the result at row r is `rowOut` of the two
  projected rows h1 r, h2 r and of the column statistics. The variance enters as a parameter: once as the
  one-pass form max(Σh²/n − μ², 0), once as the two-pass form Σ(h − μ)²/n; on real columns they agree.

  Float literals are kept as their words: the same word on both sides is never evaluated.
-/
import Idealize.ShloMosaic.PureOps.Ideal
import Idealize.ShloMosaic.Lib.ValueIdx

noncomputable section

namespace Cert.Relation

open Idealize.ShloMosaic

/-- The literals 0, 1, 65536, 1e-5 and 1e-15 as their f32 words. -/
abbrev zero : EReal := Ideal.ofBits .f32 0x00000000#32
abbrev one : EReal := Ideal.ofBits .f32 0x3F800000#32
abbrev nRows : EReal := Ideal.ofBits .f32 0x47800000#32
abbrev epsBn : EReal := Ideal.ofBits .f32 0x3727C5AC#32
abbrev epsNorm : EReal := Ideal.ofBits .f32 0x26901D7D#32

/-- The shared first layer: h r j = Σ_k x r k · W1 k j + b1 j. -/
def proj (x : Fin 65536 → Fin 512 → EReal) (W1 : Fin 512 → Fin 256 → EReal) (b1 : Fin 256 → EReal)
    (r : Fin 65536) (j : Fin 256) : EReal :=
  (∑ k : Fin 512, x r k * W1 k j) + b1 j

/-- Column sums of h and of h². -/
def colSum (h : Fin 65536 → Fin 256 → EReal) (j : Fin 256) : EReal := ∑ r : Fin 65536, h r j
def colSumSq (h : Fin 65536 → Fin 256 → EReal) (j : Fin 256) : EReal := ∑ r : Fin 65536, h r j * h r j

/-- The column mean Σ_r h r j / 65536. -/
def mean (h : Fin 65536 → Fin 256 → EReal) (j : Fin 256) : EReal := Ideal.div (colSum h j) nRows

/-- The one-pass variance, clamped at zero: max(Σ_r h² / n − μ², 0). -/
def varOnePass (h : Fin 65536 → Fin 256 → EReal) (j : Fin 256) : EReal :=
  max (Ideal.div (colSumSq h j) nRows - mean h j * mean h j) zero

/-- The two-pass variance Σ_r (h − μ)² / n. -/
def varTwoPass (h : Fin 65536 → Fin 256 → EReal) (j : Fin 256) : EReal :=
  Ideal.div (∑ r : Fin 65536, (h r j - mean h j) * (h r j - mean h j)) nRows

/-- Batch normalisation and rectifier on one row: max(γ·(h − μ)·rsqrt(v + ε) + β, 0). -/
def normRow (μ v γ β : Fin 256 → EReal) (hrow : Fin 256 → EReal) (j : Fin 256) : EReal :=
  max (γ j * (hrow j - μ j) * Ideal.rsqrt (v j + epsBn) + β j) zero

/-- The second layer on one row: max(a·W2 + b2, 0). -/
def hidden (W2 : Fin 256 → Fin 128 → EReal) (b2 : Fin 128 → EReal) (a : Fin 256 → EReal) (k : Fin 128) : EReal :=
  max ((∑ j : Fin 256, a j * W2 j k) + b2 k) zero

/-- The clamped cosine of two hidden rows: clip(⟨p,q⟩ · 1/max(‖p‖, ε) · 1/max(‖q‖, ε), 0, 1). -/
def cosine (p q : Fin 128 → EReal) : EReal :=
  min one (max zero (((∑ k : Fin 128, p k * q k)
    * Ideal.div one (max (Ideal.sqrt (∑ k : Fin 128, p k * p k)) epsNorm))
    * Ideal.div one (max (Ideal.sqrt (∑ k : Fin 128, q k * q k)) epsNorm)))

/-- The combining layer on [p∘q, |p − q|, p + q] with W3 given as its three row blocks:
    max(((p∘q)·W3a + |p − q|·W3b) + (p + q)·W3c + b3, 0). -/
def combine (W3a W3b W3c : Fin 128 → Fin 64 → EReal) (b3 : Fin 64 → EReal) (p q : Fin 128 → EReal) (j : Fin 64) : EReal :=
  max ((((∑ k : Fin 128, (p k * q k) * W3a k j) + (∑ k : Fin 128, max (p k - q k) (-(p k - q k)) * W3b k j))
    + (∑ k : Fin 128, (p k + q k) * W3c k j)) + b3 j) zero

/-- The learned score c·W4 + b4. -/
def learned (W4 : Fin 64 → EReal) (b4 : EReal) (c : Fin 64 → EReal) : EReal := (∑ j : Fin 64, c j * W4 j) + b4

/-- The clamped mix clip(α·s + β·sigmoid(l), 0, 1). -/
def mix (α β s l : EReal) : EReal := min one (max zero (α * s + β * Ideal.logistic l))

/-- The result at one row from its two projected rows and the column statistics. -/
def rowOut (μ1 v1 μ2 v2 γ βbn : Fin 256 → EReal) (W2 : Fin 256 → Fin 128 → EReal) (b2 : Fin 128 → EReal)
    (W3a W3b W3c : Fin 128 → Fin 64 → EReal) (b3 : Fin 64 → EReal) (W4 : Fin 64 → EReal) (b4 α β : EReal)
    (h1row h2row : Fin 256 → EReal) : EReal :=
  mix α β
    (cosine (hidden W2 b2 (normRow μ1 v1 γ βbn h1row)) (hidden W2 b2 (normRow μ2 v2 γ βbn h2row)))
    (learned W4 b4 (combine W3a W3b W3c b3 (hidden W2 b2 (normRow μ1 v1 γ βbn h1row)) (hidden W2 b2 (normRow μ2 v2 γ βbn h2row))))

/-- The three row blocks of W3 : [384, 64]. -/
def blockA (W3 : Fin 384 → Fin 64 → EReal) (k : Fin 128) (j : Fin 64) : EReal := W3 ⟨k.val, by omega⟩ j
def blockB (W3 : Fin 384 → Fin 64 → EReal) (k : Fin 128) (j : Fin 64) : EReal := W3 ⟨128 + k.val, by omega⟩ j
def blockC (W3 : Fin 384 → Fin 64 → EReal) (k : Fin 128) (j : Fin 64) : EReal := W3 ⟨256 + k.val, by omega⟩ j

/-- The whole forward pass at row r, with the variance form a parameter. -/
def out (var : (Fin 65536 → Fin 256 → EReal) → Fin 256 → EReal)
    (x1 x2 : Fin 65536 → Fin 512 → EReal) (W1 : Fin 512 → Fin 256 → EReal) (b1 γ βbn : Fin 256 → EReal)
    (W2 : Fin 256 → Fin 128 → EReal) (b2 : Fin 128 → EReal) (W3 : Fin 384 → Fin 64 → EReal) (b3 : Fin 64 → EReal)
    (W4 : Fin 64 → EReal) (b4 α β : EReal) (r : Fin 65536) : EReal :=
  rowOut (mean (proj x1 W1 b1)) (var (proj x1 W1 b1)) (mean (proj x2 W1 b1)) (var (proj x2 W1 b1)) γ βbn W2 b2
    (blockA W3) (blockB W3) (blockC W3) b3 W4 b4 α β (proj x1 W1 b1 r) (proj x2 W1 b1 r)

end Cert.Relation

end
-- ==== Proof.HostStages.lean ====
/-
  The host side of the idealized kernel program, read at an index: what each of the three kernel launches finds in
  its operands, and what the program returns.
-/
import proofs.«166000_j82308753261052_2_alg».proof.Proof.Gen.KernelIdeal.Frame
import Idealize.ShloMosaic.Lib.ValueLayout
import Idealize.ShloMosaic.Lib.Pipeline.Value
import Idealize.ShloMosaic.Lib.StableHlo.Run
import Idealize.ShloMosaic.PureOps.Ideal.Laws
import proofs.«166000_j82308753261052_2_alg».proof.Proof.Relation
set_option maxRecDepth 16384

noncomputable section

namespace Cert.KernelIdeal.HostStages

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (ρ : Dev nD → PrngReg)

/-! ## What each kernel launch finds in its operands

Before the first launch the program reshapes the bias and scale vectors to rows and cuts W3 into its three row
blocks; between the projection launches and the fused one it adds the two cores' partial column sums and forms the
mean and the clamped one-pass variance; after the fused launch it drops the unit axis of the result. Each lemma
reads one operand of a launch back to the launch memory or to the arrays an earlier launch left. The arrays are
named by plain definitions, so that later proofs meet names and never the folds behind them. -/

/-- The operands of the two projection launches. -/
def in0x (c : Dev nD) : S65536x512.Idx → EReal := V1 m ρ c (Pipeline.arrRef spec0 0)
def in0w (c : Dev nD) : S512x256.Idx → EReal := V1 m ρ c (Pipeline.arrRef spec0 1)
def in0b (c : Dev nD) : S1x256.Idx → EReal := V1 m ρ c (Pipeline.arrRef spec0 2)
def in1x (c : Dev nD) : S65536x512.Idx → EReal := V2 m ρ c (Pipeline.arrRef spec1 0)
def in1w (c : Dev nD) : S512x256.Idx → EReal := V2 m ρ c (Pipeline.arrRef spec1 1)
def in1b (c : Dev nD) : S1x256.Idx → EReal := V2 m ρ c (Pipeline.arrRef spec1 2)
/-- What the projection launches leave: the projected arrays and the accumulators of column sums and sums of squares. -/
def hpre1 (c : Dev nD) : S65536x256.Idx → EReal := (dat0 (V1 m ρ) c).arrAt 3 cfg0.N
def sums1 (c : Dev nD) : S16x256.Idx → EReal := (dat0 (V1 m ρ) c).arrAt 4 cfg0.N
def sqs1 (c : Dev nD) : S16x256.Idx → EReal := (dat0 (V1 m ρ) c).arrAt 5 cfg0.N
def hpre2 (c : Dev nD) : S65536x256.Idx → EReal := (dat1 (V2 m ρ) c).arrAt 3 cfg1.N
def sums2 (c : Dev nD) : S16x256.Idx → EReal := (dat1 (V2 m ρ) c).arrAt 4 cfg1.N
def sqs2 (c : Dev nD) : S16x256.Idx → EReal := (dat1 (V2 m ρ) c).arrAt 5 cfg1.N
/-- The eighteen operands of the fused launch, what it leaves, and the program's result. -/
def op0 (c : Dev nD) : S65536x256.Idx → EReal := V4 m ρ c (Pipeline.arrRef spec2 0)
def op1 (c : Dev nD) : S65536x256.Idx → EReal := V4 m ρ c (Pipeline.arrRef spec2 1)
def op2 (c : Dev nD) : S1x256.Idx → EReal := V4 m ρ c (Pipeline.arrRef spec2 2)
def op3 (c : Dev nD) : S1x256.Idx → EReal := V4 m ρ c (Pipeline.arrRef spec2 3)
def op4 (c : Dev nD) : S1x256.Idx → EReal := V4 m ρ c (Pipeline.arrRef spec2 4)
def op5 (c : Dev nD) : S1x256.Idx → EReal := V4 m ρ c (Pipeline.arrRef spec2 5)
def op6 (c : Dev nD) : S1x256.Idx → EReal := V4 m ρ c (Pipeline.arrRef spec2 6)
def op7 (c : Dev nD) : S1x256.Idx → EReal := V4 m ρ c (Pipeline.arrRef spec2 7)
def op8 (c : Dev nD) : S256x128.Idx → EReal := V4 m ρ c (Pipeline.arrRef spec2 8)
def op9 (c : Dev nD) : S1x128.Idx → EReal := V4 m ρ c (Pipeline.arrRef spec2 9)
def op10 (c : Dev nD) : S128x64.Idx → EReal := V4 m ρ c (Pipeline.arrRef spec2 10)
def op11 (c : Dev nD) : S128x64.Idx → EReal := V4 m ρ c (Pipeline.arrRef spec2 11)
def op12 (c : Dev nD) : S128x64.Idx → EReal := V4 m ρ c (Pipeline.arrRef spec2 12)
def op13 (c : Dev nD) : S1x64.Idx → EReal := V4 m ρ c (Pipeline.arrRef spec2 13)
def op14 (c : Dev nD) : S64x1.Idx → EReal := V4 m ρ c (Pipeline.arrRef spec2 14)
def op15 (c : Dev nD) : S1x1.Idx → EReal := V4 m ρ c (Pipeline.arrRef spec2 15)
def op16 (c : Dev nD) : S1x1.Idx → EReal := V4 m ρ c (Pipeline.arrRef spec2 16)
def op17 (c : Dev nD) : S1x1.Idx → EReal := V4 m ρ c (Pipeline.arrRef spec2 17)
def outArr (c : Dev nD) : S65536x1.Idx → EReal := (dat2 (V4 m ρ) c).arrAt 18 cfg2.N
def resArr (c : Dev nD) : S65536.Idx → EReal := W6 m ρ c (Proc.devRef .tc main_v42)

/-! ### Buffers the statistics stretch and the projection launches leave alone -/

theorem keep_main_v1 (c : Dev nD) : W4 m ρ c (Proc.devRef .tc main_v1) = W1 m ρ c (Proc.devRef .tc main_v1) := by
  have e : W4 m ρ c (Proc.devRef .tc main_v1) = W3 m ρ c (Proc.devRef .tc main_v1) := by
    dsimp only [W4, hostOps2]; after_results_simp
  rw [e, W3_of_ne m ρ c main_v1 (by decide), W2_of_ne m ρ c main_v1 (by decide)]

theorem keep_main_v2 (c : Dev nD) : W4 m ρ c (Proc.devRef .tc main_v2) = W1 m ρ c (Proc.devRef .tc main_v2) := by
  have e : W4 m ρ c (Proc.devRef .tc main_v2) = W3 m ρ c (Proc.devRef .tc main_v2) := by
    dsimp only [W4, hostOps2]; after_results_simp
  rw [e, W3_of_ne m ρ c main_v2 (by decide), W2_of_ne m ρ c main_v2 (by decide)]

theorem keep_main_v3 (c : Dev nD) : W4 m ρ c (Proc.devRef .tc main_v3) = W1 m ρ c (Proc.devRef .tc main_v3) := by
  have e : W4 m ρ c (Proc.devRef .tc main_v3) = W3 m ρ c (Proc.devRef .tc main_v3) := by
    dsimp only [W4, hostOps2]; after_results_simp
  rw [e, W3_of_ne m ρ c main_v3 (by decide), W2_of_ne m ρ c main_v3 (by decide)]

theorem keep_main_v4 (c : Dev nD) : W4 m ρ c (Proc.devRef .tc main_v4) = W1 m ρ c (Proc.devRef .tc main_v4) := by
  have e : W4 m ρ c (Proc.devRef .tc main_v4) = W3 m ρ c (Proc.devRef .tc main_v4) := by
    dsimp only [W4, hostOps2]; after_results_simp
  rw [e, W3_of_ne m ρ c main_v4 (by decide), W2_of_ne m ρ c main_v4 (by decide)]

theorem keep_main_v5 (c : Dev nD) : W4 m ρ c (Proc.devRef .tc main_v5) = W1 m ρ c (Proc.devRef .tc main_v5) := by
  have e : W4 m ρ c (Proc.devRef .tc main_v5) = W3 m ρ c (Proc.devRef .tc main_v5) := by
    dsimp only [W4, hostOps2]; after_results_simp
  rw [e, W3_of_ne m ρ c main_v5 (by decide), W2_of_ne m ρ c main_v5 (by decide)]

theorem keep_main_v6 (c : Dev nD) : W4 m ρ c (Proc.devRef .tc main_v6) = W1 m ρ c (Proc.devRef .tc main_v6) := by
  have e : W4 m ρ c (Proc.devRef .tc main_v6) = W3 m ρ c (Proc.devRef .tc main_v6) := by
    dsimp only [W4, hostOps2]; after_results_simp
  rw [e, W3_of_ne m ρ c main_v6 (by decide), W2_of_ne m ρ c main_v6 (by decide)]

theorem keep_main_v7 (c : Dev nD) : W4 m ρ c (Proc.devRef .tc main_v7) = W1 m ρ c (Proc.devRef .tc main_v7) := by
  have e : W4 m ρ c (Proc.devRef .tc main_v7) = W3 m ρ c (Proc.devRef .tc main_v7) := by
    dsimp only [W4, hostOps2]; after_results_simp
  rw [e, W3_of_ne m ρ c main_v7 (by decide), W2_of_ne m ρ c main_v7 (by decide)]

theorem keep_main_v8 (c : Dev nD) : W4 m ρ c (Proc.devRef .tc main_v8) = W1 m ρ c (Proc.devRef .tc main_v8) := by
  have e : W4 m ρ c (Proc.devRef .tc main_v8) = W3 m ρ c (Proc.devRef .tc main_v8) := by
    dsimp only [W4, hostOps2]; after_results_simp
  rw [e, W3_of_ne m ρ c main_v8 (by decide), W2_of_ne m ρ c main_v8 (by decide)]

theorem keep_main_v9 (c : Dev nD) : W4 m ρ c (Proc.devRef .tc main_v9) = W1 m ρ c (Proc.devRef .tc main_v9) := by
  have e : W4 m ρ c (Proc.devRef .tc main_v9) = W3 m ρ c (Proc.devRef .tc main_v9) := by
    dsimp only [W4, hostOps2]; after_results_simp
  rw [e, W3_of_ne m ρ c main_v9 (by decide), W2_of_ne m ρ c main_v9 (by decide)]

theorem keep_main_v10 (c : Dev nD) : W4 m ρ c (Proc.devRef .tc main_v10) = W1 m ρ c (Proc.devRef .tc main_v10) := by
  have e : W4 m ρ c (Proc.devRef .tc main_v10) = W3 m ρ c (Proc.devRef .tc main_v10) := by
    dsimp only [W4, hostOps2]; after_results_simp
  rw [e, W3_of_ne m ρ c main_v10 (by decide), W2_of_ne m ρ c main_v10 (by decide)]

theorem keep_main_arg6 (c : Dev nD) : W4 m ρ c (Proc.devRef .tc main_arg6) = W1 m ρ c (Proc.devRef .tc main_arg6) := by
  have e : W4 m ρ c (Proc.devRef .tc main_arg6) = W3 m ρ c (Proc.devRef .tc main_arg6) := by
    dsimp only [W4, hostOps2]; after_results_simp
  rw [e, W3_of_ne m ρ c main_arg6 (by decide), W2_of_ne m ρ c main_arg6 (by decide)]

theorem keep_main_arg10 (c : Dev nD) : W4 m ρ c (Proc.devRef .tc main_arg10) = W1 m ρ c (Proc.devRef .tc main_arg10) := by
  have e : W4 m ρ c (Proc.devRef .tc main_arg10) = W3 m ρ c (Proc.devRef .tc main_arg10) := by
    dsimp only [W4, hostOps2]; after_results_simp
  rw [e, W3_of_ne m ρ c main_arg10 (by decide), W2_of_ne m ρ c main_arg10 (by decide)]

/-! ### The projection launches' operands -/

/-- The first projection reads x1, W1 and the bias row. -/
theorem in0x_eq (c : Dev nD) : in0x m ρ c = m ((c : Thread nD τ).loc main_arg0) := by
  show W1 m ρ c (Proc.devRef .tc main_arg0) = _
  dsimp only [W1, hostOps0]; after_results_simp <;> rfl
theorem in0w_eq (c : Dev nD) : in0w m ρ c = m ((c : Thread nD τ).loc main_arg2) := by
  show W1 m ρ c (Proc.devRef .tc main_arg2) = _
  dsimp only [W1, hostOps0]; after_results_simp <;> rfl
theorem in0b_apply (c : Dev nD) (j : Fin 256) :
    in0b m ρ c (ix2 0 j) = (m ((c : Thread nD τ).loc main_arg3) : S256.Idx → EReal) (ix1 j) := by
  show (W1 m ρ c (Proc.devRef .tc main_v0) : S1x256.Idx → EReal) (ix2 0 j) = _
  have e : (W1 m ρ c (Proc.devRef .tc main_v0) : S1x256.Idx → EReal) = shapeCast S1x256 (m ((c : Thread nD τ).loc main_arg3)) shapeCasts_S256_S1x256 := by
    dsimp only [W1, hostOps0]; after_results_simp <;> rfl
  rw [e]
  exact shapeCast_a_1a_apply _ _ 0 j

/-- The second projection reads x2, W1 and the bias row: the first launch wrote none of them. -/
theorem in1x_eq (c : Dev nD) : in1x m ρ c = m ((c : Thread nD τ).loc main_arg1) := by
  show W2 m ρ c (Proc.devRef .tc main_arg1) = _
  rw [W2_of_ne m ρ c main_arg1 (by decide)]
  dsimp only [W1, hostOps0]; after_results_simp <;> rfl
theorem in1w_eq (c : Dev nD) : in1w m ρ c = m ((c : Thread nD τ).loc main_arg2) := by
  show W2 m ρ c (Proc.devRef .tc main_arg2) = _
  rw [(W2_arr m ρ c 1).trans (((dat0 (V1 m ρ) c).arrAt_in 1 rfl _).trans (A_eq0 (V1 m ρ) c 1))]
  exact in0w_eq m ρ c
theorem in1b_apply (c : Dev nD) (j : Fin 256) :
    in1b m ρ c (ix2 0 j) = (m ((c : Thread nD τ).loc main_arg3) : S256.Idx → EReal) (ix1 j) := by
  show (W2 m ρ c (Proc.devRef .tc main_v0) : S1x256.Idx → EReal) (ix2 0 j) = _
  rw [(W2_arr m ρ c 2).trans (((dat0 (V1 m ρ) c).arrAt_in 2 rfl _).trans (A_eq0 (V1 m ρ) c 2))]
  exact in0b_apply m ρ c j

/-! ### The fused launch's operands -/

/-- Operands 0 and 1 of the fused launch are the arrays the two projection launches left. -/
theorem op0_eq (c : Dev nD) : op0 m ρ c = hpre1 m ρ c := by
  show W4 m ρ c (Proc.devRef .tc main_v11_0) = _
  have e : W4 m ρ c (Proc.devRef .tc main_v11_0) = W3 m ρ c (Proc.devRef .tc main_v11_0) := by
    dsimp only [W4, hostOps2]; after_results_simp
  rw [e, W3_of_ne m ρ c main_v11_0 (by decide)]
  exact W2_arr m ρ c 3
theorem op1_eq (c : Dev nD) : op1 m ρ c = hpre2 m ρ c := by
  show W4 m ρ c (Proc.devRef .tc main_v12_0) = _
  have e : W4 m ρ c (Proc.devRef .tc main_v12_0) = W3 m ρ c (Proc.devRef .tc main_v12_0) := by
    dsimp only [W4, hostOps2]; after_results_simp
  rw [e]
  exact W3_arr m ρ c 3

/-- Operand 2 of the fused launch: the two cores' partial column sums added and divided by 65536. -/
theorem V4_mean1 (c : Dev nD) (j : Fin 256) :
    op2 m ρ c (ix2 0 j) = Ideal.div (sums1 m ρ c (ix2 0 j) + sums1 m ρ c (ix2 8 j)) Cert.Relation.nRows := by
  have e : op2 m ρ c = (Host.divf (addf (extractStridedSlice S1x256 ![0, 0] ((W3 m ρ c (Proc.devRef .tc main_v11_1) : S16x256.Idx → EReal)) slices_S16x256_S1x256_0_0) (extractStridedSlice S1x256 ![8, 0] ((W3 m ρ c (Proc.devRef .tc main_v11_1) : S16x256.Idx → EReal)) slices_S16x256_S1x256_8_0)) (broadcastInDim S1x256 ![] bcast_S_S1x256 (constant (F := Ideal) S_ .f32 0x47800000#32))) := by
    show (W4 m ρ c (Proc.devRef .tc main_v26) : S1x256.Idx → EReal) = _
    dsimp only [W4, hostOps2]; after_results_simp
  have s : (W3 m ρ c (Proc.devRef .tc main_v11_1) : S16x256.Idx → EReal) = sums1 m ρ c := by
    rw [W3_of_ne m ρ c main_v11_1 (by decide)]; exact W2_arr m ρ c 4
  rw [e, s]
  show Ideal.div (extractStridedSlice S1x256 ![0, 0] (sums1 m ρ c) slices_S16x256_S1x256_0_0 (ix2 0 j) + extractStridedSlice S1x256 ![8, 0] (sums1 m ρ c) slices_S16x256_S1x256_8_0 (ix2 0 j)) _ = _
  rw [slice2_axis0_apply 0 _ _ (0 : Fin 1) j (0 : Fin 16) rfl, slice2_axis0_apply 8 _ _ (0 : Fin 1) j (8 : Fin 16) rfl]
  rfl

/-- Operand 3 of the fused launch: the added partial sums of squares over 65536, minus the squared mean, clamped at zero. -/
theorem V4_var1 (c : Dev nD) (j : Fin 256) :
    op3 m ρ c (ix2 0 j) = max (Ideal.div (sqs1 m ρ c (ix2 0 j) + sqs1 m ρ c (ix2 8 j)) Cert.Relation.nRows
          - op2 m ρ c (ix2 0 j) * op2 m ρ c (ix2 0 j)) Cert.Relation.zero := by
  have e : op3 m ρ c = (maximumf (subf (Host.divf (addf (extractStridedSlice S1x256 ![0, 0] ((W3 m ρ c (Proc.devRef .tc main_v11_2) : S16x256.Idx → EReal)) slices_S16x256_S1x256_0_0) (extractStridedSlice S1x256 ![8, 0] ((W3 m ρ c (Proc.devRef .tc main_v11_2) : S16x256.Idx → EReal)) slices_S16x256_S1x256_8_0)) (broadcastInDim S1x256 ![] bcast_S_S1x256 (constant (F := Ideal) S_ .f32 0x47800000#32))) (mulf (W4 m ρ c (Proc.devRef .tc main_v26) : S1x256.Idx → EReal) (W4 m ρ c (Proc.devRef .tc main_v26) : S1x256.Idx → EReal))) (broadcastInDim S1x256 ![] bcast_S_S1x256 (constant (F := Ideal) S_ .f32 0x00000000#32))) := by
    show (W4 m ρ c (Proc.devRef .tc main_v32) : S1x256.Idx → EReal) = _
    dsimp only [W4, hostOps2]; after_results_simp
  have s : (W3 m ρ c (Proc.devRef .tc main_v11_2) : S16x256.Idx → EReal) = sqs1 m ρ c := by
    rw [W3_of_ne m ρ c main_v11_2 (by decide)]; exact W2_arr m ρ c 5
  rw [e, s]
  show max (Ideal.div (extractStridedSlice S1x256 ![0, 0] (sqs1 m ρ c) slices_S16x256_S1x256_0_0 (ix2 0 j) + extractStridedSlice S1x256 ![8, 0] (sqs1 m ρ c) slices_S16x256_S1x256_8_0 (ix2 0 j)) _ - _) _ = _
  rw [slice2_axis0_apply 0 _ _ (0 : Fin 1) j (0 : Fin 16) rfl, slice2_axis0_apply 8 _ _ (0 : Fin 1) j (8 : Fin 16) rfl]
  rfl

/-- Operand 4 of the fused launch: the two cores' partial column sums added and divided by 65536. -/
theorem V4_mean2 (c : Dev nD) (j : Fin 256) :
    op4 m ρ c (ix2 0 j) = Ideal.div (sums2 m ρ c (ix2 0 j) + sums2 m ρ c (ix2 8 j)) Cert.Relation.nRows := by
  have e : op4 m ρ c = (Host.divf (addf (extractStridedSlice S1x256 ![0, 0] ((W3 m ρ c (Proc.devRef .tc main_v12_1) : S16x256.Idx → EReal)) slices_S16x256_S1x256_0_0) (extractStridedSlice S1x256 ![8, 0] ((W3 m ρ c (Proc.devRef .tc main_v12_1) : S16x256.Idx → EReal)) slices_S16x256_S1x256_8_0)) (broadcastInDim S1x256 ![] bcast_S_S1x256 (constant (F := Ideal) S_ .f32 0x47800000#32))) := by
    show (W4 m ρ c (Proc.devRef .tc main_v34) : S1x256.Idx → EReal) = _
    dsimp only [W4, hostOps2]; after_results_simp
  have s : (W3 m ρ c (Proc.devRef .tc main_v12_1) : S16x256.Idx → EReal) = sums2 m ρ c := W3_arr m ρ c 4
  rw [e, s]
  show Ideal.div (extractStridedSlice S1x256 ![0, 0] (sums2 m ρ c) slices_S16x256_S1x256_0_0 (ix2 0 j) + extractStridedSlice S1x256 ![8, 0] (sums2 m ρ c) slices_S16x256_S1x256_8_0 (ix2 0 j)) _ = _
  rw [slice2_axis0_apply 0 _ _ (0 : Fin 1) j (0 : Fin 16) rfl, slice2_axis0_apply 8 _ _ (0 : Fin 1) j (8 : Fin 16) rfl]
  rfl

/-- Operand 5 of the fused launch: the added partial sums of squares over 65536, minus the squared mean, clamped at zero. -/
theorem V4_var2 (c : Dev nD) (j : Fin 256) :
    op5 m ρ c (ix2 0 j) = max (Ideal.div (sqs2 m ρ c (ix2 0 j) + sqs2 m ρ c (ix2 8 j)) Cert.Relation.nRows
          - op4 m ρ c (ix2 0 j) * op4 m ρ c (ix2 0 j)) Cert.Relation.zero := by
  have e : op5 m ρ c = (maximumf (subf (Host.divf (addf (extractStridedSlice S1x256 ![0, 0] ((W3 m ρ c (Proc.devRef .tc main_v12_2) : S16x256.Idx → EReal)) slices_S16x256_S1x256_0_0) (extractStridedSlice S1x256 ![8, 0] ((W3 m ρ c (Proc.devRef .tc main_v12_2) : S16x256.Idx → EReal)) slices_S16x256_S1x256_8_0)) (broadcastInDim S1x256 ![] bcast_S_S1x256 (constant (F := Ideal) S_ .f32 0x47800000#32))) (mulf (W4 m ρ c (Proc.devRef .tc main_v34) : S1x256.Idx → EReal) (W4 m ρ c (Proc.devRef .tc main_v34) : S1x256.Idx → EReal))) (broadcastInDim S1x256 ![] bcast_S_S1x256 (constant (F := Ideal) S_ .f32 0x00000000#32))) := by
    show (W4 m ρ c (Proc.devRef .tc main_v40) : S1x256.Idx → EReal) = _
    dsimp only [W4, hostOps2]; after_results_simp
  have s : (W3 m ρ c (Proc.devRef .tc main_v12_2) : S16x256.Idx → EReal) = sqs2 m ρ c := W3_arr m ρ c 5
  rw [e, s]
  show max (Ideal.div (extractStridedSlice S1x256 ![0, 0] (sqs2 m ρ c) slices_S16x256_S1x256_0_0 (ix2 0 j) + extractStridedSlice S1x256 ![8, 0] (sqs2 m ρ c) slices_S16x256_S1x256_8_0 (ix2 0 j)) _ - _) _ = _
  rw [slice2_axis0_apply 0 _ _ (0 : Fin 1) j (0 : Fin 16) rfl, slice2_axis0_apply 8 _ _ (0 : Fin 1) j (8 : Fin 16) rfl]
  rfl

/-- Operand 6 of the fused launch is the [256] argument as a [1, 256] row. -/
theorem op6_apply (c : Dev nD) (j : Fin 256) :
    op6 m ρ c (ix2 0 j) = (m ((c : Thread nD τ).loc main_arg4) : S256.Idx → EReal) (ix1 j) := by
  show (W4 m ρ c (Proc.devRef .tc main_v1) : S1x256.Idx → EReal) (ix2 0 j) = _
  have e : (W1 m ρ c (Proc.devRef .tc main_v1) : S1x256.Idx → EReal) = shapeCast S1x256 (m ((c : Thread nD τ).loc main_arg4)) shapeCasts_S256_S1x256 := by
    dsimp only [W1, hostOps0]; after_results_simp <;> rfl
  rw [keep_main_v1 m ρ c, e]
  exact shapeCast_a_1a_apply _ _ 0 j

/-- Operand 7 of the fused launch is the [256] argument as a [1, 256] row. -/
theorem op7_apply (c : Dev nD) (j : Fin 256) :
    op7 m ρ c (ix2 0 j) = (m ((c : Thread nD τ).loc main_arg5) : S256.Idx → EReal) (ix1 j) := by
  show (W4 m ρ c (Proc.devRef .tc main_v2) : S1x256.Idx → EReal) (ix2 0 j) = _
  have e : (W1 m ρ c (Proc.devRef .tc main_v2) : S1x256.Idx → EReal) = shapeCast S1x256 (m ((c : Thread nD τ).loc main_arg5)) shapeCasts_S256_S1x256 := by
    dsimp only [W1, hostOps0]; after_results_simp <;> rfl
  rw [keep_main_v2 m ρ c, e]
  exact shapeCast_a_1a_apply _ _ 0 j

/-- Operand 8 of the fused launch is the argument array itself. -/
theorem op8_eq (c : Dev nD) : op8 m ρ c = m ((c : Thread nD τ).loc main_arg6) := by
  show W4 m ρ c (Proc.devRef .tc main_arg6) = _
  rw [keep_main_arg6 m ρ c]
  dsimp only [W1, hostOps0]; after_results_simp <;> rfl

/-- Operand 9 of the fused launch is the [128] argument as a [1, 128] row. -/
theorem op9_apply (c : Dev nD) (j : Fin 128) :
    op9 m ρ c (ix2 0 j) = (m ((c : Thread nD τ).loc main_arg7) : S128.Idx → EReal) (ix1 j) := by
  show (W4 m ρ c (Proc.devRef .tc main_v3) : S1x128.Idx → EReal) (ix2 0 j) = _
  have e : (W1 m ρ c (Proc.devRef .tc main_v3) : S1x128.Idx → EReal) = shapeCast S1x128 (m ((c : Thread nD τ).loc main_arg7)) shapeCasts_S128_S1x128 := by
    dsimp only [W1, hostOps0]; after_results_simp <;> rfl
  rw [keep_main_v3 m ρ c, e]
  exact shapeCast_a_1a_apply _ _ 0 j

/-- Operand 10 of the fused launch is rows 0…127 of W3. -/
theorem op10_apply (c : Dev nD) (k : Fin 128) (j : Fin 64) :
    op10 m ρ c (ix2 k j) = (m ((c : Thread nD τ).loc main_arg8) : S384x64.Idx → EReal) (ix2 (⟨0 + k.val, by omega⟩ : Fin 384) j) := by
  show (W4 m ρ c (Proc.devRef .tc main_v8) : S128x64.Idx → EReal) (ix2 k j) = _
  have e : (W1 m ρ c (Proc.devRef .tc main_v8) : S128x64.Idx → EReal) = extractStridedSlice S128x64 ![0, 0] (m ((c : Thread nD τ).loc main_arg8)) slices_S384x64_S128x64_0_0 := by
    dsimp only [W1, hostOps0]; after_results_simp <;> rfl
  rw [keep_main_v8 m ρ c, e]
  exact slice2_axis0_apply 0 _ _ k j _ rfl

/-- Operand 11 of the fused launch is rows 128…255 of W3. -/
theorem op11_apply (c : Dev nD) (k : Fin 128) (j : Fin 64) :
    op11 m ρ c (ix2 k j) = (m ((c : Thread nD τ).loc main_arg8) : S384x64.Idx → EReal) (ix2 (⟨128 + k.val, by omega⟩ : Fin 384) j) := by
  show (W4 m ρ c (Proc.devRef .tc main_v9) : S128x64.Idx → EReal) (ix2 k j) = _
  have e : (W1 m ρ c (Proc.devRef .tc main_v9) : S128x64.Idx → EReal) = extractStridedSlice S128x64 ![128, 0] (m ((c : Thread nD τ).loc main_arg8)) slices_S384x64_S128x64_128_0 := by
    dsimp only [W1, hostOps0]; after_results_simp <;> rfl
  rw [keep_main_v9 m ρ c, e]
  exact slice2_axis0_apply 128 _ _ k j _ rfl

/-- Operand 12 of the fused launch is rows 256…383 of W3. -/
theorem op12_apply (c : Dev nD) (k : Fin 128) (j : Fin 64) :
    op12 m ρ c (ix2 k j) = (m ((c : Thread nD τ).loc main_arg8) : S384x64.Idx → EReal) (ix2 (⟨256 + k.val, by omega⟩ : Fin 384) j) := by
  show (W4 m ρ c (Proc.devRef .tc main_v10) : S128x64.Idx → EReal) (ix2 k j) = _
  have e : (W1 m ρ c (Proc.devRef .tc main_v10) : S128x64.Idx → EReal) = extractStridedSlice S128x64 ![256, 0] (m ((c : Thread nD τ).loc main_arg8)) slices_S384x64_S128x64_256_0 := by
    dsimp only [W1, hostOps0]; after_results_simp <;> rfl
  rw [keep_main_v10 m ρ c, e]
  exact slice2_axis0_apply 256 _ _ k j _ rfl

/-- Operand 13 of the fused launch is the [64] argument as a [1, 64] row. -/
theorem op13_apply (c : Dev nD) (j : Fin 64) :
    op13 m ρ c (ix2 0 j) = (m ((c : Thread nD τ).loc main_arg9) : S64.Idx → EReal) (ix1 j) := by
  show (W4 m ρ c (Proc.devRef .tc main_v4) : S1x64.Idx → EReal) (ix2 0 j) = _
  have e : (W1 m ρ c (Proc.devRef .tc main_v4) : S1x64.Idx → EReal) = shapeCast S1x64 (m ((c : Thread nD τ).loc main_arg9)) shapeCasts_S64_S1x64 := by
    dsimp only [W1, hostOps0]; after_results_simp <;> rfl
  rw [keep_main_v4 m ρ c, e]
  exact shapeCast_a_1a_apply _ _ 0 j

/-- Operand 14 of the fused launch is the argument array itself. -/
theorem op14_eq (c : Dev nD) : op14 m ρ c = m ((c : Thread nD τ).loc main_arg10) := by
  show W4 m ρ c (Proc.devRef .tc main_arg10) = _
  rw [keep_main_arg10 m ρ c]
  dsimp only [W1, hostOps0]; after_results_simp <;> rfl

/-- Operand 15 of the fused launch is the [1] argument as a [1, 1] row. -/
theorem op15_apply (c : Dev nD) (j : Fin 1) :
    op15 m ρ c (ix2 0 j) = (m ((c : Thread nD τ).loc main_arg11) : S1.Idx → EReal) (ix1 j) := by
  show (W4 m ρ c (Proc.devRef .tc main_v5) : S1x1.Idx → EReal) (ix2 0 j) = _
  have e : (W1 m ρ c (Proc.devRef .tc main_v5) : S1x1.Idx → EReal) = shapeCast S1x1 (m ((c : Thread nD τ).loc main_arg11)) shapeCasts_S1_S1x1 := by
    dsimp only [W1, hostOps0]; after_results_simp <;> rfl
  rw [keep_main_v5 m ρ c, e]
  exact shapeCast_a_1a_apply _ _ 0 j

/-- Operand 16 of the fused launch is the [1] argument as a [1, 1] row. -/
theorem op16_apply (c : Dev nD) (j : Fin 1) :
    op16 m ρ c (ix2 0 j) = (m ((c : Thread nD τ).loc main_arg12) : S1.Idx → EReal) (ix1 j) := by
  show (W4 m ρ c (Proc.devRef .tc main_v6) : S1x1.Idx → EReal) (ix2 0 j) = _
  have e : (W1 m ρ c (Proc.devRef .tc main_v6) : S1x1.Idx → EReal) = shapeCast S1x1 (m ((c : Thread nD τ).loc main_arg12)) shapeCasts_S1_S1x1 := by
    dsimp only [W1, hostOps0]; after_results_simp <;> rfl
  rw [keep_main_v6 m ρ c, e]
  exact shapeCast_a_1a_apply _ _ 0 j

/-- Operand 17 of the fused launch is the [1] argument as a [1, 1] row. -/
theorem op17_apply (c : Dev nD) (j : Fin 1) :
    op17 m ρ c (ix2 0 j) = (m ((c : Thread nD τ).loc main_arg13) : S1.Idx → EReal) (ix1 j) := by
  show (W4 m ρ c (Proc.devRef .tc main_v7) : S1x1.Idx → EReal) (ix2 0 j) = _
  have e : (W1 m ρ c (Proc.devRef .tc main_v7) : S1x1.Idx → EReal) = shapeCast S1x1 (m ((c : Thread nD τ).loc main_arg13)) shapeCasts_S1_S1x1 := by
    dsimp only [W1, hostOps0]; after_results_simp <;> rfl
  rw [keep_main_v7 m ρ c, e]
  exact shapeCast_a_1a_apply _ _ 0 j

/-! ### The result -/

/-- The result at r is entry (r, 0) of the array the fused launch left. -/
theorem result_at (c : Dev nD) (r : Fin 65536) : resArr m ρ c (ix1 r) = outArr m ρ c (ix2 r 0) := by
  have e : resArr m ρ c = shapeCast S65536 (W5 m ρ c (Proc.devRef .tc main_v41) : S65536x1.Idx → EReal) shapeCasts_S65536x1_S65536 := by
    show (W6 m ρ c (Proc.devRef .tc main_v42) : S65536.Idx → EReal) = _
    dsimp only [W6, hostOps3]; after_results; rfl
  rw [e, shapeCast_apply _ _ (ix1 r) (ix2 r 0) (by rw [Shape.rowMajor_val_two, Shape.rowMajor_val_one]; show r.val * 1 + 0 = r.val; omega)]
  exact congrFun (W5_arr m ρ c 18) _

end Cert.KernelIdeal.HostStages
end
-- ==== Proof.Statistics.lean ====
/-
  The column statistics: the whole-column sums from the two half-column sums, and the one-pass variance against
  the two-pass one.

  Splitting a sum over the 65536 rows into the two halves of 32768 rows needs only that addition of extended
  reals is commutative and associative. The variance identity Σ(h − μ)²/n = Σh²/n − μ² (and its right side being
  nonnegative, so that clamping it at zero changes nothing) is an identity of REAL numbers: it is used where every
  entry of the column is real, which finite inputs give, since a projected entry is a finite sum of products of
  reals plus a real.
-/
import Idealize.ShloMosaic.PureOps.Ideal
import Idealize.ShloMosaic.PureOps.Ideal.Laws
import proofs.«166000_j82308753261052_2_alg».proof.Proof.Relation

noncomputable section

namespace Cert.Relation

open Idealize.ShloMosaic

/-- The word 0x47800000 denotes 65536. -/
theorem nRows_eq : nRows = ((65536 : ℝ) : EReal) := by
  simp [Ideal.ofBits, Ideal.ieee, -EReal.coe_mul]; norm_num

/-- The word 0 denotes 0. -/
theorem zero_eq : zero = 0 := Ideal.ofBits_zero_f32

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a + b indices is the sum over the first a plus the sum over the last b, the two parts indexed by
    any maps with those values. -/
theorem sum_parts {n a b : ℕ} (hn : n = a + b) (f : Fin n → EReal) (i0 : Fin a → Fin n) (i1 : Fin b → Fin n)
    (h0 : ∀ q, (i0 q).val = q.val) (h1 : ∀ q, (i1 q).val = a + q.val) :
    ∑ r, f r = (∑ q, f (i0 q)) + ∑ q, f (i1 q) := by
  subst hn
  rw [Fin.sum_univ_add]
  congr 1 <;> refine Finset.sum_congr rfl (fun q _ => congrArg f (Fin.ext ?_))
  · simp [h0]
  · simp [h1]

/-- A sum over the 65536 rows is the sum over the first 32768 plus the sum over the last 32768. -/
theorem sum_halves (f : Fin 65536 → EReal) (i0 i1 : Fin 32768 → Fin 65536)
    (h0 : ∀ q, (i0 q).val = q.val) (h1 : ∀ q, (i1 q).val = 32768 + q.val) :
    ∑ r, f r = (∑ q, f (i0 q)) + ∑ q, f (i1 q) :=
  sum_parts (by norm_num) f i0 i1 h0 h1

/-- A projected entry of real inputs is real. -/
theorem proj_real (x : Fin 65536 → Fin 512 → EReal) (W1 : Fin 512 → Fin 256 → EReal) (b1 : Fin 256 → EReal)
    (hx : ∀ r k, ∃ a : ℝ, x r k = a) (hW : ∀ k j, ∃ a : ℝ, W1 k j = a) (hb : ∀ j, ∃ a : ℝ, b1 j = a)
    (r : Fin 65536) (j : Fin 256) : ∃ a : ℝ, proj x W1 b1 r j = a := by
  choose xr hxr using hx
  choose wr hwr using hW
  choose br hbr using hb
  refine ⟨(∑ k, xr r k * wr k j) + br j, ?_⟩
  unfold proj
  simp only [hxr, hwr, hbr]
  rw [EReal.coe_add, coe_sum]
  simp only [EReal.coe_mul]

/-- On reals: the one-pass variance is the two-pass one, and is nonnegative. -/
theorem var_real (g : Fin 65536 → ℝ) :
    max ((∑ r, g r * g r) * (1 / 65536) - ((∑ r, g r) * (1 / 65536)) * ((∑ r, g r) * (1 / 65536))) 0
      = (∑ r, (g r - (∑ r, g r) * (1 / 65536)) * (g r - (∑ r, g r) * (1 / 65536))) * (1 / 65536) := by
  set S := ∑ r, g r with hS
  set μ := S * (1 / 65536) with hμ
  have e1 : ∀ r, (g r - μ) * (g r - μ) = g r * g r - 2 * μ * g r + μ * μ := fun r => by ring
  have hid : (∑ r, g r * g r) * (1 / 65536) - μ * μ = (∑ r, (g r - μ) * (g r - μ)) * (1 / 65536) := by
    simp only [e1, Finset.sum_add_distrib, Finset.sum_sub_distrib, ← Finset.mul_sum, Finset.sum_const,
      Finset.card_univ, Fintype.card_fin, nsmul_eq_mul, ← hS]
    rw [hμ]; push_cast; ring
  have hnn : 0 ≤ (∑ r, (g r - μ) * (g r - μ)) * (1 / 65536) :=
    mul_nonneg (Finset.sum_nonneg (fun r _ => mul_self_nonneg _)) (by norm_num)
  rw [hid, max_eq_left hnn]

/-- On a column of reals the clamped one-pass variance is the two-pass variance. -/
theorem varOnePass_eq_varTwoPass (h : Fin 65536 → Fin 256 → EReal) (hr : ∀ r j, ∃ a : ℝ, h r j = a) (j : Fin 256) :
    varOnePass h j = varTwoPass h j := by
  choose g hg using hr
  have hsum : colSum h j = ((∑ r, g r j : ℝ) : EReal) := by
    unfold colSum; simp only [hg]; rw [coe_sum]
  have hsq : colSumSq h j = ((∑ r, g r j * g r j : ℝ) : EReal) := by
    unfold colSumSq; simp only [hg]; rw [coe_sum]; simp only [EReal.coe_mul]
  have hmean : mean h j = (((∑ r, g r j) * (1 / 65536) : ℝ) : EReal) := by
    unfold mean; rw [hsum, nRows_eq, Ideal.div_coe (by norm_num), ← EReal.coe_mul]
  unfold varOnePass varTwoPass
  rw [hsq, hmean, nRows_eq, zero_eq, Ideal.div_coe (by norm_num), Ideal.div_coe (by norm_num)]
  simp only [hg]
  have e2 : (∑ r, (((g r j : ℝ) : EReal) - (((∑ r, g r j) * (1 / 65536) : ℝ) : EReal)) * (((g r j : ℝ) : EReal) - (((∑ r, g r j) * (1 / 65536) : ℝ) : EReal)))
      = ((∑ r, (g r j - (∑ r, g r j) * (1 / 65536)) * (g r j - (∑ r, g r j) * (1 / 65536)) : ℝ) : EReal) := by
    rw [coe_sum]; simp only [EReal.coe_mul, EReal.coe_sub]
  rw [e2, ← EReal.coe_mul, ← EReal.coe_mul, ← EReal.coe_mul, ← EReal.coe_sub, ← EReal.coe_zero,
    ← EReal.coe_strictMono.monotone.map_max]
  exact congrArg _ (var_real fun r => g r j)

/-- The mean from the two half-column sums. -/
theorem mean_of_halves (h : Fin 65536 → Fin 256 → EReal) (j : Fin 256) (i0 i1 : Fin 32768 → Fin 65536)
    (h0 : ∀ q, (i0 q).val = q.val) (h1 : ∀ q, (i1 q).val = 32768 + q.val) :
    Ideal.div ((∑ q, h (i0 q) j) + ∑ q, h (i1 q) j) nRows = mean h j := by
  unfold mean colSum
  rw [sum_halves (fun r => h r j) i0 i1 h0 h1]

/-- The clamped one-pass variance from the two half-column sums of squares and the mean. -/
theorem varOnePass_of_halves (h : Fin 65536 → Fin 256 → EReal) (j : Fin 256) (i0 i1 : Fin 32768 → Fin 65536)
    (h0 : ∀ q, (i0 q).val = q.val) (h1 : ∀ q, (i1 q).val = 32768 + q.val) (μ : EReal) (hμ : μ = mean h j) :
    max (Ideal.div ((∑ q, h (i0 q) j * h (i0 q) j) + ∑ q, h (i1 q) j * h (i1 q) j) nRows - μ * μ) zero = varOnePass h j := by
  unfold varOnePass colSumSq
  rw [sum_halves (fun r => h r j * h r j) i0 i1 h0 h1, hμ]

/-- The forward pass depends on the variance form only through the two projected columns' variances. -/
theorem out_congr_var (var var' : (Fin 65536 → Fin 256 → EReal) → Fin 256 → EReal)
    (x1 x2 : Fin 65536 → Fin 512 → EReal) (W1 : Fin 512 → Fin 256 → EReal) (b1 γ βbn : Fin 256 → EReal)
    (W2 : Fin 256 → Fin 128 → EReal) (b2 : Fin 128 → EReal) (W3 : Fin 384 → Fin 64 → EReal) (b3 : Fin 64 → EReal)
    (W4 : Fin 64 → EReal) (b4 α β : EReal) (r : Fin 65536)
    (e1 : ∀ j, var (proj x1 W1 b1) j = var' (proj x1 W1 b1) j) (e2 : ∀ j, var (proj x2 W1 b1) j = var' (proj x2 W1 b1) j) :
    out var x1 x2 W1 b1 γ βbn W2 b2 W3 b3 W4 b4 α β r = out var' x1 x2 W1 b1 γ βbn W2 b2 W3 b3 W4 b4 α β r := by
  unfold out
  rw [funext e1, funext e2]

/-- On real inputs the forward pass with the one-pass variance is the forward pass with the two-pass variance. -/
theorem out_onePass_eq_twoPass
    (x1 x2 : Fin 65536 → Fin 512 → EReal) (W1 : Fin 512 → Fin 256 → EReal) (b1 γ βbn : Fin 256 → EReal)
    (W2 : Fin 256 → Fin 128 → EReal) (b2 : Fin 128 → EReal) (W3 : Fin 384 → Fin 64 → EReal) (b3 : Fin 64 → EReal)
    (W4 : Fin 64 → EReal) (b4 α β : EReal) (r : Fin 65536)
    (hx1 : ∀ r k, ∃ a : ℝ, x1 r k = a) (hx2 : ∀ r k, ∃ a : ℝ, x2 r k = a) (hW : ∀ k j, ∃ a : ℝ, W1 k j = a)
    (hb : ∀ j, ∃ a : ℝ, b1 j = a) :
    out varOnePass x1 x2 W1 b1 γ βbn W2 b2 W3 b3 W4 b4 α β r = out varTwoPass x1 x2 W1 b1 γ βbn W2 b2 W3 b3 W4 b4 α β r :=
  out_congr_var _ _ _ _ _ _ _ _ _ _ _ _ _ _ _ _ r
    (fun j => varOnePass_eq_varTwoPass _ (proj_real x1 W1 b1 hx1 hW hb) j)
    (fun j => varOnePass_eq_varTwoPass _ (proj_real x2 W1 b1 hx2 hW hb) j)

/-- `rowOut` of equal operands. -/
theorem rowOut_congr {μ1 μ1' v1 v1' μ2 μ2' v2 v2' γ γ' βbn βbn' : Fin 256 → EReal} {W2 W2' : Fin 256 → Fin 128 → EReal}
    {b2 b2' : Fin 128 → EReal} {W3a W3a' W3b W3b' W3c W3c' : Fin 128 → Fin 64 → EReal} {b3 b3' : Fin 64 → EReal}
    {W4 W4' : Fin 64 → EReal} {b4 b4' α α' β β' : EReal} {h1 h1' h2 h2' : Fin 256 → EReal}
    (e1 : μ1 = μ1') (e2 : v1 = v1') (e3 : μ2 = μ2') (e4 : v2 = v2') (e5 : γ = γ') (e6 : βbn = βbn') (e7 : W2 = W2')
    (e8 : b2 = b2') (e9 : W3a = W3a') (e10 : W3b = W3b') (e11 : W3c = W3c') (e12 : b3 = b3') (e13 : W4 = W4')
    (e14 : b4 = b4') (e15 : α = α') (e16 : β = β') (e17 : h1 = h1') (e18 : h2 = h2') :
    rowOut μ1 v1 μ2 v2 γ βbn W2 b2 W3a W3b W3c b3 W4 b4 α β h1 h2
      = rowOut μ1' v1' μ2' v2' γ' βbn' W2' b2' W3a' W3b' W3c' b3' W4' b4' α' β' h1' h2' := by
  subst e1 e2 e3 e4 e5 e6 e7 e8 e9 e10 e11 e12 e13 e14 e15 e16 e17 e18; rfl

end Cert.Relation

end
-- ==== Proof.KernelValue.lean ====
/-
  The idealized kernel program's result, entry by entry: the forward pass with the one-pass variance.

  The fused launch computes `rowOut` of its operands; the operands are the two projected arrays the projection
  launches left, the statistics rows (the two cores' half-column sums added: whole-column sums), and reshaped or
  sliced arguments. Substituting what each operand holds gives `Relation.out varOnePass` of the argument arrays.
-/
import proofs.«166000_j82308753261052_2_alg».proof.Proof.HostStages
import proofs.«166000_j82308753261052_2_alg».proof.Proof.Statistics

set_option maxRecDepth 16384

noncomputable section

namespace Cert.KernelIdeal.KernelValue

open Idealize.ShloMosaic Idealize.ShloMosaic.TcCoe Idealize.ShloMosaic.ValueIdx
open Idealize.SL.Sem
open Cert.KernelIdeal Cert.KernelIdeal.HostStages Cert.Relation

variable (m : (ℓ : Loc nD τ sig) → Buf (Elt Ideal) ℓ) (ρ : Dev nD → PrngReg)

/-- The argument arrays as matrices and vectors of extended reals. -/
def X1 (c : Dev nD) : Fin 65536 → Fin 512 → EReal := fun r k => (m ((c : Thread nD τ).loc main_arg0) : S65536x512.Idx → EReal) (ix2 r k)
def X2 (c : Dev nD) : Fin 65536 → Fin 512 → EReal := fun r k => (m ((c : Thread nD τ).loc main_arg1) : S65536x512.Idx → EReal) (ix2 r k)
def Wt1 (c : Dev nD) : Fin 512 → Fin 256 → EReal := fun k j => (m ((c : Thread nD τ).loc main_arg2) : S512x256.Idx → EReal) (ix2 k j)
def Bs1 (c : Dev nD) : Fin 256 → EReal := fun j => (m ((c : Thread nD τ).loc main_arg3) : S256.Idx → EReal) (ix1 j)
def Gm (c : Dev nD) : Fin 256 → EReal := fun j => (m ((c : Thread nD τ).loc main_arg4) : S256.Idx → EReal) (ix1 j)
def Bt (c : Dev nD) : Fin 256 → EReal := fun j => (m ((c : Thread nD τ).loc main_arg5) : S256.Idx → EReal) (ix1 j)
def Wt2 (c : Dev nD) : Fin 256 → Fin 128 → EReal := fun j k => (m ((c : Thread nD τ).loc main_arg6) : S256x128.Idx → EReal) (ix2 j k)
def Bs2 (c : Dev nD) : Fin 128 → EReal := fun k => (m ((c : Thread nD τ).loc main_arg7) : S128.Idx → EReal) (ix1 k)
def Wt3 (c : Dev nD) : Fin 384 → Fin 64 → EReal := fun k j => (m ((c : Thread nD τ).loc main_arg8) : S384x64.Idx → EReal) (ix2 k j)
def Bs3 (c : Dev nD) : Fin 64 → EReal := fun j => (m ((c : Thread nD τ).loc main_arg9) : S64.Idx → EReal) (ix1 j)
def Wt4 (c : Dev nD) : Fin 64 → EReal := fun j => (m ((c : Thread nD τ).loc main_arg10) : S64x1.Idx → EReal) (ix2 j 0)
def Bs4 (c : Dev nD) : EReal := (m ((c : Thread nD τ).loc main_arg11) : S1.Idx → EReal) (ix1 0)
def Al (c : Dev nD) : EReal := (m ((c : Thread nD τ).loc main_arg12) : S1.Idx → EReal) (ix1 0)
def Be (c : Dev nD) : EReal := (m ((c : Thread nD τ).loc main_arg13) : S1.Idx → EReal) (ix1 0)

/-- The row indices of the two halves of the rows. -/
def lowerHalf (q : Fin 32768) : Fin 65536 := ⟨32768 * ((0 : Fin 16).val / 8) + q.val, by omega⟩
def upperHalf (q : Fin 32768) : Fin 65536 := ⟨32768 * ((8 : Fin 16).val / 8) + q.val, by omega⟩
theorem lowerHalf_val (q : Fin 32768) : (lowerHalf q).val = q.val := by
  show 32768 * (0 / 8) + q.val = q.val; omega
theorem upperHalf_val (q : Fin 32768) : (upperHalf q).val = 32768 + q.val := by
  show 32768 * (8 / 8) + q.val = 32768 + q.val; omega

/-- The result at row r is the forward pass with the one-pass variance, given what the three launches leave:
    each projection launch its projected array and the two half-column sums (of entries and of squares) in rows 0
    and 8 of its accumulators, the fused launch `rowOut` of its operands. -/
theorem result_eq (c : Dev nD) (r : Fin 65536)
    (hblk1 : ∀ (r : Fin 65536) (j : Fin 256), hpre1 m ρ c (ix2 r j) = proj (X1 m c) (Wt1 m c) (Bs1 m c) r j)
    (hsum1 : ∀ (a : Fin 16) (j : Fin 256), sums1 m ρ c (ix2 a j) = ∑ q : Fin 32768, proj (X1 m c) (Wt1 m c) (Bs1 m c) ⟨32768 * (a.val / 8) + q.val, by omega⟩ j)
    (hsq1 : ∀ (a : Fin 16) (j : Fin 256), sqs1 m ρ c (ix2 a j) = ∑ q : Fin 32768, proj (X1 m c) (Wt1 m c) (Bs1 m c) ⟨32768 * (a.val / 8) + q.val, by omega⟩ j * proj (X1 m c) (Wt1 m c) (Bs1 m c) ⟨32768 * (a.val / 8) + q.val, by omega⟩ j)
    (hblk2 : ∀ (r : Fin 65536) (j : Fin 256), hpre2 m ρ c (ix2 r j) = proj (X2 m c) (Wt1 m c) (Bs1 m c) r j)
    (hsum2 : ∀ (a : Fin 16) (j : Fin 256), sums2 m ρ c (ix2 a j) = ∑ q : Fin 32768, proj (X2 m c) (Wt1 m c) (Bs1 m c) ⟨32768 * (a.val / 8) + q.val, by omega⟩ j)
    (hsq2 : ∀ (a : Fin 16) (j : Fin 256), sqs2 m ρ c (ix2 a j) = ∑ q : Fin 32768, proj (X2 m c) (Wt1 m c) (Bs1 m c) ⟨32768 * (a.val / 8) + q.val, by omega⟩ j * proj (X2 m c) (Wt1 m c) (Bs1 m c) ⟨32768 * (a.val / 8) + q.val, by omega⟩ j)
    (hfused : outArr m ρ c (ix2 r 0) = rowOut (fun j => op2 m ρ c (ix2 0 j)) (fun j => op3 m ρ c (ix2 0 j)) (fun j => op4 m ρ c (ix2 0 j)) (fun j => op5 m ρ c (ix2 0 j))
      (fun j => op6 m ρ c (ix2 0 j)) (fun j => op7 m ρ c (ix2 0 j)) (fun j k => op8 m ρ c (ix2 j k)) (fun k => op9 m ρ c (ix2 0 k))
      (fun k j => op10 m ρ c (ix2 k j)) (fun k j => op11 m ρ c (ix2 k j)) (fun k j => op12 m ρ c (ix2 k j)) (fun j => op13 m ρ c (ix2 0 j))
      (fun j => op14 m ρ c (ix2 j 0)) (op15 m ρ c (ix2 0 0)) (op16 m ρ c (ix2 0 0)) (op17 m ρ c (ix2 0 0))
      (fun j => op0 m ρ c (ix2 r j)) (fun j => op1 m ρ c (ix2 r j))) :
    resArr m ρ c (ix1 r)
      = out varOnePass (X1 m c) (X2 m c) (Wt1 m c) (Bs1 m c) (Gm m c) (Bt m c) (Wt2 m c) (Bs2 m c) (Wt3 m c) (Bs3 m c) (Wt4 m c) (Bs4 m c) (Al m c) (Be m c) r := by
  have eμ1 : (fun j => op2 m ρ c (ix2 0 j)) = mean (proj (X1 m c) (Wt1 m c) (Bs1 m c)) := funext fun j => by
    rw [V4_mean1, hsum1 0 j, hsum1 8 j]
    exact mean_of_halves _ j lowerHalf upperHalf lowerHalf_val upperHalf_val
  have ev1 : (fun j => op3 m ρ c (ix2 0 j)) = varOnePass (proj (X1 m c) (Wt1 m c) (Bs1 m c)) := funext fun j => by
    rw [V4_var1, hsq1 0 j, hsq1 8 j]
    exact varOnePass_of_halves _ j lowerHalf upperHalf lowerHalf_val upperHalf_val _ (congrFun eμ1 j)
  have eμ2 : (fun j => op4 m ρ c (ix2 0 j)) = mean (proj (X2 m c) (Wt1 m c) (Bs1 m c)) := funext fun j => by
    rw [V4_mean2, hsum2 0 j, hsum2 8 j]
    exact mean_of_halves _ j lowerHalf upperHalf lowerHalf_val upperHalf_val
  have ev2 : (fun j => op5 m ρ c (ix2 0 j)) = varOnePass (proj (X2 m c) (Wt1 m c) (Bs1 m c)) := funext fun j => by
    rw [V4_var2, hsq2 0 j, hsq2 8 j]
    exact varOnePass_of_halves _ j lowerHalf upperHalf lowerHalf_val upperHalf_val _ (congrFun eμ2 j)
  have eγ : (fun j => op6 m ρ c (ix2 0 j)) = Gm m c := funext fun j => op6_apply m ρ c j
  have eβ : (fun j => op7 m ρ c (ix2 0 j)) = Bt m c := funext fun j => op7_apply m ρ c j
  have eW2 : (fun j k => op8 m ρ c (ix2 j k)) = Wt2 m c := by rw [op8_eq m ρ c]; rfl
  have eb2 : (fun k => op9 m ρ c (ix2 0 k)) = Bs2 m c := funext fun k => op9_apply m ρ c k
  have eA : (fun k j => op10 m ρ c (ix2 k j)) = blockA (Wt3 m c) := funext fun k => funext fun j => by
    rw [op10_apply m ρ c k j]; exact congrArg (fun i : Fin 384 => Wt3 m c i j) (Fin.ext (by show 0 + k.val = k.val; omega))
  have eB : (fun k j => op11 m ρ c (ix2 k j)) = blockB (Wt3 m c) := funext fun k => funext fun j => op11_apply m ρ c k j
  have eC : (fun k j => op12 m ρ c (ix2 k j)) = blockC (Wt3 m c) := funext fun k => funext fun j => op12_apply m ρ c k j
  have eb3 : (fun j => op13 m ρ c (ix2 0 j)) = Bs3 m c := funext fun j => op13_apply m ρ c j
  have eW4 : (fun j => op14 m ρ c (ix2 j 0)) = Wt4 m c := by rw [op14_eq m ρ c]; rfl
  have eh1 : (fun j => op0 m ρ c (ix2 r j)) = proj (X1 m c) (Wt1 m c) (Bs1 m c) r := funext fun j => by
    rw [op0_eq m ρ c]; exact hblk1 r j
  have eh2 : (fun j => op1 m ρ c (ix2 r j)) = proj (X2 m c) (Wt1 m c) (Bs1 m c) r := funext fun j => by
    rw [op1_eq m ρ c]; exact hblk2 r j
  rw [result_at m ρ c r]
  refine hfused.trans ?_
  unfold out
  apply rowOut_congr
  exacts [eμ1, ev1, eμ2, ev2, eγ, eβ, eW2, eb2, eA, eB, eC, eb3, eW4, op15_apply m ρ c 0, op16_apply m ρ c 0, op17_apply m ρ c 0, eh1, eh2]

end Cert.KernelIdeal.KernelValue

end
-- ==== Proof.ProjPieces.lean ====
/-
  What one step of the projection kernel leaves in its three staging buffers, as terms of the blocks it loaded.

  A step loads a 4096-row block of x, all of W1 and b1, forms h = x·W1 + b1 on the block, stores h (narrowed to
  bf16), and adds the block's column sums of h and of h² into two [8,256] accumulators (every one of the 8 rows
  carries the same running sum). The first step of a core's run zeroes the accumulators before adding; every
  later step adds to what the step before left. Each buffer is covered by its last store, so its contents are
  that store's value, the loads reading whole buffers.
-/
import proofs.«166000_j82308753261052_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ProjValue
open Cert.KernelIdeal Cert.KernelIdeal.Gen

variable {F : FTy → Type} [FloatOps F]

/-- A rank-2 offset of zeros. -/
theorem hz : (![0, 0] : Fin 2 → Nat) = fun _ => 0 := funext fun a => by fin_cases a <;> rfl

/-! ## The first input's projection -/

/-- At a first step of a core's run (inner grid index 0) the projected block's staging buffer ends holding the
    bf16 block of x·W1 + b1: one store covers it. -/
theorem block0_first (c : Dev nD) (i : grid0.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : cond0_0 i) (x0 : Vec F S4096x512 .f32) (x1 : Vec F S512x256 .f32) (x2 : Vec F S1x256 .f32) :
    out0_A_3 c i arg2 harg2 arg3 harg3 arg4 harg4 arg5 harg5 arg6 harg6 arg7 harg7 hc0 x0 x1 x2 = k0_pay6 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz]

/-- At a first step the column-sum accumulator is zeroed, read back, and the block's column sums are added to it. -/
theorem sum0_first (c : Dev nD) (i : grid0.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : cond0_0 i) (x0 : Vec F S4096x512 .f32) (x1 : Vec F S512x256 .f32) (x2 : Vec F S1x256 .f32) :
    out0_A_4 c i arg2 harg2 arg3 harg3 arg4 harg4 arg5 harg5 arg6 harg6 arg7 harg7 hc0 x0 x1 x2 = k0_pay4 x0 x1 x2 k0_pay1 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S8x256) hz, View.readCov_unit_zero (S := S8x256) _ hz]
  simp only [View.readAt_eq_ld, harg2.read_unread, harg3.read_unread, harg4.read_unread, View.ld_unit_zero (S := S4096x512) hz, View.ld_unit_zero (S := S512x256) hz, View.ld_unit_zero (S := S1x256) hz]

/-- At a first step the accumulator of squares is zeroed, read back, and the block's column sums of squares are added. -/
theorem sumsq0_first (c : Dev nD) (i : grid0.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : cond0_0 i) (x0 : Vec F S4096x512 .f32) (x1 : Vec F S512x256 .f32) (x2 : Vec F S1x256 .f32) :
    out0_A_5 c i arg2 harg2 arg3 harg3 arg4 harg4 arg5 harg5 arg6 harg6 arg7 harg7 hc0 x0 x1 x2 = k0_pay5 x0 x1 x2 k0_pay2 := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S8x256) hz, View.readCov_unit_zero (S := S8x256) _ hz]
  simp only [View.readAt_eq_ld, harg2.read_unread, harg3.read_unread, harg4.read_unread, View.ld_unit_zero (S := S4096x512) hz, View.ld_unit_zero (S := S512x256) hz, View.ld_unit_zero (S := S1x256) hz]

/-- At a later step the projected block's staging buffer again ends holding the bf16 block of x·W1 + b1. -/
theorem block0_later (c : Dev nD) (i : grid0.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : ¬cond0_0 i) (x0 : Vec F S4096x512 .f32) (x1 : Vec F S512x256 .f32) (x2 : Vec F S1x256 .f32) (xo4 xo5 : Vec F S8x256 .f32) :
    out0_B_3 c i arg2 harg2 arg3 harg3 arg4 harg4 arg5 harg5 arg6 harg6 arg7 harg7 hc0 x0 x1 x2 xo4 xo5 = k0_pay6 x0 x1 x2 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz]

/-- At a later step the block's column sums are added to what the accumulator held. -/
theorem sum0_later (c : Dev nD) (i : grid0.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : ¬cond0_0 i) (x0 : Vec F S4096x512 .f32) (x1 : Vec F S512x256 .f32) (x2 : Vec F S1x256 .f32) (xo4 xo5 : Vec F S8x256 .f32) :
    out0_B_4 c i arg2 harg2 arg3 harg3 arg4 harg4 arg5 harg5 arg6 harg6 arg7 harg7 hc0 x0 x1 x2 xo4 xo5 = k0_pay4 x0 x1 x2 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz, harg6.read_unread, View.ld_unit_zero (S := S8x256) hz]

/-- At a later step the block's column sums of squares are added to what the accumulator of squares held. -/
theorem sumsq0_later (c : Dev nD) (i : grid0.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : ¬cond0_0 i) (x0 : Vec F S4096x512 .f32) (x1 : Vec F S512x256 .f32) (x2 : Vec F S1x256 .f32) (xo4 xo5 : Vec F S8x256 .f32) :
    out0_B_5 c i arg2 harg2 arg3 harg3 arg4 harg4 arg5 harg5 arg6 harg6 arg7 harg7 hc0 x0 x1 x2 xo4 xo5 = k0_pay5 x0 x1 x2 xo5 := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz, harg7.read_unread, View.ld_unit_zero (S := S8x256) hz]

/-! ## The second input's projection -/

/-- At a first step of a core's run (inner grid index 0) the projected block's staging buffer ends holding the
    bf16 block of x·W1 + b1: one store covers it. -/
theorem block1_first (c : Dev nD) (i : grid1.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : cond1_0 i) (x0 : Vec F S4096x512 .f32) (x1 : Vec F S512x256 .f32) (x2 : Vec F S1x256 .f32) :
    out1_A_3 c i arg2 harg2 arg3 harg3 arg4 harg4 arg5 harg5 arg6 harg6 arg7 harg7 hc0 x0 x1 x2 = k1_pay6 x0 x1 x2 := by
  unfold out1_A_3
  rw [View.read_writes_eq_canon _ _ _ (cover1_A_3 c i arg2 harg2 arg3 harg3 arg4 harg4 arg5 harg5 arg6 harg6 arg7 harg7 hc0 x0 x1 x2)]
  unfold kernelRun1_A
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz]

/-- At a first step the column-sum accumulator is zeroed, read back, and the block's column sums are added to it. -/
theorem sum1_first (c : Dev nD) (i : grid1.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : cond1_0 i) (x0 : Vec F S4096x512 .f32) (x1 : Vec F S512x256 .f32) (x2 : Vec F S1x256 .f32) :
    out1_A_4 c i arg2 harg2 arg3 harg3 arg4 harg4 arg5 harg5 arg6 harg6 arg7 harg7 hc0 x0 x1 x2 = k1_pay4 x0 x1 x2 k1_pay1 := by
  unfold out1_A_4
  rw [View.read_writes_eq_canon _ _ _ (cover1_A_4 c i arg2 harg2 arg3 harg3 arg4 harg4 arg5 harg5 arg6 harg6 arg7 harg7 hc0 x0 x1 x2)]
  unfold kernelRun1_A
  dsimp only
  sl_unfold_words
  rw [View.canon_cons_unit_zero (S := S8x256) hz, View.readCov_unit_zero (S := S8x256) _ hz]
  simp only [View.readAt_eq_ld, harg2.read_unread, harg3.read_unread, harg4.read_unread, View.ld_unit_zero (S := S4096x512) hz, View.ld_unit_zero (S := S512x256) hz, View.ld_unit_zero (S := S1x256) hz]

/-- At a first step the accumulator of squares is zeroed, read back, and the block's column sums of squares are added. -/
theorem sumsq1_first (c : Dev nD) (i : grid1.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : cond1_0 i) (x0 : Vec F S4096x512 .f32) (x1 : Vec F S512x256 .f32) (x2 : Vec F S1x256 .f32) :
    out1_A_5 c i arg2 harg2 arg3 harg3 arg4 harg4 arg5 harg5 arg6 harg6 arg7 harg7 hc0 x0 x1 x2 = k1_pay5 x0 x1 x2 k1_pay2 := by
  unfold out1_A_5
  rw [View.read_writes_eq_canon _ _ _ (cover1_A_5 c i arg2 harg2 arg3 harg3 arg4 harg4 arg5 harg5 arg6 harg6 arg7 harg7 hc0 x0 x1 x2)]
  unfold kernelRun1_A
  dsimp only
  sl_unfold_words
  rw [View.canon_cons_unit_zero (S := S8x256) hz, View.readCov_unit_zero (S := S8x256) _ hz]
  simp only [View.readAt_eq_ld, harg2.read_unread, harg3.read_unread, harg4.read_unread, View.ld_unit_zero (S := S4096x512) hz, View.ld_unit_zero (S := S512x256) hz, View.ld_unit_zero (S := S1x256) hz]

/-- At a later step the projected block's staging buffer again ends holding the bf16 block of x·W1 + b1. -/
theorem block1_later (c : Dev nD) (i : grid1.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : ¬cond1_0 i) (x0 : Vec F S4096x512 .f32) (x1 : Vec F S512x256 .f32) (x2 : Vec F S1x256 .f32) (xo4 xo5 : Vec F S8x256 .f32) :
    out1_B_3 c i arg2 harg2 arg3 harg3 arg4 harg4 arg5 harg5 arg6 harg6 arg7 harg7 hc0 x0 x1 x2 xo4 xo5 = k1_pay6 x0 x1 x2 := by
  unfold out1_B_3
  rw [View.read_writes_eq_canon _ _ _ (cover1_B_3 c i arg2 harg2 arg3 harg3 arg4 harg4 arg5 harg5 arg6 harg6 arg7 harg7 hc0 x0 x1 x2 xo4 xo5)]
  unfold kernelRun1_B
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz]

/-- At a later step the block's column sums are added to what the accumulator held. -/
theorem sum1_later (c : Dev nD) (i : grid1.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : ¬cond1_0 i) (x0 : Vec F S4096x512 .f32) (x1 : Vec F S512x256 .f32) (x2 : Vec F S1x256 .f32) (xo4 xo5 : Vec F S8x256 .f32) :
    out1_B_4 c i arg2 harg2 arg3 harg3 arg4 harg4 arg5 harg5 arg6 harg6 arg7 harg7 hc0 x0 x1 x2 xo4 xo5 = k1_pay4 x0 x1 x2 xo4 := by
  unfold out1_B_4
  rw [View.read_writes_eq_canon _ _ _ (cover1_B_4 c i arg2 harg2 arg3 harg3 arg4 harg4 arg5 harg5 arg6 harg6 arg7 harg7 hc0 x0 x1 x2 xo4 xo5)]
  unfold kernelRun1_B
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz, harg6.read_unread, View.ld_unit_zero (S := S8x256) hz]

/-- At a later step the block's column sums of squares are added to what the accumulator of squares held. -/
theorem sumsq1_later (c : Dev nD) (i : grid1.Coords) (arg2 : Memref sig .tc .vmem S4096x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4096x256 .bf16) (harg5 : arg5.IsWhole) (arg6 : Memref sig .tc .vmem S8x256 .f32) (harg6 : arg6.IsWhole) (arg7 : Memref sig .tc .vmem S8x256 .f32) (harg7 : arg7.IsWhole) (hc0 : ¬cond1_0 i) (x0 : Vec F S4096x512 .f32) (x1 : Vec F S512x256 .f32) (x2 : Vec F S1x256 .f32) (xo4 xo5 : Vec F S8x256 .f32) :
    out1_B_5 c i arg2 harg2 arg3 harg3 arg4 harg4 arg5 harg5 arg6 harg6 arg7 harg7 hc0 x0 x1 x2 xo4 xo5 = k1_pay5 x0 x1 x2 xo5 := by
  unfold out1_B_5
  rw [View.read_writes_eq_canon _ _ _ (cover1_B_5 c i arg2 harg2 arg3 harg3 arg4 harg4 arg5 harg5 arg6 harg6 arg7 harg7 hc0 x0 x1 x2 xo4 xo5)]
  unfold kernelRun1_B
  dsimp only
  try sl_unfold_words
  rw [View.canon_unit_zero hz]
  simp only [View.readAt_eq_ld, harg2.read_unread, harg3.read_unread, harg4.read_unread, View.ld_unit_zero (S := S4096x512) hz, View.ld_unit_zero (S := S512x256) hz, View.ld_unit_zero (S := S1x256) hz, harg7.read_unread, View.ld_unit_zero (S := S8x256) hz]

end Cert.KernelIdeal.ProjValue

end
-- ==== Proof.ProjPoints.lean ====
/-
  The values one step of the projection kernel computes, entry by entry, over the extended reals.

  On a 4096-row block x of the input, with the weights W : [512,256] and the bias b : [1,256]:
    h p j = Σ_k x p k · W k j + b 0 j          (a matrix product into a zero accumulator, then the bias row),
  the stored bf16 block is h itself (a change of float format is the identity here), and the two accumulators
  gain, in each of their 8 rows, Σ_p h p j and Σ_p h p j · h p j over the block's 4096 rows.
-/
import proofs.«166000_j82308753261052_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.ProjValue
open Cert.KernelIdeal Cert.KernelIdeal.Gen

/-- The sum over a block's 4096 rows, one column at a time: the row axis is the one summed away. -/
theorem colsum_apply (src : FVec Ideal S4096x256 .f32) (j : Fin 256) :
    multiReduction (F := Ideal) .add [0] S256 src 0x00000000#32 reduces_S4096x256_S256 (.inl rfl) rfl (ix1 j)
      = ∑ p : Fin 4096, src (ix2 p j) := by
  refine (Ideal.multiReduction_add_single src 0x00000000#32 reduces_S4096x256_S256 (.inl rfl) rfl (ix1 j)).trans ?_
  refine Finset.sum_congr rfl fun p _ => congrArg src ?_
  funext c
  apply Fin.ext
  rw [Shape.Reduces.lift_val]
  match c with
  | ⟨0, _⟩ => rfl
  | ⟨1, _⟩ => rfl

/-- The block's matrix product at (p, j): row p of the left block against column j of the weights. -/
theorem matmul_block_apply (lhs : FVec Ideal S4096x512 .bf16) (rhs : FVec Ideal S512x256 .bf16) (p : Fin 4096) (j : Fin 256) :
    matmul dot_S4096x512_S512x256_S4096x256_1_0_0_1_n_n none lhs rhs (constant (F := Ideal) S4096x256 .f32 0x00000000#32) (ix2 p j)
      = ∑ k : Fin 512, lhs (ix2 p k) * rhs (ix2 k j) := by
  refine (Ideal.matmul_constant_zero_apply dot_S4096x512_S512x256_S4096x256_1_0_0_1_n_n none lhs rhs (ix2 p j)).trans ?_
  rw [← Equiv.sum_comp (contrEquiv1 dot_S4096x512_S512x256_S4096x256_1_0_0_1_n_n 512 rfl rfl).symm]
  refine Finset.sum_congr rfl fun k _ => ?_
  have ck := contrEquiv1_symm_val dot_S4096x512_S512x256_S4096x256_1_0_0_1_n_n 512 rfl rfl k
  have el : dot_S4096x512_S512x256_S4096x256_1_0_0_1_n_n.lhsIdx (ix2 p j) ((contrEquiv1 _ 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact ck
  have er : dot_S4096x512_S512x256_S4096x256_1_0_0_1_n_n.rhsIdx (ix2 p j) ((contrEquiv1 _ 512 rfl rfl).symm k) = ix2 k j := by
    funext ax; apply Fin.ext
    match ax with
    | ⟨0, _⟩ => simp [DotDims.rhsIdx, dot_S4096x512_S512x256_S4096x256_1_0_0_1_n_n]; exact ck
    | ⟨1, _⟩ => simp [DotDims.rhsIdx, dot_S4096x512_S512x256_S4096x256_1_0_0_1_n_n]; rfl
  rw [el, er]
/-! ## The first input's projection -/

/-- The block's projection at row p, column j: the contraction over the 512 input features plus the bias. -/
theorem h0_apply (x0 : Vec Ideal S4096x512 .f32) (x1 : Vec Ideal S512x256 .f32) (x2 : Vec Ideal S1x256 .f32)
    (p : Fin 4096) (j : Fin 256) :
    k0_pay3 x0 x1 x2 (ix2 p j) = (∑ k : Fin 512, x0 (ix2 p k) * x1 (ix2 k j)) + x2 (ix2 (0 : Fin 1) j) := by
  unfold k0_pay3
  try dsimp only
  refine (addf_apply _ _ (ix2 p j)).trans ?_
  refine congrArg₂ (· + ·) ?_ ?_
  · exact matmul_block_apply _ _ p j
  · rw [shapeCast_self]
    exact broadcastTo_1b_ab_apply x2 broadcasts_S1x256_S4096x256 p j

/-- The stored bf16 block is the projection itself: narrowing does nothing to an extended real. -/
theorem block0_apply (x0 : Vec Ideal S4096x512 .f32) (x1 : Vec Ideal S512x256 .f32) (x2 : Vec Ideal S1x256 .f32)
    (p : Fin 4096) (j : Fin 256) :
    k0_pay6 x0 x1 x2 (ix2 p j) = k0_pay3 x0 x1 x2 (ix2 p j) := rfl

/-- The zeroed accumulators read 0 everywhere. -/
theorem zero0_sum_apply (a : Fin 8) (j : Fin 256) : k0_pay1 (F := Ideal) (ix2 a j) = 0 := Ideal.ofBits_zero_f32
theorem zero0_sumsq_apply (a : Fin 8) (j : Fin 256) : k0_pay2 (F := Ideal) (ix2 a j) = 0 := Ideal.ofBits_zero_f32

/-- A step adds, in every row of the accumulator, the block's column sum of the projection. -/
theorem sum0_apply (x0 : Vec Ideal S4096x512 .f32) (x1 : Vec Ideal S512x256 .f32) (x2 : Vec Ideal S1x256 .f32)
    (acc : Vec Ideal S8x256 .f32) (a : Fin 8) (j : Fin 256) :
    k0_pay4 x0 x1 x2 acc (ix2 a j) = acc (ix2 a j) + ∑ p : Fin 4096, k0_pay3 x0 x1 x2 (ix2 p j) := by
  unfold k0_pay4
  try dsimp only
  refine (addf_apply _ _ (ix2 a j)).trans ?_
  refine congrArg₂ (· + ·) ?_ ?_
  · rw [shapeCast_self]
  · rw [shapeCast_self]
    refine (broadcastTo_1b_ab_apply _ broadcasts_S1x256_S8x256 a j).trans ?_
    refine (shapeCast_a_1a_apply _ shapeCasts_S256_S1x256 (0 : Fin 1) j).trans ?_
    exact colsum_apply _ j

/-- A step adds, in every row of the second accumulator, the block's column sum of the squared projection. -/
theorem sumsq0_apply (x0 : Vec Ideal S4096x512 .f32) (x1 : Vec Ideal S512x256 .f32) (x2 : Vec Ideal S1x256 .f32)
    (acc : Vec Ideal S8x256 .f32) (a : Fin 8) (j : Fin 256) :
    k0_pay5 x0 x1 x2 acc (ix2 a j)
      = acc (ix2 a j) + ∑ p : Fin 4096, k0_pay3 x0 x1 x2 (ix2 p j) * k0_pay3 x0 x1 x2 (ix2 p j) := by
  unfold k0_pay5
  try dsimp only
  refine (addf_apply _ _ (ix2 a j)).trans ?_
  refine congrArg₂ (· + ·) ?_ ?_
  · rw [shapeCast_self]
  · rw [shapeCast_self]
    refine (broadcastTo_1b_ab_apply _ broadcasts_S1x256_S8x256 a j).trans ?_
    refine (shapeCast_a_1a_apply _ shapeCasts_S256_S1x256 (0 : Fin 1) j).trans ?_
    exact colsum_apply _ j

/-! ## The second input's projection -/

/-- The block's projection at row p, column j: the contraction over the 512 input features plus the bias. -/
theorem h1_apply (x0 : Vec Ideal S4096x512 .f32) (x1 : Vec Ideal S512x256 .f32) (x2 : Vec Ideal S1x256 .f32)
    (p : Fin 4096) (j : Fin 256) :
    k1_pay3 x0 x1 x2 (ix2 p j) = (∑ k : Fin 512, x0 (ix2 p k) * x1 (ix2 k j)) + x2 (ix2 (0 : Fin 1) j) := by
  unfold k1_pay3
  try dsimp only
  refine (addf_apply _ _ (ix2 p j)).trans ?_
  refine congrArg₂ (· + ·) ?_ ?_
  · exact matmul_block_apply _ _ p j
  · rw [shapeCast_self]
    exact broadcastTo_1b_ab_apply x2 broadcasts_S1x256_S4096x256 p j

/-- The stored bf16 block is the projection itself: narrowing does nothing to an extended real. -/
theorem block1_apply (x0 : Vec Ideal S4096x512 .f32) (x1 : Vec Ideal S512x256 .f32) (x2 : Vec Ideal S1x256 .f32)
    (p : Fin 4096) (j : Fin 256) :
    k1_pay6 x0 x1 x2 (ix2 p j) = k1_pay3 x0 x1 x2 (ix2 p j) := rfl

/-- The zeroed accumulators read 0 everywhere. -/
theorem zero1_sum_apply (a : Fin 8) (j : Fin 256) : k1_pay1 (F := Ideal) (ix2 a j) = 0 := Ideal.ofBits_zero_f32
theorem zero1_sumsq_apply (a : Fin 8) (j : Fin 256) : k1_pay2 (F := Ideal) (ix2 a j) = 0 := Ideal.ofBits_zero_f32

/-- A step adds, in every row of the accumulator, the block's column sum of the projection. -/
theorem sum1_apply (x0 : Vec Ideal S4096x512 .f32) (x1 : Vec Ideal S512x256 .f32) (x2 : Vec Ideal S1x256 .f32)
    (acc : Vec Ideal S8x256 .f32) (a : Fin 8) (j : Fin 256) :
    k1_pay4 x0 x1 x2 acc (ix2 a j) = acc (ix2 a j) + ∑ p : Fin 4096, k1_pay3 x0 x1 x2 (ix2 p j) := by
  unfold k1_pay4
  try dsimp only
  refine (addf_apply _ _ (ix2 a j)).trans ?_
  refine congrArg₂ (· + ·) ?_ ?_
  · rw [shapeCast_self]
  · rw [shapeCast_self]
    refine (broadcastTo_1b_ab_apply _ broadcasts_S1x256_S8x256 a j).trans ?_
    refine (shapeCast_a_1a_apply _ shapeCasts_S256_S1x256 (0 : Fin 1) j).trans ?_
    exact colsum_apply _ j

/-- A step adds, in every row of the second accumulator, the block's column sum of the squared projection. -/
theorem sumsq1_apply (x0 : Vec Ideal S4096x512 .f32) (x1 : Vec Ideal S512x256 .f32) (x2 : Vec Ideal S1x256 .f32)
    (acc : Vec Ideal S8x256 .f32) (a : Fin 8) (j : Fin 256) :
    k1_pay5 x0 x1 x2 acc (ix2 a j)
      = acc (ix2 a j) + ∑ p : Fin 4096, k1_pay3 x0 x1 x2 (ix2 p j) * k1_pay3 x0 x1 x2 (ix2 p j) := by
  unfold k1_pay5
  try dsimp only
  refine (addf_apply _ _ (ix2 a j)).trans ?_
  refine congrArg₂ (· + ·) ?_ ?_
  · rw [shapeCast_self]
  · rw [shapeCast_self]
    refine (broadcastTo_1b_ab_apply _ broadcasts_S1x256_S8x256 a j).trans ?_
    refine (shapeCast_a_1a_apply _ shapeCasts_S256_S1x256 (0 : Fin 1) j).trans ?_
    exact colsum_apply _ j

end Cert.KernelIdeal.ProjValue

end
-- ==== Proof.ProjSums.lean ====
/-
  Regrouping a sum over consecutive rows: the rows 32768·c … 32768·c + 32767 of one core's half are its 8 steps'
  blocks of 4096 rows, so the sum over the half is the sum over the steps of the sums over the blocks. Only
  commutativity and associativity of + are used.
-/
import Idealize.ShloMosaic.PureOps.Ideal

open scoped BigOperators

namespace Cert.KernelIdeal.ProjValue

/-- A sum over m·n consecutive naturals, cut into m runs of n. -/
theorem sum_runs {M : Type*} [AddCommMonoid M] (m n : ℕ) (f : ℕ → M) :
    ∑ s : Fin m, ∑ p : Fin n, f (n * s.val + p.val) = ∑ q : Fin (m * n), f q.val := by
  rw [← Equiv.sum_comp finProdFinEquiv (fun q : Fin (m * n) => f q.val), Fintype.sum_prod_type]
  refine Finset.sum_congr rfl fun s _ => Finset.sum_congr rfl fun p _ => ?_
  show f (n * s.val + p.val) = f (p.val + n * s.val)
  rw [Nat.add_comm]

/-- The 8 steps of core c, each over its block of 4096 rows, together run over the core's 32768 rows. -/
theorem sum_steps {M : Type*} [AddCommMonoid M] (f : ℕ → M) (c : ℕ) :
    ∑ s ∈ Finset.range 8, ∑ p : Fin 4096, f (4096 * (8 * c + s) + p.val) = ∑ q : Fin 32768, f (32768 * c + q.val) := by
  rw [Finset.sum_range]
  refine Eq.trans ?_ (sum_runs 8 4096 fun k => f (32768 * c + k))
  refine Finset.sum_congr rfl fun s _ => Finset.sum_congr rfl fun p _ => congrArg f ?_
  omega

end Cert.KernelIdeal.ProjValue
-- ==== Proof.ProjArrays.lean ====
/-
  The projection kernel's three result arrays for the first input, as functions of the arrays it reads.

  The grid has 16 steps, t = 8·q + s for core q ∈ {0, 1} and inner step s ∈ {0 … 7}. Step t works on rows
  4096·t … 4096·t + 4095 of the first input: it stores their projection h r j = Σ_k x r k · W1 k j + b1 j as block t
  of the projected array, and adds the block's column sums of h and of h² into the accumulators of core q, which
  were zeroed at s = 0. So after step t the accumulators hold the sums over the blocks 8·q … t (induction on the
  step), and the last step of core q (s = 7) writes back, into rows 8·q … 8·q + 7 of the two [16,256] arrays, the
  sums over the core's rows 32768·q … 32768·q + 32767. Every entry of each array lies in exactly the block some
  step writes back, which gives the arrays after the region.
-/
import proofs.«166000_j82308753261052_2_alg».proof.Proof.Relation
import proofs.«166000_j82308753261052_2_alg».proof.Proof.ProjPieces
import proofs.«166000_j82308753261052_2_alg».proof.Proof.ProjPoints
import proofs.«166000_j82308753261052_2_alg».proof.Proof.ProjSums

noncomputable section

open Idealize.ShloMosaic Idealize.ShloMosaic.TcCoe Idealize.SL.Sem
open Idealize.ShloMosaic.Pipeline (Dat)
open Idealize.ShloMosaic.ValueIdx
open Cert.Relation (proj)

namespace Cert.KernelIdeal.ProjValue
open Cert.KernelIdeal Cert.KernelIdeal.Gen

variable (V : (c : Dev nD) → (b : Ref sig .tc) → Buf (Elt Ideal) ((c : Thread nD τ).loc b)) (c : Dev nD)

/-! ## The arrays the region reads, and the projection of every row -/

/-- The input, the weights and the bias as the region finds them. -/
abbrev inX0 : Fin 65536 → Fin 512 → EReal := fun r k => (V c (Pipeline.arrRef spec0 0) : S65536x512.Idx → EReal) (ix2 r k)
abbrev inW0 : Fin 512 → Fin 256 → EReal := fun k j => (V c (Pipeline.arrRef spec0 1) : S512x256.Idx → EReal) (ix2 k j)
abbrev inB0 : Fin 256 → EReal := fun j => (V c (Pipeline.arrRef spec0 2) : S1x256.Idx → EReal) (ix2 (0 : Fin 1) j)

/-- The projection at any natural row number (0 past the last row): sums over runs of rows are written over ℕ. -/
def hrow0 (r : ℕ) (j : Fin 256) : EReal :=
  if h : r < 65536 then proj (inX0 V c) (inW0 V c) (inB0 V c) ⟨r, h⟩ j else 0

/-- Where each window's block sits at step t: the input and the projected output move one 4096-row block per
    step, the weights and the bias stay whole, the two accumulators' 8-row block is the core's (t / 8). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The input block at step t holds rows 4096·t … 4096·t + 4095 of the input. -/
theorem iblk0_x (t : Fin cfg0.N) (p : Fin 4096) (k : Fin 512) (r : Fin 65536) (hr : r.val = 4096 * t.val + p.val) :
    (iblk0 V c 0 t : S4096x512.Idx → EReal) (ix2 p k) = inX0 V c r k := by
  obtain ⟨e0, e1, -⟩ := idx0 t
  unfold iblk0
  rw [View.read_apply]
  show (V c (Pipeline.arrRef spec0 0) : S65536x512.Idx → EReal) _ = (V c (Pipeline.arrRef spec0 0) : S65536x512.Idx → EReal) (ix2 r k)
  congr 1
  funext a
  apply Fin.ext
  match a with
  | ⟨0, _⟩ => show win0_0.index t (0 : Fin 2) * 4096 + 1 * p.val = r.val; rw [e0, hr]; omega
  | ⟨1, _⟩ => show win0_0.index t (1 : Fin 2) * 512 + 1 * k.val = k.val; rw [e1]; omega

/-- The weights' block is all of the weights, at every step. -/
theorem iblk0_w (t : Fin cfg0.N) (k : Fin 512) (j : Fin 256) :
    (iblk0 V c 1 t : S512x256.Idx → EReal) (ix2 k j) = inW0 V c k j := by
  obtain ⟨-, -, e0, e1, -⟩ := idx0 t
  unfold iblk0
  rw [View.read_apply]
  show (V c (Pipeline.arrRef spec0 1) : S512x256.Idx → EReal) _ = (V c (Pipeline.arrRef spec0 1) : S512x256.Idx → EReal) (ix2 k j)
  congr 1
  funext a
  apply Fin.ext
  match a with
  | ⟨0, _⟩ => show win0_1.index t (0 : Fin 2) * 512 + 1 * k.val = k.val; rw [e0]; omega
  | ⟨1, _⟩ => show win0_1.index t (1 : Fin 2) * 256 + 1 * j.val = j.val; rw [e1]; omega

/-- The bias' block is the bias row, at every step. -/
theorem iblk0_b (t : Fin cfg0.N) (j : Fin 256) :
    (iblk0 V c 2 t : S1x256.Idx → EReal) (ix2 (0 : Fin 1) j) = inB0 V c j := by
  obtain ⟨-, -, -, -, e0, e1, -⟩ := idx0 t
  unfold iblk0
  rw [View.read_apply]
  show (V c (Pipeline.arrRef spec0 2) : S1x256.Idx → EReal) _ = (V c (Pipeline.arrRef spec0 2) : S1x256.Idx → EReal) (ix2 (0 : Fin 1) j)
  congr 1
  funext a
  apply Fin.ext
  match a with
  | ⟨0, _⟩ => show win0_2.index t (0 : Fin 2) * 1 + 1 * 0 = 0; rw [e0]
  | ⟨1, _⟩ => show win0_2.index t (1 : Fin 2) * 256 + 1 * j.val = j.val; rw [e1]; omega

/-- Step t's block of the projection, entry (p, j), is the projection of row 4096·t + p. -/
theorem h0_at (t : Fin cfg0.N) (p : Fin 4096) (j : Fin 256) :
    k0_pay3 (iblk0 V c 0 t) (iblk0 V c 1 t) (iblk0 V c 2 t) (ix2 p j) = hrow0 V c (4096 * t.val + p.val) j := by
  have hN : t.val < 16 := lt_of_lt_of_eq t.isLt (show cfg0.N = 16 from N_0)
  have hr : 4096 * t.val + p.val < 65536 := by have := p.isLt; omega
  unfold hrow0
  rw [dif_pos hr]
  refine (h0_apply (iblk0 V c 0 t) (iblk0 V c 1 t) (iblk0 V c 2 t) p j).trans ?_
  unfold proj
  exact congrArg₂ (· + ·)
    (Finset.sum_congr rfl fun k _ => congrArg₂ (· * ·) (iblk0_x V c t p k ⟨_, hr⟩ rfl) (iblk0_w V c t k j))
    (iblk0_b V c t j)

/-! ## What the staging buffers hold after each step -/

/-- After any step the projected block's buffer holds that step's block. -/
theorem block0_at (t : Fin cfg0.N) : (outsAt0 V c t.val t.isLt).1 = k0_pay6 (iblk0 V c 0 t) (iblk0 V c 1 t) (iblk0 V c 2 t) := by
  by_cases h0 : t.val % 8 = 0
  · rw [outsAt0_A V c t h0]
    dsimp only
    exact block0_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact block0_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- After a first step the accumulator holds that block's column sums. -/
theorem sum0_at_first (t : Fin cfg0.N) (h0 : t.val % 8 = 0) (a : Fin 8) (j : Fin 256) :
    ((outsAt0 V c t.val t.isLt).2.1 : S8x256.Idx → EReal) (ix2 a j) = ∑ p : Fin 4096, hrow0 V c (4096 * t.val + p.val) j := by
  rw [outsAt0_A V c t h0]
  dsimp only
  refine (congrFun (sum0_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix2 a j)).trans ?_
  refine (sum0_apply (iblk0 V c 0 t) (iblk0 V c 1 t) (iblk0 V c 2 t) (k0_pay1 (F := Ideal)) a j).trans ?_
  rw [zero0_sum_apply, zero_add]
  exact Finset.sum_congr rfl fun p _ => h0_at V c t p j

/-- After a first step the second accumulator holds that block's column sums of squares. -/
theorem sumsq0_at_first (t : Fin cfg0.N) (h0 : t.val % 8 = 0) (a : Fin 8) (j : Fin 256) :
    ((outsAt0 V c t.val t.isLt).2.2 : S8x256.Idx → EReal) (ix2 a j)
      = ∑ p : Fin 4096, hrow0 V c (4096 * t.val + p.val) j * hrow0 V c (4096 * t.val + p.val) j := by
  rw [outsAt0_A V c t h0]
  dsimp only
  refine (congrFun (sumsq0_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix2 a j)).trans ?_
  refine (sumsq0_apply (iblk0 V c 0 t) (iblk0 V c 1 t) (iblk0 V c 2 t) (k0_pay2 (F := Ideal)) a j).trans ?_
  rw [zero0_sumsq_apply, zero_add]
  exact Finset.sum_congr rfl fun p _ => by rw [h0_at V c t p j]

/-- After a later step the accumulator holds what the step before left plus that block's column sums. -/
theorem sum0_at_later (t : Fin cfg0.N) (h0 : ¬t.val % 8 = 0) (a : Fin 8) (j : Fin 256) :
    ((outsAt0 V c t.val t.isLt).2.1 : S8x256.Idx → EReal) (ix2 a j)
      = ((outsAt0 V c (t.val - 1) (Nat.lt_of_le_of_lt (Nat.sub_le _ _) t.isLt)).2.1 : S8x256.Idx → EReal) (ix2 a j) + ∑ p : Fin 4096, hrow0 V c (4096 * t.val + p.val) j := by
  rw [outsAt0_B V c t h0]
  dsimp only
  refine (congrFun (sum0_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix2 a j)).trans ?_
  refine (sum0_apply (iblk0 V c 0 t) (iblk0 V c 1 t) (iblk0 V c 2 t) (outsAt0 V c (t.val - 1) (Nat.lt_of_le_of_lt (Nat.sub_le _ _) t.isLt)).2.1 a j).trans ?_
  exact congrArg _ (Finset.sum_congr rfl fun p _ => h0_at V c t p j)

/-- After a later step the second accumulator holds what the step before left plus that block's column sums of squares. -/
theorem sumsq0_at_later (t : Fin cfg0.N) (h0 : ¬t.val % 8 = 0) (a : Fin 8) (j : Fin 256) :
    ((outsAt0 V c t.val t.isLt).2.2 : S8x256.Idx → EReal) (ix2 a j)
      = ((outsAt0 V c (t.val - 1) (Nat.lt_of_le_of_lt (Nat.sub_le _ _) t.isLt)).2.2 : S8x256.Idx → EReal) (ix2 a j)
        + ∑ p : Fin 4096, hrow0 V c (4096 * t.val + p.val) j * hrow0 V c (4096 * t.val + p.val) j := by
  rw [outsAt0_B V c t h0]
  dsimp only
  refine (congrFun (sumsq0_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix2 a j)).trans ?_
  refine (sumsq0_apply (iblk0 V c 0 t) (iblk0 V c 1 t) (iblk0 V c 2 t) (outsAt0 V c (t.val - 1) (Nat.lt_of_le_of_lt (Nat.sub_le _ _) t.isLt)).2.2 a j).trans ?_
  exact congrArg _ (Finset.sum_congr rfl fun p _ => by rw [h0_at V c t p j])

/-! ## The running sums: by induction on the step, never by listing the grid -/

/-- After step t the accumulator holds the column sums of the blocks of steps 8·(t / 8) … t: the run since the
    core's first step. -/
theorem sum0_run (a : Fin 8) (j : Fin 256) : ∀ (n : ℕ) (t : Fin cfg0.N), t.val = n →
    ((outsAt0 V c t.val t.isLt).2.1 : S8x256.Idx → EReal) (ix2 a j)
      = ∑ s ∈ Finset.range (t.val % 8 + 1), ∑ p : Fin 4096, hrow0 V c (4096 * (8 * (t.val / 8) + s) + p.val) j
  | 0, t, ht => by
    have h0 : t.val % 8 = 0 := by rw [ht]
    rw [sum0_at_first V c t h0 a j, h0, Finset.sum_range_one]
    refine Finset.sum_congr rfl fun p _ => congrArg (fun r => hrow0 V c r j) ?_
    omega
  | n + 1, t, ht => by
    by_cases h0 : t.val % 8 = 0
    · rw [sum0_at_first V c t h0 a j, h0, Finset.sum_range_one]
      refine Finset.sum_congr rfl fun p _ => congrArg (fun r => hrow0 V c r j) ?_
      omega
    · have ih := sum0_run a j n ⟨t.val - 1, Nat.lt_of_le_of_lt (Nat.sub_le _ _) t.isLt⟩ (by show t.val - 1 = n; omega)
      rw [sum0_at_later V c t h0 a j]
      refine (congrArg (· + _) ih).trans ?_
      show (∑ s ∈ Finset.range ((t.val - 1) % 8 + 1), ∑ p : Fin 4096, hrow0 V c (4096 * (8 * ((t.val - 1) / 8) + s) + p.val) j)
          + (∑ p : Fin 4096, hrow0 V c (4096 * t.val + p.val) j) = _
      rw [show t.val % 8 + 1 = ((t.val - 1) % 8 + 1) + 1 from by omega, show t.val / 8 = (t.val - 1) / 8 from by omega]
      refine Eq.trans ?_ (Finset.sum_range_succ _ ((t.val - 1) % 8 + 1)).symm
      refine congrArg _ (Finset.sum_congr rfl fun p _ => congrArg (fun r => hrow0 V c r j) ?_)
      omega

/-- The same for the sums of squares. -/
theorem sumsq0_run (a : Fin 8) (j : Fin 256) : ∀ (n : ℕ) (t : Fin cfg0.N), t.val = n →
    ((outsAt0 V c t.val t.isLt).2.2 : S8x256.Idx → EReal) (ix2 a j)
      = ∑ s ∈ Finset.range (t.val % 8 + 1), ∑ p : Fin 4096,
          hrow0 V c (4096 * (8 * (t.val / 8) + s) + p.val) j * hrow0 V c (4096 * (8 * (t.val / 8) + s) + p.val) j
  | 0, t, ht => by
    have h0 : t.val % 8 = 0 := by rw [ht]
    rw [sumsq0_at_first V c t h0 a j, h0, Finset.sum_range_one]
    refine Finset.sum_congr rfl fun p _ => congrArg (fun r => hrow0 V c r j * hrow0 V c r j) ?_
    omega
  | n + 1, t, ht => by
    by_cases h0 : t.val % 8 = 0
    · rw [sumsq0_at_first V c t h0 a j, h0, Finset.sum_range_one]
      refine Finset.sum_congr rfl fun p _ => congrArg (fun r => hrow0 V c r j * hrow0 V c r j) ?_
      omega
    · have ih := sumsq0_run a j n ⟨t.val - 1, Nat.lt_of_le_of_lt (Nat.sub_le _ _) t.isLt⟩ (by show t.val - 1 = n; omega)
      rw [sumsq0_at_later V c t h0 a j]
      refine (congrArg (· + _) ih).trans ?_
      show (∑ s ∈ Finset.range ((t.val - 1) % 8 + 1), ∑ p : Fin 4096,
            hrow0 V c (4096 * (8 * ((t.val - 1) / 8) + s) + p.val) j * hrow0 V c (4096 * (8 * ((t.val - 1) / 8) + s) + p.val) j)
          + (∑ p : Fin 4096, hrow0 V c (4096 * t.val + p.val) j * hrow0 V c (4096 * t.val + p.val) j) = _
      rw [show t.val % 8 + 1 = ((t.val - 1) % 8 + 1) + 1 from by omega, show t.val / 8 = (t.val - 1) / 8 from by omega]
      refine Eq.trans ?_ (Finset.sum_range_succ _ ((t.val - 1) % 8 + 1)).symm
      refine congrArg _ (Finset.sum_congr rfl fun p _ => congrArg (fun r => hrow0 V c r j * hrow0 V c r j) ?_)
      omega

/-! ## The three result arrays -/

/-- The projected array: entry (r, j) is the projection of row r. -/
abbrev projArr0 : S65536x256.Idx → EReal := fun i => hrow0 V c (i 0).val ⟨(i 1).val, idx2_lt1 i⟩
/-- The column sums: every row of core q's 8-row block holds the sum over the core's 32768 rows. -/
abbrev sumArr0 : S16x256.Idx → EReal := fun i => ∑ q : Fin 32768, hrow0 V c (32768 * ((i 0).val / 8) + q.val) ⟨(i 1).val, idx2_lt1 i⟩
/-- The column sums of squares, likewise. -/
abbrev sumsqArr0 : S16x256.Idx → EReal := fun i => ∑ q : Fin 32768,
  hrow0 V c (32768 * ((i 0).val / 8) + q.val) ⟨(i 1).val, idx2_lt1 i⟩ * hrow0 V c (32768 * ((i 0).val / 8) + q.val) ⟨(i 1).val, idx2_lt1 i⟩

/-- A block is the read of an array through step t's window as soon as it agrees with it entry by entry. -/
theorem blk0_3_ext (t : Fin cfg0.N) (G : S65536x256.Idx → EReal) (b : S4096x256.Idx → EReal)
    (key : ∀ y : S4096x256.Idx, b y = G (((cfg0.win 3).blk t).view.emb y)) :
    b = ((cfg0.win 3).blk t).view.read (Elt Ideal) G := funext key
theorem blk0_4_ext (t : Fin cfg0.N) (G : S16x256.Idx → EReal) (b : S8x256.Idx → EReal)
    (key : ∀ y : S8x256.Idx, b y = G (((cfg0.win 4).blk t).view.emb y)) :
    b = ((cfg0.win 4).blk t).view.read (Elt Ideal) G := funext key
theorem blk0_5_ext (t : Fin cfg0.N) (G : S16x256.Idx → EReal) (b : S8x256.Idx → EReal)
    (key : ∀ y : S8x256.Idx, b y = G (((cfg0.win 5).blk t).view.emb y)) :
    b = ((cfg0.win 5).blk t).view.read (Elt Ideal) G := funext key

/-- Every step writes back its block of the projected array. -/
theorem flushed0_3 (t : Fin cfg0.N) (hf : (cfg0.win 3).flush t = true) :
    (dat0 V c).flushed 3 t = ((cfg0.win 3).blk t).view.read (Elt Ideal) (projArr0 V c) := by
  obtain ⟨-, -, -, -, -, -, e0, e1, -⟩ := idx0 t
  show (cfg0.win 3).cut (grid0.coords t) ((dat0 V c).after 3 t) = _
  rw [after0_3, block0_at V c t]
  have key : ∀ y : S4096x256.Idx, (k0_pay6 (iblk0 V c 0 t) (iblk0 V c 1 t) (iblk0 V c 2 t) : S4096x256.Idx → EReal) y
      = projArr0 V c (((cfg0.win 3).blk t).view.emb y) := fun y => by
    obtain ⟨p, j, rfl⟩ : ∃ (p : Fin 4096) (j : Fin 256), y = ix2 p j := ⟨y 0, y 1, eq_ix2 y⟩
    refine (block0_apply (iblk0 V c 0 t) (iblk0 V c 1 t) (iblk0 V c 2 t) p j).trans ((h0_at V c t p j).trans ?_)
    have c0 : ((((cfg0.win 3).blk t).view.emb (ix2 p j)) 0 : ℕ) = 4096 * t.val + p.val := by
      show win0_3.index t (0 : Fin 2) * 4096 + 1 * p.val = _; rw [e0]; omega
    have c1 : ((((cfg0.win 3).blk t).view.emb (ix2 p j)) 1 : ℕ) = j.val := by
      show win0_3.index t (1 : Fin 2) * 256 + 1 * j.val = _; rw [e1]; omega
    show hrow0 V c (4096 * t.val + p.val) j = hrow0 V c ((((cfg0.win 3).blk t).view.emb (ix2 p j)) 0 : ℕ) ⟨((((cfg0.win 3).blk t).view.emb (ix2 p j)) 1 : ℕ), _⟩
    rw [c0]
    exact congrArg (hrow0 V c _) (Fin.ext c1.symm)
  exact blk0_3_ext t (projArr0 V c) _ key

/-- A core's last step (t ≡ 7 mod 8) writes back the accumulator: the sums over the core's 32768 rows. -/
theorem flushed0_4 (t : Fin cfg0.N) (hf : (cfg0.win 4).flush t = true) :
    (dat0 V c).flushed 4 t = ((cfg0.win 4).blk t).view.read (Elt Ideal) (sumArr0 V c) := by
  have h7 : t.val % 8 = 7 := (flush0_4 t).mp hf
  obtain ⟨-, -, -, -, -, -, -, -, e0, e1, -⟩ := idx0 t
  show (cfg0.win 4).cut (grid0.coords t) ((dat0 V c).after 4 t) = _
  rw [after0_4]
  have key : ∀ y : S8x256.Idx, ((outsAt0 V c t.val t.isLt).2.1 : S8x256.Idx → EReal) y
      = sumArr0 V c (((cfg0.win 4).blk t).view.emb y) := fun y => by
    obtain ⟨a, j, rfl⟩ : ∃ (a : Fin 8) (j : Fin 256), y = ix2 a j := ⟨y 0, y 1, eq_ix2 y⟩
    rw [sum0_run V c a j t.val t rfl, h7]
    refine (sum_steps (fun r => hrow0 V c r j) (t.val / 8)).trans ?_
    have c0 : ((((cfg0.win 4).blk t).view.emb (ix2 a j)) 0 : ℕ) = t.val / 8 * 8 + a.val := by
      show win0_4.index t (0 : Fin 2) * 8 + 1 * a.val = _; rw [e0]; omega
    have c1 : ((((cfg0.win 4).blk t).view.emb (ix2 a j)) 1 : ℕ) = j.val := by
      show win0_4.index t (1 : Fin 2) * 256 + 1 * j.val = _; rw [e1]; omega
    show _ = ∑ q : Fin 32768, hrow0 V c (32768 * (((((cfg0.win 4).blk t).view.emb (ix2 a j)) 0 : ℕ) / 8) + q.val) ⟨((((cfg0.win 4).blk t).view.emb (ix2 a j)) 1 : ℕ), _⟩
    rw [c0]
    refine Finset.sum_congr rfl fun q _ => ?_
    rw [show (t.val / 8 * 8 + a.val) / 8 = t.val / 8 from by have := a.isLt; omega]
    exact congrArg (hrow0 V c _) (Fin.ext c1.symm)
  exact blk0_4_ext t (sumArr0 V c) _ key

/-- A core's last step writes back the second accumulator: the sums of squares over the core's 32768 rows. -/
theorem flushed0_5 (t : Fin cfg0.N) (hf : (cfg0.win 5).flush t = true) :
    (dat0 V c).flushed 5 t = ((cfg0.win 5).blk t).view.read (Elt Ideal) (sumsqArr0 V c) := by
  have h7 : t.val % 8 = 7 := (flush0_5 t).mp hf
  obtain ⟨-, -, -, -, -, -, -, -, -, -, e0, e1⟩ := idx0 t
  show (cfg0.win 5).cut (grid0.coords t) ((dat0 V c).after 5 t) = _
  rw [after0_5]
  have key : ∀ y : S8x256.Idx, ((outsAt0 V c t.val t.isLt).2.2 : S8x256.Idx → EReal) y
      = sumsqArr0 V c (((cfg0.win 5).blk t).view.emb y) := fun y => by
    obtain ⟨a, j, rfl⟩ : ∃ (a : Fin 8) (j : Fin 256), y = ix2 a j := ⟨y 0, y 1, eq_ix2 y⟩
    rw [sumsq0_run V c a j t.val t rfl, h7]
    refine (sum_steps (fun r => hrow0 V c r j * hrow0 V c r j) (t.val / 8)).trans ?_
    have c0 : ((((cfg0.win 5).blk t).view.emb (ix2 a j)) 0 : ℕ) = t.val / 8 * 8 + a.val := by
      show win0_5.index t (0 : Fin 2) * 8 + 1 * a.val = _; rw [e0]; omega
    have c1 : ((((cfg0.win 5).blk t).view.emb (ix2 a j)) 1 : ℕ) = j.val := by
      show win0_5.index t (1 : Fin 2) * 256 + 1 * j.val = _; rw [e1]; omega
    show _ = ∑ q : Fin 32768,
      hrow0 V c (32768 * (((((cfg0.win 5).blk t).view.emb (ix2 a j)) 0 : ℕ) / 8) + q.val) ⟨((((cfg0.win 5).blk t).view.emb (ix2 a j)) 1 : ℕ), _⟩
        * hrow0 V c (32768 * (((((cfg0.win 5).blk t).view.emb (ix2 a j)) 0 : ℕ) / 8) + q.val) ⟨((((cfg0.win 5).blk t).view.emb (ix2 a j)) 1 : ℕ), _⟩
    rw [c0]
    refine Finset.sum_congr rfl fun q _ => ?_
    rw [show (t.val / 8 * 8 + a.val) / 8 = t.val / 8 from by have := a.isLt; omega]
    rw [show (⟨((((cfg0.win 5).blk t).view.emb (ix2 a j)) 1 : ℕ), idx2_lt1 _⟩ : Fin 256) = j from Fin.ext c1]
  exact blk0_5_ext t (sumsqArr0 V c) _ key

/-- An index is in step t's block of the projected array iff each coordinate is in the block's range. -/
theorem mem_blk0_3 (t : Fin cfg0.N) (i : S65536x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v11_0).slice (win0_3.rect t)).set ↔ _
  rw [View.set_slice_whole, Rect.mem_set_unit]
  exact Iff.rfl
theorem mem_blk0_4 (t : Fin cfg0.N) (i : S16x256.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v11_1).slice (win0_4.rect t)).set ↔ _
  rw [View.set_slice_whole, Rect.mem_set_unit]
  exact Iff.rfl
theorem mem_blk0_5 (t : Fin cfg0.N) (i : S16x256.Idx) :
    i ∈ ((cfg0.win 5).blk t).view.set ↔ ∀ a : Fin 2, win0_5.index t a * S8x256.size a ≤ (i a).val ∧ (i a).val < win0_5.index t a * S8x256.size a + S8x256.size a := by
  show i ∈ ((View.whole main_v11_2).slice (win0_5.rect t)).set ↔ _
  rw [View.set_slice_whole, Rect.mem_set_unit]
  exact Iff.rfl

/-- Row r of the projected array is written back by step r / 4096. -/
theorem cover0_3 (i : S65536x256.Idx) : ∃ t : Fin cfg0.N, (cfg0.win 3).flush t = true ∧ i ∈ ((cfg0.win 3).blk t).view.set := by
  have hi0 : (i 0).val < 65536 := idx2_lt0 i
  have hi1 : (i 1).val < 256 := idx2_lt1 i
  have hN : cfg0.N = 16 := N_0
  have ht : (i 0).val / 4096 < cfg0.N := by rw [hN]; omega
  obtain ⟨-, -, -, -, -, -, e0, e1, -⟩ := idx0 ⟨(i 0).val / 4096, ht⟩
  refine ⟨⟨(i 0).val / 4096, ht⟩, flush0_3 _, ?_⟩
  rw [mem_blk0_3]
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_3.index ⟨(i 0).val / 4096, ht⟩ (1 : Fin 2) * 256 ≤ (i 1).val ∧ (i 1).val < win0_3.index ⟨(i 0).val / 4096, ht⟩ (1 : Fin 2) * 256 + 256
    rw [e1]; omega

/-- Row a of the column sums is written back by the last step of core a / 8. -/
theorem cover0_4 (i : S16x256.Idx) : ∃ t : Fin cfg0.N, (cfg0.win 4).flush t = true ∧ i ∈ ((cfg0.win 4).blk t).view.set := by
  have hi0 : (i 0).val < 16 := idx2_lt0 i
  have hi1 : (i 1).val < 256 := idx2_lt1 i
  have hN : cfg0.N = 16 := N_0
  have ht : 8 * ((i 0).val / 8) + 7 < cfg0.N := by rw [hN]; omega
  obtain ⟨-, -, -, -, -, -, -, -, e0, e1, -⟩ := idx0 ⟨8 * ((i 0).val / 8) + 7, ht⟩
  refine ⟨⟨8 * ((i 0).val / 8) + 7, ht⟩, (flush0_4 _).mpr (by show (8 * ((i 0).val / 8) + 7) % 8 = 7; omega), ?_⟩
  rw [mem_blk0_4]
  intro a
  match a with
  | ⟨0, _⟩ =>
    show win0_4.index ⟨8 * ((i 0).val / 8) + 7, ht⟩ (0 : Fin 2) * 8 ≤ (i 0).val ∧ (i 0).val < win0_4.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_4.index ⟨8 * ((i 0).val / 8) + 7, ht⟩ (1 : Fin 2) * 256 ≤ (i 1).val ∧ (i 1).val < win0_4.index ⟨8 * ((i 0).val / 8) + 7, ht⟩ (1 : Fin 2) * 256 + 256
    rw [e1]; omega

/-- Row a of the column sums of squares is written back by the last step of core a / 8. -/
theorem cover0_5 (i : S16x256.Idx) : ∃ t : Fin cfg0.N, (cfg0.win 5).flush t = true ∧ i ∈ ((cfg0.win 5).blk t).view.set := by
  have hi0 : (i 0).val < 16 := idx2_lt0 i
  have hi1 : (i 1).val < 256 := idx2_lt1 i
  have hN : cfg0.N = 16 := N_0
  have ht : 8 * ((i 0).val / 8) + 7 < cfg0.N := by rw [hN]; omega
  obtain ⟨-, -, -, -, -, -, -, -, -, -, e0, e1⟩ := idx0 ⟨8 * ((i 0).val / 8) + 7, ht⟩
  refine ⟨⟨8 * ((i 0).val / 8) + 7, ht⟩, (flush0_5 _).mpr (by show (8 * ((i 0).val / 8) + 7) % 8 = 7; omega), ?_⟩
  rw [mem_blk0_5]
  intro a
  match a with
  | ⟨0, _⟩ =>
    show win0_5.index ⟨8 * ((i 0).val / 8) + 7, ht⟩ (0 : Fin 2) * 8 ≤ (i 0).val ∧ (i 0).val < win0_5.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_5.index ⟨8 * ((i 0).val / 8) + 7, ht⟩ (1 : Fin 2) * 256 ≤ (i 1).val ∧ (i 1).val < win0_5.index ⟨8 * ((i 0).val / 8) + 7, ht⟩ (1 : Fin 2) * 256 + 256
    rw [e1]; omega

/-! ## The region's results -/

/-- The projected array after the region: entry (r, j) is Σ_k x r k · W1 k j + b1 j. -/
theorem proj0_block (r : Fin 65536) (j : Fin 256) :
    ((dat0 V c).arrAt 3 cfg0.N : S65536x256.Idx → EReal) (ix2 r j) = proj (inX0 V c) (inW0 V c) (inB0 V c) r j := by
  rw [(dat0 V c).arrAt_eq_of_cover 3 (projArr0 V c) (flushed0_3 V c) (cover0_3)]
  show hrow0 V c r.val ⟨j.val, _⟩ = _
  unfold hrow0
  rw [dif_pos r.isLt]

/-- The column sums after the region: row a holds the sum of the projection over the 32768 rows of core a / 8. -/
theorem proj0_sum (a : Fin 16) (j : Fin 256) :
    ((dat0 V c).arrAt 4 cfg0.N : S16x256.Idx → EReal) (ix2 a j)
      = ∑ q : Fin 32768, proj (inX0 V c) (inW0 V c) (inB0 V c) ⟨32768 * (a.val / 8) + q.val, by omega⟩ j := by
  rw [(dat0 V c).arrAt_eq_of_cover 4 (sumArr0 V c) (flushed0_4 V c) (cover0_4)]
  show ∑ q : Fin 32768, hrow0 V c (32768 * (a.val / 8) + q.val) ⟨j.val, _⟩ = _
  refine Finset.sum_congr rfl fun q _ => ?_
  unfold hrow0
  rw [dif_pos (show 32768 * (a.val / 8) + q.val < 65536 by omega)]

/-- The column sums of squares after the region, likewise. -/
theorem proj0_sumsq (a : Fin 16) (j : Fin 256) :
    ((dat0 V c).arrAt 5 cfg0.N : S16x256.Idx → EReal) (ix2 a j)
      = ∑ q : Fin 32768, proj (inX0 V c) (inW0 V c) (inB0 V c) ⟨32768 * (a.val / 8) + q.val, by omega⟩ j
          * proj (inX0 V c) (inW0 V c) (inB0 V c) ⟨32768 * (a.val / 8) + q.val, by omega⟩ j := by
  rw [(dat0 V c).arrAt_eq_of_cover 5 (sumsqArr0 V c) (flushed0_5 V c) (cover0_5)]
  show ∑ q : Fin 32768, hrow0 V c (32768 * (a.val / 8) + q.val) ⟨j.val, _⟩ * hrow0 V c (32768 * (a.val / 8) + q.val) ⟨j.val, _⟩ = _
  refine Finset.sum_congr rfl fun q _ => ?_
  unfold hrow0
  rw [dif_pos (show 32768 * (a.val / 8) + q.val < 65536 by omega)]

end Cert.KernelIdeal.ProjValue

end
-- ==== Proof.ProjArrays1.lean ====
/-
  The projection kernel's three result arrays for the second input, as functions of the arrays it reads.

  The grid has 16 steps, t = 8·q + s for core q ∈ {0, 1} and inner step s ∈ {0 … 7}. Step t works on rows
  4096·t … 4096·t + 4095 of the second input: it stores their projection h r j = Σ_k x r k · W1 k j + b1 j as block t
  of the projected array, and adds the block's column sums of h and of h² into the accumulators of core q, which
  were zeroed at s = 0. So after step t the accumulators hold the sums over the blocks 8·q … t (induction on the
  step), and the last step of core q (s = 7) writes back, into rows 8·q … 8·q + 7 of the two [16,256] arrays, the
  sums over the core's rows 32768·q … 32768·q + 32767. Every entry of each array lies in exactly the block some
  step writes back, which gives the arrays after the region.
-/
import proofs.«166000_j82308753261052_2_alg».proof.Proof.Relation
import proofs.«166000_j82308753261052_2_alg».proof.Proof.ProjPieces
import proofs.«166000_j82308753261052_2_alg».proof.Proof.ProjPoints
import proofs.«166000_j82308753261052_2_alg».proof.Proof.ProjSums

noncomputable section

open Idealize.ShloMosaic Idealize.ShloMosaic.TcCoe Idealize.SL.Sem
open Idealize.ShloMosaic.Pipeline (Dat)
open Idealize.ShloMosaic.ValueIdx
open Cert.Relation (proj)

namespace Cert.KernelIdeal.ProjValue
open Cert.KernelIdeal Cert.KernelIdeal.Gen

variable (V : (c : Dev nD) → (b : Ref sig .tc) → Buf (Elt Ideal) ((c : Thread nD τ).loc b)) (c : Dev nD)

/-! ## The arrays the region reads, and the projection of every row -/

/-- The input, the weights and the bias as the region finds them. -/
abbrev inX1 : Fin 65536 → Fin 512 → EReal := fun r k => (V c (Pipeline.arrRef spec1 0) : S65536x512.Idx → EReal) (ix2 r k)
abbrev inW1 : Fin 512 → Fin 256 → EReal := fun k j => (V c (Pipeline.arrRef spec1 1) : S512x256.Idx → EReal) (ix2 k j)
abbrev inB1 : Fin 256 → EReal := fun j => (V c (Pipeline.arrRef spec1 2) : S1x256.Idx → EReal) (ix2 (0 : Fin 1) j)

/-- The projection at any natural row number (0 past the last row): sums over runs of rows are written over ℕ. -/
def hrow1 (r : ℕ) (j : Fin 256) : EReal :=
  if h : r < 65536 then proj (inX1 V c) (inW1 V c) (inB1 V c) ⟨r, h⟩ j else 0

/-- Where each window's block sits at step t: the input and the projected output move one 4096-row block per
    step, the weights and the bias stay whole, the two accumulators' 8-row block is the core's (t / 8). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

/-- The input block at step t holds rows 4096·t … 4096·t + 4095 of the input. -/
theorem iblk1_x (t : Fin cfg1.N) (p : Fin 4096) (k : Fin 512) (r : Fin 65536) (hr : r.val = 4096 * t.val + p.val) :
    (iblk1 V c 0 t : S4096x512.Idx → EReal) (ix2 p k) = inX1 V c r k := by
  obtain ⟨e0, e1, -⟩ := idx1 t
  unfold iblk1
  rw [View.read_apply]
  show (V c (Pipeline.arrRef spec1 0) : S65536x512.Idx → EReal) _ = (V c (Pipeline.arrRef spec1 0) : S65536x512.Idx → EReal) (ix2 r k)
  congr 1
  funext a
  apply Fin.ext
  match a with
  | ⟨0, _⟩ => show win1_0.index t (0 : Fin 2) * 4096 + 1 * p.val = r.val; rw [e0, hr]; omega
  | ⟨1, _⟩ => show win1_0.index t (1 : Fin 2) * 512 + 1 * k.val = k.val; rw [e1]; omega

/-- The weights' block is all of the weights, at every step. -/
theorem iblk1_w (t : Fin cfg1.N) (k : Fin 512) (j : Fin 256) :
    (iblk1 V c 1 t : S512x256.Idx → EReal) (ix2 k j) = inW1 V c k j := by
  obtain ⟨-, -, e0, e1, -⟩ := idx1 t
  unfold iblk1
  rw [View.read_apply]
  show (V c (Pipeline.arrRef spec1 1) : S512x256.Idx → EReal) _ = (V c (Pipeline.arrRef spec1 1) : S512x256.Idx → EReal) (ix2 k j)
  congr 1
  funext a
  apply Fin.ext
  match a with
  | ⟨0, _⟩ => show win1_1.index t (0 : Fin 2) * 512 + 1 * k.val = k.val; rw [e0]; omega
  | ⟨1, _⟩ => show win1_1.index t (1 : Fin 2) * 256 + 1 * j.val = j.val; rw [e1]; omega

/-- The bias' block is the bias row, at every step. -/
theorem iblk1_b (t : Fin cfg1.N) (j : Fin 256) :
    (iblk1 V c 2 t : S1x256.Idx → EReal) (ix2 (0 : Fin 1) j) = inB1 V c j := by
  obtain ⟨-, -, -, -, e0, e1, -⟩ := idx1 t
  unfold iblk1
  rw [View.read_apply]
  show (V c (Pipeline.arrRef spec1 2) : S1x256.Idx → EReal) _ = (V c (Pipeline.arrRef spec1 2) : S1x256.Idx → EReal) (ix2 (0 : Fin 1) j)
  congr 1
  funext a
  apply Fin.ext
  match a with
  | ⟨0, _⟩ => show win1_2.index t (0 : Fin 2) * 1 + 1 * 0 = 0; rw [e0]
  | ⟨1, _⟩ => show win1_2.index t (1 : Fin 2) * 256 + 1 * j.val = j.val; rw [e1]; omega

/-- Step t's block of the projection, entry (p, j), is the projection of row 4096·t + p. -/
theorem h1_at (t : Fin cfg1.N) (p : Fin 4096) (j : Fin 256) :
    k1_pay3 (iblk1 V c 0 t) (iblk1 V c 1 t) (iblk1 V c 2 t) (ix2 p j) = hrow1 V c (4096 * t.val + p.val) j := by
  have hN : t.val < 16 := lt_of_lt_of_eq t.isLt (show cfg1.N = 16 from N_1)
  have hr : 4096 * t.val + p.val < 65536 := by have := p.isLt; omega
  unfold hrow1
  rw [dif_pos hr]
  refine (h1_apply (iblk1 V c 0 t) (iblk1 V c 1 t) (iblk1 V c 2 t) p j).trans ?_
  unfold proj
  exact congrArg₂ (· + ·)
    (Finset.sum_congr rfl fun k _ => congrArg₂ (· * ·) (iblk1_x V c t p k ⟨_, hr⟩ rfl) (iblk1_w V c t k j))
    (iblk1_b V c t j)

/-! ## What the staging buffers hold after each step -/

/-- After any step the projected block's buffer holds that step's block. -/
theorem block1_at (t : Fin cfg1.N) : (outsAt1 V c t.val t.isLt).1 = k1_pay6 (iblk1 V c 0 t) (iblk1 V c 1 t) (iblk1 V c 2 t) := by
  by_cases h0 : t.val % 8 = 0
  · rw [outsAt1_A V c t h0]
    dsimp only
    exact block1_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]
    dsimp only
    exact block1_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After a first step the accumulator holds that block's column sums. -/
theorem sum1_at_first (t : Fin cfg1.N) (h0 : t.val % 8 = 0) (a : Fin 8) (j : Fin 256) :
    ((outsAt1 V c t.val t.isLt).2.1 : S8x256.Idx → EReal) (ix2 a j) = ∑ p : Fin 4096, hrow1 V c (4096 * t.val + p.val) j := by
  rw [outsAt1_A V c t h0]
  dsimp only
  refine (congrFun (sum1_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) (ix2 a j)).trans ?_
  refine (sum1_apply (iblk1 V c 0 t) (iblk1 V c 1 t) (iblk1 V c 2 t) (k1_pay1 (F := Ideal)) a j).trans ?_
  rw [zero1_sum_apply, zero_add]
  exact Finset.sum_congr rfl fun p _ => h1_at V c t p j

/-- After a first step the second accumulator holds that block's column sums of squares. -/
theorem sumsq1_at_first (t : Fin cfg1.N) (h0 : t.val % 8 = 0) (a : Fin 8) (j : Fin 256) :
    ((outsAt1 V c t.val t.isLt).2.2 : S8x256.Idx → EReal) (ix2 a j)
      = ∑ p : Fin 4096, hrow1 V c (4096 * t.val + p.val) j * hrow1 V c (4096 * t.val + p.val) j := by
  rw [outsAt1_A V c t h0]
  dsimp only
  refine (congrFun (sumsq1_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) (ix2 a j)).trans ?_
  refine (sumsq1_apply (iblk1 V c 0 t) (iblk1 V c 1 t) (iblk1 V c 2 t) (k1_pay2 (F := Ideal)) a j).trans ?_
  rw [zero1_sumsq_apply, zero_add]
  exact Finset.sum_congr rfl fun p _ => by rw [h1_at V c t p j]

/-- After a later step the accumulator holds what the step before left plus that block's column sums. -/
theorem sum1_at_later (t : Fin cfg1.N) (h0 : ¬t.val % 8 = 0) (a : Fin 8) (j : Fin 256) :
    ((outsAt1 V c t.val t.isLt).2.1 : S8x256.Idx → EReal) (ix2 a j)
      = ((outsAt1 V c (t.val - 1) (Nat.lt_of_le_of_lt (Nat.sub_le _ _) t.isLt)).2.1 : S8x256.Idx → EReal) (ix2 a j) + ∑ p : Fin 4096, hrow1 V c (4096 * t.val + p.val) j := by
  rw [outsAt1_B V c t h0]
  dsimp only
  refine (congrFun (sum1_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) (ix2 a j)).trans ?_
  refine (sum1_apply (iblk1 V c 0 t) (iblk1 V c 1 t) (iblk1 V c 2 t) (outsAt1 V c (t.val - 1) (Nat.lt_of_le_of_lt (Nat.sub_le _ _) t.isLt)).2.1 a j).trans ?_
  exact congrArg _ (Finset.sum_congr rfl fun p _ => h1_at V c t p j)

/-- After a later step the second accumulator holds what the step before left plus that block's column sums of squares. -/
theorem sumsq1_at_later (t : Fin cfg1.N) (h0 : ¬t.val % 8 = 0) (a : Fin 8) (j : Fin 256) :
    ((outsAt1 V c t.val t.isLt).2.2 : S8x256.Idx → EReal) (ix2 a j)
      = ((outsAt1 V c (t.val - 1) (Nat.lt_of_le_of_lt (Nat.sub_le _ _) t.isLt)).2.2 : S8x256.Idx → EReal) (ix2 a j)
        + ∑ p : Fin 4096, hrow1 V c (4096 * t.val + p.val) j * hrow1 V c (4096 * t.val + p.val) j := by
  rw [outsAt1_B V c t h0]
  dsimp only
  refine (congrFun (sumsq1_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) (ix2 a j)).trans ?_
  refine (sumsq1_apply (iblk1 V c 0 t) (iblk1 V c 1 t) (iblk1 V c 2 t) (outsAt1 V c (t.val - 1) (Nat.lt_of_le_of_lt (Nat.sub_le _ _) t.isLt)).2.2 a j).trans ?_
  exact congrArg _ (Finset.sum_congr rfl fun p _ => by rw [h1_at V c t p j])

/-! ## The running sums: by induction on the step, never by listing the grid -/

/-- After step t the accumulator holds the column sums of the blocks of steps 8·(t / 8) … t: the run since the
    core's first step. -/
theorem sum1_run (a : Fin 8) (j : Fin 256) : ∀ (n : ℕ) (t : Fin cfg1.N), t.val = n →
    ((outsAt1 V c t.val t.isLt).2.1 : S8x256.Idx → EReal) (ix2 a j)
      = ∑ s ∈ Finset.range (t.val % 8 + 1), ∑ p : Fin 4096, hrow1 V c (4096 * (8 * (t.val / 8) + s) + p.val) j
  | 0, t, ht => by
    have h0 : t.val % 8 = 0 := by rw [ht]
    rw [sum1_at_first V c t h0 a j, h0, Finset.sum_range_one]
    refine Finset.sum_congr rfl fun p _ => congrArg (fun r => hrow1 V c r j) ?_
    omega
  | n + 1, t, ht => by
    by_cases h0 : t.val % 8 = 0
    · rw [sum1_at_first V c t h0 a j, h0, Finset.sum_range_one]
      refine Finset.sum_congr rfl fun p _ => congrArg (fun r => hrow1 V c r j) ?_
      omega
    · have ih := sum1_run a j n ⟨t.val - 1, Nat.lt_of_le_of_lt (Nat.sub_le _ _) t.isLt⟩ (by show t.val - 1 = n; omega)
      rw [sum1_at_later V c t h0 a j]
      refine (congrArg (· + _) ih).trans ?_
      show (∑ s ∈ Finset.range ((t.val - 1) % 8 + 1), ∑ p : Fin 4096, hrow1 V c (4096 * (8 * ((t.val - 1) / 8) + s) + p.val) j)
          + (∑ p : Fin 4096, hrow1 V c (4096 * t.val + p.val) j) = _
      rw [show t.val % 8 + 1 = ((t.val - 1) % 8 + 1) + 1 from by omega, show t.val / 8 = (t.val - 1) / 8 from by omega]
      refine Eq.trans ?_ (Finset.sum_range_succ _ ((t.val - 1) % 8 + 1)).symm
      refine congrArg _ (Finset.sum_congr rfl fun p _ => congrArg (fun r => hrow1 V c r j) ?_)
      omega

/-- The same for the sums of squares. -/
theorem sumsq1_run (a : Fin 8) (j : Fin 256) : ∀ (n : ℕ) (t : Fin cfg1.N), t.val = n →
    ((outsAt1 V c t.val t.isLt).2.2 : S8x256.Idx → EReal) (ix2 a j)
      = ∑ s ∈ Finset.range (t.val % 8 + 1), ∑ p : Fin 4096,
          hrow1 V c (4096 * (8 * (t.val / 8) + s) + p.val) j * hrow1 V c (4096 * (8 * (t.val / 8) + s) + p.val) j
  | 0, t, ht => by
    have h0 : t.val % 8 = 0 := by rw [ht]
    rw [sumsq1_at_first V c t h0 a j, h0, Finset.sum_range_one]
    refine Finset.sum_congr rfl fun p _ => congrArg (fun r => hrow1 V c r j * hrow1 V c r j) ?_
    omega
  | n + 1, t, ht => by
    by_cases h0 : t.val % 8 = 0
    · rw [sumsq1_at_first V c t h0 a j, h0, Finset.sum_range_one]
      refine Finset.sum_congr rfl fun p _ => congrArg (fun r => hrow1 V c r j * hrow1 V c r j) ?_
      omega
    · have ih := sumsq1_run a j n ⟨t.val - 1, Nat.lt_of_le_of_lt (Nat.sub_le _ _) t.isLt⟩ (by show t.val - 1 = n; omega)
      rw [sumsq1_at_later V c t h0 a j]
      refine (congrArg (· + _) ih).trans ?_
      show (∑ s ∈ Finset.range ((t.val - 1) % 8 + 1), ∑ p : Fin 4096,
            hrow1 V c (4096 * (8 * ((t.val - 1) / 8) + s) + p.val) j * hrow1 V c (4096 * (8 * ((t.val - 1) / 8) + s) + p.val) j)
          + (∑ p : Fin 4096, hrow1 V c (4096 * t.val + p.val) j * hrow1 V c (4096 * t.val + p.val) j) = _
      rw [show t.val % 8 + 1 = ((t.val - 1) % 8 + 1) + 1 from by omega, show t.val / 8 = (t.val - 1) / 8 from by omega]
      refine Eq.trans ?_ (Finset.sum_range_succ _ ((t.val - 1) % 8 + 1)).symm
      refine congrArg _ (Finset.sum_congr rfl fun p _ => congrArg (fun r => hrow1 V c r j * hrow1 V c r j) ?_)
      omega

/-! ## The three result arrays -/

/-- The projected array: entry (r, j) is the projection of row r. -/
abbrev projArr1 : S65536x256.Idx → EReal := fun i => hrow1 V c (i 0).val ⟨(i 1).val, idx2_lt1 i⟩
/-- The column sums: every row of core q's 8-row block holds the sum over the core's 32768 rows. -/
abbrev sumArr1 : S16x256.Idx → EReal := fun i => ∑ q : Fin 32768, hrow1 V c (32768 * ((i 0).val / 8) + q.val) ⟨(i 1).val, idx2_lt1 i⟩
/-- The column sums of squares, likewise. -/
abbrev sumsqArr1 : S16x256.Idx → EReal := fun i => ∑ q : Fin 32768,
  hrow1 V c (32768 * ((i 0).val / 8) + q.val) ⟨(i 1).val, idx2_lt1 i⟩ * hrow1 V c (32768 * ((i 0).val / 8) + q.val) ⟨(i 1).val, idx2_lt1 i⟩

/-- A block is the read of an array through step t's window as soon as it agrees with it entry by entry. -/
theorem blk1_3_ext (t : Fin cfg1.N) (G : S65536x256.Idx → EReal) (b : S4096x256.Idx → EReal)
    (key : ∀ y : S4096x256.Idx, b y = G (((cfg1.win 3).blk t).view.emb y)) :
    b = ((cfg1.win 3).blk t).view.read (Elt Ideal) G := funext key
theorem blk1_4_ext (t : Fin cfg1.N) (G : S16x256.Idx → EReal) (b : S8x256.Idx → EReal)
    (key : ∀ y : S8x256.Idx, b y = G (((cfg1.win 4).blk t).view.emb y)) :
    b = ((cfg1.win 4).blk t).view.read (Elt Ideal) G := funext key
theorem blk1_5_ext (t : Fin cfg1.N) (G : S16x256.Idx → EReal) (b : S8x256.Idx → EReal)
    (key : ∀ y : S8x256.Idx, b y = G (((cfg1.win 5).blk t).view.emb y)) :
    b = ((cfg1.win 5).blk t).view.read (Elt Ideal) G := funext key

/-- Every step writes back its block of the projected array. -/
theorem flushed1_3 (t : Fin cfg1.N) (hf : (cfg1.win 3).flush t = true) :
    (dat1 V c).flushed 3 t = ((cfg1.win 3).blk t).view.read (Elt Ideal) (projArr1 V c) := by
  obtain ⟨-, -, -, -, -, -, e0, e1, -⟩ := idx1 t
  show (cfg1.win 3).cut (grid1.coords t) ((dat1 V c).after 3 t) = _
  rw [after1_3, block1_at V c t]
  have key : ∀ y : S4096x256.Idx, (k1_pay6 (iblk1 V c 0 t) (iblk1 V c 1 t) (iblk1 V c 2 t) : S4096x256.Idx → EReal) y
      = projArr1 V c (((cfg1.win 3).blk t).view.emb y) := fun y => by
    obtain ⟨p, j, rfl⟩ : ∃ (p : Fin 4096) (j : Fin 256), y = ix2 p j := ⟨y 0, y 1, eq_ix2 y⟩
    refine (block1_apply (iblk1 V c 0 t) (iblk1 V c 1 t) (iblk1 V c 2 t) p j).trans ((h1_at V c t p j).trans ?_)
    have c0 : ((((cfg1.win 3).blk t).view.emb (ix2 p j)) 0 : ℕ) = 4096 * t.val + p.val := by
      show win1_3.index t (0 : Fin 2) * 4096 + 1 * p.val = _; rw [e0]; omega
    have c1 : ((((cfg1.win 3).blk t).view.emb (ix2 p j)) 1 : ℕ) = j.val := by
      show win1_3.index t (1 : Fin 2) * 256 + 1 * j.val = _; rw [e1]; omega
    show hrow1 V c (4096 * t.val + p.val) j = hrow1 V c ((((cfg1.win 3).blk t).view.emb (ix2 p j)) 0 : ℕ) ⟨((((cfg1.win 3).blk t).view.emb (ix2 p j)) 1 : ℕ), _⟩
    rw [c0]
    exact congrArg (hrow1 V c _) (Fin.ext c1.symm)
  exact blk1_3_ext t (projArr1 V c) _ key

/-- A core's last step (t ≡ 7 mod 8) writes back the accumulator: the sums over the core's 32768 rows. -/
theorem flushed1_4 (t : Fin cfg1.N) (hf : (cfg1.win 4).flush t = true) :
    (dat1 V c).flushed 4 t = ((cfg1.win 4).blk t).view.read (Elt Ideal) (sumArr1 V c) := by
  have h7 : t.val % 8 = 7 := (flush1_4 t).mp hf
  obtain ⟨-, -, -, -, -, -, -, -, e0, e1, -⟩ := idx1 t
  show (cfg1.win 4).cut (grid1.coords t) ((dat1 V c).after 4 t) = _
  rw [after1_4]
  have key : ∀ y : S8x256.Idx, ((outsAt1 V c t.val t.isLt).2.1 : S8x256.Idx → EReal) y
      = sumArr1 V c (((cfg1.win 4).blk t).view.emb y) := fun y => by
    obtain ⟨a, j, rfl⟩ : ∃ (a : Fin 8) (j : Fin 256), y = ix2 a j := ⟨y 0, y 1, eq_ix2 y⟩
    rw [sum1_run V c a j t.val t rfl, h7]
    refine (sum_steps (fun r => hrow1 V c r j) (t.val / 8)).trans ?_
    have c0 : ((((cfg1.win 4).blk t).view.emb (ix2 a j)) 0 : ℕ) = t.val / 8 * 8 + a.val := by
      show win1_4.index t (0 : Fin 2) * 8 + 1 * a.val = _; rw [e0]; omega
    have c1 : ((((cfg1.win 4).blk t).view.emb (ix2 a j)) 1 : ℕ) = j.val := by
      show win1_4.index t (1 : Fin 2) * 256 + 1 * j.val = _; rw [e1]; omega
    show _ = ∑ q : Fin 32768, hrow1 V c (32768 * (((((cfg1.win 4).blk t).view.emb (ix2 a j)) 0 : ℕ) / 8) + q.val) ⟨((((cfg1.win 4).blk t).view.emb (ix2 a j)) 1 : ℕ), _⟩
    rw [c0]
    refine Finset.sum_congr rfl fun q _ => ?_
    rw [show (t.val / 8 * 8 + a.val) / 8 = t.val / 8 from by have := a.isLt; omega]
    exact congrArg (hrow1 V c _) (Fin.ext c1.symm)
  exact blk1_4_ext t (sumArr1 V c) _ key

/-- A core's last step writes back the second accumulator: the sums of squares over the core's 32768 rows. -/
theorem flushed1_5 (t : Fin cfg1.N) (hf : (cfg1.win 5).flush t = true) :
    (dat1 V c).flushed 5 t = ((cfg1.win 5).blk t).view.read (Elt Ideal) (sumsqArr1 V c) := by
  have h7 : t.val % 8 = 7 := (flush1_5 t).mp hf
  obtain ⟨-, -, -, -, -, -, -, -, -, -, e0, e1⟩ := idx1 t
  show (cfg1.win 5).cut (grid1.coords t) ((dat1 V c).after 5 t) = _
  rw [after1_5]
  have key : ∀ y : S8x256.Idx, ((outsAt1 V c t.val t.isLt).2.2 : S8x256.Idx → EReal) y
      = sumsqArr1 V c (((cfg1.win 5).blk t).view.emb y) := fun y => by
    obtain ⟨a, j, rfl⟩ : ∃ (a : Fin 8) (j : Fin 256), y = ix2 a j := ⟨y 0, y 1, eq_ix2 y⟩
    rw [sumsq1_run V c a j t.val t rfl, h7]
    refine (sum_steps (fun r => hrow1 V c r j * hrow1 V c r j) (t.val / 8)).trans ?_
    have c0 : ((((cfg1.win 5).blk t).view.emb (ix2 a j)) 0 : ℕ) = t.val / 8 * 8 + a.val := by
      show win1_5.index t (0 : Fin 2) * 8 + 1 * a.val = _; rw [e0]; omega
    have c1 : ((((cfg1.win 5).blk t).view.emb (ix2 a j)) 1 : ℕ) = j.val := by
      show win1_5.index t (1 : Fin 2) * 256 + 1 * j.val = _; rw [e1]; omega
    show _ = ∑ q : Fin 32768,
      hrow1 V c (32768 * (((((cfg1.win 5).blk t).view.emb (ix2 a j)) 0 : ℕ) / 8) + q.val) ⟨((((cfg1.win 5).blk t).view.emb (ix2 a j)) 1 : ℕ), _⟩
        * hrow1 V c (32768 * (((((cfg1.win 5).blk t).view.emb (ix2 a j)) 0 : ℕ) / 8) + q.val) ⟨((((cfg1.win 5).blk t).view.emb (ix2 a j)) 1 : ℕ), _⟩
    rw [c0]
    refine Finset.sum_congr rfl fun q _ => ?_
    rw [show (t.val / 8 * 8 + a.val) / 8 = t.val / 8 from by have := a.isLt; omega]
    rw [show (⟨((((cfg1.win 5).blk t).view.emb (ix2 a j)) 1 : ℕ), idx2_lt1 _⟩ : Fin 256) = j from Fin.ext c1]
  exact blk1_5_ext t (sumsqArr1 V c) _ key

/-- An index is in step t's block of the projected array iff each coordinate is in the block's range. -/
theorem mem_blk1_3 (t : Fin cfg1.N) (i : S65536x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v12_0).slice (win1_3.rect t)).set ↔ _
  rw [View.set_slice_whole, Rect.mem_set_unit]
  exact Iff.rfl
theorem mem_blk1_4 (t : Fin cfg1.N) (i : S16x256.Idx) :
    i ∈ ((cfg1.win 4).blk t).view.set ↔ ∀ a : Fin 2, win1_4.index t a * S8x256.size a ≤ (i a).val ∧ (i a).val < win1_4.index t a * S8x256.size a + S8x256.size a := by
  show i ∈ ((View.whole main_v12_1).slice (win1_4.rect t)).set ↔ _
  rw [View.set_slice_whole, Rect.mem_set_unit]
  exact Iff.rfl
theorem mem_blk1_5 (t : Fin cfg1.N) (i : S16x256.Idx) :
    i ∈ ((cfg1.win 5).blk t).view.set ↔ ∀ a : Fin 2, win1_5.index t a * S8x256.size a ≤ (i a).val ∧ (i a).val < win1_5.index t a * S8x256.size a + S8x256.size a := by
  show i ∈ ((View.whole main_v12_2).slice (win1_5.rect t)).set ↔ _
  rw [View.set_slice_whole, Rect.mem_set_unit]
  exact Iff.rfl

/-- Row r of the projected array is written back by step r / 4096. -/
theorem cover1_3 (i : S65536x256.Idx) : ∃ t : Fin cfg1.N, (cfg1.win 3).flush t = true ∧ i ∈ ((cfg1.win 3).blk t).view.set := by
  have hi0 : (i 0).val < 65536 := idx2_lt0 i
  have hi1 : (i 1).val < 256 := idx2_lt1 i
  have hN : cfg1.N = 16 := N_1
  have ht : (i 0).val / 4096 < cfg1.N := by rw [hN]; omega
  obtain ⟨-, -, -, -, -, -, e0, e1, -⟩ := idx1 ⟨(i 0).val / 4096, ht⟩
  refine ⟨⟨(i 0).val / 4096, ht⟩, flush1_3 _, ?_⟩
  rw [mem_blk1_3]
  intro a
  match a with
  | ⟨0, _⟩ =>
    show win1_3.index ⟨(i 0).val / 4096, ht⟩ (0 : Fin 2) * 4096 ≤ (i 0).val ∧ (i 0).val < win1_3.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win1_3.index ⟨(i 0).val / 4096, ht⟩ (1 : Fin 2) * 256 ≤ (i 1).val ∧ (i 1).val < win1_3.index ⟨(i 0).val / 4096, ht⟩ (1 : Fin 2) * 256 + 256
    rw [e1]; omega

/-- Row a of the column sums is written back by the last step of core a / 8. -/
theorem cover1_4 (i : S16x256.Idx) : ∃ t : Fin cfg1.N, (cfg1.win 4).flush t = true ∧ i ∈ ((cfg1.win 4).blk t).view.set := by
  have hi0 : (i 0).val < 16 := idx2_lt0 i
  have hi1 : (i 1).val < 256 := idx2_lt1 i
  have hN : cfg1.N = 16 := N_1
  have ht : 8 * ((i 0).val / 8) + 7 < cfg1.N := by rw [hN]; omega
  obtain ⟨-, -, -, -, -, -, -, -, e0, e1, -⟩ := idx1 ⟨8 * ((i 0).val / 8) + 7, ht⟩
  refine ⟨⟨8 * ((i 0).val / 8) + 7, ht⟩, (flush1_4 _).mpr (by show (8 * ((i 0).val / 8) + 7) % 8 = 7; omega), ?_⟩
  rw [mem_blk1_4]
  intro a
  match a with
  | ⟨0, _⟩ =>
    show win1_4.index ⟨8 * ((i 0).val / 8) + 7, ht⟩ (0 : Fin 2) * 8 ≤ (i 0).val ∧ (i 0).val < win1_4.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win1_4.index ⟨8 * ((i 0).val / 8) + 7, ht⟩ (1 : Fin 2) * 256 ≤ (i 1).val ∧ (i 1).val < win1_4.index ⟨8 * ((i 0).val / 8) + 7, ht⟩ (1 : Fin 2) * 256 + 256
    rw [e1]; omega

/-- Row a of the column sums of squares is written back by the last step of core a / 8. -/
theorem cover1_5 (i : S16x256.Idx) : ∃ t : Fin cfg1.N, (cfg1.win 5).flush t = true ∧ i ∈ ((cfg1.win 5).blk t).view.set := by
  have hi0 : (i 0).val < 16 := idx2_lt0 i
  have hi1 : (i 1).val < 256 := idx2_lt1 i
  have hN : cfg1.N = 16 := N_1
  have ht : 8 * ((i 0).val / 8) + 7 < cfg1.N := by rw [hN]; omega
  obtain ⟨-, -, -, -, -, -, -, -, -, -, e0, e1⟩ := idx1 ⟨8 * ((i 0).val / 8) + 7, ht⟩
  refine ⟨⟨8 * ((i 0).val / 8) + 7, ht⟩, (flush1_5 _).mpr (by show (8 * ((i 0).val / 8) + 7) % 8 = 7; omega), ?_⟩
  rw [mem_blk1_5]
  intro a
  match a with
  | ⟨0, _⟩ =>
    show win1_5.index ⟨8 * ((i 0).val / 8) + 7, ht⟩ (0 : Fin 2) * 8 ≤ (i 0).val ∧ (i 0).val < win1_5.index ⟨8 * ((i 0).val / 8) + 7, ht⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win1_5.index ⟨8 * ((i 0).val / 8) + 7, ht⟩ (1 : Fin 2) * 256 ≤ (i 1).val ∧ (i 1).val < win1_5.index ⟨8 * ((i 0).val / 8) + 7, ht⟩ (1 : Fin 2) * 256 + 256
    rw [e1]; omega

/-! ## The region's results -/

/-- The projected array after the region: entry (r, j) is Σ_k x r k · W1 k j + b1 j. -/
theorem proj1_block (r : Fin 65536) (j : Fin 256) :
    ((dat1 V c).arrAt 3 cfg1.N : S65536x256.Idx → EReal) (ix2 r j) = proj (inX1 V c) (inW1 V c) (inB1 V c) r j := by
  rw [(dat1 V c).arrAt_eq_of_cover 3 (projArr1 V c) (flushed1_3 V c) (cover1_3)]
  show hrow1 V c r.val ⟨j.val, _⟩ = _
  unfold hrow1
  rw [dif_pos r.isLt]

/-- The column sums after the region: row a holds the sum of the projection over the 32768 rows of core a / 8. -/
theorem proj1_sum (a : Fin 16) (j : Fin 256) :
    ((dat1 V c).arrAt 4 cfg1.N : S16x256.Idx → EReal) (ix2 a j)
      = ∑ q : Fin 32768, proj (inX1 V c) (inW1 V c) (inB1 V c) ⟨32768 * (a.val / 8) + q.val, by omega⟩ j := by
  rw [(dat1 V c).arrAt_eq_of_cover 4 (sumArr1 V c) (flushed1_4 V c) (cover1_4)]
  show ∑ q : Fin 32768, hrow1 V c (32768 * (a.val / 8) + q.val) ⟨j.val, _⟩ = _
  refine Finset.sum_congr rfl fun q _ => ?_
  unfold hrow1
  rw [dif_pos (show 32768 * (a.val / 8) + q.val < 65536 by omega)]

/-- The column sums of squares after the region, likewise. -/
theorem proj1_sumsq (a : Fin 16) (j : Fin 256) :
    ((dat1 V c).arrAt 5 cfg1.N : S16x256.Idx → EReal) (ix2 a j)
      = ∑ q : Fin 32768, proj (inX1 V c) (inW1 V c) (inB1 V c) ⟨32768 * (a.val / 8) + q.val, by omega⟩ j
          * proj (inX1 V c) (inW1 V c) (inB1 V c) ⟨32768 * (a.val / 8) + q.val, by omega⟩ j := by
  rw [(dat1 V c).arrAt_eq_of_cover 5 (sumsqArr1 V c) (flushed1_5 V c) (cover1_5)]
  show ∑ q : Fin 32768, hrow1 V c (32768 * (a.val / 8) + q.val) ⟨j.val, _⟩ * hrow1 V c (32768 * (a.val / 8) + q.val) ⟨j.val, _⟩ = _
  refine Finset.sum_congr rfl fun q _ => ?_
  unfold hrow1
  rw [dif_pos (show 32768 * (a.val / 8) + q.val < 65536 by omega)]

end Cert.KernelIdeal.ProjValue

end
-- ==== Proof.FusedOps.lean ====
/-
  The operations of the fused row-local kernel, each read at one element.

  Every value the kernel's body computes lives on a block of 2048 rows.  The operations that are not pointwise
  are of four kinds, and each is local to a row: a one-row matrix copied down the rows, a column of row results
  viewed as a one-column matrix, a sum along the lanes of a row, and a matrix product whose entry (p, c) is the
  sum over k of row p of the left factor against column c of the right one, accumulated from zero.
-/
import proofs.«166000_j82308753261052_2_alg».proof.Proof.Gen.KernelIdeal
import Idealize.ShloMosaic.Lib.ValueLayout
import Idealize.ShloMosaic.PureOps.Ideal.Laws

noncomputable section

namespace Cert.KernelIdeal.FusedValue

open Idealize.ShloMosaic Idealize.ShloMosaic.ValueIdx Cert.KernelIdeal Cert.KernelIdeal.Gen

/-! ## Pointwise functions at an element -/

section Pointwise
variable {s : Shape} {φ : FTy}

theorem rsqrt_apply (a : FVec Ideal s φ) (i : s.Idx) : rsqrt a i = Ideal.rsqrt (a i) := rfl
theorem sqrt_apply (a : FVec Ideal s φ) (i : s.Idx) : sqrt a i = Ideal.sqrt (a i) := rfl
theorem logistic_apply (a : FVec Ideal s φ) (i : s.Idx) : logistic a i = Ideal.logistic (a i) := rfl
theorem absf_apply (a : FVec Ideal s φ) (i : s.Idx) : absf a i = max (a i) (-(a i)) := rfl

end Pointwise

/-! ## A column of row results -/

/-- A vector of `a` row results viewed as an `a × 1` matrix reads, at (p, 0), the p-th result. -/
theorem shapeCast_col_apply {a : ℕ} {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## A sum along the lanes -/

/-- The sum along the lanes of an `a × b` matrix, at row p, is the sum over the row's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext ax; apply Fin.ext
  match ax with
  | ⟨0, _⟩ => rfl
  | ⟨1, _⟩ => rfl

/-! ## The three matrix products, accumulated from zero -/

/-- A 2048 × 256 block times a 256 × 128 matrix, at (p, c): the sum over k of row p against column c. -/
theorem matmul_256_128_apply {φ₁ φ₂ : FTy} (A : FVec Ideal S2048x256 φ₁) (B : FVec Ideal S256x128 φ₂)
    (p : Fin 2048) (c : Fin 128) :
    matmul dot_S2048x256_S256x128_S2048x128_1_0_0_1_n_n none A B (constant (F := Ideal) S2048x128 .f32 0x00000000#32) (ix2 p c)
      = ∑ k : Fin 256, A (ix2 p k) * B (ix2 k c) := by
  show FloatOps.matmul _ none A B _ (ix2 p c) = _
  rw [Ideal.matmul_constant_zero_apply,
    ← Equiv.sum_comp (contrEquiv1 dot_S2048x256_S256x128_S2048x128_1_0_0_1_n_n 256 rfl rfl).symm]
  refine Finset.sum_congr rfl fun k _ => ?_
  have c2 := contrEquiv1_symm_val dot_S2048x256_S256x128_S2048x128_1_0_0_1_n_n 256 rfl rfl k
  have l2 : dot_S2048x256_S256x128_S2048x128_1_0_0_1_n_n.lhsIdx (ix2 p c) ((contrEquiv1 _ 256 rfl rfl).symm k) = ix2 p k := by
    funext ax; apply Fin.ext
    match ax with
    | ⟨0, _⟩ => simp [DotDims.lhsIdx, dot_S2048x256_S256x128_S2048x128_1_0_0_1_n_n] <;> rfl
    | ⟨1, _⟩ => simp [DotDims.lhsIdx, dot_S2048x256_S256x128_S2048x128_1_0_0_1_n_n]; exact c2
  have r2 : dot_S2048x256_S256x128_S2048x128_1_0_0_1_n_n.rhsIdx (ix2 p c) ((contrEquiv1 _ 256 rfl rfl).symm k) = ix2 k c := by
    funext ax; apply Fin.ext
    match ax with
    | ⟨0, _⟩ => simp [DotDims.rhsIdx, dot_S2048x256_S256x128_S2048x128_1_0_0_1_n_n]; exact c2
    | ⟨1, _⟩ => simp [DotDims.rhsIdx, dot_S2048x256_S256x128_S2048x128_1_0_0_1_n_n] <;> rfl
  rw [l2, r2]

/-- A 2048 × 128 block times a 128 × 64 matrix, at (p, c). -/
theorem matmul_128_64_apply {φ₁ φ₂ : FTy} (A : FVec Ideal S2048x128 φ₁) (B : FVec Ideal S128x64 φ₂)
    (p : Fin 2048) (c : Fin 64) :
    matmul dot_S2048x128_S128x64_S2048x64_1_0_0_1_n_n none A B (constant (F := Ideal) S2048x64 .f32 0x00000000#32) (ix2 p c)
      = ∑ k : Fin 128, A (ix2 p k) * B (ix2 k c) := by
  show FloatOps.matmul _ none A B _ (ix2 p c) = _
  rw [Ideal.matmul_constant_zero_apply,
    ← Equiv.sum_comp (contrEquiv1 dot_S2048x128_S128x64_S2048x64_1_0_0_1_n_n 128 rfl rfl).symm]
  refine Finset.sum_congr rfl fun k _ => ?_
  have c2 := contrEquiv1_symm_val dot_S2048x128_S128x64_S2048x64_1_0_0_1_n_n 128 rfl rfl k
  have l2 : dot_S2048x128_S128x64_S2048x64_1_0_0_1_n_n.lhsIdx (ix2 p c) ((contrEquiv1 _ 128 rfl rfl).symm k) = ix2 p k := by
    funext ax; apply Fin.ext
    match ax with
    | ⟨0, _⟩ => simp [DotDims.lhsIdx, dot_S2048x128_S128x64_S2048x64_1_0_0_1_n_n] <;> rfl
    | ⟨1, _⟩ => simp [DotDims.lhsIdx, dot_S2048x128_S128x64_S2048x64_1_0_0_1_n_n]; exact c2
  have r2 : dot_S2048x128_S128x64_S2048x64_1_0_0_1_n_n.rhsIdx (ix2 p c) ((contrEquiv1 _ 128 rfl rfl).symm k) = ix2 k c := by
    funext ax; apply Fin.ext
    match ax with
    | ⟨0, _⟩ => simp [DotDims.rhsIdx, dot_S2048x128_S128x64_S2048x64_1_0_0_1_n_n]; exact c2
    | ⟨1, _⟩ => simp [DotDims.rhsIdx, dot_S2048x128_S128x64_S2048x64_1_0_0_1_n_n] <;> rfl
  rw [l2, r2]

/-- A 2048 × 64 block times a 64 × 1 column, at (p, c). -/
theorem matmul_64_1_apply {φ₁ φ₂ : FTy} (A : FVec Ideal S2048x64 φ₁) (B : FVec Ideal S64x1 φ₂)
    (p : Fin 2048) (c : Fin 1) :
    matmul dot_S2048x64_S64x1_S2048x1_1_0_0_1_n_n none A B (constant (F := Ideal) S2048x1 .f32 0x00000000#32) (ix2 p c)
      = ∑ k : Fin 64, A (ix2 p k) * B (ix2 k c) := by
  show FloatOps.matmul _ none A B _ (ix2 p c) = _
  rw [Ideal.matmul_constant_zero_apply,
    ← Equiv.sum_comp (contrEquiv1 dot_S2048x64_S64x1_S2048x1_1_0_0_1_n_n 64 rfl rfl).symm]
  refine Finset.sum_congr rfl fun k _ => ?_
  have c2 := contrEquiv1_symm_val dot_S2048x64_S64x1_S2048x1_1_0_0_1_n_n 64 rfl rfl k
  have l2 : dot_S2048x64_S64x1_S2048x1_1_0_0_1_n_n.lhsIdx (ix2 p c) ((contrEquiv1 _ 64 rfl rfl).symm k) = ix2 p k := by
    funext ax; apply Fin.ext
    match ax with
    | ⟨0, _⟩ => simp [DotDims.lhsIdx, dot_S2048x64_S64x1_S2048x1_1_0_0_1_n_n] <;> rfl
    | ⟨1, _⟩ => simp [DotDims.lhsIdx, dot_S2048x64_S64x1_S2048x1_1_0_0_1_n_n]; exact c2
  have r2 : dot_S2048x64_S64x1_S2048x1_1_0_0_1_n_n.rhsIdx (ix2 p c) ((contrEquiv1 _ 64 rfl rfl).symm k) = ix2 k c := by
    funext ax; apply Fin.ext
    match ax with
    | ⟨0, _⟩ => simp [DotDims.rhsIdx, dot_S2048x64_S64x1_S2048x1_1_0_0_1_n_n]; exact c2
    | ⟨1, _⟩ => simp [DotDims.rhsIdx, dot_S2048x64_S64x1_S2048x1_1_0_0_1_n_n] <;> rfl
  rw [l2, r2]

end Cert.KernelIdeal.FusedValue

end
-- ==== Proof.FusedPayloadA.lean ====
/-
  The two normalised rows and the two hidden rows of the fused kernel, read at one element.

  A row of the first projected block is normalised with its column statistics, scaled, shifted and rectified;
  the second block's row is normalised and scaled in one value and shifted and rectified in the next.  Each
  normalised row is then multiplied by W2, shifted by b2 and rectified: the hidden rows p and q of the sample.
-/
import proofs.«166000_j82308753261052_2_alg».proof.Proof.FusedOps
import proofs.«166000_j82308753261052_2_alg».proof.Proof.Gen.KernelIdeal.Skeleton
import proofs.«166000_j82308753261052_2_alg».proof.Proof.Relation

noncomputable section

namespace Cert.KernelIdeal.FusedValue

open Idealize.ShloMosaic Idealize.ShloMosaic.ValueIdx Cert.KernelIdeal Cert.KernelIdeal.Gen
open Cert

/-- The first block's row p, normalised with (μ, v), scaled by γ, shifted by β and rectified, at column q. -/
theorem pay4_apply (v0 : Vec Ideal S2048x256 .bf16) (v6 v8 v10 v16 : Vec Ideal S1x256 .f32) (p : Fin 2048) (q : Fin 256) :
    k2_pay4 (F := Ideal) v0 v6 v8 v10 v16 (ix2 p q)
      = Relation.normRow (fun j => v10 (ix2 0 j)) (fun j => v16 (ix2 0 j)) (fun j => v6 (ix2 0 j)) (fun j => v8 (ix2 0 j))
          (fun j => v0 (ix2 p j)) q := by
  unfold k2_pay4 k2_pay2 k2_pay3
  simp only [maximumf_apply, addf_apply, mulf_apply, subf_apply, broadcastTo_1b_ab_apply, shapeCast_self, extf_apply,
    broadcast_apply, rsqrt_apply]
  rfl

/-- The second block's row p, normalised with (μ, v) and scaled by γ, at column q. -/
theorem pay5_apply (v3 : Vec Ideal S2048x256 .bf16) (v6 v27 v33 : Vec Ideal S1x256 .f32) (p : Fin 2048) (q : Fin 256) :
    k2_pay5 (F := Ideal) v3 v6 v27 v33 (ix2 p q)
      = v6 (ix2 0 q) * (v3 (ix2 p q) - v27 (ix2 0 q)) * Ideal.rsqrt (v33 (ix2 0 q) + Relation.epsBn) := by
  unfold k2_pay5 k2_pay2
  simp only [addf_apply, mulf_apply, subf_apply, broadcastTo_1b_ab_apply, shapeCast_self, extf_apply,
    broadcast_apply, rsqrt_apply]
  rfl

/-- The shift β as loaded. -/
theorem pay3_eq (v8 : Vec Ideal S1x256 .f32) : k2_pay3 (F := Ideal) v8 = v8 := by
  unfold k2_pay3; exact shapeCast_self _ _

/-- The hidden row of a normalised row a: (a · W2 + b2) rectified, at column k. -/
theorem pay8_apply (v26 : FVec Ideal S2048x256 .f32) (v44 : Vec Ideal S256x128 .f32) (v46 : Vec Ideal S1x128 .f32)
    (p : Fin 2048) (k : Fin 128) :
    k2_pay8 (F := Ideal) v26 v44 v46 (ix2 p k)
      = Relation.hidden (fun j k => v44 (ix2 j k)) (fun k => v46 (ix2 0 k)) (fun j => v26 (ix2 p j)) k := by
  unfold k2_pay8 k2_pay6 k2_pay7
  simp only [maximumf_apply, addf_apply, matmul_256_128_apply, truncf_apply, broadcastTo_1b_ab_apply, shapeCast_self,
    broadcast_apply]
  rfl

/-- The second hidden row: the scaled row is first shifted by β and rectified, then taken through W2. -/
theorem pay9_apply (v9 : FVec Ideal S1x256 .f32) (v39 : FVec Ideal S2048x256 .f32) (v44 : Vec Ideal S256x128 .f32)
    (v46 : Vec Ideal S1x128 .f32) (p : Fin 2048) (k : Fin 128) :
    k2_pay9 (F := Ideal) v9 v39 v44 v46 (ix2 p k)
      = Relation.hidden (fun j k => v44 (ix2 j k)) (fun k => v46 (ix2 0 k))
          (fun j => max (v39 (ix2 p j) + v9 (ix2 0 j)) Relation.zero) k := by
  unfold k2_pay9 k2_pay6 k2_pay7
  simp only [maximumf_apply, addf_apply, matmul_256_128_apply, truncf_apply, broadcastTo_1b_ab_apply, shapeCast_self,
    broadcast_apply]
  rfl

end Cert.KernelIdeal.FusedValue

end
-- ==== Proof.FusedPayloadB.lean ====
/-
  The scores of the fused kernel, read at one row.

  From the two hidden rows P and Q of a sample the kernel forms their product, the absolute value of their
  difference and their sum; the cosine score from three lane sums; the learned score from the three products
  with the row blocks of W3, the shift b3, the rectifier and the product with W4; and the clamped affine mix
  of the two scores.
-/
import proofs.«166000_j82308753261052_2_alg».proof.Proof.FusedPayloadA

noncomputable section

namespace Cert.KernelIdeal.FusedValue

open Idealize.ShloMosaic Idealize.ShloMosaic.ValueIdx Cert.KernelIdeal Cert.KernelIdeal.Gen
open Cert

/-- The lane sum of a 2048 × 128 block as the body spells it, at row p. -/
theorem laneSum128_apply (src : FVec Ideal S2048x128 .f32) (h : S2048x128.Reduces [1] S2048)
    (hφ : FKind.Formats .f32) (hacc : (0x00000000#32 : BitVec 32) = 0x00000000#32) (p : Fin 2048) :
    multiReduction .add [1] S2048 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src ?_
  funext ax; apply Fin.ext
  match ax with
  | ⟨0, _⟩ => rfl
  | ⟨1, _⟩ => rfl

section Combined
variable (v9 : FVec Ideal S1x256 .f32) (v26 v39 : FVec Ideal S2048x256 .f32) (v44 : Vec Ideal S256x128 .f32)
  (v46 : Vec Ideal S1x128 .f32) (p : Fin 2048)

/-- The product of the two hidden rows, entry by entry. -/
theorem pay10_apply (k : Fin 128) :
    k2_pay10 (F := Ideal) v9 v26 v39 v44 v46 (ix2 p k)
      = k2_pay8 (F := Ideal) v26 v44 v46 (ix2 p k) * k2_pay9 (F := Ideal) v9 v39 v44 v46 (ix2 p k) := rfl

/-- The absolute value of their difference. -/
theorem pay11_apply (k : Fin 128) :
    k2_pay11 (F := Ideal) v9 v26 v39 v44 v46 (ix2 p k)
      = max (k2_pay8 (F := Ideal) v26 v44 v46 (ix2 p k) - k2_pay9 (F := Ideal) v9 v39 v44 v46 (ix2 p k))
          (-(k2_pay8 (F := Ideal) v26 v44 v46 (ix2 p k) - k2_pay9 (F := Ideal) v9 v39 v44 v46 (ix2 p k))) := rfl

/-- Their sum. -/
theorem pay12_apply (k : Fin 128) :
    k2_pay12 (F := Ideal) v9 v26 v39 v44 v46 (ix2 p k)
      = k2_pay8 (F := Ideal) v26 v44 v46 (ix2 p k) + k2_pay9 (F := Ideal) v9 v39 v44 v46 (ix2 p k) := rfl

/-- The cosine before its clamp: ⟨P, Q⟩ · 1/max(‖P‖, ε) · 1/max(‖Q‖, ε). -/
theorem pay13_apply :
    k2_pay13 (F := Ideal) v9 v26 v39 v44 v46 (ix2 p 0)
      = ((∑ k : Fin 128, k2_pay8 (F := Ideal) v26 v44 v46 (ix2 p k) * k2_pay9 (F := Ideal) v9 v39 v44 v46 (ix2 p k))
          * Ideal.div Relation.one (max (Ideal.sqrt (∑ k : Fin 128,
              k2_pay8 (F := Ideal) v26 v44 v46 (ix2 p k) * k2_pay8 (F := Ideal) v26 v44 v46 (ix2 p k))) Relation.epsNorm))
        * Ideal.div Relation.one (max (Ideal.sqrt (∑ k : Fin 128,
              k2_pay9 (F := Ideal) v9 v39 v44 v46 (ix2 p k) * k2_pay9 (F := Ideal) v9 v39 v44 v46 (ix2 p k))) Relation.epsNorm) := by
  unfold k2_pay13
  simp only [mulf_apply, divf_apply, maximumf_apply, sqrt_apply, broadcast_apply, shapeCast_col_apply]
  rw [laneSum128_apply, laneSum128_apply, laneSum128_apply]
  rfl

end Combined

/-- The learned score of a row from its three combined rows: ((c1·W3a + c2·W3b) + c3·W3c + b3) rectified, times W4, plus b4. -/
theorem pay14_apply (v60 v62 v63 : FVec Ideal S2048x128 .f32) (v91 v94 v97 : Vec Ideal S128x64 .f32)
    (v105 : Vec Ideal S1x64 .f32) (v112 : Vec Ideal S64x1 .f32) (v115 : Vec Ideal S1x1 .f32) (p : Fin 2048) :
    k2_pay14 (F := Ideal) v60 v62 v63 v91 v94 v97 v105 v112 v115 (ix2 p 0)
      = Relation.learned (fun j => v112 (ix2 j 0)) (v115 (ix2 0 0))
          (fun j => max ((((∑ k : Fin 128, v60 (ix2 p k) * v91 (ix2 k j)) + (∑ k : Fin 128, v62 (ix2 p k) * v94 (ix2 k j)))
            + (∑ k : Fin 128, v63 (ix2 p k) * v97 (ix2 k j))) + v105 (ix2 0 j)) Relation.zero) := by
  unfold k2_pay14
  simp only [addf_apply, maximumf_apply, matmul_128_64_apply, matmul_64_1_apply, truncf_apply, broadcastTo_1b_ab_apply,
    shapeCast_self, broadcast_apply]
  rfl

/-- The clamped cosine scaled by α. -/
theorem pay15_apply (v83 : FVec Ideal S2048x1 .f32) (v119 : Vec Ideal S1x1 .f32) (p : Fin 2048) :
    k2_pay15 (F := Ideal) v83 v119 (ix2 p 0)
      = v119 (ix2 0 0) * min Relation.one (max Relation.zero (v83 (ix2 p 0))) := by
  unfold k2_pay15
  simp only [mulf_apply, minimumf_apply, maximumf_apply, broadcastTo_1b_ab_apply, shapeCast_self, broadcast_apply]
  rfl

/-- The clamped mix: clip(a + β · sigmoid(l), 0, 1), a the scaled cosine score and l the learned score. -/
theorem pay1_apply (v118 v122 : FVec Ideal S2048x1 .f32) (v123 : Vec Ideal S1x1 .f32) (p : Fin 2048) :
    k2_pay1 (F := Ideal) v118 v122 v123 (ix2 p 0)
      = min Relation.one (max Relation.zero (v122 (ix2 p 0) + v123 (ix2 0 0) * Ideal.logistic (v118 (ix2 p 0)))) := by
  unfold k2_pay1
  simp only [mulf_apply, addf_apply, minimumf_apply, maximumf_apply, broadcastTo_1b_ab_apply, shapeCast_self,
    broadcast_apply, logistic_apply]
  rfl

end Cert.KernelIdeal.FusedValue

end
-- ==== Proof.FusedPayloadRow.lean ====
/-
  What the fused kernel's body leaves in its output block, read at one row.

  The body loads its eighteen input blocks whole and stores one block whole, so the block it leaves is the
  last value of its arithmetic applied to the loaded blocks.  Row p of that value depends only on row p of the
  two projected blocks and on the small resident arrays: it is the row result of the relation network.
-/
import proofs.«166000_j82308753261052_2_alg».proof.Proof.FusedPayloadB
import proofs.«166000_j82308753261052_2_alg».proof.Proof.Gen.KernelIdeal.Frame
import Idealize.ShloMosaic.Lib.Pipeline.Value

noncomputable section

namespace Cert.KernelIdeal.FusedValue

open Idealize.ShloMosaic Idealize.ShloMosaic.ValueIdx Cert.KernelIdeal Cert.KernelIdeal.Gen
open Cert

/-- The zero offsets of a whole-block access. -/
theorem hz : (![0, 0] : Fin 2 → Nat) = fun _ => 0 := funext fun a => by fin_cases a <;> rfl

/-- Row p of the stored block is the relation network's row result of row p of the two projected blocks. -/
theorem out_row (x0 x1 : Vec Ideal S2048x256 .bf16) (x2 x3 x4 x5 x6 x7 : Vec Ideal S1x256 .f32)
    (x8 : Vec Ideal S256x128 .f32) (x9 : Vec Ideal S1x128 .f32) (x10 x11 x12 : Vec Ideal S128x64 .f32)
    (x13 : Vec Ideal S1x64 .f32) (x14 : Vec Ideal S64x1 .f32) (x15 x16 x17 : Vec Ideal S1x1 .f32) (p : Fin 2048) :
    out2_18 (F := Ideal) x0 x1 x2 x3 x4 x5 x6 x7 x8 x9 x10 x11 x12 x13 x14 x15 x16 x17 (ix2 p 0)
      = Relation.rowOut (fun j => x2 (ix2 0 j)) (fun j => x3 (ix2 0 j)) (fun j => x4 (ix2 0 j)) (fun j => x5 (ix2 0 j))
        (fun j => x6 (ix2 0 j)) (fun j => x7 (ix2 0 j)) (fun j k => x8 (ix2 j k)) (fun k => x9 (ix2 0 k))
        (fun k j => x10 (ix2 k j)) (fun k j => x11 (ix2 k j)) (fun k j => x12 (ix2 k j)) (fun j => x13 (ix2 0 j))
        (fun j => x14 (ix2 j 0)) (x15 (ix2 0 0)) (x16 (ix2 0 0)) (x17 (ix2 0 0))
        (fun j => x0 (ix2 p j)) (fun j => x1 (ix2 p j)) := by
  unfold out2_18
  rw [View.canon_unit_zero hz]
  simp only [View.ld_unit_zero (S := S2048x256) hz, View.ld_unit_zero (S := S1x256) hz, View.ld_unit_zero (S := S256x128) hz,
    View.ld_unit_zero (S := S1x128) hz, View.ld_unit_zero (S := S128x64) hz, View.ld_unit_zero (S := S1x64) hz,
    View.ld_unit_zero (S := S64x1) hz, View.ld_unit_zero (S := S1x1) hz]
  have hP : ∀ k : Fin 128, k2_pay8 (F := Ideal) (k2_pay4 (F := Ideal) x0 x6 x7 x2 x3) x8 x9 (ix2 p k)
      = Relation.hidden (fun j k => x8 (ix2 j k)) (fun k => x9 (ix2 0 k))
          (Relation.normRow (fun j => x2 (ix2 0 j)) (fun j => x3 (ix2 0 j)) (fun j => x6 (ix2 0 j)) (fun j => x7 (ix2 0 j))
            (fun j => x0 (ix2 p j))) k := fun k => by
    rw [pay8_apply]
    exact congrArg (fun a => Relation.hidden (fun j k => x8 (ix2 j k)) (fun k => x9 (ix2 0 k)) a k)
      (funext fun j => pay4_apply x0 x6 x7 x2 x3 p j)
  have hQ : ∀ k : Fin 128, k2_pay9 (F := Ideal) (k2_pay3 (F := Ideal) x7) (k2_pay5 (F := Ideal) x1 x6 x4 x5) x8 x9 (ix2 p k)
      = Relation.hidden (fun j k => x8 (ix2 j k)) (fun k => x9 (ix2 0 k))
          (Relation.normRow (fun j => x4 (ix2 0 j)) (fun j => x5 (ix2 0 j)) (fun j => x6 (ix2 0 j)) (fun j => x7 (ix2 0 j))
            (fun j => x1 (ix2 p j))) k := fun k => by
    rw [pay9_apply, pay3_eq]
    refine congrArg (fun a => Relation.hidden (fun j k => x8 (ix2 j k)) (fun k => x9 (ix2 0 k)) a k) (funext fun j => ?_)
    rw [pay5_apply]
    rfl
  rw [pay1_apply, pay14_apply, pay15_apply, pay13_apply]
  simp only [pay10_apply, pay11_apply, pay12_apply, hP, hQ]
  rfl

end Cert.KernelIdeal.FusedValue

end
-- ==== Proof.FusedBlocks.lean ====
/-
  From the blocks of the fused kernel to its whole output array.

  The grid has 32 points; point t stages rows 2048·t … 2048·t + 2047 of the two projected arrays, all of every
  small array, and writes back rows 2048·t … 2048·t + 2047 of the one-column output.  Row p of the block point t
  writes back is the relation network's row result at row 2048·t + p, so the block is the block of ONE function
  of the output index; the 32 blocks cover the 65536 rows (row r lies in the block of point r / 2048), hence the
  output array ends holding that function.
-/
import proofs.«166000_j82308753261052_2_alg».proof.Proof.FusedPayloadRow

noncomputable section

namespace Cert.KernelIdeal.FusedValue

open Idealize.ShloMosaic Idealize.ShloMosaic.ValueIdx Idealize.ShloMosaic.TcCoe Idealize.SL.Sem
open Cert.KernelIdeal Cert.KernelIdeal.Gen
open Idealize.ShloMosaic.Pipeline (Dat)
open Cert

/-! ## The block indices, decided over the 32 points -/

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx18 : ∀ t : Fin cfg2.N, win2_18.index t (0 : Fin 2) = t.val ∧ win2_18.index t (1 : Fin 2) = 0 :=
  (by decide +kernel : ∀ t : Fin grid2.N, _)
theorem idx2 : ∀ t : Fin cfg2.N, win2_2.index t (0 : Fin 2) = 0 ∧ win2_2.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 2) = 0 ∧ win2_7.index t (1 : Fin 2) = 0 :=
  (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 2) = 0 ∧ win2_9.index t (1 : Fin 2) = 0 :=
  (by decide +kernel : ∀ t : Fin grid2.N, _)
theorem idx10 : ∀ t : Fin cfg2.N, win2_10.index t (0 : Fin 2) = 0 ∧ win2_10.index t (1 : Fin 2) = 0 :=
  (by decide +kernel : ∀ t : Fin grid2.N, _)
theorem idx11 : ∀ t : Fin cfg2.N, win2_11.index t (0 : Fin 2) = 0 ∧ win2_11.index t (1 : Fin 2) = 0 :=
  (by decide +kernel : ∀ t : Fin grid2.N, _)
theorem idx12 : ∀ t : Fin cfg2.N, win2_12.index t (0 : Fin 2) = 0 ∧ win2_12.index t (1 : Fin 2) = 0 :=
  (by decide +kernel : ∀ t : Fin grid2.N, _)
theorem idx13 : ∀ t : Fin cfg2.N, win2_13.index t (0 : Fin 2) = 0 ∧ win2_13.index t (1 : Fin 2) = 0 :=
  (by decide +kernel : ∀ t : Fin grid2.N, _)
theorem idx14 : ∀ t : Fin cfg2.N, win2_14.index t (0 : Fin 2) = 0 ∧ win2_14.index t (1 : Fin 2) = 0 :=
  (by decide +kernel : ∀ t : Fin grid2.N, _)
theorem idx15 : ∀ t : Fin cfg2.N, win2_15.index t (0 : Fin 2) = 0 ∧ win2_15.index t (1 : Fin 2) = 0 :=
  (by decide +kernel : ∀ t : Fin grid2.N, _)
theorem idx16 : ∀ t : Fin cfg2.N, win2_16.index t (0 : Fin 2) = 0 ∧ win2_16.index t (1 : Fin 2) = 0 :=
  (by decide +kernel : ∀ t : Fin grid2.N, _)
theorem idx17 : ∀ t : Fin cfg2.N, win2_17.index t (0 : Fin 2) = 0 ∧ win2_17.index t (1 : Fin 2) = 0 :=
  (by decide +kernel : ∀ t : Fin grid2.N, _)

/-- Row p of point t's block is a row of the array. -/
theorem row_lt (t : Fin cfg2.N) (p : Fin 2048) : t.val * 2048 + p.val < 65536 := by
  have ht : t.val < grid2.N := t.isLt
  have hN : grid2.N = 32 := N_2
  have := p.isLt
  omega

/-- Changing the arguments of the row result to equal ones. -/
theorem rowOut_congr {μ1 μ1' v1 v1' μ2 μ2' v2 v2' γ γ' βb βb' : Fin 256 → EReal} {W2 W2' : Fin 256 → Fin 128 → EReal}
    {b2 b2' : Fin 128 → EReal} {W3a W3a' W3b W3b' W3c W3c' : Fin 128 → Fin 64 → EReal} {b3 b3' : Fin 64 → EReal}
    {W4 W4' : Fin 64 → EReal} {b4 b4' α α' β β' : EReal} {h1 h1' h2 h2' : Fin 256 → EReal}
    (e1 : μ1 = μ1') (e2 : v1 = v1') (e3 : μ2 = μ2') (e4 : v2 = v2') (e5 : γ = γ') (e6 : βb = βb') (e7 : W2 = W2')
    (e8 : b2 = b2') (e9 : W3a = W3a') (e10 : W3b = W3b') (e11 : W3c = W3c') (e12 : b3 = b3') (e13 : W4 = W4')
    (e14 : b4 = b4') (e15 : α = α') (e16 : β = β') (e17 : h1 = h1') (e18 : h2 = h2') :
    Relation.rowOut μ1 v1 μ2 v2 γ βb W2 b2 W3a W3b W3c b3 W4 b4 α β h1 h2
      = Relation.rowOut μ1' v1' μ2' v2' γ' βb' W2' b2' W3a' W3b' W3c' b3' W4' b4' α' β' h1' h2' := by
  subst e1 e2 e3 e4 e5 e6 e7 e8 e9 e10 e11 e12 e13 e14 e15 e16 e17 e18
  rfl

section Region
variable (V : (c : Dev nD) → (b : Ref sig .tc) → Buf (Elt Ideal) ((c : Thread nD τ).loc b)) (c : Dev nD)

/-! ## Each input block, read where it lies in its array -/

theorem iblk_0 (t : Fin cfg2.N) (p : Fin 2048) (b : Fin 256) :
    iblk2 (F := Ideal) V c 0 t (ix2 p b) = (V c (Pipeline.arrRef spec2 0) : S65536x256.Idx → EReal) (ix2 (⟨t.val * 2048 + p.val, row_lt t p⟩ : Fin 65536) b) := by
  obtain ⟨e0, e1⟩ := idx0 t
  show (V c (Pipeline.arrRef spec2 0) : S65536x256.Idx → EReal) (((cfg2.win 0).blk t).view.emb (ix2 p b)) = _
  refine congrArg _ (funext fun ax => Fin.ext ?_)
  match ax with
  | ⟨0, _⟩ => show win2_0.index t (0 : Fin 2) * 2048 + 1 * p.val = t.val * 2048 + p.val; omega
  | ⟨1, _⟩ => show win2_0.index t (1 : Fin 2) * 256 + 1 * b.val = b.val; omega

theorem iblk_1 (t : Fin cfg2.N) (p : Fin 2048) (b : Fin 256) :
    iblk2 (F := Ideal) V c 1 t (ix2 p b) = (V c (Pipeline.arrRef spec2 1) : S65536x256.Idx → EReal) (ix2 (⟨t.val * 2048 + p.val, row_lt t p⟩ : Fin 65536) b) := by
  obtain ⟨e0, e1⟩ := idx1 t
  show (V c (Pipeline.arrRef spec2 1) : S65536x256.Idx → EReal) (((cfg2.win 1).blk t).view.emb (ix2 p b)) = _
  refine congrArg _ (funext fun ax => Fin.ext ?_)
  match ax with
  | ⟨0, _⟩ => show win2_1.index t (0 : Fin 2) * 2048 + 1 * p.val = t.val * 2048 + p.val; omega
  | ⟨1, _⟩ => show win2_1.index t (1 : Fin 2) * 256 + 1 * b.val = b.val; omega

theorem iblk_2 (t : Fin cfg2.N) (a : Fin 1) (b : Fin 256) :
    iblk2 (F := Ideal) V c 2 t (ix2 a b) = (V c (Pipeline.arrRef spec2 2) : S1x256.Idx → EReal) (ix2 a b) := by
  obtain ⟨e0, e1⟩ := idx2 t
  show (V c (Pipeline.arrRef spec2 2) : S1x256.Idx → EReal) (((cfg2.win 2).blk t).view.emb (ix2 a b)) = _
  refine congrArg _ (funext fun ax => Fin.ext ?_)
  match ax with
  | ⟨0, _⟩ => show win2_2.index t (0 : Fin 2) * 1 + 1 * a.val = a.val; omega
  | ⟨1, _⟩ => show win2_2.index t (1 : Fin 2) * 256 + 1 * b.val = b.val; omega

theorem iblk_3 (t : Fin cfg2.N) (a : Fin 1) (b : Fin 256) :
    iblk2 (F := Ideal) V c 3 t (ix2 a b) = (V c (Pipeline.arrRef spec2 3) : S1x256.Idx → EReal) (ix2 a b) := by
  obtain ⟨e0, e1⟩ := idx3 t
  show (V c (Pipeline.arrRef spec2 3) : S1x256.Idx → EReal) (((cfg2.win 3).blk t).view.emb (ix2 a b)) = _
  refine congrArg _ (funext fun ax => Fin.ext ?_)
  match ax with
  | ⟨0, _⟩ => show win2_3.index t (0 : Fin 2) * 1 + 1 * a.val = a.val; omega
  | ⟨1, _⟩ => show win2_3.index t (1 : Fin 2) * 256 + 1 * b.val = b.val; omega

theorem iblk_4 (t : Fin cfg2.N) (a : Fin 1) (b : Fin 256) :
    iblk2 (F := Ideal) V c 4 t (ix2 a b) = (V c (Pipeline.arrRef spec2 4) : S1x256.Idx → EReal) (ix2 a b) := by
  obtain ⟨e0, e1⟩ := idx4 t
  show (V c (Pipeline.arrRef spec2 4) : S1x256.Idx → EReal) (((cfg2.win 4).blk t).view.emb (ix2 a b)) = _
  refine congrArg _ (funext fun ax => Fin.ext ?_)
  match ax with
  | ⟨0, _⟩ => show win2_4.index t (0 : Fin 2) * 1 + 1 * a.val = a.val; omega
  | ⟨1, _⟩ => show win2_4.index t (1 : Fin 2) * 256 + 1 * b.val = b.val; omega

theorem iblk_5 (t : Fin cfg2.N) (a : Fin 1) (b : Fin 256) :
    iblk2 (F := Ideal) V c 5 t (ix2 a b) = (V c (Pipeline.arrRef spec2 5) : S1x256.Idx → EReal) (ix2 a b) := by
  obtain ⟨e0, e1⟩ := idx5 t
  show (V c (Pipeline.arrRef spec2 5) : S1x256.Idx → EReal) (((cfg2.win 5).blk t).view.emb (ix2 a b)) = _
  refine congrArg _ (funext fun ax => Fin.ext ?_)
  match ax with
  | ⟨0, _⟩ => show win2_5.index t (0 : Fin 2) * 1 + 1 * a.val = a.val; omega
  | ⟨1, _⟩ => show win2_5.index t (1 : Fin 2) * 256 + 1 * b.val = b.val; omega

theorem iblk_6 (t : Fin cfg2.N) (a : Fin 1) (b : Fin 256) :
    iblk2 (F := Ideal) V c 6 t (ix2 a b) = (V c (Pipeline.arrRef spec2 6) : S1x256.Idx → EReal) (ix2 a b) := by
  obtain ⟨e0, e1⟩ := idx6 t
  show (V c (Pipeline.arrRef spec2 6) : S1x256.Idx → EReal) (((cfg2.win 6).blk t).view.emb (ix2 a b)) = _
  refine congrArg _ (funext fun ax => Fin.ext ?_)
  match ax with
  | ⟨0, _⟩ => show win2_6.index t (0 : Fin 2) * 1 + 1 * a.val = a.val; omega
  | ⟨1, _⟩ => show win2_6.index t (1 : Fin 2) * 256 + 1 * b.val = b.val; omega

theorem iblk_7 (t : Fin cfg2.N) (a : Fin 1) (b : Fin 256) :
    iblk2 (F := Ideal) V c 7 t (ix2 a b) = (V c (Pipeline.arrRef spec2 7) : S1x256.Idx → EReal) (ix2 a b) := by
  obtain ⟨e0, e1⟩ := idx7 t
  show (V c (Pipeline.arrRef spec2 7) : S1x256.Idx → EReal) (((cfg2.win 7).blk t).view.emb (ix2 a b)) = _
  refine congrArg _ (funext fun ax => Fin.ext ?_)
  match ax with
  | ⟨0, _⟩ => show win2_7.index t (0 : Fin 2) * 1 + 1 * a.val = a.val; omega
  | ⟨1, _⟩ => show win2_7.index t (1 : Fin 2) * 256 + 1 * b.val = b.val; omega

theorem iblk_8 (t : Fin cfg2.N) (a : Fin 256) (b : Fin 128) :
    iblk2 (F := Ideal) V c 8 t (ix2 a b) = (V c (Pipeline.arrRef spec2 8) : S256x128.Idx → EReal) (ix2 a b) := by
  obtain ⟨e0, e1⟩ := idx8 t
  show (V c (Pipeline.arrRef spec2 8) : S256x128.Idx → EReal) (((cfg2.win 8).blk t).view.emb (ix2 a b)) = _
  refine congrArg _ (funext fun ax => Fin.ext ?_)
  match ax with
  | ⟨0, _⟩ => show win2_8.index t (0 : Fin 2) * 256 + 1 * a.val = a.val; omega
  | ⟨1, _⟩ => show win2_8.index t (1 : Fin 2) * 128 + 1 * b.val = b.val; omega

theorem iblk_9 (t : Fin cfg2.N) (a : Fin 1) (b : Fin 128) :
    iblk2 (F := Ideal) V c 9 t (ix2 a b) = (V c (Pipeline.arrRef spec2 9) : S1x128.Idx → EReal) (ix2 a b) := by
  obtain ⟨e0, e1⟩ := idx9 t
  show (V c (Pipeline.arrRef spec2 9) : S1x128.Idx → EReal) (((cfg2.win 9).blk t).view.emb (ix2 a b)) = _
  refine congrArg _ (funext fun ax => Fin.ext ?_)
  match ax with
  | ⟨0, _⟩ => show win2_9.index t (0 : Fin 2) * 1 + 1 * a.val = a.val; omega
  | ⟨1, _⟩ => show win2_9.index t (1 : Fin 2) * 128 + 1 * b.val = b.val; omega

theorem iblk_10 (t : Fin cfg2.N) (a : Fin 128) (b : Fin 64) :
    iblk2 (F := Ideal) V c 10 t (ix2 a b) = (V c (Pipeline.arrRef spec2 10) : S128x64.Idx → EReal) (ix2 a b) := by
  obtain ⟨e0, e1⟩ := idx10 t
  show (V c (Pipeline.arrRef spec2 10) : S128x64.Idx → EReal) (((cfg2.win 10).blk t).view.emb (ix2 a b)) = _
  refine congrArg _ (funext fun ax => Fin.ext ?_)
  match ax with
  | ⟨0, _⟩ => show win2_10.index t (0 : Fin 2) * 128 + 1 * a.val = a.val; omega
  | ⟨1, _⟩ => show win2_10.index t (1 : Fin 2) * 64 + 1 * b.val = b.val; omega

theorem iblk_11 (t : Fin cfg2.N) (a : Fin 128) (b : Fin 64) :
    iblk2 (F := Ideal) V c 11 t (ix2 a b) = (V c (Pipeline.arrRef spec2 11) : S128x64.Idx → EReal) (ix2 a b) := by
  obtain ⟨e0, e1⟩ := idx11 t
  show (V c (Pipeline.arrRef spec2 11) : S128x64.Idx → EReal) (((cfg2.win 11).blk t).view.emb (ix2 a b)) = _
  refine congrArg _ (funext fun ax => Fin.ext ?_)
  match ax with
  | ⟨0, _⟩ => show win2_11.index t (0 : Fin 2) * 128 + 1 * a.val = a.val; omega
  | ⟨1, _⟩ => show win2_11.index t (1 : Fin 2) * 64 + 1 * b.val = b.val; omega

theorem iblk_12 (t : Fin cfg2.N) (a : Fin 128) (b : Fin 64) :
    iblk2 (F := Ideal) V c 12 t (ix2 a b) = (V c (Pipeline.arrRef spec2 12) : S128x64.Idx → EReal) (ix2 a b) := by
  obtain ⟨e0, e1⟩ := idx12 t
  show (V c (Pipeline.arrRef spec2 12) : S128x64.Idx → EReal) (((cfg2.win 12).blk t).view.emb (ix2 a b)) = _
  refine congrArg _ (funext fun ax => Fin.ext ?_)
  match ax with
  | ⟨0, _⟩ => show win2_12.index t (0 : Fin 2) * 128 + 1 * a.val = a.val; omega
  | ⟨1, _⟩ => show win2_12.index t (1 : Fin 2) * 64 + 1 * b.val = b.val; omega

theorem iblk_13 (t : Fin cfg2.N) (a : Fin 1) (b : Fin 64) :
    iblk2 (F := Ideal) V c 13 t (ix2 a b) = (V c (Pipeline.arrRef spec2 13) : S1x64.Idx → EReal) (ix2 a b) := by
  obtain ⟨e0, e1⟩ := idx13 t
  show (V c (Pipeline.arrRef spec2 13) : S1x64.Idx → EReal) (((cfg2.win 13).blk t).view.emb (ix2 a b)) = _
  refine congrArg _ (funext fun ax => Fin.ext ?_)
  match ax with
  | ⟨0, _⟩ => show win2_13.index t (0 : Fin 2) * 1 + 1 * a.val = a.val; omega
  | ⟨1, _⟩ => show win2_13.index t (1 : Fin 2) * 64 + 1 * b.val = b.val; omega

theorem iblk_14 (t : Fin cfg2.N) (a : Fin 64) (b : Fin 1) :
    iblk2 (F := Ideal) V c 14 t (ix2 a b) = (V c (Pipeline.arrRef spec2 14) : S64x1.Idx → EReal) (ix2 a b) := by
  obtain ⟨e0, e1⟩ := idx14 t
  show (V c (Pipeline.arrRef spec2 14) : S64x1.Idx → EReal) (((cfg2.win 14).blk t).view.emb (ix2 a b)) = _
  refine congrArg _ (funext fun ax => Fin.ext ?_)
  match ax with
  | ⟨0, _⟩ => show win2_14.index t (0 : Fin 2) * 64 + 1 * a.val = a.val; omega
  | ⟨1, _⟩ => show win2_14.index t (1 : Fin 2) * 1 + 1 * b.val = b.val; omega

theorem iblk_15 (t : Fin cfg2.N) (a : Fin 1) (b : Fin 1) :
    iblk2 (F := Ideal) V c 15 t (ix2 a b) = (V c (Pipeline.arrRef spec2 15) : S1x1.Idx → EReal) (ix2 a b) := by
  obtain ⟨e0, e1⟩ := idx15 t
  show (V c (Pipeline.arrRef spec2 15) : S1x1.Idx → EReal) (((cfg2.win 15).blk t).view.emb (ix2 a b)) = _
  refine congrArg _ (funext fun ax => Fin.ext ?_)
  match ax with
  | ⟨0, _⟩ => show win2_15.index t (0 : Fin 2) * 1 + 1 * a.val = a.val; omega
  | ⟨1, _⟩ => show win2_15.index t (1 : Fin 2) * 1 + 1 * b.val = b.val; omega

theorem iblk_16 (t : Fin cfg2.N) (a : Fin 1) (b : Fin 1) :
    iblk2 (F := Ideal) V c 16 t (ix2 a b) = (V c (Pipeline.arrRef spec2 16) : S1x1.Idx → EReal) (ix2 a b) := by
  obtain ⟨e0, e1⟩ := idx16 t
  show (V c (Pipeline.arrRef spec2 16) : S1x1.Idx → EReal) (((cfg2.win 16).blk t).view.emb (ix2 a b)) = _
  refine congrArg _ (funext fun ax => Fin.ext ?_)
  match ax with
  | ⟨0, _⟩ => show win2_16.index t (0 : Fin 2) * 1 + 1 * a.val = a.val; omega
  | ⟨1, _⟩ => show win2_16.index t (1 : Fin 2) * 1 + 1 * b.val = b.val; omega

theorem iblk_17 (t : Fin cfg2.N) (a : Fin 1) (b : Fin 1) :
    iblk2 (F := Ideal) V c 17 t (ix2 a b) = (V c (Pipeline.arrRef spec2 17) : S1x1.Idx → EReal) (ix2 a b) := by
  obtain ⟨e0, e1⟩ := idx17 t
  show (V c (Pipeline.arrRef spec2 17) : S1x1.Idx → EReal) (((cfg2.win 17).blk t).view.emb (ix2 a b)) = _
  refine congrArg _ (funext fun ax => Fin.ext ?_)
  match ax with
  | ⟨0, _⟩ => show win2_17.index t (0 : Fin 2) * 1 + 1 * a.val = a.val; omega
  | ⟨1, _⟩ => show win2_17.index t (1 : Fin 2) * 1 + 1 * b.val = b.val; omega

/-! ## The output array as one function of the region's arrays -/

/-- The relation network's row result at the output index's row, of the arrays as the region finds them. -/
def G : S65536x1.Idx → EReal := fun i =>
  Relation.rowOut (fun j => (V c (Pipeline.arrRef spec2 2) : S1x256.Idx → EReal) (ix2 0 j)) (fun j => (V c (Pipeline.arrRef spec2 3) : S1x256.Idx → EReal) (ix2 0 j)) (fun j => (V c (Pipeline.arrRef spec2 4) : S1x256.Idx → EReal) (ix2 0 j)) (fun j => (V c (Pipeline.arrRef spec2 5) : S1x256.Idx → EReal) (ix2 0 j))
        (fun j => (V c (Pipeline.arrRef spec2 6) : S1x256.Idx → EReal) (ix2 0 j)) (fun j => (V c (Pipeline.arrRef spec2 7) : S1x256.Idx → EReal) (ix2 0 j)) (fun j k => (V c (Pipeline.arrRef spec2 8) : S256x128.Idx → EReal) (ix2 j k)) (fun k => (V c (Pipeline.arrRef spec2 9) : S1x128.Idx → EReal) (ix2 0 k))
        (fun k j => (V c (Pipeline.arrRef spec2 10) : S128x64.Idx → EReal) (ix2 k j)) (fun k j => (V c (Pipeline.arrRef spec2 11) : S128x64.Idx → EReal) (ix2 k j)) (fun k j => (V c (Pipeline.arrRef spec2 12) : S128x64.Idx → EReal) (ix2 k j)) (fun j => (V c (Pipeline.arrRef spec2 13) : S1x64.Idx → EReal) (ix2 0 j))
        (fun j => (V c (Pipeline.arrRef spec2 14) : S64x1.Idx → EReal) (ix2 j 0)) ((V c (Pipeline.arrRef spec2 15) : S1x1.Idx → EReal) (ix2 0 0)) ((V c (Pipeline.arrRef spec2 16) : S1x1.Idx → EReal) (ix2 0 0)) ((V c (Pipeline.arrRef spec2 17) : S1x1.Idx → EReal) (ix2 0 0))
        (fun j => (V c (Pipeline.arrRef spec2 0) : S65536x256.Idx → EReal) (ix2 (⟨(i 0).val, idx2_lt0 i⟩ : Fin 65536) j)) (fun j => (V c (Pipeline.arrRef spec2 1) : S65536x256.Idx → EReal) (ix2 (⟨(i 0).val, idx2_lt0 i⟩ : Fin 65536) j))

/-- Row p of what the body leaves at point t is the row result at row 2048·t + p. -/
theorem block_row (t : Fin cfg2.N) (p : Fin 2048) :
    out2_18 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (ix2 p 0)
      = G V c (ix2 (⟨t.val * 2048 + p.val, row_lt t p⟩ : Fin 65536) 0) := by
  refine (out_row (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) p).trans ?_
  unfold G
  exact rowOut_congr (funext fun j => iblk_2 V c t 0 j) (funext fun j => iblk_3 V c t 0 j) (funext fun j => iblk_4 V c t 0 j)
    (funext fun j => iblk_5 V c t 0 j) (funext fun j => iblk_6 V c t 0 j) (funext fun j => iblk_7 V c t 0 j)
    (funext fun j => funext fun k => iblk_8 V c t j k) (funext fun k => iblk_9 V c t 0 k)
    (funext fun k => funext fun j => iblk_10 V c t k j) (funext fun k => funext fun j => iblk_11 V c t k j)
    (funext fun k => funext fun j => iblk_12 V c t k j) (funext fun j => iblk_13 V c t 0 j) (funext fun j => iblk_14 V c t j 0)
    (iblk_15 V c t 0 0) (iblk_16 V c t 0 0) (iblk_17 V c t 0 0)
    (funext fun j => iblk_0 V c t p j) (funext fun j => iblk_1 V c t p j)

/-- What point t writes back is block t of `G`. -/
theorem flushed_eq (t : Fin cfg2.N) :
    (dat2 (F := Ideal) V c).flushed 18 t = ((cfg2.win 18).blk t).view.read (Elt Ideal) (G V c) := by
  show (cfg2.win 18).cut (grid2.coords t) ((dat2 (F := Ideal) V c).after 18 t) = _
  rw [after2_18]
  obtain ⟨e0, e1⟩ := idx18 t
  funext y
  obtain ⟨p, u, rfl⟩ : ∃ (p : Fin 2048) (u : Fin 1), y = (ix2 p u : S2048x1.Idx) :=
    ⟨y 0, y 1, eq_ix2 (n0 := 2048) (n1 := 1) y⟩
  obtain rfl : u = 0 := Subsingleton.elim _ _
  refine (block_row V c t p).trans ?_
  show G V c _ = G V c (((cfg2.win 18).blk t).view.emb (ix2 p 0))
  refine congrArg (G V c) (funext fun ax => Fin.ext ?_)
  match ax with
  | ⟨0, _⟩ => show t.val * 2048 + p.val = win2_18.index t (0 : Fin 2) * 2048 + 1 * p.val; omega
  | ⟨1, _⟩ => show 0 = win2_18.index t (1 : Fin 2) * 1 + 1 * 0; omega

/-! ## The cover -/

/-- An index of the output array is in point t's block iff each coordinate is in the block's range. -/
theorem mem_blk (t : Fin cfg2.N) (i : S65536x1.Idx) :
    i ∈ ((cfg2.win 18).blk t).view.set ↔ ∀ a : Fin 2, win2_18.index t a * S2048x1.size a ≤ (i a).val
      ∧ (i a).val < win2_18.index t a * S2048x1.size a + S2048x1.size a := by
  show i ∈ ((View.whole main_v41).slice (win2_18.rect t)).set ↔ _
  rw [View.set_slice_whole, Rect.mem_set_unit]
  exact Iff.rfl

/-- Row r of the output lies in the block of point r / 2048, and every point writes its block back. -/
theorem cover (i : S65536x1.Idx) :
    ∃ t : Fin cfg2.N, (cfg2.win 18).flush t = true ∧ i ∈ ((cfg2.win 18).blk t).view.set := by
  have hi0 : (i 0).val < 65536 := (i 0).isLt
  have hi1 : (i 1).val < 1 := (i 1).isLt
  have hN : grid2.N = 32 := N_2
  have ht : (i 0).val / 2048 < grid2.N := by omega
  refine ⟨⟨(i 0).val / 2048, ht⟩, flush2_18 _, ?_⟩
  rw [mem_blk]
  obtain ⟨e0, e1⟩ := idx18 ⟨(i 0).val / 2048, ht⟩
  intro a
  match a with
  | ⟨0, _⟩ =>
    show win2_18.index ⟨(i 0).val / 2048, ht⟩ (0 : Fin 2) * 2048 ≤ (i 0).val
      ∧ (i 0).val < win2_18.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win2_18.index ⟨(i 0).val / 2048, ht⟩ (1 : Fin 2) * 1 ≤ (i 1).val
      ∧ (i 1).val < win2_18.index ⟨(i 0).val / 2048, ht⟩ (1 : Fin 2) * 1 + 1
    rw [e1]
    omega

/-! ## The output array after the region -/

/-- The output array ends holding `G`. -/
theorem final_eq : (dat2 (F := Ideal) V c).arrAt 18 cfg2.N = G V c :=
  (dat2 (F := Ideal) V c).arrAt_eq_of_cover 18 (G V c) (fun t _ => flushed_eq V c t) (cover)

/-- THE FUSED KERNEL'S VALUE: after the region, row r of its output array is the relation network's row result
    of row r of the two projected arrays and of the small arrays, all as the region finds them. -/
theorem fused_out (r : Fin 65536) :
    (dat2 (F := Ideal) V c).arrAt 18 cfg2.N (ix2 r 0)
      = Relation.rowOut (fun j => (V c (Pipeline.arrRef spec2 2) : S1x256.Idx → EReal) (ix2 0 j)) (fun j => (V c (Pipeline.arrRef spec2 3) : S1x256.Idx → EReal) (ix2 0 j)) (fun j => (V c (Pipeline.arrRef spec2 4) : S1x256.Idx → EReal) (ix2 0 j)) (fun j => (V c (Pipeline.arrRef spec2 5) : S1x256.Idx → EReal) (ix2 0 j))
        (fun j => (V c (Pipeline.arrRef spec2 6) : S1x256.Idx → EReal) (ix2 0 j)) (fun j => (V c (Pipeline.arrRef spec2 7) : S1x256.Idx → EReal) (ix2 0 j)) (fun j k => (V c (Pipeline.arrRef spec2 8) : S256x128.Idx → EReal) (ix2 j k)) (fun k => (V c (Pipeline.arrRef spec2 9) : S1x128.Idx → EReal) (ix2 0 k))
        (fun k j => (V c (Pipeline.arrRef spec2 10) : S128x64.Idx → EReal) (ix2 k j)) (fun k j => (V c (Pipeline.arrRef spec2 11) : S128x64.Idx → EReal) (ix2 k j)) (fun k j => (V c (Pipeline.arrRef spec2 12) : S128x64.Idx → EReal) (ix2 k j)) (fun j => (V c (Pipeline.arrRef spec2 13) : S1x64.Idx → EReal) (ix2 0 j))
        (fun j => (V c (Pipeline.arrRef spec2 14) : S64x1.Idx → EReal) (ix2 j 0)) ((V c (Pipeline.arrRef spec2 15) : S1x1.Idx → EReal) (ix2 0 0)) ((V c (Pipeline.arrRef spec2 16) : S1x1.Idx → EReal) (ix2 0 0)) ((V c (Pipeline.arrRef spec2 17) : S1x1.Idx → EReal) (ix2 0 0))
        (fun j => (V c (Pipeline.arrRef spec2 0) : S65536x256.Idx → EReal) (ix2 r j)) (fun j => (V c (Pipeline.arrRef spec2 1) : S65536x256.Idx → EReal) (ix2 r j)) := by
  have h := congrFun (final_eq V c) (ix2 r 0)
  exact h

end Region

end Cert.KernelIdeal.FusedValue

end
-- ==== Proof.KernelArrays.lean ====
/-
  The projection launches' arrays in terms of the argument arrays: each launch's operands are the data matrix, the
  first layer's weight and its bias row as launched, so what it leaves is the projection of the argument arrays,
  its half-column sums and half-column sums of squares.
-/
import proofs.«166000_j82308753261052_2_alg».proof.Proof.KernelValue
import proofs.«166000_j82308753261052_2_alg».proof.Proof.ProjArrays
import proofs.«166000_j82308753261052_2_alg».proof.Proof.ProjArrays1
import proofs.«166000_j82308753261052_2_alg».proof.Proof.FusedBlocks

set_option maxRecDepth 16384

noncomputable section

namespace Cert.KernelIdeal.KernelValue

open Idealize.ShloMosaic Idealize.ShloMosaic.TcCoe Idealize.ShloMosaic.ValueIdx
open Idealize.SL.Sem
open Cert.KernelIdeal Cert.KernelIdeal.HostStages Cert.KernelIdeal.ProjValue Cert.Relation

variable (m : (ℓ : Loc nD τ sig) → Buf (Elt Ideal) ℓ) (ρ : Dev nD → PrngReg)

theorem inX0_eq (c : Dev nD) : inX0 (Gen.V1 m ρ) c = X1 m c := by
  funext r k
  show in0x m ρ c (ix2 r k) = _
  rw [in0x_eq m ρ c]; rfl
theorem inW0_eq (c : Dev nD) : inW0 (Gen.V1 m ρ) c = Wt1 m c := by
  funext k j
  show in0w m ρ c (ix2 k j) = _
  rw [in0w_eq m ρ c]; rfl
theorem inB0_eq (c : Dev nD) : inB0 (Gen.V1 m ρ) c = Bs1 m c := by
  funext j
  show in0b m ρ c (ix2 0 j) = _
  rw [in0b_apply m ρ c j]; rfl

theorem inX1_eq (c : Dev nD) : inX1 (Gen.V2 m ρ) c = X2 m c := by
  funext r k
  show in1x m ρ c (ix2 r k) = _
  rw [in1x_eq m ρ c]; rfl
theorem inW1_eq (c : Dev nD) : inW1 (Gen.V2 m ρ) c = Wt1 m c := by
  funext k j
  show in1w m ρ c (ix2 k j) = _
  rw [in1w_eq m ρ c]; rfl
theorem inB1_eq (c : Dev nD) : inB1 (Gen.V2 m ρ) c = Bs1 m c := by
  funext j
  show in1b m ρ c (ix2 0 j) = _
  rw [in1b_apply m ρ c j]; rfl

/-- The first projection launch leaves the projection of x1, and its half-column sums in its accumulators. -/
theorem hpre1_apply (c : Dev nD) (r : Fin 65536) (j : Fin 256) : hpre1 m ρ c (ix2 r j) = proj (X1 m c) (Wt1 m c) (Bs1 m c) r j :=
  (proj0_block (Gen.V1 m ρ) c r j).trans (by rw [inX0_eq m ρ c, inW0_eq m ρ c, inB0_eq m ρ c])
theorem sums1_apply (c : Dev nD) (a : Fin 16) (j : Fin 256) :
    sums1 m ρ c (ix2 a j) = ∑ q : Fin 32768, proj (X1 m c) (Wt1 m c) (Bs1 m c) ⟨32768 * (a.val / 8) + q.val, by omega⟩ j :=
  (proj0_sum (Gen.V1 m ρ) c a j).trans (by rw [inX0_eq m ρ c, inW0_eq m ρ c, inB0_eq m ρ c])
theorem sqs1_apply (c : Dev nD) (a : Fin 16) (j : Fin 256) :
    sqs1 m ρ c (ix2 a j) = ∑ q : Fin 32768, proj (X1 m c) (Wt1 m c) (Bs1 m c) ⟨32768 * (a.val / 8) + q.val, by omega⟩ j
      * proj (X1 m c) (Wt1 m c) (Bs1 m c) ⟨32768 * (a.val / 8) + q.val, by omega⟩ j :=
  (proj0_sumsq (Gen.V1 m ρ) c a j).trans (by rw [inX0_eq m ρ c, inW0_eq m ρ c, inB0_eq m ρ c])

/-- The second projection launch leaves the projection of x2, and its half-column sums in its accumulators. -/
theorem hpre2_apply (c : Dev nD) (r : Fin 65536) (j : Fin 256) : hpre2 m ρ c (ix2 r j) = proj (X2 m c) (Wt1 m c) (Bs1 m c) r j :=
  (proj1_block (Gen.V2 m ρ) c r j).trans (by rw [inX1_eq m ρ c, inW1_eq m ρ c, inB1_eq m ρ c])
theorem sums2_apply (c : Dev nD) (a : Fin 16) (j : Fin 256) :
    sums2 m ρ c (ix2 a j) = ∑ q : Fin 32768, proj (X2 m c) (Wt1 m c) (Bs1 m c) ⟨32768 * (a.val / 8) + q.val, by omega⟩ j :=
  (proj1_sum (Gen.V2 m ρ) c a j).trans (by rw [inX1_eq m ρ c, inW1_eq m ρ c, inB1_eq m ρ c])
theorem sqs2_apply (c : Dev nD) (a : Fin 16) (j : Fin 256) :
    sqs2 m ρ c (ix2 a j) = ∑ q : Fin 32768, proj (X2 m c) (Wt1 m c) (Bs1 m c) ⟨32768 * (a.val / 8) + q.val, by omega⟩ j
      * proj (X2 m c) (Wt1 m c) (Bs1 m c) ⟨32768 * (a.val / 8) + q.val, by omega⟩ j :=
  (proj1_sumsq (Gen.V2 m ρ) c a j).trans (by rw [inX1_eq m ρ c, inW1_eq m ρ c, inB1_eq m ρ c])

/-- The program's result at row r is the forward pass with the one-pass variance of the argument arrays. -/
theorem result_apply (c : Dev nD) (r : Fin 65536) :
    resArr m ρ c (ix1 r)
      = out varOnePass (X1 m c) (X2 m c) (Wt1 m c) (Bs1 m c) (Gm m c) (Bt m c) (Wt2 m c) (Bs2 m c) (Wt3 m c) (Bs3 m c) (Wt4 m c) (Bs4 m c) (Al m c) (Be m c) r :=
  result_eq m ρ c r (hpre1_apply m ρ c) (sums1_apply m ρ c) (sqs1_apply m ρ c) (hpre2_apply m ρ c) (sums2_apply m ρ c) (sqs2_apply m ρ c)
    (Cert.KernelIdeal.FusedValue.fused_out (Gen.V4 m ρ) c r)

end Cert.KernelIdeal.KernelValue

end
-- ==== Proof.LibFiniteAll.lean ====
/-
  `jnp.all(jnp.abs(x) < inf)` at the ideal instance: what a finiteness precondition, printed as a host reduce by `and` of
  the comparison against the pattern of +∞, says of each entry — that it is a real number.
-/
import Idealize.ShloMosaic.PureOps.Ideal
import Idealize.ShloMosaic.PureOps.Ideal.Laws
import Idealize.ShloMosaic.Lib.ReduceAll

noncomputable section

namespace Cert.FiniteAll

open Idealize.ShloMosaic

/-- The f32 pattern 0x7F800000 denotes +∞. -/
theorem ofBits_inf : Ideal.ofBits .f32 0x7F800000#32 = (⊤ : EReal) := by simp [Ideal.ofBits, Ideal.ieee]

/-- An extended real whose absolute value compares below +∞ is a real number. -/
theorem real_of_abs_lt_inf (x : EReal) (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape of a scalar result. -/
abbrev Sc : Shape := ⟨0, ![]⟩

instance : Subsingleton Sc.Idx := ⟨fun a b => funext fun d => d.elim0⟩

/-- `jnp.all(|x| < inf)` over an array, as the precondition prints it, gives every entry real. -/
theorem real_of_all {s : Shape} {axes : List (Fin s.rank)} (x : FVec Ideal s .f32)
    (bc : Sc.BroadcastsInDim s (![] : Fin 0 → Fin s.rank)) (rt : s.ReducesTo axes Sc) (h0 : 0 < Sc.numel) (j : Sc.Idx)
    (h : Host.reduce IntOp.andi (cmpf .olt (Host.absf x) (broadcastInDim s ![] bc (constant Sc .f32 0x7F800000#32))) (constantI Sc 1 1#1) rt h0 j = 1#1)
    (i : s.Idx) : ∃ r : ℝ, x i = (r : EReal) := by
  have e := Host.reduce_andi_all _ _ rt h0 j h i
  exact real_of_abs_lt_inf (x i) e

end Cert.FiniteAll

end
-- ==== Proof.FiniteInputs.lean ====
/-
  The finiteness precondition, read entry by entry: it is the conjunction, over the fourteen inputs, of
  "every |x| compares below +∞"; each conjunct gives every entry of its input a real number. The bridge needs this
  of the two data matrices, the first layer's weight and its bias only.
-/
import proofs.«166000_j82308753261052_2_alg».proof.Pre_finite_inputs
import proofs.«166000_j82308753261052_2_alg».proof.Proof.LibFiniteAll
import Idealize.ShloMosaic.Lib.ValueIdx
import Idealize.ShloMosaic.Lib.Affine

set_option maxRecDepth 16384

noncomputable section

namespace Cert.FiniteInputs

open Idealize.ShloMosaic Cert.Pre_finite_inputs

/-- Under the precondition every entry of x1, x2, W1 and b1 is a real number. -/
theorem real_of_pre [hPre : Cert.Pre_finite_inputs.Facts] (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a12 : FVec Ideal S1 .f32) (a13 : FVec Ideal S1 .f32)
    (h : Cert.Pre_finite_inputs.fn (F := Ideal) a0 a1 a2 a3 a4 a5 a6 a7 a8 a9 a10 a11 a12 a13 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, fn_part1, fn_part2, fn_part3, fn_part4] at h0
  obtain ⟨h0, h13⟩ := IntOp.andi_eq_one.mp h0
  obtain ⟨h0, h12⟩ := IntOp.andi_eq_one.mp h0
  obtain ⟨h0, h11⟩ := IntOp.andi_eq_one.mp h0
  obtain ⟨h0, h10⟩ := IntOp.andi_eq_one.mp h0
  obtain ⟨h0, h9⟩ := IntOp.andi_eq_one.mp h0
  obtain ⟨h0, h8⟩ := IntOp.andi_eq_one.mp h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  exact ⟨fun i => Cert.FiniteAll.real_of_all _ _ _ _ _ h0 i, fun i => Cert.FiniteAll.real_of_all _ _ _ _ _ h1 i,
    fun i => Cert.FiniteAll.real_of_all _ _ _ _ _ h2 i, fun i => Cert.FiniteAll.real_of_all _ _ _ _ _ h3 i⟩

end Cert.FiniteInputs

end
-- ==== Proof.RefRun.lean ====
/-
  The reference program's @main as the list of its 187 host operations, the calls of its module-local functions
  (the variance with its select, the rectifiers, the clamps) unfolded at their call sites over each call's own
  buffers, and its run: every weakly fair execution terminates with every buffer of a device at the fold of the
  operations' results over the launch contents. The list is cut into nine consecutive windows that follow the
  computation: the first projection with its column mean and variance; its normalisation and second layer; the
  same two for the second input; the two norms and the clamped cosine; the three pieces of the concatenation;
  the combining layer, the learned score and the sigmoid; the final clamped mix.
-/
import proofs.«166000_j82308753261052_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 32 of 187. -/
abbrev w0 : List (HloOp τ sig (Elt F)) :=
  [ StableHlo.binary main_arg0 main_arg2 main_v0 ((fun l r => Host.dotGeneral dot_S65536x512_S512x256_S65536x256_1_0_0_1_n_n none l r) : (⟨S65536x512, .f32⟩ : BufTy).Contents (Elt F) → (⟨S512x256, .f32⟩ : BufTy).Contents (Elt F) → (⟨S65536x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S65536x256 ![0, 1] bcast_S1x256_S65536x256_0_1 : (⟨S1x256, .f32⟩ : BufTy).Contents (Elt F) → (⟨S65536x256, .f32⟩ : BufTy).Contents (Elt F)),
    StableHlo.binary main_v0 main_v2 main_v3 (addf : (⟨S65536x256, .f32⟩ : BufTy).Contents (Elt F) → (⟨S65536x256, .f32⟩ : BufTy).Contents (Elt F) → (⟨S65536x256, .f32⟩ : BufTy).Contents (Elt F)),
    StableHlo.nullary main_cst (constant S_ .f32 0x00000000#32),
    StableHlo.binary main_v3 main_cst main_v4 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_0 (constant S_ .f32 0x47800000#32),
    StableHlo.unary main_cst_0 main_v5 (broadcastInDim S256 ![] bcast_S_S256 : (⟨S_, .f32⟩ : BufTy).Contents (Elt F) → (⟨S256, .f32⟩ : BufTy).Contents (Elt F)),
    StableHlo.binary main_v4 main_v5 main_v6 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (TRef.of main_v3 : TRef sig ⟨S65536x256, .f32⟩) main_call0.cst main_call0.v0 (fun x v => Host.reduceAdd x v reducesTo_S65536x256_S256_d0 h_S_),
    StableHlo.TRef.unary main_call0.v0 main_call0.v1 (broadcastInDim S1x256 ![1] bcast_S256_S1x256_1),
    StableHlo.TRef.nullary main_call0.cst_0 (constant S_ .f32 0x47800000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S65536x256 ![0, 1] bcast_S1x256_S65536x256_0_1),
    StableHlo.TRef.binary (TRef.of main_v3 : TRef sig ⟨S65536x256, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- Operations 33 … 58 of 187. -/
abbrev w1 : List (HloOp τ sig (Elt F)) :=
  [ StableHlo.unary main_v6 main_v8 (broadcastInDim S1x256 ![1] bcast_S256_S1x256_1 : (⟨S256, .f32⟩ : BufTy).Contents (Elt F) → (⟨S1x256, .f32⟩ : BufTy).Contents (Elt F)),
    StableHlo.unary main_v8 main_v9 (broadcastInDim S65536x256 ![0, 1] bcast_S1x256_S65536x256_0_1 : (⟨S1x256, .f32⟩ : BufTy).Contents (Elt F) → (⟨S65536x256, .f32⟩ : BufTy).Contents (Elt F)),
    StableHlo.binary main_v3 main_v9 main_v10 (subf : (⟨S65536x256, .f32⟩ : BufTy).Contents (Elt F) → (⟨S65536x256, .f32⟩ : BufTy).Contents (Elt F) → (⟨S65536x256, .f32⟩ : BufTy).Contents (Elt F)),
    StableHlo.unary main_arg4 main_v11 (broadcastInDim S1x256 ![1] bcast_S256_S1x256_1 : (⟨S256, .f32⟩ : BufTy).Contents (Elt F) → (⟨S1x256, .f32⟩ : BufTy).Contents (Elt F)),
    StableHlo.unary main_v11 main_v12 (broadcastInDim S65536x256 ![0, 1] bcast_S1x256_S65536x256_0_1 : (⟨S1x256, .f32⟩ : BufTy).Contents (Elt F) → (⟨S65536x256, .f32⟩ : BufTy).Contents (Elt F)),
    StableHlo.binary main_v12 main_v10 main_v13 (mulf : (⟨S65536x256, .f32⟩ : BufTy).Contents (Elt F) → (⟨S65536x256, .f32⟩ : BufTy).Contents (Elt F) → (⟨S65536x256, .f32⟩ : BufTy).Contents (Elt F)),
    StableHlo.nullary main_cst_1 (constant S_ .f32 0x3727C5AC#32),
    StableHlo.unary main_cst_1 main_v14 (broadcastInDim S256 ![] bcast_S_S256 : (⟨S_, .f32⟩ : BufTy).Contents (Elt F) → (⟨S256, .f32⟩ : BufTy).Contents (Elt F)),
    StableHlo.binary main_v7 main_v14 main_v15 (addf : (⟨S256, .f32⟩ : BufTy).Contents (Elt F) → (⟨S256, .f32⟩ : BufTy).Contents (Elt F) → (⟨S256, .f32⟩ : BufTy).Contents (Elt F)),
    StableHlo.unary main_v15 main_v16 (Host.rsqrt : (⟨S256, .f32⟩ : BufTy).Contents (Elt F) → (⟨S256, .f32⟩ : BufTy).Contents (Elt F)),
    StableHlo.unary main_v16 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S65536x256 ![0, 1] bcast_S1x256_S65536x256_0_1 : (⟨S1x256, .f32⟩ : BufTy).Contents (Elt F) → (⟨S65536x256, .f32⟩ : BufTy).Contents (Elt F)),
    StableHlo.binary main_v13 main_v18 main_v19 (mulf : (⟨S65536x256, .f32⟩ : BufTy).Contents (Elt F) → (⟨S65536x256, .f32⟩ : BufTy).Contents (Elt F) → (⟨S65536x256, .f32⟩ : BufTy).Contents (Elt F)),
    StableHlo.unary main_arg5 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S65536x256 ![0, 1] bcast_S1x256_S65536x256_0_1 : (⟨S1x256, .f32⟩ : BufTy).Contents (Elt F) → (⟨S65536x256, .f32⟩ : BufTy).Contents (Elt F)),
    StableHlo.binary main_v19 main_v21 main_v22 (addf : (⟨S65536x256, .f32⟩ : BufTy).Contents (Elt F) → (⟨S65536x256, .f32⟩ : BufTy).Contents (Elt F) → (⟨S65536x256, .f32⟩ : BufTy).Contents (Elt F)),
    StableHlo.TRef.nullary main_call1.cst (constant S_ .f32 0x00000000#32),
    StableHlo.TRef.unary main_call1.cst main_call1.v0 (broadcastInDim S65536x256 ![] bcast_S_S65536x256),
    StableHlo.TRef.binary (TRef.of main_v22 : TRef sig ⟨S65536x256, .f32⟩) main_call1.v0 main_call1.v1 maximumf,
    StableHlo.binary main_v23 main_arg6 main_v24 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_arg7 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S65536x128 ![0, 1] bcast_S1x128_S65536x128_0_1 : (⟨S1x128, .f32⟩ : BufTy).Contents (Elt F) → (⟨S65536x128, .f32⟩ : BufTy).Contents (Elt F)),
    StableHlo.binary main_v24 main_v26 main_v27 (addf : (⟨S65536x128, .f32⟩ : BufTy).Contents (Elt F) → (⟨S65536x128, .f32⟩ : BufTy).Contents (Elt F) → (⟨S65536x128, .f32⟩ : BufTy).Contents (Elt F)),
    StableHlo.TRef.nullary main_call2.cst (constant S_ .f32 0x00000000#32),
    StableHlo.TRef.unary main_call2.cst main_call2.v0 (broadcastInDim S65536x128 ![] bcast_S_S65536x128),
    StableHlo.TRef.binary (TRef.of main_v27 : TRef sig ⟨S65536x128, .f32⟩) main_call2.v0 main_call2.v1 maximumf ]

/-- Operations 59 … 90 of 187. -/
abbrev w2 : List (HloOp τ sig (Elt F)) :=
  [ StableHlo.binary main_arg1 main_arg2 main_v29 ((fun l r => Host.dotGeneral dot_S65536x512_S512x256_S65536x256_1_0_0_1_n_n none l r) : (⟨S65536x512, .f32⟩ : BufTy).Contents (Elt F) → (⟨S512x256, .f32⟩ : BufTy).Contents (Elt F) → (⟨S65536x256, .f32⟩ : BufTy).Contents (Elt F)),
    StableHlo.unary main_arg3 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S65536x256 ![0, 1] bcast_S1x256_S65536x256_0_1 : (⟨S1x256, .f32⟩ : BufTy).Contents (Elt F) → (⟨S65536x256, .f32⟩ : BufTy).Contents (Elt F)),
    StableHlo.binary main_v29 main_v31 main_v32 (addf : (⟨S65536x256, .f32⟩ : BufTy).Contents (Elt F) → (⟨S65536x256, .f32⟩ : BufTy).Contents (Elt F) → (⟨S65536x256, .f32⟩ : BufTy).Contents (Elt F)),
    StableHlo.nullary main_cst_2 (constant S_ .f32 0x00000000#32),
    StableHlo.binary main_v32 main_cst_2 main_v33 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_3 (constant S_ .f32 0x47800000#32),
    StableHlo.unary main_cst_3 main_v34 (broadcastInDim S256 ![] bcast_S_S256 : (⟨S_, .f32⟩ : BufTy).Contents (Elt F) → (⟨S256, .f32⟩ : BufTy).Contents (Elt F)),
    StableHlo.binary main_v33 main_v34 main_v35 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary main_call3.cst (constant S_ .f32 0x00000000#32),
    StableHlo.TRef.binary (TRef.of main_v32 : TRef sig ⟨S65536x256, .f32⟩) main_call3.cst main_call3.v0 (fun x v => Host.reduceAdd x v reducesTo_S65536x256_S256_d0 h_S_),
    StableHlo.TRef.unary main_call3.v0 main_call3.v1 (broadcastInDim S1x256 ![1] bcast_S256_S1x256_1),
    StableHlo.TRef.nullary main_call3.cst_0 (constant S_ .f32 0x47800000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S65536x256 ![0, 1] bcast_S1x256_S65536x256_0_1),
    StableHlo.TRef.binary (TRef.of main_v32 : TRef sig ⟨S65536x256, .f32⟩) main_call3.v4 main_call3.v5 subf,
    StableHlo.TRef.binary main_call3.v5 main_call3.v5 main_call3.v6 mulf,
    StableHlo.TRef.unary (TRef.of main_c_4 : TRef sig ⟨S_, .i32⟩) main_call3.v7 (sitofp .f32),
    StableHlo.TRef.nullary main_call3.cst_1 (constant S_ .f32 0x47800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S65536x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b) ]

/-- Operations 91 … 106 of 187. -/
abbrev w3 : List (HloOp τ sig (Elt F)) :=
  [ StableHlo.unary main_v35 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S65536x256 ![0, 1] bcast_S1x256_S65536x256_0_1 : (⟨S1x256, .f32⟩ : BufTy).Contents (Elt F) → (⟨S65536x256, .f32⟩ : BufTy).Contents (Elt F)),
    StableHlo.binary main_v32 main_v38 main_v39 (subf : (⟨S65536x256, .f32⟩ : BufTy).Contents (Elt F) → (⟨S65536x256, .f32⟩ : BufTy).Contents (Elt F) → (⟨S65536x256, .f32⟩ : BufTy).Contents (Elt F)),
    StableHlo.unary main_arg4 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S65536x256 ![0, 1] bcast_S1x256_S65536x256_0_1 : (⟨S1x256, .f32⟩ : BufTy).Contents (Elt F) → (⟨S65536x256, .f32⟩ : BufTy).Contents (Elt F)),
    StableHlo.binary main_v41 main_v39 main_v42 (mulf : (⟨S65536x256, .f32⟩ : BufTy).Contents (Elt F) → (⟨S65536x256, .f32⟩ : BufTy).Contents (Elt F) → (⟨S65536x256, .f32⟩ : BufTy).Contents (Elt F)),
    StableHlo.nullary main_cst_5 (constant S_ .f32 0x3727C5AC#32),
    StableHlo.unary main_cst_5 main_v43 (broadcastInDim S256 ![] bcast_S_S256 : (⟨S_, .f32⟩ : BufTy).Contents (Elt F) → (⟨S256, .f32⟩ : BufTy).Contents (Elt F)),
    StableHlo.binary main_v36 main_v43 main_v44 (addf : (⟨S256, .f32⟩ : BufTy).Contents (Elt F) → (⟨S256, .f32⟩ : BufTy).Contents (Elt F) → (⟨S256, .f32⟩ : BufTy).Contents (Elt F)),
    StableHlo.unary main_v44 main_v45 (Host.rsqrt : (⟨S256, .f32⟩ : BufTy).Contents (Elt F) → (⟨S256, .f32⟩ : BufTy).Contents (Elt F)),
    StableHlo.unary main_v45 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S65536x256 ![0, 1] bcast_S1x256_S65536x256_0_1 : (⟨S1x256, .f32⟩ : BufTy).Contents (Elt F) → (⟨S65536x256, .f32⟩ : BufTy).Contents (Elt F)),
    StableHlo.binary main_v42 main_v47 main_v48 (mulf : (⟨S65536x256, .f32⟩ : BufTy).Contents (Elt F) → (⟨S65536x256, .f32⟩ : BufTy).Contents (Elt F) → (⟨S65536x256, .f32⟩ : BufTy).Contents (Elt F)),
    StableHlo.unary main_arg5 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S65536x256 ![0, 1] bcast_S1x256_S65536x256_0_1 : (⟨S1x256, .f32⟩ : BufTy).Contents (Elt F) → (⟨S65536x256, .f32⟩ : BufTy).Contents (Elt F)),
    StableHlo.binary main_v48 main_v50 main_v51 (addf : (⟨S65536x256, .f32⟩ : BufTy).Contents (Elt F) → (⟨S65536x256, .f32⟩ : BufTy).Contents (Elt F) → (⟨S65536x256, .f32⟩ : BufTy).Contents (Elt F)) ]

/-- Operations 107 … 116 of 187. -/
abbrev w4 : List (HloOp τ sig (Elt F)) :=
  [ StableHlo.TRef.nullary main_call4.cst (constant S_ .f32 0x00000000#32),
    StableHlo.TRef.unary main_call4.cst main_call4.v0 (broadcastInDim S65536x256 ![] bcast_S_S65536x256),
    StableHlo.TRef.binary (TRef.of main_v51 : TRef sig ⟨S65536x256, .f32⟩) main_call4.v0 main_call4.v1 maximumf,
    StableHlo.binary main_v52 main_arg6 main_v53 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_arg7 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S65536x128 ![0, 1] bcast_S1x128_S65536x128_0_1 : (⟨S1x128, .f32⟩ : BufTy).Contents (Elt F) → (⟨S65536x128, .f32⟩ : BufTy).Contents (Elt F)),
    StableHlo.binary main_v53 main_v55 main_v56 (addf : (⟨S65536x128, .f32⟩ : BufTy).Contents (Elt F) → (⟨S65536x128, .f32⟩ : BufTy).Contents (Elt F) → (⟨S65536x128, .f32⟩ : BufTy).Contents (Elt F)),
    StableHlo.TRef.nullary main_call5.cst (constant S_ .f32 0x00000000#32),
    StableHlo.TRef.unary main_call5.cst main_call5.v0 (broadcastInDim S65536x128 ![] bcast_S_S65536x128),
    StableHlo.TRef.binary (TRef.of main_v56 : TRef sig ⟨S65536x128, .f32⟩) main_call5.v0 main_call5.v1 maximumf ]

/-- Operations 117 … 149 of 187. -/
abbrev w5 : List (HloOp τ sig (Elt F)) :=
  [ StableHlo.binary main_v28 main_v57 main_v58 (mulf : (⟨S65536x128, .f32⟩ : BufTy).Contents (Elt F) → (⟨S65536x128, .f32⟩ : BufTy).Contents (Elt F) → (⟨S65536x128, .f32⟩ : BufTy).Contents (Elt F)),
    StableHlo.nullary main_cst_6 (constant S_ .f32 0x00000000#32),
    StableHlo.binary main_v58 main_cst_6 main_v59 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.binary main_v28 main_v28 main_v60 (mulf : (⟨S65536x128, .f32⟩ : BufTy).Contents (Elt F) → (⟨S65536x128, .f32⟩ : BufTy).Contents (Elt F) → (⟨S65536x128, .f32⟩ : BufTy).Contents (Elt F)),
    StableHlo.nullary main_cst_7 (constant S_ .f32 0x00000000#32),
    StableHlo.binary main_v60 main_cst_7 main_v61 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v61 main_v62 (Host.sqrt : (⟨S65536, .f32⟩ : BufTy).Contents (Elt F) → (⟨S65536, .f32⟩ : BufTy).Contents (Elt F)),
    StableHlo.nullary main_cst_8 (constant S_ .f32 0x26901D7D#32),
    StableHlo.unary main_cst_8 main_v63 (broadcastInDim S65536 ![] bcast_S_S65536 : (⟨S_, .f32⟩ : BufTy).Contents (Elt F) → (⟨S65536, .f32⟩ : BufTy).Contents (Elt F)),
    StableHlo.binary main_v62 main_v63 main_v64 (maximumf : (⟨S65536, .f32⟩ : BufTy).Contents (Elt F) → (⟨S65536, .f32⟩ : BufTy).Contents (Elt F) → (⟨S65536, .f32⟩ : BufTy).Contents (Elt F)),
    StableHlo.nullary main_cst_9 (constant S_ .f32 0x3F800000#32),
    StableHlo.unary main_cst_9 main_v65 (broadcastInDim S65536 ![] bcast_S_S65536 : (⟨S_, .f32⟩ : BufTy).Contents (Elt F) → (⟨S65536, .f32⟩ : BufTy).Contents (Elt F)),
    StableHlo.binary main_v65 main_v64 main_v66 (Host.divf : (⟨S65536, .f32⟩ : BufTy).Contents (Elt F) → (⟨S65536, .f32⟩ : BufTy).Contents (Elt F) → (⟨S65536, .f32⟩ : BufTy).Contents (Elt F)),
    StableHlo.binary main_v57 main_v57 main_v67 (mulf : (⟨S65536x128, .f32⟩ : BufTy).Contents (Elt F) → (⟨S65536x128, .f32⟩ : BufTy).Contents (Elt F) → (⟨S65536x128, .f32⟩ : BufTy).Contents (Elt F)),
    StableHlo.nullary main_cst_10 (constant S_ .f32 0x00000000#32),
    StableHlo.binary main_v67 main_cst_10 main_v68 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v68 main_v69 (Host.sqrt : (⟨S65536, .f32⟩ : BufTy).Contents (Elt F) → (⟨S65536, .f32⟩ : BufTy).Contents (Elt F)),
    StableHlo.nullary main_cst_11 (constant S_ .f32 0x26901D7D#32),
    StableHlo.unary main_cst_11 main_v70 (broadcastInDim S65536 ![] bcast_S_S65536 : (⟨S_, .f32⟩ : BufTy).Contents (Elt F) → (⟨S65536, .f32⟩ : BufTy).Contents (Elt F)),
    StableHlo.binary main_v69 main_v70 main_v71 (maximumf : (⟨S65536, .f32⟩ : BufTy).Contents (Elt F) → (⟨S65536, .f32⟩ : BufTy).Contents (Elt F) → (⟨S65536, .f32⟩ : BufTy).Contents (Elt F)),
    StableHlo.nullary main_cst_12 (constant S_ .f32 0x3F800000#32),
    StableHlo.unary main_cst_12 main_v72 (broadcastInDim S65536 ![] bcast_S_S65536 : (⟨S_, .f32⟩ : BufTy).Contents (Elt F) → (⟨S65536, .f32⟩ : BufTy).Contents (Elt F)),
    StableHlo.binary main_v72 main_v71 main_v73 (Host.divf : (⟨S65536, .f32⟩ : BufTy).Contents (Elt F) → (⟨S65536, .f32⟩ : BufTy).Contents (Elt F) → (⟨S65536, .f32⟩ : BufTy).Contents (Elt F)),
    StableHlo.binary main_v59 main_v66 main_v74 (mulf : (⟨S65536, .f32⟩ : BufTy).Contents (Elt F) → (⟨S65536, .f32⟩ : BufTy).Contents (Elt F) → (⟨S65536, .f32⟩ : BufTy).Contents (Elt F)),
    StableHlo.binary main_v74 main_v73 main_v75 (mulf : (⟨S65536, .f32⟩ : BufTy).Contents (Elt F) → (⟨S65536, .f32⟩ : BufTy).Contents (Elt F) → (⟨S65536, .f32⟩ : BufTy).Contents (Elt F)),
    StableHlo.nullary main_cst_13 (constant S_ .f32 0x00000000#32),
    StableHlo.nullary main_cst_14 (constant S_ .f32 0x3F800000#32),
    StableHlo.TRef.unary (TRef.of main_cst_13 : TRef sig ⟨S_, .f32⟩) main_call6.v0 id,
    StableHlo.TRef.unary main_call6.v0 main_call6.v1 (broadcastInDim S65536 ![] bcast_S_S65536),
    StableHlo.TRef.binary main_call6.v1 (TRef.of main_v75 : TRef sig ⟨S65536, .f32⟩) main_call6.v2 maximumf,
    StableHlo.TRef.unary (TRef.of main_cst_14 : TRef sig ⟨S_, .f32⟩) main_call6.v3 id,
    StableHlo.TRef.unary main_call6.v3 main_call6.v4 (broadcastInDim S65536 ![] bcast_S_S65536),
    StableHlo.TRef.binary main_call6.v4 main_call6.v2 main_call6.v5 minimumf ]

/-- Operations 150 … 153 of 187. -/
abbrev w6 : List (HloOp τ sig (Elt F)) :=
  [ StableHlo.binary main_v28 main_v57 main_v77 (mulf : (⟨S65536x128, .f32⟩ : BufTy).Contents (Elt F) → (⟨S65536x128, .f32⟩ : BufTy).Contents (Elt F) → (⟨S65536x128, .f32⟩ : BufTy).Contents (Elt F)),
    StableHlo.binary main_v28 main_v57 main_v78 (subf : (⟨S65536x128, .f32⟩ : BufTy).Contents (Elt F) → (⟨S65536x128, .f32⟩ : BufTy).Contents (Elt F) → (⟨S65536x128, .f32⟩ : BufTy).Contents (Elt F)),
    StableHlo.unary main_v78 main_v79 (Host.absf : (⟨S65536x128, .f32⟩ : BufTy).Contents (Elt F) → (⟨S65536x128, .f32⟩ : BufTy).Contents (Elt F)),
    StableHlo.binary main_v28 main_v57 main_v80 (addf : (⟨S65536x128, .f32⟩ : BufTy).Contents (Elt F) → (⟨S65536x128, .f32⟩ : BufTy).Contents (Elt F) → (⟨S65536x128, .f32⟩ : BufTy).Contents (Elt F)) ]

/-- Operations 154 … 177 of 187. -/
abbrev w7 : List (HloOp τ sig (Elt F)) :=
  [ StableHlo.nary ![main_v77, main_v79, main_v80] main_v81 (fun u => concatenate S65536x384 1 [⟨S65536x128, u 0⟩, ⟨S65536x128, u 1⟩, ⟨S65536x128, u 2⟩] concatenates_S65536x128_S65536x128_S65536x128_S65536x384_d1),
    StableHlo.binary main_v81 main_arg8 main_v82 ((fun l r => Host.dotGeneral dot_S65536x384_S384x64_S65536x64_1_0_0_1_n_n none l r) : (⟨S65536x384, .f32⟩ : BufTy).Contents (Elt F) → (⟨S384x64, .f32⟩ : BufTy).Contents (Elt F) → (⟨S65536x64, .f32⟩ : BufTy).Contents (Elt F)),
    StableHlo.unary main_arg9 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S65536x64 ![0, 1] bcast_S1x64_S65536x64_0_1 : (⟨S1x64, .f32⟩ : BufTy).Contents (Elt F) → (⟨S65536x64, .f32⟩ : BufTy).Contents (Elt F)),
    StableHlo.binary main_v82 main_v84 main_v85 (addf : (⟨S65536x64, .f32⟩ : BufTy).Contents (Elt F) → (⟨S65536x64, .f32⟩ : BufTy).Contents (Elt F) → (⟨S65536x64, .f32⟩ : BufTy).Contents (Elt F)),
    StableHlo.TRef.nullary main_call7.cst (constant S_ .f32 0x00000000#32),
    StableHlo.TRef.unary main_call7.cst main_call7.v0 (broadcastInDim S65536x64 ![] bcast_S_S65536x64),
    StableHlo.TRef.binary (TRef.of main_v85 : TRef sig ⟨S65536x64, .f32⟩) main_call7.v0 main_call7.v1 maximumf,
    StableHlo.binary main_v86 main_arg10 main_v87 ((fun l r => Host.dotGeneral dot_S65536x64_S64x1_S65536x1_1_0_0_1_n_n none l r) : (⟨S65536x64, .f32⟩ : BufTy).Contents (Elt F) → (⟨S64x1, .f32⟩ : BufTy).Contents (Elt F) → (⟨S65536x1, .f32⟩ : BufTy).Contents (Elt F)),
    StableHlo.unary main_arg11 main_v88 (broadcastInDim S1x1 ![1] bcast_S1_S1x1_1 : (⟨S1, .f32⟩ : BufTy).Contents (Elt F) → (⟨S1x1, .f32⟩ : BufTy).Contents (Elt F)),
    StableHlo.unary main_v88 main_v89 (broadcastInDim S65536x1 ![0, 1] bcast_S1x1_S65536x1_0_1 : (⟨S1x1, .f32⟩ : BufTy).Contents (Elt F) → (⟨S65536x1, .f32⟩ : BufTy).Contents (Elt F)),
    StableHlo.binary main_v87 main_v89 main_v90 (addf : (⟨S65536x1, .f32⟩ : BufTy).Contents (Elt F) → (⟨S65536x1, .f32⟩ : BufTy).Contents (Elt F) → (⟨S65536x1, .f32⟩ : BufTy).Contents (Elt F)),
    StableHlo.reshape main_v90 main_v91 rfl shapeCasts_S65536x1_S65536,
    StableHlo.unary main_arg12 main_v92 (broadcastInDim S65536 ![0] bcast_S1_S65536_0 : (⟨S1, .f32⟩ : BufTy).Contents (Elt F) → (⟨S65536, .f32⟩ : BufTy).Contents (Elt F)),
    StableHlo.binary main_v92 main_v76 main_v93 (mulf : (⟨S65536, .f32⟩ : BufTy).Contents (Elt F) → (⟨S65536, .f32⟩ : BufTy).Contents (Elt F) → (⟨S65536, .f32⟩ : BufTy).Contents (Elt F)),
    StableHlo.unary main_v91 main_v94 (Host.negf : (⟨S65536, .f32⟩ : BufTy).Contents (Elt F) → (⟨S65536, .f32⟩ : BufTy).Contents (Elt F)),
    StableHlo.unary main_v94 main_v95 (Host.exp : (⟨S65536, .f32⟩ : BufTy).Contents (Elt F) → (⟨S65536, .f32⟩ : BufTy).Contents (Elt F)),
    StableHlo.nullary main_cst_15 (constant S_ .f32 0x3F800000#32),
    StableHlo.unary main_cst_15 main_v96 (broadcastInDim S65536 ![] bcast_S_S65536 : (⟨S_, .f32⟩ : BufTy).Contents (Elt F) → (⟨S65536, .f32⟩ : BufTy).Contents (Elt F)),
    StableHlo.binary main_v96 main_v95 main_v97 (addf : (⟨S65536, .f32⟩ : BufTy).Contents (Elt F) → (⟨S65536, .f32⟩ : BufTy).Contents (Elt F) → (⟨S65536, .f32⟩ : BufTy).Contents (Elt F)),
    StableHlo.nullary main_cst_16 (constant S_ .f32 0x3F800000#32),
    StableHlo.unary main_cst_16 main_v98 (broadcastInDim S65536 ![] bcast_S_S65536 : (⟨S_, .f32⟩ : BufTy).Contents (Elt F) → (⟨S65536, .f32⟩ : BufTy).Contents (Elt F)),
    StableHlo.binary main_v98 main_v97 main_v99 (Host.divf : (⟨S65536, .f32⟩ : BufTy).Contents (Elt F) → (⟨S65536, .f32⟩ : BufTy).Contents (Elt F) → (⟨S65536, .f32⟩ : BufTy).Contents (Elt F)),
    StableHlo.unary main_arg13 main_v100 (broadcastInDim S65536 ![0] bcast_S1_S65536_0 : (⟨S1, .f32⟩ : BufTy).Contents (Elt F) → (⟨S65536, .f32⟩ : BufTy).Contents (Elt F)) ]

/-- Operations 178 … 187 of 187. -/
abbrev w8 : List (HloOp τ sig (Elt F)) :=
  [ StableHlo.binary main_v100 main_v99 main_v101 (mulf : (⟨S65536, .f32⟩ : BufTy).Contents (Elt F) → (⟨S65536, .f32⟩ : BufTy).Contents (Elt F) → (⟨S65536, .f32⟩ : BufTy).Contents (Elt F)),
    StableHlo.binary main_v93 main_v101 main_v102 (addf : (⟨S65536, .f32⟩ : BufTy).Contents (Elt F) → (⟨S65536, .f32⟩ : BufTy).Contents (Elt F) → (⟨S65536, .f32⟩ : BufTy).Contents (Elt F)),
    StableHlo.nullary main_cst_17 (constant S_ .f32 0x00000000#32),
    StableHlo.nullary main_cst_18 (constant S_ .f32 0x3F800000#32),
    StableHlo.TRef.unary (TRef.of main_cst_17 : TRef sig ⟨S_, .f32⟩) main_call8.v0 id,
    StableHlo.TRef.unary main_call8.v0 main_call8.v1 (broadcastInDim S65536 ![] bcast_S_S65536),
    StableHlo.TRef.binary main_call8.v1 (TRef.of main_v102 : TRef sig ⟨S65536, .f32⟩) main_call8.v2 maximumf,
    StableHlo.TRef.unary (TRef.of main_cst_18 : TRef sig ⟨S_, .f32⟩) main_call8.v3 id,
    StableHlo.TRef.unary main_call8.v3 main_call8.v4 (broadcastInDim S65536 ![] bcast_S_S65536),
    StableHlo.TRef.binary main_call8.v4 main_call8.v2 main_call8.v5 minimumf ]

/-- The operations of @main's window 0. -/
abbrev p0 : List (HloOp τ sig (Elt F)) := w0 ++ (w1 ++ (w2 ++ (w3)))
/-- The operations of @main's window 1. -/
abbrev p1 : List (HloOp τ sig (Elt F)) := w4 ++ (w5 ++ (w6 ++ (w7)))
/-- The operations of @main's window 2. -/
abbrev p2 : List (HloOp τ sig (Elt F)) := w8

/-- @main's 187 operations, in order. -/
abbrev ops : List (HloOp τ sig (Elt F)) := p0 ++ (p1 ++ p2)

set_option maxRecDepth 16384 in
set_option maxHeartbeats 4000000 in
/-- Window 0 of @main is that straight line: the functions unfold at their calls, the records at their fields. -/
theorem part0_eq (c : Dev nD) : main_part0 (F := F) c = seq p0 := by
  simp only [main_part0, fn_var.body, fn_where.body, fn_relu.body, fn_relu_0.body, fn_relu_1.body, fn_clip.body, bind_assoc, pure_bind]
  rfl

set_option maxRecDepth 16384 in
set_option maxHeartbeats 4000000 in
/-- Window 1 of @main is that straight line: the functions unfold at their calls, the records at their fields. -/
theorem part1_eq (c : Dev nD) : main_part1 (F := F) c = seq p1 := by
  simp only [main_part1, fn_var.body, fn_where.body, fn_relu.body, fn_relu_0.body, fn_relu_1.body, fn_clip.body, bind_assoc, pure_bind]
  rfl

set_option maxRecDepth 16384 in
set_option maxHeartbeats 4000000 in
/-- Window 2 of @main is that straight line: the functions unfold at their calls, the records at their fields. -/
theorem part2_eq (c : Dev nD) : main_part2 (F := F) c = seq p2 := by
  simp only [main_part2, fn_var.body, fn_where.body, fn_relu.body, fn_relu_0.body, fn_relu_1.body, fn_clip.body, bind_assoc, pure_bind]
  rfl

theorem main_eq (c : Dev nD) : main (F := F) c = seq ops :=
  calc main (F := F) c = (main_part0 c >>= fun _ => main_part1 c >>= fun _ => main_part2 c) := rfl
    _ = (seq p0 >>= fun _ => seq p1 >>= fun _ => seq p2) := by rw [part0_eq c, part1_eq c, part2_eq c]
    _ = (seq p0 >>= fun _ => seq (p1 ++ p2)) := congrArg (fun k => seq p0 >>= k) (funext fun _ => (seq_append p1 p2).symm)
    _ = seq (p0 ++ (p1 ++ p2)) := (seq_append p0 (p1 ++ p2)).symm

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem w0_sub : (w0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem w1_sub : (w1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
theorem w2_sub : (w2 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem w3_sub : (w3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
theorem w4_sub : (w4 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
theorem w5_sub : (w5 : List (HloOp τ sig (Elt F))).Forall fun op => op.bufs ⊆ tcRefs τ sig :=
  ⟨binary_bufs_sub .., nullary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
theorem w6_sub : (w6 : List (HloOp τ sig (Elt F))).Forall fun op => op.bufs ⊆ tcRefs τ sig :=
  ⟨binary_bufs_sub .., binary_bufs_sub .., unary_bufs_sub .., binary_bufs_sub ..⟩

set_option maxRecDepth 8192 in
theorem w7_sub : (w7 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub ..⟩

set_option maxRecDepth 8192 in
theorem w8_sub : (w8 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, p0, p1, p2, List.mem_append] at h
    rcases h with (h | h | h | h) | (h | h | h | h) | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h]

theorem w0_fresh : ∀ op ∈ (w0 : List (HloOp τ sig (Elt F))), op.fresh = ∅ := by
  intro _ h; (repeat (cases h with | head => rfl | tail _ h => ?_)); exact nomatch h

theorem w1_fresh : ∀ op ∈ (w1 : List (HloOp τ sig (Elt F))), op.fresh = ∅ := by
  intro _ h; (repeat (cases h with | head => rfl | tail _ h => ?_)); exact nomatch h

theorem w2_fresh : ∀ op ∈ (w2 : List (HloOp τ sig (Elt F))), op.fresh = ∅ := by
  intro _ h; (repeat (cases h with | head => rfl | tail _ h => ?_)); exact nomatch h

theorem w3_fresh : ∀ op ∈ (w3 : List (HloOp τ sig (Elt F))), op.fresh = ∅ := by
  intro _ h; (repeat (cases h with | head => rfl | tail _ h => ?_)); exact nomatch h

theorem w4_fresh : ∀ op ∈ (w4 : List (HloOp τ sig (Elt F))), op.fresh = ∅ := by
  intro _ h; (repeat (cases h with | head => rfl | tail _ h => ?_)); exact nomatch h

theorem w5_fresh : ∀ op ∈ (w5 : List (HloOp τ sig (Elt F))), op.fresh = ∅ := by
  intro _ h; (repeat (cases h with | head => rfl | tail _ h => ?_)); exact nomatch h

theorem w6_fresh : ∀ op ∈ (w6 : List (HloOp τ sig (Elt F))), op.fresh = ∅ := by
  intro _ h; (repeat (cases h with | head => rfl | tail _ h => ?_)); exact nomatch h

theorem w7_fresh : ∀ op ∈ (w7 : List (HloOp τ sig (Elt F))), op.fresh = ∅ := by
  intro _ h; (repeat (cases h with | head => rfl | tail _ h => ?_)); exact nomatch h

theorem w8_fresh : ∀ op ∈ (w8 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, p0, p1, p2, List.mem_append] at h
  rcases h with (h | h | h | h) | (h | h | h | h) | h
  exacts [w0_fresh op h, w1_fresh op h, w2_fresh op h, w3_fresh op h, w4_fresh op h, w5_fresh op h, w6_fresh op h, w7_fresh op h, w8_fresh op h]

/-- At the compiled mesh, for any float values, from any memory with zero counters: every weakly fair execution of
    @main terminates, and every final state has each buffer of a device at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValueStages.lean ====
/-
  The reference's result as a pure function of its fourteen argument arrays, in stages: one definition per operation
  of the straight line — `s_‹buffer›` is what that buffer holds, as a function of the arguments it depends on —, at
  the ideal instance (a float is an extended real). The arguments are x1, x2, W1, b1, gamma, beta_bn, W2, b2, W3, b3,
  W4, b4, alpha, beta, in that order.
-/
import proofs.«166000_j82308753261052_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-! ## The stages -/

def s_main_v0 (a0 : FVec Ideal S65536x512 .f32) (a2 : FVec Ideal S512x256 .f32) : FVec Ideal S65536x256 .f32 :=
  Host.dotGeneral (F := Ideal) dot_S65536x512_S512x256_S65536x256_1_0_0_1_n_n none a0 a2

def s_main_v1 (a3 : FVec Ideal S256 .f32) : FVec Ideal S1x256 .f32 :=
  broadcastInDim S1x256 ![1] bcast_S256_S1x256_1 a3

def s_main_v2 (a3 : FVec Ideal S256 .f32) : FVec Ideal S65536x256 .f32 :=
  broadcastInDim S65536x256 ![0, 1] bcast_S1x256_S65536x256_0_1 (s_main_v1 a3)

def s_main_v3 (a0 : FVec Ideal S65536x512 .f32) (a2 : FVec Ideal S512x256 .f32) (a3 : FVec Ideal S256 .f32) : FVec Ideal S65536x256 .f32 :=
  addf (s_main_v0 a0 a2) (s_main_v2 a3)

def s_main_cst : FVec Ideal S_ .f32 :=
  constant (F := Ideal) S_ .f32 0x00000000#32

def s_main_v4 (a0 : FVec Ideal S65536x512 .f32) (a2 : FVec Ideal S512x256 .f32) (a3 : FVec Ideal S256 .f32) : FVec Ideal S256 .f32 :=
  Host.reduceAdd (F := Ideal) (s_main_v3 a0 a2 a3) s_main_cst reducesTo_S65536x256_S256_d0 h_S_

def s_main_cst_0 : FVec Ideal S_ .f32 :=
  constant (F := Ideal) S_ .f32 0x47800000#32

def s_main_v5 : FVec Ideal S256 .f32 :=
  broadcastInDim S256 ![] bcast_S_S256 s_main_cst_0

def s_main_v6 (a0 : FVec Ideal S65536x512 .f32) (a2 : FVec Ideal S512x256 .f32) (a3 : FVec Ideal S256 .f32) : FVec Ideal S256 .f32 :=
  Host.divf (F := Ideal) (s_main_v4 a0 a2 a3) s_main_v5

def s_main_c : IVec S_ 32 :=
  constantI S_ 32 0#32

def s_main_call0_cst : FVec Ideal S_ .f32 :=
  constant (F := Ideal) S_ .f32 0x00000000#32

def s_main_call0_v0 (a0 : FVec Ideal S65536x512 .f32) (a2 : FVec Ideal S512x256 .f32) (a3 : FVec Ideal S256 .f32) : FVec Ideal S256 .f32 :=
  Host.reduceAdd (F := Ideal) (s_main_v3 a0 a2 a3) s_main_call0_cst reducesTo_S65536x256_S256_d0 h_S_

def s_main_call0_v1 (a0 : FVec Ideal S65536x512 .f32) (a2 : FVec Ideal S512x256 .f32) (a3 : FVec Ideal S256 .f32) : FVec Ideal S1x256 .f32 :=
  broadcastInDim S1x256 ![1] bcast_S256_S1x256_1 (s_main_call0_v0 a0 a2 a3)

def s_main_call0_cst_0 : FVec Ideal S_ .f32 :=
  constant (F := Ideal) S_ .f32 0x47800000#32

def s_main_call0_v2 : FVec Ideal S1x256 .f32 :=
  broadcastInDim S1x256 ![] bcast_S_S1x256 s_main_call0_cst_0

def s_main_call0_v3 (a0 : FVec Ideal S65536x512 .f32) (a2 : FVec Ideal S512x256 .f32) (a3 : FVec Ideal S256 .f32) : FVec Ideal S1x256 .f32 :=
  Host.divf (F := Ideal) (s_main_call0_v1 a0 a2 a3) s_main_call0_v2

def s_main_call0_v4 (a0 : FVec Ideal S65536x512 .f32) (a2 : FVec Ideal S512x256 .f32) (a3 : FVec Ideal S256 .f32) : FVec Ideal S65536x256 .f32 :=
  broadcastInDim S65536x256 ![0, 1] bcast_S1x256_S65536x256_0_1 (s_main_call0_v3 a0 a2 a3)

def s_main_call0_v5 (a0 : FVec Ideal S65536x512 .f32) (a2 : FVec Ideal S512x256 .f32) (a3 : FVec Ideal S256 .f32) : FVec Ideal S65536x256 .f32 :=
  subf (s_main_v3 a0 a2 a3) (s_main_call0_v4 a0 a2 a3)

def s_main_call0_v6 (a0 : FVec Ideal S65536x512 .f32) (a2 : FVec Ideal S512x256 .f32) (a3 : FVec Ideal S256 .f32) : FVec Ideal S65536x256 .f32 :=
  mulf (s_main_call0_v5 a0 a2 a3) (s_main_call0_v5 a0 a2 a3)

def s_main_call0_v7 : FVec Ideal S_ .f32 :=
  sitofp (F := Ideal) .f32 s_main_c

def s_main_call0_cst_1 : FVec Ideal S_ .f32 :=
  constant (F := Ideal) S_ .f32 0x47800000#32

def s_main_call0_v8 : FVec Ideal S_ .f32 :=
  subf s_main_call0_cst_1 s_main_call0_v7

def s_main_call0_cst_2 : FVec Ideal S_ .f32 :=
  constant (F := Ideal) S_ .f32 0x00000000#32

def s_main_call0_v9 (a0 : FVec Ideal S65536x512 .f32) (a2 : FVec Ideal S512x256 .f32) (a3 : FVec Ideal S256 .f32) : FVec Ideal S256 .f32 :=
  Host.reduceAdd (F := Ideal) (s_main_call0_v6 a0 a2 a3) s_main_call0_cst_2 reducesTo_S65536x256_S256_d0 h_S_

def s_main_call0_v10 : FVec Ideal S256 .f32 :=
  broadcastInDim S256 ![] bcast_S_S256 s_main_call0_v8

def s_main_call0_v11 (a0 : FVec Ideal S65536x512 .f32) (a2 : FVec Ideal S512x256 .f32) (a3 : FVec Ideal S256 .f32) : FVec Ideal S256 .f32 :=
  Host.divf (F := Ideal) (s_main_call0_v9 a0 a2 a3) s_main_call0_v10

def s_main_call0_cst_3 : FVec Ideal S_ .f32 :=
  constant (F := Ideal) S_ .f32 0x00000000#32

def s_main_call0_v12 : IVec S_ 1 :=
  cmpf .ogt s_main_call0_v8 s_main_call0_cst_3

def s_main_call0_cst_4 : FVec Ideal S_ .f32 :=
  constant (F := Ideal) S_ .f32 0x7FC00000#32

def s_main_call0_call0_v0 : FVec Ideal S_ .f32 :=
  s_main_call0_cst_4

def s_main_call0_call0_v1 : FVec Ideal S256 .f32 :=
  broadcastInDim S256 ![] bcast_S_S256 s_main_call0_call0_v0

def s_main_v7 (a0 : FVec Ideal S65536x512 .f32) (a2 : FVec Ideal S512x256 .f32) (a3 : FVec Ideal S256 .f32) : FVec Ideal S256 .f32 :=
  select (broadcastInDim S256 ![] bcast_S_S256 s_main_call0_v12) (s_main_call0_v11 a0 a2 a3) s_main_call0_call0_v1

def s_main_v8 (a0 : FVec Ideal S65536x512 .f32) (a2 : FVec Ideal S512x256 .f32) (a3 : FVec Ideal S256 .f32) : FVec Ideal S1x256 .f32 :=
  broadcastInDim S1x256 ![1] bcast_S256_S1x256_1 (s_main_v6 a0 a2 a3)

def s_main_v9 (a0 : FVec Ideal S65536x512 .f32) (a2 : FVec Ideal S512x256 .f32) (a3 : FVec Ideal S256 .f32) : FVec Ideal S65536x256 .f32 :=
  broadcastInDim S65536x256 ![0, 1] bcast_S1x256_S65536x256_0_1 (s_main_v8 a0 a2 a3)

def s_main_v10 (a0 : FVec Ideal S65536x512 .f32) (a2 : FVec Ideal S512x256 .f32) (a3 : FVec Ideal S256 .f32) : FVec Ideal S65536x256 .f32 :=
  subf (s_main_v3 a0 a2 a3) (s_main_v9 a0 a2 a3)

def s_main_v11 (a4 : FVec Ideal S256 .f32) : FVec Ideal S1x256 .f32 :=
  broadcastInDim S1x256 ![1] bcast_S256_S1x256_1 a4

def s_main_v12 (a4 : FVec Ideal S256 .f32) : FVec Ideal S65536x256 .f32 :=
  broadcastInDim S65536x256 ![0, 1] bcast_S1x256_S65536x256_0_1 (s_main_v11 a4)

def s_main_v13 (a0 : FVec Ideal S65536x512 .f32) (a2 : FVec Ideal S512x256 .f32) (a3 : FVec Ideal S256 .f32) (a4 : FVec Ideal S256 .f32) : FVec Ideal S65536x256 .f32 :=
  mulf (s_main_v12 a4) (s_main_v10 a0 a2 a3)

def s_main_cst_1 : FVec Ideal S_ .f32 :=
  constant (F := Ideal) S_ .f32 0x3727C5AC#32

def s_main_v14 : FVec Ideal S256 .f32 :=
  broadcastInDim S256 ![] bcast_S_S256 s_main_cst_1

def s_main_v15 (a0 : FVec Ideal S65536x512 .f32) (a2 : FVec Ideal S512x256 .f32) (a3 : FVec Ideal S256 .f32) : FVec Ideal S256 .f32 :=
  addf (s_main_v7 a0 a2 a3) s_main_v14

def s_main_v16 (a0 : FVec Ideal S65536x512 .f32) (a2 : FVec Ideal S512x256 .f32) (a3 : FVec Ideal S256 .f32) : FVec Ideal S256 .f32 :=
  Host.rsqrt (F := Ideal) (s_main_v15 a0 a2 a3)

def s_main_v17 (a0 : FVec Ideal S65536x512 .f32) (a2 : FVec Ideal S512x256 .f32) (a3 : FVec Ideal S256 .f32) : FVec Ideal S1x256 .f32 :=
  broadcastInDim S1x256 ![1] bcast_S256_S1x256_1 (s_main_v16 a0 a2 a3)

def s_main_v18 (a0 : FVec Ideal S65536x512 .f32) (a2 : FVec Ideal S512x256 .f32) (a3 : FVec Ideal S256 .f32) : FVec Ideal S65536x256 .f32 :=
  broadcastInDim S65536x256 ![0, 1] bcast_S1x256_S65536x256_0_1 (s_main_v17 a0 a2 a3)

def s_main_v19 (a0 : FVec Ideal S65536x512 .f32) (a2 : FVec Ideal S512x256 .f32) (a3 : FVec Ideal S256 .f32) (a4 : FVec Ideal S256 .f32) : FVec Ideal S65536x256 .f32 :=
  mulf (s_main_v13 a0 a2 a3 a4) (s_main_v18 a0 a2 a3)

def s_main_v20 (a5 : FVec Ideal S256 .f32) : FVec Ideal S1x256 .f32 :=
  broadcastInDim S1x256 ![1] bcast_S256_S1x256_1 a5

def s_main_v21 (a5 : FVec Ideal S256 .f32) : FVec Ideal S65536x256 .f32 :=
  broadcastInDim S65536x256 ![0, 1] bcast_S1x256_S65536x256_0_1 (s_main_v20 a5)

def s_main_v22 (a0 : FVec Ideal S65536x512 .f32) (a2 : FVec Ideal S512x256 .f32) (a3 : FVec Ideal S256 .f32) (a4 : FVec Ideal S256 .f32) (a5 : FVec Ideal S256 .f32) : FVec Ideal S65536x256 .f32 :=
  addf (s_main_v19 a0 a2 a3 a4) (s_main_v21 a5)

def s_main_call1_cst : FVec Ideal S_ .f32 :=
  constant (F := Ideal) S_ .f32 0x00000000#32

def s_main_call1_v0 : FVec Ideal S65536x256 .f32 :=
  broadcastInDim S65536x256 ![] bcast_S_S65536x256 s_main_call1_cst

def s_main_v23 (a0 : FVec Ideal S65536x512 .f32) (a2 : FVec Ideal S512x256 .f32) (a3 : FVec Ideal S256 .f32) (a4 : FVec Ideal S256 .f32) (a5 : FVec Ideal S256 .f32) : FVec Ideal S65536x256 .f32 :=
  maximumf (s_main_v22 a0 a2 a3 a4 a5) s_main_call1_v0

def s_main_v24 (a0 : FVec Ideal S65536x512 .f32) (a2 : FVec Ideal S512x256 .f32) (a3 : FVec Ideal S256 .f32) (a4 : FVec Ideal S256 .f32) (a5 : FVec Ideal S256 .f32) (a6 : FVec Ideal S256x128 .f32) : FVec Ideal S65536x128 .f32 :=
  Host.dotGeneral (F := Ideal) dot_S65536x256_S256x128_S65536x128_1_0_0_1_n_n none (s_main_v23 a0 a2 a3 a4 a5) a6

def s_main_v25 (a7 : FVec Ideal S128 .f32) : FVec Ideal S1x128 .f32 :=
  broadcastInDim S1x128 ![1] bcast_S128_S1x128_1 a7

def s_main_v26 (a7 : FVec Ideal S128 .f32) : FVec Ideal S65536x128 .f32 :=
  broadcastInDim S65536x128 ![0, 1] bcast_S1x128_S65536x128_0_1 (s_main_v25 a7)

def s_main_v27 (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  addf (s_main_v24 a0 a2 a3 a4 a5 a6) (s_main_v26 a7)

def s_main_call2_cst : FVec Ideal S_ .f32 :=
  constant (F := Ideal) S_ .f32 0x00000000#32

def s_main_call2_v0 : FVec Ideal S65536x128 .f32 :=
  broadcastInDim S65536x128 ![] bcast_S_S65536x128 s_main_call2_cst

def s_main_v28 (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  maximumf (s_main_v27 a0 a2 a3 a4 a5 a6 a7) s_main_call2_v0

def s_main_v29 (a1 : FVec Ideal S65536x512 .f32) (a2 : FVec Ideal S512x256 .f32) : FVec Ideal S65536x256 .f32 :=
  Host.dotGeneral (F := Ideal) dot_S65536x512_S512x256_S65536x256_1_0_0_1_n_n none a1 a2

def s_main_v30 (a3 : FVec Ideal S256 .f32) : FVec Ideal S1x256 .f32 :=
  broadcastInDim S1x256 ![1] bcast_S256_S1x256_1 a3

def s_main_v31 (a3 : FVec Ideal S256 .f32) : FVec Ideal S65536x256 .f32 :=
  broadcastInDim S65536x256 ![0, 1] bcast_S1x256_S65536x256_0_1 (s_main_v30 a3)

def s_main_v32 (a1 : FVec Ideal S65536x512 .f32) (a2 : FVec Ideal S512x256 .f32) (a3 : FVec Ideal S256 .f32) : FVec Ideal S65536x256 .f32 :=
  addf (s_main_v29 a1 a2) (s_main_v31 a3)

def s_main_cst_2 : FVec Ideal S_ .f32 :=
  constant (F := Ideal) S_ .f32 0x00000000#32

def s_main_v33 (a1 : FVec Ideal S65536x512 .f32) (a2 : FVec Ideal S512x256 .f32) (a3 : FVec Ideal S256 .f32) : FVec Ideal S256 .f32 :=
  Host.reduceAdd (F := Ideal) (s_main_v32 a1 a2 a3) s_main_cst_2 reducesTo_S65536x256_S256_d0 h_S_

def s_main_cst_3 : FVec Ideal S_ .f32 :=
  constant (F := Ideal) S_ .f32 0x47800000#32

def s_main_v34 : FVec Ideal S256 .f32 :=
  broadcastInDim S256 ![] bcast_S_S256 s_main_cst_3

def s_main_v35 (a1 : FVec Ideal S65536x512 .f32) (a2 : FVec Ideal S512x256 .f32) (a3 : FVec Ideal S256 .f32) : FVec Ideal S256 .f32 :=
  Host.divf (F := Ideal) (s_main_v33 a1 a2 a3) s_main_v34

def s_main_c_4 : IVec S_ 32 :=
  constantI S_ 32 0#32

def s_main_call3_cst : FVec Ideal S_ .f32 :=
  constant (F := Ideal) S_ .f32 0x00000000#32

def s_main_call3_v0 (a1 : FVec Ideal S65536x512 .f32) (a2 : FVec Ideal S512x256 .f32) (a3 : FVec Ideal S256 .f32) : FVec Ideal S256 .f32 :=
  Host.reduceAdd (F := Ideal) (s_main_v32 a1 a2 a3) s_main_call3_cst reducesTo_S65536x256_S256_d0 h_S_

def s_main_call3_v1 (a1 : FVec Ideal S65536x512 .f32) (a2 : FVec Ideal S512x256 .f32) (a3 : FVec Ideal S256 .f32) : FVec Ideal S1x256 .f32 :=
  broadcastInDim S1x256 ![1] bcast_S256_S1x256_1 (s_main_call3_v0 a1 a2 a3)

def s_main_call3_cst_0 : FVec Ideal S_ .f32 :=
  constant (F := Ideal) S_ .f32 0x47800000#32

def s_main_call3_v2 : FVec Ideal S1x256 .f32 :=
  broadcastInDim S1x256 ![] bcast_S_S1x256 s_main_call3_cst_0

def s_main_call3_v3 (a1 : FVec Ideal S65536x512 .f32) (a2 : FVec Ideal S512x256 .f32) (a3 : FVec Ideal S256 .f32) : FVec Ideal S1x256 .f32 :=
  Host.divf (F := Ideal) (s_main_call3_v1 a1 a2 a3) s_main_call3_v2

def s_main_call3_v4 (a1 : FVec Ideal S65536x512 .f32) (a2 : FVec Ideal S512x256 .f32) (a3 : FVec Ideal S256 .f32) : FVec Ideal S65536x256 .f32 :=
  broadcastInDim S65536x256 ![0, 1] bcast_S1x256_S65536x256_0_1 (s_main_call3_v3 a1 a2 a3)

def s_main_call3_v5 (a1 : FVec Ideal S65536x512 .f32) (a2 : FVec Ideal S512x256 .f32) (a3 : FVec Ideal S256 .f32) : FVec Ideal S65536x256 .f32 :=
  subf (s_main_v32 a1 a2 a3) (s_main_call3_v4 a1 a2 a3)

def s_main_call3_v6 (a1 : FVec Ideal S65536x512 .f32) (a2 : FVec Ideal S512x256 .f32) (a3 : FVec Ideal S256 .f32) : FVec Ideal S65536x256 .f32 :=
  mulf (s_main_call3_v5 a1 a2 a3) (s_main_call3_v5 a1 a2 a3)

def s_main_call3_v7 : FVec Ideal S_ .f32 :=
  sitofp (F := Ideal) .f32 s_main_c_4

def s_main_call3_cst_1 : FVec Ideal S_ .f32 :=
  constant (F := Ideal) S_ .f32 0x47800000#32

def s_main_call3_v8 : FVec Ideal S_ .f32 :=
  subf s_main_call3_cst_1 s_main_call3_v7

def s_main_call3_cst_2 : FVec Ideal S_ .f32 :=
  constant (F := Ideal) S_ .f32 0x00000000#32

def s_main_call3_v9 (a1 : FVec Ideal S65536x512 .f32) (a2 : FVec Ideal S512x256 .f32) (a3 : FVec Ideal S256 .f32) : FVec Ideal S256 .f32 :=
  Host.reduceAdd (F := Ideal) (s_main_call3_v6 a1 a2 a3) s_main_call3_cst_2 reducesTo_S65536x256_S256_d0 h_S_

def s_main_call3_v10 : FVec Ideal S256 .f32 :=
  broadcastInDim S256 ![] bcast_S_S256 s_main_call3_v8

def s_main_call3_v11 (a1 : FVec Ideal S65536x512 .f32) (a2 : FVec Ideal S512x256 .f32) (a3 : FVec Ideal S256 .f32) : FVec Ideal S256 .f32 :=
  Host.divf (F := Ideal) (s_main_call3_v9 a1 a2 a3) s_main_call3_v10

def s_main_call3_cst_3 : FVec Ideal S_ .f32 :=
  constant (F := Ideal) S_ .f32 0x00000000#32

def s_main_call3_v12 : IVec S_ 1 :=
  cmpf .ogt s_main_call3_v8 s_main_call3_cst_3

def s_main_call3_cst_4 : FVec Ideal S_ .f32 :=
  constant (F := Ideal) S_ .f32 0x7FC00000#32

def s_main_call3_call0_v0 : FVec Ideal S_ .f32 :=
  s_main_call3_cst_4

def s_main_call3_call0_v1 : FVec Ideal S256 .f32 :=
  broadcastInDim S256 ![] bcast_S_S256 s_main_call3_call0_v0

def s_main_v36 (a1 : FVec Ideal S65536x512 .f32) (a2 : FVec Ideal S512x256 .f32) (a3 : FVec Ideal S256 .f32) : FVec Ideal S256 .f32 :=
  select (broadcastInDim S256 ![] bcast_S_S256 s_main_call3_v12) (s_main_call3_v11 a1 a2 a3) s_main_call3_call0_v1

def s_main_v37 (a1 : FVec Ideal S65536x512 .f32) (a2 : FVec Ideal S512x256 .f32) (a3 : FVec Ideal S256 .f32) : FVec Ideal S1x256 .f32 :=
  broadcastInDim S1x256 ![1] bcast_S256_S1x256_1 (s_main_v35 a1 a2 a3)

def s_main_v38 (a1 : FVec Ideal S65536x512 .f32) (a2 : FVec Ideal S512x256 .f32) (a3 : FVec Ideal S256 .f32) : FVec Ideal S65536x256 .f32 :=
  broadcastInDim S65536x256 ![0, 1] bcast_S1x256_S65536x256_0_1 (s_main_v37 a1 a2 a3)

def s_main_v39 (a1 : FVec Ideal S65536x512 .f32) (a2 : FVec Ideal S512x256 .f32) (a3 : FVec Ideal S256 .f32) : FVec Ideal S65536x256 .f32 :=
  subf (s_main_v32 a1 a2 a3) (s_main_v38 a1 a2 a3)

def s_main_v40 (a4 : FVec Ideal S256 .f32) : FVec Ideal S1x256 .f32 :=
  broadcastInDim S1x256 ![1] bcast_S256_S1x256_1 a4

def s_main_v41 (a4 : FVec Ideal S256 .f32) : FVec Ideal S65536x256 .f32 :=
  broadcastInDim S65536x256 ![0, 1] bcast_S1x256_S65536x256_0_1 (s_main_v40 a4)

def s_main_v42 (a1 : FVec Ideal S65536x512 .f32) (a2 : FVec Ideal S512x256 .f32) (a3 : FVec Ideal S256 .f32) (a4 : FVec Ideal S256 .f32) : FVec Ideal S65536x256 .f32 :=
  mulf (s_main_v41 a4) (s_main_v39 a1 a2 a3)

def s_main_cst_5 : FVec Ideal S_ .f32 :=
  constant (F := Ideal) S_ .f32 0x3727C5AC#32

def s_main_v43 : FVec Ideal S256 .f32 :=
  broadcastInDim S256 ![] bcast_S_S256 s_main_cst_5

def s_main_v44 (a1 : FVec Ideal S65536x512 .f32) (a2 : FVec Ideal S512x256 .f32) (a3 : FVec Ideal S256 .f32) : FVec Ideal S256 .f32 :=
  addf (s_main_v36 a1 a2 a3) s_main_v43

def s_main_v45 (a1 : FVec Ideal S65536x512 .f32) (a2 : FVec Ideal S512x256 .f32) (a3 : FVec Ideal S256 .f32) : FVec Ideal S256 .f32 :=
  Host.rsqrt (F := Ideal) (s_main_v44 a1 a2 a3)

def s_main_v46 (a1 : FVec Ideal S65536x512 .f32) (a2 : FVec Ideal S512x256 .f32) (a3 : FVec Ideal S256 .f32) : FVec Ideal S1x256 .f32 :=
  broadcastInDim S1x256 ![1] bcast_S256_S1x256_1 (s_main_v45 a1 a2 a3)

def s_main_v47 (a1 : FVec Ideal S65536x512 .f32) (a2 : FVec Ideal S512x256 .f32) (a3 : FVec Ideal S256 .f32) : FVec Ideal S65536x256 .f32 :=
  broadcastInDim S65536x256 ![0, 1] bcast_S1x256_S65536x256_0_1 (s_main_v46 a1 a2 a3)

def s_main_v48 (a1 : FVec Ideal S65536x512 .f32) (a2 : FVec Ideal S512x256 .f32) (a3 : FVec Ideal S256 .f32) (a4 : FVec Ideal S256 .f32) : FVec Ideal S65536x256 .f32 :=
  mulf (s_main_v42 a1 a2 a3 a4) (s_main_v47 a1 a2 a3)

def s_main_v49 (a5 : FVec Ideal S256 .f32) : FVec Ideal S1x256 .f32 :=
  broadcastInDim S1x256 ![1] bcast_S256_S1x256_1 a5

def s_main_v50 (a5 : FVec Ideal S256 .f32) : FVec Ideal S65536x256 .f32 :=
  broadcastInDim S65536x256 ![0, 1] bcast_S1x256_S65536x256_0_1 (s_main_v49 a5)

def s_main_v51 (a1 : FVec Ideal S65536x512 .f32) (a2 : FVec Ideal S512x256 .f32) (a3 : FVec Ideal S256 .f32) (a4 : FVec Ideal S256 .f32) (a5 : FVec Ideal S256 .f32) : FVec Ideal S65536x256 .f32 :=
  addf (s_main_v48 a1 a2 a3 a4) (s_main_v50 a5)

def s_main_call4_cst : FVec Ideal S_ .f32 :=
  constant (F := Ideal) S_ .f32 0x00000000#32

def s_main_call4_v0 : FVec Ideal S65536x256 .f32 :=
  broadcastInDim S65536x256 ![] bcast_S_S65536x256 s_main_call4_cst

def s_main_v52 (a1 : FVec Ideal S65536x512 .f32) (a2 : FVec Ideal S512x256 .f32) (a3 : FVec Ideal S256 .f32) (a4 : FVec Ideal S256 .f32) (a5 : FVec Ideal S256 .f32) : FVec Ideal S65536x256 .f32 :=
  maximumf (s_main_v51 a1 a2 a3 a4 a5) s_main_call4_v0

def s_main_v53 (a1 : FVec Ideal S65536x512 .f32) (a2 : FVec Ideal S512x256 .f32) (a3 : FVec Ideal S256 .f32) (a4 : FVec Ideal S256 .f32) (a5 : FVec Ideal S256 .f32) (a6 : FVec Ideal S256x128 .f32) : FVec Ideal S65536x128 .f32 :=
  Host.dotGeneral (F := Ideal) dot_S65536x256_S256x128_S65536x128_1_0_0_1_n_n none (s_main_v52 a1 a2 a3 a4 a5) a6

def s_main_v54 (a7 : FVec Ideal S128 .f32) : FVec Ideal S1x128 .f32 :=
  broadcastInDim S1x128 ![1] bcast_S128_S1x128_1 a7

def s_main_v55 (a7 : FVec Ideal S128 .f32) : FVec Ideal S65536x128 .f32 :=
  broadcastInDim S65536x128 ![0, 1] bcast_S1x128_S65536x128_0_1 (s_main_v54 a7)

def s_main_v56 (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  addf (s_main_v53 a1 a2 a3 a4 a5 a6) (s_main_v55 a7)

def s_main_call5_cst : FVec Ideal S_ .f32 :=
  constant (F := Ideal) S_ .f32 0x00000000#32

def s_main_call5_v0 : FVec Ideal S65536x128 .f32 :=
  broadcastInDim S65536x128 ![] bcast_S_S65536x128 s_main_call5_cst

def s_main_v57 (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  maximumf (s_main_v56 a1 a2 a3 a4 a5 a6 a7) s_main_call5_v0

def s_main_v58 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  mulf (s_main_v28 a0 a2 a3 a4 a5 a6 a7) (s_main_v57 a1 a2 a3 a4 a5 a6 a7)

def s_main_cst_6 : FVec Ideal S_ .f32 :=
  constant (F := Ideal) S_ .f32 0x00000000#32

def s_main_v59 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  Host.reduceAdd (F := Ideal) (s_main_v58 a0 a1 a2 a3 a4 a5 a6 a7) s_main_cst_6 reducesTo_S65536x128_S65536_d1 h_S_

def s_main_v60 (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  mulf (s_main_v28 a0 a2 a3 a4 a5 a6 a7) (s_main_v28 a0 a2 a3 a4 a5 a6 a7)

def s_main_cst_7 : FVec Ideal S_ .f32 :=
  constant (F := Ideal) S_ .f32 0x00000000#32

def s_main_v61 (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  Host.reduceAdd (F := Ideal) (s_main_v60 a0 a2 a3 a4 a5 a6 a7) s_main_cst_7 reducesTo_S65536x128_S65536_d1 h_S_

def s_main_v62 (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  Host.sqrt (F := Ideal) (s_main_v61 a0 a2 a3 a4 a5 a6 a7)

def s_main_cst_8 : FVec Ideal S_ .f32 :=
  constant (F := Ideal) S_ .f32 0x26901D7D#32

def s_main_v63 : FVec Ideal S65536 .f32 :=
  broadcastInDim S65536 ![] bcast_S_S65536 s_main_cst_8

def s_main_v64 (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  maximumf (s_main_v62 a0 a2 a3 a4 a5 a6 a7) s_main_v63

def s_main_cst_9 : FVec Ideal S_ .f32 :=
  constant (F := Ideal) S_ .f32 0x3F800000#32

def s_main_v65 : FVec Ideal S65536 .f32 :=
  broadcastInDim S65536 ![] bcast_S_S65536 s_main_cst_9

def s_main_v66 (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  Host.divf (F := Ideal) s_main_v65 (s_main_v64 a0 a2 a3 a4 a5 a6 a7)

def s_main_v67 (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  mulf (s_main_v57 a1 a2 a3 a4 a5 a6 a7) (s_main_v57 a1 a2 a3 a4 a5 a6 a7)

def s_main_cst_10 : FVec Ideal S_ .f32 :=
  constant (F := Ideal) S_ .f32 0x00000000#32

def s_main_v68 (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  Host.reduceAdd (F := Ideal) (s_main_v67 a1 a2 a3 a4 a5 a6 a7) s_main_cst_10 reducesTo_S65536x128_S65536_d1 h_S_

def s_main_v69 (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  Host.sqrt (F := Ideal) (s_main_v68 a1 a2 a3 a4 a5 a6 a7)

def s_main_cst_11 : FVec Ideal S_ .f32 :=
  constant (F := Ideal) S_ .f32 0x26901D7D#32

def s_main_v70 : FVec Ideal S65536 .f32 :=
  broadcastInDim S65536 ![] bcast_S_S65536 s_main_cst_11

def s_main_v71 (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  maximumf (s_main_v69 a1 a2 a3 a4 a5 a6 a7) s_main_v70

def s_main_cst_12 : FVec Ideal S_ .f32 :=
  constant (F := Ideal) S_ .f32 0x3F800000#32

def s_main_v72 : FVec Ideal S65536 .f32 :=
  broadcastInDim S65536 ![] bcast_S_S65536 s_main_cst_12

def s_main_v73 (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  Host.divf (F := Ideal) s_main_v72 (s_main_v71 a1 a2 a3 a4 a5 a6 a7)

def s_main_v74 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  mulf (s_main_v59 a0 a1 a2 a3 a4 a5 a6 a7) (s_main_v66 a0 a2 a3 a4 a5 a6 a7)

def s_main_v75 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  mulf (s_main_v74 a0 a1 a2 a3 a4 a5 a6 a7) (s_main_v73 a1 a2 a3 a4 a5 a6 a7)

def s_main_cst_13 : FVec Ideal S_ .f32 :=
  constant (F := Ideal) S_ .f32 0x00000000#32

def s_main_cst_14 : FVec Ideal S_ .f32 :=
  constant (F := Ideal) S_ .f32 0x3F800000#32

def s_main_call6_v0 : FVec Ideal S_ .f32 :=
  s_main_cst_13

def s_main_call6_v1 : FVec Ideal S65536 .f32 :=
  broadcastInDim S65536 ![] bcast_S_S65536 s_main_call6_v0

def s_main_call6_v2 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  maximumf s_main_call6_v1 (s_main_v75 a0 a1 a2 a3 a4 a5 a6 a7)

def s_main_call6_v3 : FVec Ideal S_ .f32 :=
  s_main_cst_14

def s_main_call6_v4 : FVec Ideal S65536 .f32 :=
  broadcastInDim S65536 ![] bcast_S_S65536 s_main_call6_v3

def s_main_v76 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536 .f32 :=
  minimumf s_main_call6_v4 (s_main_call6_v2 a0 a1 a2 a3 a4 a5 a6 a7)

def s_main_v77 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  mulf (s_main_v28 a0 a2 a3 a4 a5 a6 a7) (s_main_v57 a1 a2 a3 a4 a5 a6 a7)

def s_main_v78 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  subf (s_main_v28 a0 a2 a3 a4 a5 a6 a7) (s_main_v57 a1 a2 a3 a4 a5 a6 a7)

def s_main_v79 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  Host.absf (F := Ideal) (s_main_v78 a0 a1 a2 a3 a4 a5 a6 a7)

def s_main_v80 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x128 .f32 :=
  addf (s_main_v28 a0 a2 a3 a4 a5 a6 a7) (s_main_v57 a1 a2 a3 a4 a5 a6 a7)

def s_main_v81 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) : FVec Ideal S65536x384 .f32 :=
  concatenate S65536x384 1 [⟨S65536x128, (s_main_v77 a0 a1 a2 a3 a4 a5 a6 a7)⟩, ⟨S65536x128, (s_main_v79 a0 a1 a2 a3 a4 a5 a6 a7)⟩, ⟨S65536x128, (s_main_v80 a0 a1 a2 a3 a4 a5 a6 a7)⟩] concatenates_S65536x128_S65536x128_S65536x128_S65536x384_d1

def s_main_v82 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) : FVec Ideal S65536x64 .f32 :=
  Host.dotGeneral (F := Ideal) dot_S65536x384_S384x64_S65536x64_1_0_0_1_n_n none (s_main_v81 a0 a1 a2 a3 a4 a5 a6 a7) a8

def s_main_v83 (a9 : FVec Ideal S64 .f32) : FVec Ideal S1x64 .f32 :=
  broadcastInDim S1x64 ![1] bcast_S64_S1x64_1 a9

def s_main_v84 (a9 : FVec Ideal S64 .f32) : FVec Ideal S65536x64 .f32 :=
  broadcastInDim S65536x64 ![0, 1] bcast_S1x64_S65536x64_0_1 (s_main_v83 a9)

def s_main_v85 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) : FVec Ideal S65536x64 .f32 :=
  addf (s_main_v82 a0 a1 a2 a3 a4 a5 a6 a7 a8) (s_main_v84 a9)

def s_main_call7_cst : FVec Ideal S_ .f32 :=
  constant (F := Ideal) S_ .f32 0x00000000#32

def s_main_call7_v0 : FVec Ideal S65536x64 .f32 :=
  broadcastInDim S65536x64 ![] bcast_S_S65536x64 s_main_call7_cst

def s_main_v86 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) : FVec Ideal S65536x64 .f32 :=
  maximumf (s_main_v85 a0 a1 a2 a3 a4 a5 a6 a7 a8 a9) s_main_call7_v0

def s_main_v87 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) : FVec Ideal S65536x1 .f32 :=
  Host.dotGeneral (F := Ideal) dot_S65536x64_S64x1_S65536x1_1_0_0_1_n_n none (s_main_v86 a0 a1 a2 a3 a4 a5 a6 a7 a8 a9) a10

def s_main_v88 (a11 : FVec Ideal S1 .f32) : FVec Ideal S1x1 .f32 :=
  broadcastInDim S1x1 ![1] bcast_S1_S1x1_1 a11

def s_main_v89 (a11 : FVec Ideal S1 .f32) : FVec Ideal S65536x1 .f32 :=
  broadcastInDim S65536x1 ![0, 1] bcast_S1x1_S65536x1_0_1 (s_main_v88 a11)

def s_main_v90 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) : FVec Ideal S65536x1 .f32 :=
  addf (s_main_v87 a0 a1 a2 a3 a4 a5 a6 a7 a8 a9 a10) (s_main_v89 a11)

def s_main_v91 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) : FVec Ideal S65536 .f32 :=
  shapeCast S65536 (s_main_v90 a0 a1 a2 a3 a4 a5 a6 a7 a8 a9 a10 a11) shapeCasts_S65536x1_S65536

def s_main_v92 (a12 : FVec Ideal S1 .f32) : FVec Ideal S65536 .f32 :=
  broadcastInDim S65536 ![0] bcast_S1_S65536_0 a12

def s_main_v93 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a12 : FVec Ideal S1 .f32) : FVec Ideal S65536 .f32 :=
  mulf (s_main_v92 a12) (s_main_v76 a0 a1 a2 a3 a4 a5 a6 a7)

def s_main_v94 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) : FVec Ideal S65536 .f32 :=
  Host.negf (F := Ideal) (s_main_v91 a0 a1 a2 a3 a4 a5 a6 a7 a8 a9 a10 a11)

def s_main_v95 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) : FVec Ideal S65536 .f32 :=
  Host.exp (F := Ideal) (s_main_v94 a0 a1 a2 a3 a4 a5 a6 a7 a8 a9 a10 a11)

def s_main_cst_15 : FVec Ideal S_ .f32 :=
  constant (F := Ideal) S_ .f32 0x3F800000#32

def s_main_v96 : FVec Ideal S65536 .f32 :=
  broadcastInDim S65536 ![] bcast_S_S65536 s_main_cst_15

def s_main_v97 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) : FVec Ideal S65536 .f32 :=
  addf s_main_v96 (s_main_v95 a0 a1 a2 a3 a4 a5 a6 a7 a8 a9 a10 a11)

def s_main_cst_16 : FVec Ideal S_ .f32 :=
  constant (F := Ideal) S_ .f32 0x3F800000#32

def s_main_v98 : FVec Ideal S65536 .f32 :=
  broadcastInDim S65536 ![] bcast_S_S65536 s_main_cst_16

def s_main_v99 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) : FVec Ideal S65536 .f32 :=
  Host.divf (F := Ideal) s_main_v98 (s_main_v97 a0 a1 a2 a3 a4 a5 a6 a7 a8 a9 a10 a11)

def s_main_v100 (a13 : FVec Ideal S1 .f32) : FVec Ideal S65536 .f32 :=
  broadcastInDim S65536 ![0] bcast_S1_S65536_0 a13

def s_main_v101 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a13 : FVec Ideal S1 .f32) : FVec Ideal S65536 .f32 :=
  mulf (s_main_v100 a13) (s_main_v99 a0 a1 a2 a3 a4 a5 a6 a7 a8 a9 a10 a11)

def s_main_v102 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a12 : FVec Ideal S1 .f32) (a13 : FVec Ideal S1 .f32) : FVec Ideal S65536 .f32 :=
  addf (s_main_v93 a0 a1 a2 a3 a4 a5 a6 a7 a12) (s_main_v101 a0 a1 a2 a3 a4 a5 a6 a7 a8 a9 a10 a11 a13)

def s_main_cst_17 : FVec Ideal S_ .f32 :=
  constant (F := Ideal) S_ .f32 0x00000000#32

def s_main_cst_18 : FVec Ideal S_ .f32 :=
  constant (F := Ideal) S_ .f32 0x3F800000#32

def s_main_call8_v0 : FVec Ideal S_ .f32 :=
  s_main_cst_17

def s_main_call8_v1 : FVec Ideal S65536 .f32 :=
  broadcastInDim S65536 ![] bcast_S_S65536 s_main_call8_v0

def s_main_call8_v2 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a12 : FVec Ideal S1 .f32) (a13 : FVec Ideal S1 .f32) : FVec Ideal S65536 .f32 :=
  maximumf s_main_call8_v1 (s_main_v102 a0 a1 a2 a3 a4 a5 a6 a7 a8 a9 a10 a11 a12 a13)

def s_main_call8_v3 : FVec Ideal S_ .f32 :=
  s_main_cst_18

def s_main_call8_v4 : FVec Ideal S65536 .f32 :=
  broadcastInDim S65536 ![] bcast_S_S65536 s_main_call8_v3

def s_main_v103 (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a12 : FVec Ideal S1 .f32) (a13 : FVec Ideal S1 .f32) : FVec Ideal S65536 .f32 :=
  minimumf s_main_call8_v4 (s_main_call8_v2 a0 a1 a2 a3 a4 a5 a6 a7 a8 a9 a10 a11 a12 a13)

/-- The reference's result array as a function of the fourteen argument arrays: the last stage. -/
def result (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a12 : FVec Ideal S1 .f32) (a13 : FVec Ideal S1 .f32) : FVec Ideal S65536 .f32 :=
  s_main_v103 a0 a1 a2 a3 a4 a5 a6 a7 a8 a9 a10 a11 a12 a13

end Cert.ReferenceIdeal.RefValue

end
-- ==== Proof.RefValue.lean ====
/-
  The reference's run read back through the stages: window by window, each buffer still needed after a window
  holds its stage of the arguments' launch contents, and each argument holds what it held at launch; so the run
  ends with the result buffer at `result` of the arguments and the arguments unchanged.
-/
import proofs.«166000_j82308753261052_2_alg».proof.Proof.RefRun
import proofs.«166000_j82308753261052_2_alg».proof.Proof.RefValueStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The fold over two lines run one after the other is the fold over the second from the fold over the first. -/
theorem after_app {τ : Topo} {sig : RefSig} {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The device's buffer contents before the first window. -/
def val0 (V : Valuation τ sig (Elt Ideal)) : Valuation τ sig (Elt Ideal) := V
theorem val0_main_arg0 (V : Valuation τ sig (Elt Ideal)) : val0 V (no_index (Proc.devRef .tc main_arg0)) = V (Proc.devRef .tc main_arg0) := rfl
theorem val0_main_arg1 (V : Valuation τ sig (Elt Ideal)) : val0 V (no_index (Proc.devRef .tc main_arg1)) = V (Proc.devRef .tc main_arg1) := rfl
theorem val0_main_arg2 (V : Valuation τ sig (Elt Ideal)) : val0 V (no_index (Proc.devRef .tc main_arg2)) = V (Proc.devRef .tc main_arg2) := rfl
theorem val0_main_arg3 (V : Valuation τ sig (Elt Ideal)) : val0 V (no_index (Proc.devRef .tc main_arg3)) = V (Proc.devRef .tc main_arg3) := rfl
theorem val0_main_arg4 (V : Valuation τ sig (Elt Ideal)) : val0 V (no_index (Proc.devRef .tc main_arg4)) = V (Proc.devRef .tc main_arg4) := rfl
theorem val0_main_arg5 (V : Valuation τ sig (Elt Ideal)) : val0 V (no_index (Proc.devRef .tc main_arg5)) = V (Proc.devRef .tc main_arg5) := rfl
theorem val0_main_arg6 (V : Valuation τ sig (Elt Ideal)) : val0 V (no_index (Proc.devRef .tc main_arg6)) = V (Proc.devRef .tc main_arg6) := rfl
theorem val0_main_arg7 (V : Valuation τ sig (Elt Ideal)) : val0 V (no_index (Proc.devRef .tc main_arg7)) = V (Proc.devRef .tc main_arg7) := rfl
theorem val0_main_arg8 (V : Valuation τ sig (Elt Ideal)) : val0 V (no_index (Proc.devRef .tc main_arg8)) = V (Proc.devRef .tc main_arg8) := rfl
theorem val0_main_arg9 (V : Valuation τ sig (Elt Ideal)) : val0 V (no_index (Proc.devRef .tc main_arg9)) = V (Proc.devRef .tc main_arg9) := rfl
theorem val0_main_arg10 (V : Valuation τ sig (Elt Ideal)) : val0 V (no_index (Proc.devRef .tc main_arg10)) = V (Proc.devRef .tc main_arg10) := rfl
theorem val0_main_arg11 (V : Valuation τ sig (Elt Ideal)) : val0 V (no_index (Proc.devRef .tc main_arg11)) = V (Proc.devRef .tc main_arg11) := rfl
theorem val0_main_arg12 (V : Valuation τ sig (Elt Ideal)) : val0 V (no_index (Proc.devRef .tc main_arg12)) = V (Proc.devRef .tc main_arg12) := rfl
theorem val0_main_arg13 (V : Valuation τ sig (Elt Ideal)) : val0 V (no_index (Proc.devRef .tc main_arg13)) = V (Proc.devRef .tc main_arg13) := rfl

/-- The device's buffer contents after the first 1 window. -/
def val1 (V : Valuation τ sig (Elt Ideal)) : Valuation τ sig (Elt Ideal) := after (w0 (F := Ideal)) (val0 V)
/-- The buffers that the operations of window 0 write. -/
abbrev w0_W : List (Ref sig .tc) := [main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7]
set_option maxRecDepth 8192 in
theorem w0_writes : (w0 (F := Ideal)).Forall fun op => op.writes ⊆ (w0_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 0 does not write keeps its contents through it. -/
theorem val1_keep (V : Valuation τ sig (Elt Ideal)) (r : Ref sig .tc) (h : r ∉ w0_W) :
    val1 V (Proc.devRef .tc r) = val0 V (Proc.devRef .tc r) :=
  after_of_writes_sub (w0 (F := Ideal)) _ w0_writes h
theorem val1_main_arg0 (V : Valuation τ sig (Elt Ideal)) : val1 V (no_index (Proc.devRef .tc main_arg0)) = V (Proc.devRef .tc main_arg0) :=
  (val1_keep V main_arg0 (by decide)).trans (val0_main_arg0 V)
theorem val1_main_arg1 (V : Valuation τ sig (Elt Ideal)) : val1 V (no_index (Proc.devRef .tc main_arg1)) = V (Proc.devRef .tc main_arg1) :=
  (val1_keep V main_arg1 (by decide)).trans (val0_main_arg1 V)
theorem val1_main_arg2 (V : Valuation τ sig (Elt Ideal)) : val1 V (no_index (Proc.devRef .tc main_arg2)) = V (Proc.devRef .tc main_arg2) :=
  (val1_keep V main_arg2 (by decide)).trans (val0_main_arg2 V)
theorem val1_main_arg3 (V : Valuation τ sig (Elt Ideal)) : val1 V (no_index (Proc.devRef .tc main_arg3)) = V (Proc.devRef .tc main_arg3) :=
  (val1_keep V main_arg3 (by decide)).trans (val0_main_arg3 V)
theorem val1_main_arg4 (V : Valuation τ sig (Elt Ideal)) : val1 V (no_index (Proc.devRef .tc main_arg4)) = V (Proc.devRef .tc main_arg4) :=
  (val1_keep V main_arg4 (by decide)).trans (val0_main_arg4 V)
theorem val1_main_arg5 (V : Valuation τ sig (Elt Ideal)) : val1 V (no_index (Proc.devRef .tc main_arg5)) = V (Proc.devRef .tc main_arg5) :=
  (val1_keep V main_arg5 (by decide)).trans (val0_main_arg5 V)
theorem val1_main_arg6 (V : Valuation τ sig (Elt Ideal)) : val1 V (no_index (Proc.devRef .tc main_arg6)) = V (Proc.devRef .tc main_arg6) :=
  (val1_keep V main_arg6 (by decide)).trans (val0_main_arg6 V)
theorem val1_main_arg7 (V : Valuation τ sig (Elt Ideal)) : val1 V (no_index (Proc.devRef .tc main_arg7)) = V (Proc.devRef .tc main_arg7) :=
  (val1_keep V main_arg7 (by decide)).trans (val0_main_arg7 V)
theorem val1_main_arg8 (V : Valuation τ sig (Elt Ideal)) : val1 V (no_index (Proc.devRef .tc main_arg8)) = V (Proc.devRef .tc main_arg8) :=
  (val1_keep V main_arg8 (by decide)).trans (val0_main_arg8 V)
theorem val1_main_arg9 (V : Valuation τ sig (Elt Ideal)) : val1 V (no_index (Proc.devRef .tc main_arg9)) = V (Proc.devRef .tc main_arg9) :=
  (val1_keep V main_arg9 (by decide)).trans (val0_main_arg9 V)
theorem val1_main_arg10 (V : Valuation τ sig (Elt Ideal)) : val1 V (no_index (Proc.devRef .tc main_arg10)) = V (Proc.devRef .tc main_arg10) :=
  (val1_keep V main_arg10 (by decide)).trans (val0_main_arg10 V)
theorem val1_main_arg11 (V : Valuation τ sig (Elt Ideal)) : val1 V (no_index (Proc.devRef .tc main_arg11)) = V (Proc.devRef .tc main_arg11) :=
  (val1_keep V main_arg11 (by decide)).trans (val0_main_arg11 V)
theorem val1_main_arg12 (V : Valuation τ sig (Elt Ideal)) : val1 V (no_index (Proc.devRef .tc main_arg12)) = V (Proc.devRef .tc main_arg12) :=
  (val1_keep V main_arg12 (by decide)).trans (val0_main_arg12 V)
theorem val1_main_arg13 (V : Valuation τ sig (Elt Ideal)) : val1 V (no_index (Proc.devRef .tc main_arg13)) = V (Proc.devRef .tc main_arg13) :=
  (val1_keep V main_arg13 (by decide)).trans (val0_main_arg13 V)
set_option maxRecDepth 8192 in
set_option maxHeartbeats 2000000 in
theorem val1_main_v3 (V : Valuation τ sig (Elt Ideal)) : val1 V (no_index (Proc.devRef .tc main_v3)) = s_main_v3 (V (Proc.devRef .tc main_arg0)) (V (Proc.devRef .tc main_arg2)) (V (Proc.devRef .tc main_arg3)) := by
  unfold val1
  simp only [w0]
  after_results_simp
  simp only [val0_main_arg3, val0_main_arg2, val0_main_arg0] <;> rfl
set_option maxRecDepth 8192 in
set_option maxHeartbeats 2000000 in
theorem val1_main_v6 (V : Valuation τ sig (Elt Ideal)) : val1 V (no_index (Proc.devRef .tc main_v6)) = s_main_v6 (V (Proc.devRef .tc main_arg0)) (V (Proc.devRef .tc main_arg2)) (V (Proc.devRef .tc main_arg3)) := by
  unfold val1
  simp only [w0]
  after_results_simp
  simp only [val0_main_arg3, val0_main_arg2, val0_main_arg0] <;> rfl
set_option maxRecDepth 8192 in
set_option maxHeartbeats 2000000 in
theorem val1_main_v7 (V : Valuation τ sig (Elt Ideal)) : val1 V (no_index (Proc.devRef .tc main_v7)) = s_main_v7 (V (Proc.devRef .tc main_arg0)) (V (Proc.devRef .tc main_arg2)) (V (Proc.devRef .tc main_arg3)) := by
  unfold val1
  simp only [w0]
  after_results_simp
  simp only [val0_main_arg3, val0_main_arg2, val0_main_arg0] <;> rfl

/-- The device's buffer contents after the first 2 windows. -/
def val2 (V : Valuation τ sig (Elt Ideal)) : Valuation τ sig (Elt Ideal) := after (w1 (F := Ideal)) (val1 V)
/-- The buffers that the operations of window 1 write. -/
abbrev w1_W : List (Ref sig .tc) := [main_v8, main_v9, main_v10, main_v11, main_v12, main_v13, main_cst_1, main_v14, main_v15, main_v16, main_v17, main_v18, main_v19, main_v20, main_v21, main_v22, main_call1_cst, main_call1_v0, main_v23, main_v24, main_v25, main_v26, main_v27, main_call2_cst, main_call2_v0, main_v28]
set_option maxRecDepth 8192 in
theorem w1_writes : (w1 (F := Ideal)).Forall fun op => op.writes ⊆ (w1_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 1 does not write keeps its contents through it. -/
theorem val2_keep (V : Valuation τ sig (Elt Ideal)) (r : Ref sig .tc) (h : r ∉ w1_W) :
    val2 V (Proc.devRef .tc r) = val1 V (Proc.devRef .tc r) :=
  after_of_writes_sub (w1 (F := Ideal)) _ w1_writes h
theorem val2_main_arg0 (V : Valuation τ sig (Elt Ideal)) : val2 V (no_index (Proc.devRef .tc main_arg0)) = V (Proc.devRef .tc main_arg0) :=
  (val2_keep V main_arg0 (by decide)).trans (val1_main_arg0 V)
theorem val2_main_arg1 (V : Valuation τ sig (Elt Ideal)) : val2 V (no_index (Proc.devRef .tc main_arg1)) = V (Proc.devRef .tc main_arg1) :=
  (val2_keep V main_arg1 (by decide)).trans (val1_main_arg1 V)
theorem val2_main_arg2 (V : Valuation τ sig (Elt Ideal)) : val2 V (no_index (Proc.devRef .tc main_arg2)) = V (Proc.devRef .tc main_arg2) :=
  (val2_keep V main_arg2 (by decide)).trans (val1_main_arg2 V)
theorem val2_main_arg3 (V : Valuation τ sig (Elt Ideal)) : val2 V (no_index (Proc.devRef .tc main_arg3)) = V (Proc.devRef .tc main_arg3) :=
  (val2_keep V main_arg3 (by decide)).trans (val1_main_arg3 V)
theorem val2_main_arg4 (V : Valuation τ sig (Elt Ideal)) : val2 V (no_index (Proc.devRef .tc main_arg4)) = V (Proc.devRef .tc main_arg4) :=
  (val2_keep V main_arg4 (by decide)).trans (val1_main_arg4 V)
theorem val2_main_arg5 (V : Valuation τ sig (Elt Ideal)) : val2 V (no_index (Proc.devRef .tc main_arg5)) = V (Proc.devRef .tc main_arg5) :=
  (val2_keep V main_arg5 (by decide)).trans (val1_main_arg5 V)
theorem val2_main_arg6 (V : Valuation τ sig (Elt Ideal)) : val2 V (no_index (Proc.devRef .tc main_arg6)) = V (Proc.devRef .tc main_arg6) :=
  (val2_keep V main_arg6 (by decide)).trans (val1_main_arg6 V)
theorem val2_main_arg7 (V : Valuation τ sig (Elt Ideal)) : val2 V (no_index (Proc.devRef .tc main_arg7)) = V (Proc.devRef .tc main_arg7) :=
  (val2_keep V main_arg7 (by decide)).trans (val1_main_arg7 V)
theorem val2_main_arg8 (V : Valuation τ sig (Elt Ideal)) : val2 V (no_index (Proc.devRef .tc main_arg8)) = V (Proc.devRef .tc main_arg8) :=
  (val2_keep V main_arg8 (by decide)).trans (val1_main_arg8 V)
theorem val2_main_arg9 (V : Valuation τ sig (Elt Ideal)) : val2 V (no_index (Proc.devRef .tc main_arg9)) = V (Proc.devRef .tc main_arg9) :=
  (val2_keep V main_arg9 (by decide)).trans (val1_main_arg9 V)
theorem val2_main_arg10 (V : Valuation τ sig (Elt Ideal)) : val2 V (no_index (Proc.devRef .tc main_arg10)) = V (Proc.devRef .tc main_arg10) :=
  (val2_keep V main_arg10 (by decide)).trans (val1_main_arg10 V)
theorem val2_main_arg11 (V : Valuation τ sig (Elt Ideal)) : val2 V (no_index (Proc.devRef .tc main_arg11)) = V (Proc.devRef .tc main_arg11) :=
  (val2_keep V main_arg11 (by decide)).trans (val1_main_arg11 V)
theorem val2_main_arg12 (V : Valuation τ sig (Elt Ideal)) : val2 V (no_index (Proc.devRef .tc main_arg12)) = V (Proc.devRef .tc main_arg12) :=
  (val2_keep V main_arg12 (by decide)).trans (val1_main_arg12 V)
theorem val2_main_arg13 (V : Valuation τ sig (Elt Ideal)) : val2 V (no_index (Proc.devRef .tc main_arg13)) = V (Proc.devRef .tc main_arg13) :=
  (val2_keep V main_arg13 (by decide)).trans (val1_main_arg13 V)
set_option maxRecDepth 8192 in
set_option maxHeartbeats 2000000 in
theorem val2_main_v28 (V : Valuation τ sig (Elt Ideal)) : val2 V (no_index (Proc.devRef .tc main_v28)) = s_main_v28 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val2
  simp only [w1]
  after_results_simp
  simp only [val1_main_arg7, val1_main_arg6, val1_main_arg5, val1_main_v7, val1_main_v6, val1_main_v3, val1_main_arg4] <;> rfl

/-- The device's buffer contents after the first 3 windows. -/
def val3 (V : Valuation τ sig (Elt Ideal)) : Valuation τ sig (Elt Ideal) := after (w2 (F := Ideal)) (val2 V)
/-- The buffers that the operations of window 2 write. -/
abbrev w2_W : List (Ref sig .tc) := [main_v29, main_v30, main_v31, main_v32, main_cst_2, main_v33, main_cst_3, main_v34, main_v35, main_c_4, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v36]
set_option maxRecDepth 8192 in
theorem w2_writes : (w2 (F := Ideal)).Forall fun op => op.writes ⊆ (w2_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 2 does not write keeps its contents through it. -/
theorem val3_keep (V : Valuation τ sig (Elt Ideal)) (r : Ref sig .tc) (h : r ∉ w2_W) :
    val3 V (Proc.devRef .tc r) = val2 V (Proc.devRef .tc r) :=
  after_of_writes_sub (w2 (F := Ideal)) _ w2_writes h
theorem val3_main_arg0 (V : Valuation τ sig (Elt Ideal)) : val3 V (no_index (Proc.devRef .tc main_arg0)) = V (Proc.devRef .tc main_arg0) :=
  (val3_keep V main_arg0 (by decide)).trans (val2_main_arg0 V)
theorem val3_main_arg1 (V : Valuation τ sig (Elt Ideal)) : val3 V (no_index (Proc.devRef .tc main_arg1)) = V (Proc.devRef .tc main_arg1) :=
  (val3_keep V main_arg1 (by decide)).trans (val2_main_arg1 V)
theorem val3_main_arg2 (V : Valuation τ sig (Elt Ideal)) : val3 V (no_index (Proc.devRef .tc main_arg2)) = V (Proc.devRef .tc main_arg2) :=
  (val3_keep V main_arg2 (by decide)).trans (val2_main_arg2 V)
theorem val3_main_arg3 (V : Valuation τ sig (Elt Ideal)) : val3 V (no_index (Proc.devRef .tc main_arg3)) = V (Proc.devRef .tc main_arg3) :=
  (val3_keep V main_arg3 (by decide)).trans (val2_main_arg3 V)
theorem val3_main_arg4 (V : Valuation τ sig (Elt Ideal)) : val3 V (no_index (Proc.devRef .tc main_arg4)) = V (Proc.devRef .tc main_arg4) :=
  (val3_keep V main_arg4 (by decide)).trans (val2_main_arg4 V)
theorem val3_main_arg5 (V : Valuation τ sig (Elt Ideal)) : val3 V (no_index (Proc.devRef .tc main_arg5)) = V (Proc.devRef .tc main_arg5) :=
  (val3_keep V main_arg5 (by decide)).trans (val2_main_arg5 V)
theorem val3_main_arg6 (V : Valuation τ sig (Elt Ideal)) : val3 V (no_index (Proc.devRef .tc main_arg6)) = V (Proc.devRef .tc main_arg6) :=
  (val3_keep V main_arg6 (by decide)).trans (val2_main_arg6 V)
theorem val3_main_arg7 (V : Valuation τ sig (Elt Ideal)) : val3 V (no_index (Proc.devRef .tc main_arg7)) = V (Proc.devRef .tc main_arg7) :=
  (val3_keep V main_arg7 (by decide)).trans (val2_main_arg7 V)
theorem val3_main_arg8 (V : Valuation τ sig (Elt Ideal)) : val3 V (no_index (Proc.devRef .tc main_arg8)) = V (Proc.devRef .tc main_arg8) :=
  (val3_keep V main_arg8 (by decide)).trans (val2_main_arg8 V)
theorem val3_main_arg9 (V : Valuation τ sig (Elt Ideal)) : val3 V (no_index (Proc.devRef .tc main_arg9)) = V (Proc.devRef .tc main_arg9) :=
  (val3_keep V main_arg9 (by decide)).trans (val2_main_arg9 V)
theorem val3_main_arg10 (V : Valuation τ sig (Elt Ideal)) : val3 V (no_index (Proc.devRef .tc main_arg10)) = V (Proc.devRef .tc main_arg10) :=
  (val3_keep V main_arg10 (by decide)).trans (val2_main_arg10 V)
theorem val3_main_arg11 (V : Valuation τ sig (Elt Ideal)) : val3 V (no_index (Proc.devRef .tc main_arg11)) = V (Proc.devRef .tc main_arg11) :=
  (val3_keep V main_arg11 (by decide)).trans (val2_main_arg11 V)
theorem val3_main_arg12 (V : Valuation τ sig (Elt Ideal)) : val3 V (no_index (Proc.devRef .tc main_arg12)) = V (Proc.devRef .tc main_arg12) :=
  (val3_keep V main_arg12 (by decide)).trans (val2_main_arg12 V)
theorem val3_main_arg13 (V : Valuation τ sig (Elt Ideal)) : val3 V (no_index (Proc.devRef .tc main_arg13)) = V (Proc.devRef .tc main_arg13) :=
  (val3_keep V main_arg13 (by decide)).trans (val2_main_arg13 V)
theorem val3_main_v28 (V : Valuation τ sig (Elt Ideal)) : val3 V (no_index (Proc.devRef .tc main_v28)) = s_main_v28 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (val3_keep V main_v28 (by decide)).trans (val2_main_v28 V)
set_option maxRecDepth 8192 in
set_option maxHeartbeats 2000000 in
theorem val3_main_v32 (V : Valuation τ sig (Elt Ideal)) : val3 V (no_index (Proc.devRef .tc main_v32)) = s_main_v32 (V (Proc.devRef .tc main_arg1)) (V (Proc.devRef .tc main_arg2)) (V (Proc.devRef .tc main_arg3)) := by
  unfold val3
  simp only [w2]
  after_results_simp
  simp only [val2_main_arg3, val2_main_arg2, val2_main_arg1] <;> rfl
set_option maxRecDepth 8192 in
set_option maxHeartbeats 2000000 in
theorem val3_main_v35 (V : Valuation τ sig (Elt Ideal)) : val3 V (no_index (Proc.devRef .tc main_v35)) = s_main_v35 (V (Proc.devRef .tc main_arg1)) (V (Proc.devRef .tc main_arg2)) (V (Proc.devRef .tc main_arg3)) := by
  unfold val3
  simp only [w2]
  after_results_simp
  simp only [val2_main_arg3, val2_main_arg2, val2_main_arg1] <;> rfl
set_option maxRecDepth 8192 in
set_option maxHeartbeats 2000000 in
theorem val3_main_v36 (V : Valuation τ sig (Elt Ideal)) : val3 V (no_index (Proc.devRef .tc main_v36)) = s_main_v36 (V (Proc.devRef .tc main_arg1)) (V (Proc.devRef .tc main_arg2)) (V (Proc.devRef .tc main_arg3)) := by
  unfold val3
  simp only [w2]
  after_results_simp
  simp only [val2_main_arg3, val2_main_arg2, val2_main_arg1] <;> rfl

/-- The device's buffer contents after the first 4 windows. -/
def val4 (V : Valuation τ sig (Elt Ideal)) : Valuation τ sig (Elt Ideal) := after (w3 (F := Ideal)) (val3 V)
/-- The buffers that the operations of window 3 write. -/
abbrev w3_W : List (Ref sig .tc) := [main_v37, main_v38, main_v39, main_v40, main_v41, main_v42, main_cst_5, main_v43, main_v44, main_v45, main_v46, main_v47, main_v48, main_v49, main_v50, main_v51]
set_option maxRecDepth 8192 in
theorem w3_writes : (w3 (F := Ideal)).Forall fun op => op.writes ⊆ (w3_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 3 does not write keeps its contents through it. -/
theorem val4_keep (V : Valuation τ sig (Elt Ideal)) (r : Ref sig .tc) (h : r ∉ w3_W) :
    val4 V (Proc.devRef .tc r) = val3 V (Proc.devRef .tc r) :=
  after_of_writes_sub (w3 (F := Ideal)) _ w3_writes h
theorem val4_main_arg0 (V : Valuation τ sig (Elt Ideal)) : val4 V (no_index (Proc.devRef .tc main_arg0)) = V (Proc.devRef .tc main_arg0) :=
  (val4_keep V main_arg0 (by decide)).trans (val3_main_arg0 V)
theorem val4_main_arg1 (V : Valuation τ sig (Elt Ideal)) : val4 V (no_index (Proc.devRef .tc main_arg1)) = V (Proc.devRef .tc main_arg1) :=
  (val4_keep V main_arg1 (by decide)).trans (val3_main_arg1 V)
theorem val4_main_arg2 (V : Valuation τ sig (Elt Ideal)) : val4 V (no_index (Proc.devRef .tc main_arg2)) = V (Proc.devRef .tc main_arg2) :=
  (val4_keep V main_arg2 (by decide)).trans (val3_main_arg2 V)
theorem val4_main_arg3 (V : Valuation τ sig (Elt Ideal)) : val4 V (no_index (Proc.devRef .tc main_arg3)) = V (Proc.devRef .tc main_arg3) :=
  (val4_keep V main_arg3 (by decide)).trans (val3_main_arg3 V)
theorem val4_main_arg4 (V : Valuation τ sig (Elt Ideal)) : val4 V (no_index (Proc.devRef .tc main_arg4)) = V (Proc.devRef .tc main_arg4) :=
  (val4_keep V main_arg4 (by decide)).trans (val3_main_arg4 V)
theorem val4_main_arg5 (V : Valuation τ sig (Elt Ideal)) : val4 V (no_index (Proc.devRef .tc main_arg5)) = V (Proc.devRef .tc main_arg5) :=
  (val4_keep V main_arg5 (by decide)).trans (val3_main_arg5 V)
theorem val4_main_arg6 (V : Valuation τ sig (Elt Ideal)) : val4 V (no_index (Proc.devRef .tc main_arg6)) = V (Proc.devRef .tc main_arg6) :=
  (val4_keep V main_arg6 (by decide)).trans (val3_main_arg6 V)
theorem val4_main_arg7 (V : Valuation τ sig (Elt Ideal)) : val4 V (no_index (Proc.devRef .tc main_arg7)) = V (Proc.devRef .tc main_arg7) :=
  (val4_keep V main_arg7 (by decide)).trans (val3_main_arg7 V)
theorem val4_main_arg8 (V : Valuation τ sig (Elt Ideal)) : val4 V (no_index (Proc.devRef .tc main_arg8)) = V (Proc.devRef .tc main_arg8) :=
  (val4_keep V main_arg8 (by decide)).trans (val3_main_arg8 V)
theorem val4_main_arg9 (V : Valuation τ sig (Elt Ideal)) : val4 V (no_index (Proc.devRef .tc main_arg9)) = V (Proc.devRef .tc main_arg9) :=
  (val4_keep V main_arg9 (by decide)).trans (val3_main_arg9 V)
theorem val4_main_arg10 (V : Valuation τ sig (Elt Ideal)) : val4 V (no_index (Proc.devRef .tc main_arg10)) = V (Proc.devRef .tc main_arg10) :=
  (val4_keep V main_arg10 (by decide)).trans (val3_main_arg10 V)
theorem val4_main_arg11 (V : Valuation τ sig (Elt Ideal)) : val4 V (no_index (Proc.devRef .tc main_arg11)) = V (Proc.devRef .tc main_arg11) :=
  (val4_keep V main_arg11 (by decide)).trans (val3_main_arg11 V)
theorem val4_main_arg12 (V : Valuation τ sig (Elt Ideal)) : val4 V (no_index (Proc.devRef .tc main_arg12)) = V (Proc.devRef .tc main_arg12) :=
  (val4_keep V main_arg12 (by decide)).trans (val3_main_arg12 V)
theorem val4_main_arg13 (V : Valuation τ sig (Elt Ideal)) : val4 V (no_index (Proc.devRef .tc main_arg13)) = V (Proc.devRef .tc main_arg13) :=
  (val4_keep V main_arg13 (by decide)).trans (val3_main_arg13 V)
theorem val4_main_v28 (V : Valuation τ sig (Elt Ideal)) : val4 V (no_index (Proc.devRef .tc main_v28)) = s_main_v28 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (val4_keep V main_v28 (by decide)).trans (val3_main_v28 V)
set_option maxRecDepth 8192 in
set_option maxHeartbeats 2000000 in
theorem val4_main_v51 (V : Valuation τ sig (Elt Ideal)) : val4 V (no_index (Proc.devRef .tc main_v51)) = s_main_v51 (V (Proc.devRef .tc main_arg1)) (V (Proc.devRef .tc main_arg2)) (V (Proc.devRef .tc main_arg3)) (V (Proc.devRef .tc main_arg4)) (V (Proc.devRef .tc main_arg5)) := by
  unfold val4
  simp only [w3]
  after_results_simp
  simp only [val3_main_arg5, val3_main_v36, val3_main_v35, val3_main_v32, val3_main_arg4] <;> rfl

/-- The device's buffer contents after the first 5 windows. -/
def val5 (V : Valuation τ sig (Elt Ideal)) : Valuation τ sig (Elt Ideal) := after (w4 (F := Ideal)) (val4 V)
/-- The buffers that the operations of window 4 write. -/
abbrev w4_W : List (Ref sig .tc) := [main_call4_cst, main_call4_v0, main_v52, main_v53, main_v54, main_v55, main_v56, main_call5_cst, main_call5_v0, main_v57]
set_option maxRecDepth 8192 in
theorem w4_writes : (w4 (F := Ideal)).Forall fun op => op.writes ⊆ (w4_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 4 does not write keeps its contents through it. -/
theorem val5_keep (V : Valuation τ sig (Elt Ideal)) (r : Ref sig .tc) (h : r ∉ w4_W) :
    val5 V (Proc.devRef .tc r) = val4 V (Proc.devRef .tc r) :=
  after_of_writes_sub (w4 (F := Ideal)) _ w4_writes h
theorem val5_main_arg0 (V : Valuation τ sig (Elt Ideal)) : val5 V (no_index (Proc.devRef .tc main_arg0)) = V (Proc.devRef .tc main_arg0) :=
  (val5_keep V main_arg0 (by decide)).trans (val4_main_arg0 V)
theorem val5_main_arg1 (V : Valuation τ sig (Elt Ideal)) : val5 V (no_index (Proc.devRef .tc main_arg1)) = V (Proc.devRef .tc main_arg1) :=
  (val5_keep V main_arg1 (by decide)).trans (val4_main_arg1 V)
theorem val5_main_arg2 (V : Valuation τ sig (Elt Ideal)) : val5 V (no_index (Proc.devRef .tc main_arg2)) = V (Proc.devRef .tc main_arg2) :=
  (val5_keep V main_arg2 (by decide)).trans (val4_main_arg2 V)
theorem val5_main_arg3 (V : Valuation τ sig (Elt Ideal)) : val5 V (no_index (Proc.devRef .tc main_arg3)) = V (Proc.devRef .tc main_arg3) :=
  (val5_keep V main_arg3 (by decide)).trans (val4_main_arg3 V)
theorem val5_main_arg4 (V : Valuation τ sig (Elt Ideal)) : val5 V (no_index (Proc.devRef .tc main_arg4)) = V (Proc.devRef .tc main_arg4) :=
  (val5_keep V main_arg4 (by decide)).trans (val4_main_arg4 V)
theorem val5_main_arg5 (V : Valuation τ sig (Elt Ideal)) : val5 V (no_index (Proc.devRef .tc main_arg5)) = V (Proc.devRef .tc main_arg5) :=
  (val5_keep V main_arg5 (by decide)).trans (val4_main_arg5 V)
theorem val5_main_arg6 (V : Valuation τ sig (Elt Ideal)) : val5 V (no_index (Proc.devRef .tc main_arg6)) = V (Proc.devRef .tc main_arg6) :=
  (val5_keep V main_arg6 (by decide)).trans (val4_main_arg6 V)
theorem val5_main_arg7 (V : Valuation τ sig (Elt Ideal)) : val5 V (no_index (Proc.devRef .tc main_arg7)) = V (Proc.devRef .tc main_arg7) :=
  (val5_keep V main_arg7 (by decide)).trans (val4_main_arg7 V)
theorem val5_main_arg8 (V : Valuation τ sig (Elt Ideal)) : val5 V (no_index (Proc.devRef .tc main_arg8)) = V (Proc.devRef .tc main_arg8) :=
  (val5_keep V main_arg8 (by decide)).trans (val4_main_arg8 V)
theorem val5_main_arg9 (V : Valuation τ sig (Elt Ideal)) : val5 V (no_index (Proc.devRef .tc main_arg9)) = V (Proc.devRef .tc main_arg9) :=
  (val5_keep V main_arg9 (by decide)).trans (val4_main_arg9 V)
theorem val5_main_arg10 (V : Valuation τ sig (Elt Ideal)) : val5 V (no_index (Proc.devRef .tc main_arg10)) = V (Proc.devRef .tc main_arg10) :=
  (val5_keep V main_arg10 (by decide)).trans (val4_main_arg10 V)
theorem val5_main_arg11 (V : Valuation τ sig (Elt Ideal)) : val5 V (no_index (Proc.devRef .tc main_arg11)) = V (Proc.devRef .tc main_arg11) :=
  (val5_keep V main_arg11 (by decide)).trans (val4_main_arg11 V)
theorem val5_main_arg12 (V : Valuation τ sig (Elt Ideal)) : val5 V (no_index (Proc.devRef .tc main_arg12)) = V (Proc.devRef .tc main_arg12) :=
  (val5_keep V main_arg12 (by decide)).trans (val4_main_arg12 V)
theorem val5_main_arg13 (V : Valuation τ sig (Elt Ideal)) : val5 V (no_index (Proc.devRef .tc main_arg13)) = V (Proc.devRef .tc main_arg13) :=
  (val5_keep V main_arg13 (by decide)).trans (val4_main_arg13 V)
theorem val5_main_v28 (V : Valuation τ sig (Elt Ideal)) : val5 V (no_index (Proc.devRef .tc main_v28)) = s_main_v28 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (val5_keep V main_v28 (by decide)).trans (val4_main_v28 V)
set_option maxRecDepth 8192 in
set_option maxHeartbeats 2000000 in
theorem val5_main_v57 (V : Valuation τ sig (Elt Ideal)) : val5 V (no_index (Proc.devRef .tc main_v57)) = s_main_v57 (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val5
  simp only [w4]
  after_results_simp
  simp only [val4_main_arg7, val4_main_arg6, val4_main_v51] <;> rfl

/-- The device's buffer contents after the first 6 windows. -/
def val6 (V : Valuation τ sig (Elt Ideal)) : Valuation τ sig (Elt Ideal) := after (w5 (F := Ideal)) (val5 V)
/-- The buffers that the operations of window 5 write. -/
abbrev w5_W : List (Ref sig .tc) := [main_v58, main_cst_6, main_v59, main_v60, main_cst_7, main_v61, main_v62, main_cst_8, main_v63, main_v64, main_cst_9, main_v65, main_v66, main_v67, main_cst_10, main_v68, main_v69, main_cst_11, main_v70, main_v71, main_cst_12, main_v72, main_v73, main_v74, main_v75, main_cst_13, main_cst_14, main_call6_v0, main_call6_v1, main_call6_v2, main_call6_v3, main_call6_v4, main_v76]
set_option maxRecDepth 8192 in
theorem w5_writes : (w5 (F := Ideal)).Forall fun op => op.writes ⊆ (w5_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 5 does not write keeps its contents through it. -/
theorem val6_keep (V : Valuation τ sig (Elt Ideal)) (r : Ref sig .tc) (h : r ∉ w5_W) :
    val6 V (Proc.devRef .tc r) = val5 V (Proc.devRef .tc r) :=
  after_of_writes_sub (w5 (F := Ideal)) _ w5_writes h
theorem val6_main_arg0 (V : Valuation τ sig (Elt Ideal)) : val6 V (no_index (Proc.devRef .tc main_arg0)) = V (Proc.devRef .tc main_arg0) :=
  (val6_keep V main_arg0 (by decide)).trans (val5_main_arg0 V)
theorem val6_main_arg1 (V : Valuation τ sig (Elt Ideal)) : val6 V (no_index (Proc.devRef .tc main_arg1)) = V (Proc.devRef .tc main_arg1) :=
  (val6_keep V main_arg1 (by decide)).trans (val5_main_arg1 V)
theorem val6_main_arg2 (V : Valuation τ sig (Elt Ideal)) : val6 V (no_index (Proc.devRef .tc main_arg2)) = V (Proc.devRef .tc main_arg2) :=
  (val6_keep V main_arg2 (by decide)).trans (val5_main_arg2 V)
theorem val6_main_arg3 (V : Valuation τ sig (Elt Ideal)) : val6 V (no_index (Proc.devRef .tc main_arg3)) = V (Proc.devRef .tc main_arg3) :=
  (val6_keep V main_arg3 (by decide)).trans (val5_main_arg3 V)
theorem val6_main_arg4 (V : Valuation τ sig (Elt Ideal)) : val6 V (no_index (Proc.devRef .tc main_arg4)) = V (Proc.devRef .tc main_arg4) :=
  (val6_keep V main_arg4 (by decide)).trans (val5_main_arg4 V)
theorem val6_main_arg5 (V : Valuation τ sig (Elt Ideal)) : val6 V (no_index (Proc.devRef .tc main_arg5)) = V (Proc.devRef .tc main_arg5) :=
  (val6_keep V main_arg5 (by decide)).trans (val5_main_arg5 V)
theorem val6_main_arg6 (V : Valuation τ sig (Elt Ideal)) : val6 V (no_index (Proc.devRef .tc main_arg6)) = V (Proc.devRef .tc main_arg6) :=
  (val6_keep V main_arg6 (by decide)).trans (val5_main_arg6 V)
theorem val6_main_arg7 (V : Valuation τ sig (Elt Ideal)) : val6 V (no_index (Proc.devRef .tc main_arg7)) = V (Proc.devRef .tc main_arg7) :=
  (val6_keep V main_arg7 (by decide)).trans (val5_main_arg7 V)
theorem val6_main_arg8 (V : Valuation τ sig (Elt Ideal)) : val6 V (no_index (Proc.devRef .tc main_arg8)) = V (Proc.devRef .tc main_arg8) :=
  (val6_keep V main_arg8 (by decide)).trans (val5_main_arg8 V)
theorem val6_main_arg9 (V : Valuation τ sig (Elt Ideal)) : val6 V (no_index (Proc.devRef .tc main_arg9)) = V (Proc.devRef .tc main_arg9) :=
  (val6_keep V main_arg9 (by decide)).trans (val5_main_arg9 V)
theorem val6_main_arg10 (V : Valuation τ sig (Elt Ideal)) : val6 V (no_index (Proc.devRef .tc main_arg10)) = V (Proc.devRef .tc main_arg10) :=
  (val6_keep V main_arg10 (by decide)).trans (val5_main_arg10 V)
theorem val6_main_arg11 (V : Valuation τ sig (Elt Ideal)) : val6 V (no_index (Proc.devRef .tc main_arg11)) = V (Proc.devRef .tc main_arg11) :=
  (val6_keep V main_arg11 (by decide)).trans (val5_main_arg11 V)
theorem val6_main_arg12 (V : Valuation τ sig (Elt Ideal)) : val6 V (no_index (Proc.devRef .tc main_arg12)) = V (Proc.devRef .tc main_arg12) :=
  (val6_keep V main_arg12 (by decide)).trans (val5_main_arg12 V)
theorem val6_main_arg13 (V : Valuation τ sig (Elt Ideal)) : val6 V (no_index (Proc.devRef .tc main_arg13)) = V (Proc.devRef .tc main_arg13) :=
  (val6_keep V main_arg13 (by decide)).trans (val5_main_arg13 V)
theorem val6_main_v28 (V : Valuation τ sig (Elt Ideal)) : val6 V (no_index (Proc.devRef .tc main_v28)) = s_main_v28 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (val6_keep V main_v28 (by decide)).trans (val5_main_v28 V)
theorem val6_main_v57 (V : Valuation τ sig (Elt Ideal)) : val6 V (no_index (Proc.devRef .tc main_v57)) = s_main_v57 (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (val6_keep V main_v57 (by decide)).trans (val5_main_v57 V)
set_option maxRecDepth 8192 in
set_option maxHeartbeats 2000000 in
theorem val6_main_v76 (V : Valuation τ sig (Elt Ideal)) : val6 V (no_index (Proc.devRef .tc main_v76)) = s_main_v76 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val6
  simp only [w5]
  after_results_simp
  simp only [val5_main_v57, val5_main_v28] <;> rfl

/-- The device's buffer contents after the first 7 windows. -/
def val7 (V : Valuation τ sig (Elt Ideal)) : Valuation τ sig (Elt Ideal) := after (w6 (F := Ideal)) (val6 V)
/-- The buffers that the operations of window 6 write. -/
abbrev w6_W : List (Ref sig .tc) := [main_v77, main_v78, main_v79, main_v80]
set_option maxRecDepth 8192 in
theorem w6_writes : (w6 (F := Ideal)).Forall fun op => op.writes ⊆ (w6_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 6 does not write keeps its contents through it. -/
theorem val7_keep (V : Valuation τ sig (Elt Ideal)) (r : Ref sig .tc) (h : r ∉ w6_W) :
    val7 V (Proc.devRef .tc r) = val6 V (Proc.devRef .tc r) :=
  after_of_writes_sub (w6 (F := Ideal)) _ w6_writes h
theorem val7_main_arg0 (V : Valuation τ sig (Elt Ideal)) : val7 V (no_index (Proc.devRef .tc main_arg0)) = V (Proc.devRef .tc main_arg0) :=
  (val7_keep V main_arg0 (by decide)).trans (val6_main_arg0 V)
theorem val7_main_arg1 (V : Valuation τ sig (Elt Ideal)) : val7 V (no_index (Proc.devRef .tc main_arg1)) = V (Proc.devRef .tc main_arg1) :=
  (val7_keep V main_arg1 (by decide)).trans (val6_main_arg1 V)
theorem val7_main_arg2 (V : Valuation τ sig (Elt Ideal)) : val7 V (no_index (Proc.devRef .tc main_arg2)) = V (Proc.devRef .tc main_arg2) :=
  (val7_keep V main_arg2 (by decide)).trans (val6_main_arg2 V)
theorem val7_main_arg3 (V : Valuation τ sig (Elt Ideal)) : val7 V (no_index (Proc.devRef .tc main_arg3)) = V (Proc.devRef .tc main_arg3) :=
  (val7_keep V main_arg3 (by decide)).trans (val6_main_arg3 V)
theorem val7_main_arg4 (V : Valuation τ sig (Elt Ideal)) : val7 V (no_index (Proc.devRef .tc main_arg4)) = V (Proc.devRef .tc main_arg4) :=
  (val7_keep V main_arg4 (by decide)).trans (val6_main_arg4 V)
theorem val7_main_arg5 (V : Valuation τ sig (Elt Ideal)) : val7 V (no_index (Proc.devRef .tc main_arg5)) = V (Proc.devRef .tc main_arg5) :=
  (val7_keep V main_arg5 (by decide)).trans (val6_main_arg5 V)
theorem val7_main_arg6 (V : Valuation τ sig (Elt Ideal)) : val7 V (no_index (Proc.devRef .tc main_arg6)) = V (Proc.devRef .tc main_arg6) :=
  (val7_keep V main_arg6 (by decide)).trans (val6_main_arg6 V)
theorem val7_main_arg7 (V : Valuation τ sig (Elt Ideal)) : val7 V (no_index (Proc.devRef .tc main_arg7)) = V (Proc.devRef .tc main_arg7) :=
  (val7_keep V main_arg7 (by decide)).trans (val6_main_arg7 V)
theorem val7_main_arg8 (V : Valuation τ sig (Elt Ideal)) : val7 V (no_index (Proc.devRef .tc main_arg8)) = V (Proc.devRef .tc main_arg8) :=
  (val7_keep V main_arg8 (by decide)).trans (val6_main_arg8 V)
theorem val7_main_arg9 (V : Valuation τ sig (Elt Ideal)) : val7 V (no_index (Proc.devRef .tc main_arg9)) = V (Proc.devRef .tc main_arg9) :=
  (val7_keep V main_arg9 (by decide)).trans (val6_main_arg9 V)
theorem val7_main_arg10 (V : Valuation τ sig (Elt Ideal)) : val7 V (no_index (Proc.devRef .tc main_arg10)) = V (Proc.devRef .tc main_arg10) :=
  (val7_keep V main_arg10 (by decide)).trans (val6_main_arg10 V)
theorem val7_main_arg11 (V : Valuation τ sig (Elt Ideal)) : val7 V (no_index (Proc.devRef .tc main_arg11)) = V (Proc.devRef .tc main_arg11) :=
  (val7_keep V main_arg11 (by decide)).trans (val6_main_arg11 V)
theorem val7_main_arg12 (V : Valuation τ sig (Elt Ideal)) : val7 V (no_index (Proc.devRef .tc main_arg12)) = V (Proc.devRef .tc main_arg12) :=
  (val7_keep V main_arg12 (by decide)).trans (val6_main_arg12 V)
theorem val7_main_arg13 (V : Valuation τ sig (Elt Ideal)) : val7 V (no_index (Proc.devRef .tc main_arg13)) = V (Proc.devRef .tc main_arg13) :=
  (val7_keep V main_arg13 (by decide)).trans (val6_main_arg13 V)
theorem val7_main_v76 (V : Valuation τ sig (Elt Ideal)) : val7 V (no_index (Proc.devRef .tc main_v76)) = s_main_v76 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (val7_keep V main_v76 (by decide)).trans (val6_main_v76 V)
set_option maxRecDepth 8192 in
set_option maxHeartbeats 2000000 in
theorem val7_main_v77 (V : Valuation τ sig (Elt Ideal)) : val7 V (no_index (Proc.devRef .tc main_v77)) = s_main_v77 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val7
  simp only [w6]
  after_results_simp
  simp only [val6_main_v57, val6_main_v28] <;> rfl
set_option maxRecDepth 8192 in
set_option maxHeartbeats 2000000 in
theorem val7_main_v79 (V : Valuation τ sig (Elt Ideal)) : val7 V (no_index (Proc.devRef .tc main_v79)) = s_main_v79 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val7
  simp only [w6]
  after_results_simp
  simp only [val6_main_v57, val6_main_v28] <;> rfl
set_option maxRecDepth 8192 in
set_option maxHeartbeats 2000000 in
theorem val7_main_v80 (V : Valuation τ sig (Elt Ideal)) : val7 V (no_index (Proc.devRef .tc main_v80)) = s_main_v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val7
  simp only [w6]
  after_results_simp
  simp only [val6_main_v57, val6_main_v28] <;> rfl

/-- The device's buffer contents after the first 8 windows. -/
def val8 (V : Valuation τ sig (Elt Ideal)) : Valuation τ sig (Elt Ideal) := after (w7 (F := Ideal)) (val7 V)
/-- The buffers that the operations of window 7 write. -/
abbrev w7_W : List (Ref sig .tc) := [main_v81, main_v82, main_v83, main_v84, main_v85, main_call7_cst, main_call7_v0, main_v86, main_v87, main_v88, main_v89, main_v90, main_v91, main_v92, main_v93, main_v94, main_v95, main_cst_15, main_v96, main_v97, main_cst_16, main_v98, main_v99, main_v100]
set_option maxRecDepth 8192 in
theorem w7_writes : (w7 (F := Ideal)).Forall fun op => op.writes ⊆ (w7_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 7 does not write keeps its contents through it. -/
theorem val8_keep (V : Valuation τ sig (Elt Ideal)) (r : Ref sig .tc) (h : r ∉ w7_W) :
    val8 V (Proc.devRef .tc r) = val7 V (Proc.devRef .tc r) :=
  after_of_writes_sub (w7 (F := Ideal)) _ w7_writes h
theorem val8_main_arg0 (V : Valuation τ sig (Elt Ideal)) : val8 V (no_index (Proc.devRef .tc main_arg0)) = V (Proc.devRef .tc main_arg0) :=
  (val8_keep V main_arg0 (by decide)).trans (val7_main_arg0 V)
theorem val8_main_arg1 (V : Valuation τ sig (Elt Ideal)) : val8 V (no_index (Proc.devRef .tc main_arg1)) = V (Proc.devRef .tc main_arg1) :=
  (val8_keep V main_arg1 (by decide)).trans (val7_main_arg1 V)
theorem val8_main_arg2 (V : Valuation τ sig (Elt Ideal)) : val8 V (no_index (Proc.devRef .tc main_arg2)) = V (Proc.devRef .tc main_arg2) :=
  (val8_keep V main_arg2 (by decide)).trans (val7_main_arg2 V)
theorem val8_main_arg3 (V : Valuation τ sig (Elt Ideal)) : val8 V (no_index (Proc.devRef .tc main_arg3)) = V (Proc.devRef .tc main_arg3) :=
  (val8_keep V main_arg3 (by decide)).trans (val7_main_arg3 V)
theorem val8_main_arg4 (V : Valuation τ sig (Elt Ideal)) : val8 V (no_index (Proc.devRef .tc main_arg4)) = V (Proc.devRef .tc main_arg4) :=
  (val8_keep V main_arg4 (by decide)).trans (val7_main_arg4 V)
theorem val8_main_arg5 (V : Valuation τ sig (Elt Ideal)) : val8 V (no_index (Proc.devRef .tc main_arg5)) = V (Proc.devRef .tc main_arg5) :=
  (val8_keep V main_arg5 (by decide)).trans (val7_main_arg5 V)
theorem val8_main_arg6 (V : Valuation τ sig (Elt Ideal)) : val8 V (no_index (Proc.devRef .tc main_arg6)) = V (Proc.devRef .tc main_arg6) :=
  (val8_keep V main_arg6 (by decide)).trans (val7_main_arg6 V)
theorem val8_main_arg7 (V : Valuation τ sig (Elt Ideal)) : val8 V (no_index (Proc.devRef .tc main_arg7)) = V (Proc.devRef .tc main_arg7) :=
  (val8_keep V main_arg7 (by decide)).trans (val7_main_arg7 V)
theorem val8_main_arg8 (V : Valuation τ sig (Elt Ideal)) : val8 V (no_index (Proc.devRef .tc main_arg8)) = V (Proc.devRef .tc main_arg8) :=
  (val8_keep V main_arg8 (by decide)).trans (val7_main_arg8 V)
theorem val8_main_arg9 (V : Valuation τ sig (Elt Ideal)) : val8 V (no_index (Proc.devRef .tc main_arg9)) = V (Proc.devRef .tc main_arg9) :=
  (val8_keep V main_arg9 (by decide)).trans (val7_main_arg9 V)
theorem val8_main_arg10 (V : Valuation τ sig (Elt Ideal)) : val8 V (no_index (Proc.devRef .tc main_arg10)) = V (Proc.devRef .tc main_arg10) :=
  (val8_keep V main_arg10 (by decide)).trans (val7_main_arg10 V)
theorem val8_main_arg11 (V : Valuation τ sig (Elt Ideal)) : val8 V (no_index (Proc.devRef .tc main_arg11)) = V (Proc.devRef .tc main_arg11) :=
  (val8_keep V main_arg11 (by decide)).trans (val7_main_arg11 V)
theorem val8_main_arg12 (V : Valuation τ sig (Elt Ideal)) : val8 V (no_index (Proc.devRef .tc main_arg12)) = V (Proc.devRef .tc main_arg12) :=
  (val8_keep V main_arg12 (by decide)).trans (val7_main_arg12 V)
theorem val8_main_arg13 (V : Valuation τ sig (Elt Ideal)) : val8 V (no_index (Proc.devRef .tc main_arg13)) = V (Proc.devRef .tc main_arg13) :=
  (val8_keep V main_arg13 (by decide)).trans (val7_main_arg13 V)
set_option maxRecDepth 8192 in
set_option maxHeartbeats 2000000 in
theorem val8_main_v93 (V : Valuation τ sig (Elt Ideal)) : val8 V (no_index (Proc.devRef .tc main_v93)) = s_main_v93 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) := by
  unfold val8
  simp only [w7]
  after_results_simp
  try dsimp only [Matrix.cons_val]
  try after_results_simp
  simp only [val7_main_v76, val7_main_arg12] <;> rfl
set_option maxRecDepth 8192 in
set_option maxHeartbeats 2000000 in
theorem val8_main_v99 (V : Valuation τ sig (Elt Ideal)) : val8 V (no_index (Proc.devRef .tc main_v99)) = s_main_v99 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold val8
  simp only [w7]
  after_results_simp
  try dsimp only [Matrix.cons_val]
  try after_results_simp
  simp only [val7_main_arg11, val7_main_arg10, val7_main_arg9, val7_main_arg8, val7_main_v80, val7_main_v79, val7_main_v77] <;> rfl
set_option maxRecDepth 8192 in
set_option maxHeartbeats 2000000 in
theorem val8_main_v100 (V : Valuation τ sig (Elt Ideal)) : val8 V (no_index (Proc.devRef .tc main_v100)) = s_main_v100 (V (Proc.devRef .tc main_arg13)) := by
  unfold val8
  simp only [w7]
  after_results_simp
  try dsimp only [Matrix.cons_val]
  try after_results_simp
  simp only [val7_main_arg13] <;> rfl

/-- The device's buffer contents after the first 9 windows. -/
def val9 (V : Valuation τ sig (Elt Ideal)) : Valuation τ sig (Elt Ideal) := after (w8 (F := Ideal)) (val8 V)
/-- The buffers that the operations of window 8 write. -/
abbrev w8_W : List (Ref sig .tc) := [main_v101, main_v102, main_cst_17, main_cst_18, main_call8_v0, main_call8_v1, main_call8_v2, main_call8_v3, main_call8_v4, main_v103]
set_option maxRecDepth 8192 in
theorem w8_writes : (w8 (F := Ideal)).Forall fun op => op.writes ⊆ (w8_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A buffer that window 8 does not write keeps its contents through it. -/
theorem val9_keep (V : Valuation τ sig (Elt Ideal)) (r : Ref sig .tc) (h : r ∉ w8_W) :
    val9 V (Proc.devRef .tc r) = val8 V (Proc.devRef .tc r) :=
  after_of_writes_sub (w8 (F := Ideal)) _ w8_writes h
theorem val9_main_arg0 (V : Valuation τ sig (Elt Ideal)) : val9 V (no_index (Proc.devRef .tc main_arg0)) = V (Proc.devRef .tc main_arg0) :=
  (val9_keep V main_arg0 (by decide)).trans (val8_main_arg0 V)
theorem val9_main_arg1 (V : Valuation τ sig (Elt Ideal)) : val9 V (no_index (Proc.devRef .tc main_arg1)) = V (Proc.devRef .tc main_arg1) :=
  (val9_keep V main_arg1 (by decide)).trans (val8_main_arg1 V)
theorem val9_main_arg2 (V : Valuation τ sig (Elt Ideal)) : val9 V (no_index (Proc.devRef .tc main_arg2)) = V (Proc.devRef .tc main_arg2) :=
  (val9_keep V main_arg2 (by decide)).trans (val8_main_arg2 V)
theorem val9_main_arg3 (V : Valuation τ sig (Elt Ideal)) : val9 V (no_index (Proc.devRef .tc main_arg3)) = V (Proc.devRef .tc main_arg3) :=
  (val9_keep V main_arg3 (by decide)).trans (val8_main_arg3 V)
theorem val9_main_arg4 (V : Valuation τ sig (Elt Ideal)) : val9 V (no_index (Proc.devRef .tc main_arg4)) = V (Proc.devRef .tc main_arg4) :=
  (val9_keep V main_arg4 (by decide)).trans (val8_main_arg4 V)
theorem val9_main_arg5 (V : Valuation τ sig (Elt Ideal)) : val9 V (no_index (Proc.devRef .tc main_arg5)) = V (Proc.devRef .tc main_arg5) :=
  (val9_keep V main_arg5 (by decide)).trans (val8_main_arg5 V)
theorem val9_main_arg6 (V : Valuation τ sig (Elt Ideal)) : val9 V (no_index (Proc.devRef .tc main_arg6)) = V (Proc.devRef .tc main_arg6) :=
  (val9_keep V main_arg6 (by decide)).trans (val8_main_arg6 V)
theorem val9_main_arg7 (V : Valuation τ sig (Elt Ideal)) : val9 V (no_index (Proc.devRef .tc main_arg7)) = V (Proc.devRef .tc main_arg7) :=
  (val9_keep V main_arg7 (by decide)).trans (val8_main_arg7 V)
theorem val9_main_arg8 (V : Valuation τ sig (Elt Ideal)) : val9 V (no_index (Proc.devRef .tc main_arg8)) = V (Proc.devRef .tc main_arg8) :=
  (val9_keep V main_arg8 (by decide)).trans (val8_main_arg8 V)
theorem val9_main_arg9 (V : Valuation τ sig (Elt Ideal)) : val9 V (no_index (Proc.devRef .tc main_arg9)) = V (Proc.devRef .tc main_arg9) :=
  (val9_keep V main_arg9 (by decide)).trans (val8_main_arg9 V)
theorem val9_main_arg10 (V : Valuation τ sig (Elt Ideal)) : val9 V (no_index (Proc.devRef .tc main_arg10)) = V (Proc.devRef .tc main_arg10) :=
  (val9_keep V main_arg10 (by decide)).trans (val8_main_arg10 V)
theorem val9_main_arg11 (V : Valuation τ sig (Elt Ideal)) : val9 V (no_index (Proc.devRef .tc main_arg11)) = V (Proc.devRef .tc main_arg11) :=
  (val9_keep V main_arg11 (by decide)).trans (val8_main_arg11 V)
theorem val9_main_arg12 (V : Valuation τ sig (Elt Ideal)) : val9 V (no_index (Proc.devRef .tc main_arg12)) = V (Proc.devRef .tc main_arg12) :=
  (val9_keep V main_arg12 (by decide)).trans (val8_main_arg12 V)
theorem val9_main_arg13 (V : Valuation τ sig (Elt Ideal)) : val9 V (no_index (Proc.devRef .tc main_arg13)) = V (Proc.devRef .tc main_arg13) :=
  (val9_keep V main_arg13 (by decide)).trans (val8_main_arg13 V)
set_option maxRecDepth 8192 in
set_option maxHeartbeats 2000000 in
theorem val9_main_v103 (V : Valuation τ sig (Elt Ideal)) : val9 V (no_index (Proc.devRef .tc main_v103)) = s_main_v103 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold val9
  simp only [w8]
  after_results_simp
  simp only [val8_main_v99, val8_main_v100, val8_main_v93] <;> rfl

/-- The fold over the whole line is the fold window by window. -/
theorem after_ops (V : Valuation τ sig (Elt Ideal)) : after (ops (F := Ideal)) V = val9 V := by
  simp only [ops, p0, p1, p2, after_app]
  rfl

/-- On every device, from any memory with zero counters: every weakly fair execution of @main terminates with the
    result buffer at `result` of the arguments' launch contents, and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v103) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v103).trans (by rw [after_ops]; exact val9_main_v103 (launchContents m c)),
      (h c main_arg0).trans (by rw [after_ops]; exact val9_main_arg0 (launchContents m c)),
      (h c main_arg1).trans (by rw [after_ops]; exact val9_main_arg1 (launchContents m c)),
      (h c main_arg2).trans (by rw [after_ops]; exact val9_main_arg2 (launchContents m c)),
      (h c main_arg3).trans (by rw [after_ops]; exact val9_main_arg3 (launchContents m c)),
      (h c main_arg4).trans (by rw [after_ops]; exact val9_main_arg4 (launchContents m c)),
      (h c main_arg5).trans (by rw [after_ops]; exact val9_main_arg5 (launchContents m c)),
      (h c main_arg6).trans (by rw [after_ops]; exact val9_main_arg6 (launchContents m c)),
      (h c main_arg7).trans (by rw [after_ops]; exact val9_main_arg7 (launchContents m c)),
      (h c main_arg8).trans (by rw [after_ops]; exact val9_main_arg8 (launchContents m c)),
      (h c main_arg9).trans (by rw [after_ops]; exact val9_main_arg9 (launchContents m c)),
      (h c main_arg10).trans (by rw [after_ops]; exact val9_main_arg10 (launchContents m c)),
      (h c main_arg11).trans (by rw [after_ops]; exact val9_main_arg11 (launchContents m c)),
      (h c main_arg12).trans (by rw [after_ops]; exact val9_main_arg12 (launchContents m c)),
      (h c main_arg13).trans (by rw [after_ops]; exact val9_main_arg13 (launchContents m c))⟩)
    (RefRun.run_main (F := Ideal) m ρ)

end Cert.ReferenceIdeal.RefValue

end
-- ==== Proof.RefRead1.lean ====
/-
  The reference's host operations read at an index, each over literal shapes and explicit coordinates: the four
  contractions as sums over their contracted axis, the column and row sums, the broadcasts of a vector along rows and
  of a scalar, the reshape of a one-column matrix, the concatenation of three row blocks, a sum over 384 indices as
  three sums over 128, and the words of 65536 and of 1 as extended reals.
-/
import proofs.«166000_j82308753261052_2_alg».proof.Proof.Gen.ReferenceIdeal
import Idealize.ShloMosaic.PureOps.Ideal
import Idealize.ShloMosaic.Lib.IdealHost
import Idealize.ShloMosaic.Lib.KernelVsHost
import Idealize.ShloMosaic.Lib.Pipeline.Value

noncomputable section

namespace Cert.ReferenceIdeal.RefRead

open Cert.ReferenceIdeal Cert.ReferenceIdeal.Gen Idealize.ShloMosaic Idealize.ShloMosaic.ValueIdx
open scoped BigOperators

/-! ## The contractions -/

theorem dot512_lhs0 (i : S65536x256.Idx) (q : dot_S65536x512_S512x256_S65536x256_1_0_0_1_n_n.contr.Idx) : (dot_S65536x512_S512x256_S65536x256_1_0_0_1_n_n.lhsIdx i q 0).val = (i 0).val := by
  unfold DotDims.lhsIdx
  rw [dif_neg (show ¬(0 : Fin S65536x512.rank) ∈ dot_S65536x512_S512x256_S65536x256_1_0_0_1_n_n.lhsBatch by decide), dif_pos (show (0 : Fin S65536x512.rank) ∈ dot_S65536x512_S512x256_S65536x256_1_0_0_1_n_n.lhsNonContracting by decide)]
  rfl
theorem dot512_lhs1 (i : S65536x256.Idx) (q : dot_S65536x512_S512x256_S65536x256_1_0_0_1_n_n.contr.Idx) : (dot_S65536x512_S512x256_S65536x256_1_0_0_1_n_n.lhsIdx i q 1).val = (q ⟨0, by decide⟩).val :=
  dot_S65536x512_S512x256_S65536x256_1_0_0_1_n_n.lhsIdx_val_of_single rfl i q
theorem dot512_rhs0 (i : S65536x256.Idx) (q : dot_S65536x512_S512x256_S65536x256_1_0_0_1_n_n.contr.Idx) : (dot_S65536x512_S512x256_S65536x256_1_0_0_1_n_n.rhsIdx i q 0).val = (q ⟨0, by decide⟩).val :=
  dot_S65536x512_S512x256_S65536x256_1_0_0_1_n_n.rhsIdx_val_of_single rfl i q
theorem dot512_rhs1 (i : S65536x256.Idx) (q : dot_S65536x512_S512x256_S65536x256_1_0_0_1_n_n.contr.Idx) : (dot_S65536x512_S512x256_S65536x256_1_0_0_1_n_n.rhsIdx i q 1).val = (i 1).val := by
  unfold DotDims.rhsIdx
  rw [dif_neg (show ¬(1 : Fin S512x256.rank) ∈ dot_S65536x512_S512x256_S65536x256_1_0_0_1_n_n.rhsBatch by decide), dif_pos (show (1 : Fin S512x256.rank) ∈ dot_S65536x512_S512x256_S65536x256_1_0_0_1_n_n.rhsNonContracting by decide)]
  rfl

/-- The [65536, 512] × [512, 256] contraction at (p, q): the sum over k of l (p, k) · r (k, q). -/
theorem dot512_apply (l : FVec Ideal S65536x512 .f32) (r : FVec Ideal S512x256 .f32) (p : Fin 65536) (q : Fin 256) :
    Host.dotGeneral (F := Ideal) dot_S65536x512_S512x256_S65536x256_1_0_0_1_n_n none l r (ix2 p q) = ∑ k : Fin 512, l (ix2 p k) * r (ix2 k q) := by
  simp only [Host.dotGeneral]
  rw [Ideal.dotGeneral_apply, ← Equiv.sum_comp (ValueIdx.contrEquiv1 dot_S65536x512_S512x256_S65536x256_1_0_0_1_n_n 512 rfl rfl).symm]
  refine Finset.sum_congr rfl fun k _ => ?_
  have hk := ValueIdx.contrEquiv1_symm_val dot_S65536x512_S512x256_S65536x256_1_0_0_1_n_n 512 rfl rfl k
  have el : dot_S65536x512_S512x256_S65536x256_1_0_0_1_n_n.lhsIdx (ix2 p q) ((ValueIdx.contrEquiv1 dot_S65536x512_S512x256_S65536x256_1_0_0_1_n_n 512 rfl rfl).symm k) = ix2 p k := funext fun a => Fin.ext (by
    match a with
    | ⟨0, _⟩ => exact dot512_lhs0 _ _
    | ⟨1, _⟩ => exact (dot512_lhs1 _ _).trans hk)
  have er : dot_S65536x512_S512x256_S65536x256_1_0_0_1_n_n.rhsIdx (ix2 p q) ((ValueIdx.contrEquiv1 dot_S65536x512_S512x256_S65536x256_1_0_0_1_n_n 512 rfl rfl).symm k) = ix2 k q := funext fun a => Fin.ext (by
    match a with
    | ⟨0, _⟩ => exact (dot512_rhs0 _ _).trans hk
    | ⟨1, _⟩ => exact dot512_rhs1 _ _)
  rw [el, er]

theorem dot256_lhs0 (i : S65536x128.Idx) (q : dot_S65536x256_S256x128_S65536x128_1_0_0_1_n_n.contr.Idx) : (dot_S65536x256_S256x128_S65536x128_1_0_0_1_n_n.lhsIdx i q 0).val = (i 0).val := by
  unfold DotDims.lhsIdx
  rw [dif_neg (show ¬(0 : Fin S65536x256.rank) ∈ dot_S65536x256_S256x128_S65536x128_1_0_0_1_n_n.lhsBatch by decide), dif_pos (show (0 : Fin S65536x256.rank) ∈ dot_S65536x256_S256x128_S65536x128_1_0_0_1_n_n.lhsNonContracting by decide)]
  rfl
theorem dot256_lhs1 (i : S65536x128.Idx) (q : dot_S65536x256_S256x128_S65536x128_1_0_0_1_n_n.contr.Idx) : (dot_S65536x256_S256x128_S65536x128_1_0_0_1_n_n.lhsIdx i q 1).val = (q ⟨0, by decide⟩).val :=
  dot_S65536x256_S256x128_S65536x128_1_0_0_1_n_n.lhsIdx_val_of_single rfl i q
theorem dot256_rhs0 (i : S65536x128.Idx) (q : dot_S65536x256_S256x128_S65536x128_1_0_0_1_n_n.contr.Idx) : (dot_S65536x256_S256x128_S65536x128_1_0_0_1_n_n.rhsIdx i q 0).val = (q ⟨0, by decide⟩).val :=
  dot_S65536x256_S256x128_S65536x128_1_0_0_1_n_n.rhsIdx_val_of_single rfl i q
theorem dot256_rhs1 (i : S65536x128.Idx) (q : dot_S65536x256_S256x128_S65536x128_1_0_0_1_n_n.contr.Idx) : (dot_S65536x256_S256x128_S65536x128_1_0_0_1_n_n.rhsIdx i q 1).val = (i 1).val := by
  unfold DotDims.rhsIdx
  rw [dif_neg (show ¬(1 : Fin S256x128.rank) ∈ dot_S65536x256_S256x128_S65536x128_1_0_0_1_n_n.rhsBatch by decide), dif_pos (show (1 : Fin S256x128.rank) ∈ dot_S65536x256_S256x128_S65536x128_1_0_0_1_n_n.rhsNonContracting by decide)]
  rfl

/-- The [65536, 256] × [256, 128] contraction at (p, q): the sum over k of l (p, k) · r (k, q). -/
theorem dot256_apply (l : FVec Ideal S65536x256 .f32) (r : FVec Ideal S256x128 .f32) (p : Fin 65536) (q : Fin 128) :
    Host.dotGeneral (F := Ideal) dot_S65536x256_S256x128_S65536x128_1_0_0_1_n_n none l r (ix2 p q) = ∑ k : Fin 256, l (ix2 p k) * r (ix2 k q) := by
  simp only [Host.dotGeneral]
  rw [Ideal.dotGeneral_apply, ← Equiv.sum_comp (ValueIdx.contrEquiv1 dot_S65536x256_S256x128_S65536x128_1_0_0_1_n_n 256 rfl rfl).symm]
  refine Finset.sum_congr rfl fun k _ => ?_
  have hk := ValueIdx.contrEquiv1_symm_val dot_S65536x256_S256x128_S65536x128_1_0_0_1_n_n 256 rfl rfl k
  have el : dot_S65536x256_S256x128_S65536x128_1_0_0_1_n_n.lhsIdx (ix2 p q) ((ValueIdx.contrEquiv1 dot_S65536x256_S256x128_S65536x128_1_0_0_1_n_n 256 rfl rfl).symm k) = ix2 p k := funext fun a => Fin.ext (by
    match a with
    | ⟨0, _⟩ => exact dot256_lhs0 _ _
    | ⟨1, _⟩ => exact (dot256_lhs1 _ _).trans hk)
  have er : dot_S65536x256_S256x128_S65536x128_1_0_0_1_n_n.rhsIdx (ix2 p q) ((ValueIdx.contrEquiv1 dot_S65536x256_S256x128_S65536x128_1_0_0_1_n_n 256 rfl rfl).symm k) = ix2 k q := funext fun a => Fin.ext (by
    match a with
    | ⟨0, _⟩ => exact (dot256_rhs0 _ _).trans hk
    | ⟨1, _⟩ => exact dot256_rhs1 _ _)
  rw [el, er]

theorem dot384_lhs0 (i : S65536x64.Idx) (q : dot_S65536x384_S384x64_S65536x64_1_0_0_1_n_n.contr.Idx) : (dot_S65536x384_S384x64_S65536x64_1_0_0_1_n_n.lhsIdx i q 0).val = (i 0).val := by
  unfold DotDims.lhsIdx
  rw [dif_neg (show ¬(0 : Fin S65536x384.rank) ∈ dot_S65536x384_S384x64_S65536x64_1_0_0_1_n_n.lhsBatch by decide), dif_pos (show (0 : Fin S65536x384.rank) ∈ dot_S65536x384_S384x64_S65536x64_1_0_0_1_n_n.lhsNonContracting by decide)]
  rfl
theorem dot384_lhs1 (i : S65536x64.Idx) (q : dot_S65536x384_S384x64_S65536x64_1_0_0_1_n_n.contr.Idx) : (dot_S65536x384_S384x64_S65536x64_1_0_0_1_n_n.lhsIdx i q 1).val = (q ⟨0, by decide⟩).val :=
  dot_S65536x384_S384x64_S65536x64_1_0_0_1_n_n.lhsIdx_val_of_single rfl i q
theorem dot384_rhs0 (i : S65536x64.Idx) (q : dot_S65536x384_S384x64_S65536x64_1_0_0_1_n_n.contr.Idx) : (dot_S65536x384_S384x64_S65536x64_1_0_0_1_n_n.rhsIdx i q 0).val = (q ⟨0, by decide⟩).val :=
  dot_S65536x384_S384x64_S65536x64_1_0_0_1_n_n.rhsIdx_val_of_single rfl i q
theorem dot384_rhs1 (i : S65536x64.Idx) (q : dot_S65536x384_S384x64_S65536x64_1_0_0_1_n_n.contr.Idx) : (dot_S65536x384_S384x64_S65536x64_1_0_0_1_n_n.rhsIdx i q 1).val = (i 1).val := by
  unfold DotDims.rhsIdx
  rw [dif_neg (show ¬(1 : Fin S384x64.rank) ∈ dot_S65536x384_S384x64_S65536x64_1_0_0_1_n_n.rhsBatch by decide), dif_pos (show (1 : Fin S384x64.rank) ∈ dot_S65536x384_S384x64_S65536x64_1_0_0_1_n_n.rhsNonContracting by decide)]
  rfl

/-- The [65536, 384] × [384, 64] contraction at (p, q): the sum over k of l (p, k) · r (k, q). -/
theorem dot384_apply (l : FVec Ideal S65536x384 .f32) (r : FVec Ideal S384x64 .f32) (p : Fin 65536) (q : Fin 64) :
    Host.dotGeneral (F := Ideal) dot_S65536x384_S384x64_S65536x64_1_0_0_1_n_n none l r (ix2 p q) = ∑ k : Fin 384, l (ix2 p k) * r (ix2 k q) := by
  simp only [Host.dotGeneral]
  rw [Ideal.dotGeneral_apply, ← Equiv.sum_comp (ValueIdx.contrEquiv1 dot_S65536x384_S384x64_S65536x64_1_0_0_1_n_n 384 rfl rfl).symm]
  refine Finset.sum_congr rfl fun k _ => ?_
  have hk := ValueIdx.contrEquiv1_symm_val dot_S65536x384_S384x64_S65536x64_1_0_0_1_n_n 384 rfl rfl k
  have el : dot_S65536x384_S384x64_S65536x64_1_0_0_1_n_n.lhsIdx (ix2 p q) ((ValueIdx.contrEquiv1 dot_S65536x384_S384x64_S65536x64_1_0_0_1_n_n 384 rfl rfl).symm k) = ix2 p k := funext fun a => Fin.ext (by
    match a with
    | ⟨0, _⟩ => exact dot384_lhs0 _ _
    | ⟨1, _⟩ => exact (dot384_lhs1 _ _).trans hk)
  have er : dot_S65536x384_S384x64_S65536x64_1_0_0_1_n_n.rhsIdx (ix2 p q) ((ValueIdx.contrEquiv1 dot_S65536x384_S384x64_S65536x64_1_0_0_1_n_n 384 rfl rfl).symm k) = ix2 k q := funext fun a => Fin.ext (by
    match a with
    | ⟨0, _⟩ => exact (dot384_rhs0 _ _).trans hk
    | ⟨1, _⟩ => exact dot384_rhs1 _ _)
  rw [el, er]

theorem dot64_lhs0 (i : S65536x1.Idx) (q : dot_S65536x64_S64x1_S65536x1_1_0_0_1_n_n.contr.Idx) : (dot_S65536x64_S64x1_S65536x1_1_0_0_1_n_n.lhsIdx i q 0).val = (i 0).val := by
  unfold DotDims.lhsIdx
  rw [dif_neg (show ¬(0 : Fin S65536x64.rank) ∈ dot_S65536x64_S64x1_S65536x1_1_0_0_1_n_n.lhsBatch by decide), dif_pos (show (0 : Fin S65536x64.rank) ∈ dot_S65536x64_S64x1_S65536x1_1_0_0_1_n_n.lhsNonContracting by decide)]
  rfl
theorem dot64_lhs1 (i : S65536x1.Idx) (q : dot_S65536x64_S64x1_S65536x1_1_0_0_1_n_n.contr.Idx) : (dot_S65536x64_S64x1_S65536x1_1_0_0_1_n_n.lhsIdx i q 1).val = (q ⟨0, by decide⟩).val :=
  dot_S65536x64_S64x1_S65536x1_1_0_0_1_n_n.lhsIdx_val_of_single rfl i q
theorem dot64_rhs0 (i : S65536x1.Idx) (q : dot_S65536x64_S64x1_S65536x1_1_0_0_1_n_n.contr.Idx) : (dot_S65536x64_S64x1_S65536x1_1_0_0_1_n_n.rhsIdx i q 0).val = (q ⟨0, by decide⟩).val :=
  dot_S65536x64_S64x1_S65536x1_1_0_0_1_n_n.rhsIdx_val_of_single rfl i q
theorem dot64_rhs1 (i : S65536x1.Idx) (q : dot_S65536x64_S64x1_S65536x1_1_0_0_1_n_n.contr.Idx) : (dot_S65536x64_S64x1_S65536x1_1_0_0_1_n_n.rhsIdx i q 1).val = (i 1).val := by
  unfold DotDims.rhsIdx
  rw [dif_neg (show ¬(1 : Fin S64x1.rank) ∈ dot_S65536x64_S64x1_S65536x1_1_0_0_1_n_n.rhsBatch by decide), dif_pos (show (1 : Fin S64x1.rank) ∈ dot_S65536x64_S64x1_S65536x1_1_0_0_1_n_n.rhsNonContracting by decide)]
  rfl

/-- The [65536, 64] × [64, 1] contraction at (p, q): the sum over k of l (p, k) · r (k, q). -/
theorem dot64_apply (l : FVec Ideal S65536x64 .f32) (r : FVec Ideal S64x1 .f32) (p : Fin 65536) (q : Fin 1) :
    Host.dotGeneral (F := Ideal) dot_S65536x64_S64x1_S65536x1_1_0_0_1_n_n none l r (ix2 p q) = ∑ k : Fin 64, l (ix2 p k) * r (ix2 k q) := by
  simp only [Host.dotGeneral]
  rw [Ideal.dotGeneral_apply, ← Equiv.sum_comp (ValueIdx.contrEquiv1 dot_S65536x64_S64x1_S65536x1_1_0_0_1_n_n 64 rfl rfl).symm]
  refine Finset.sum_congr rfl fun k _ => ?_
  have hk := ValueIdx.contrEquiv1_symm_val dot_S65536x64_S64x1_S65536x1_1_0_0_1_n_n 64 rfl rfl k
  have el : dot_S65536x64_S64x1_S65536x1_1_0_0_1_n_n.lhsIdx (ix2 p q) ((ValueIdx.contrEquiv1 dot_S65536x64_S64x1_S65536x1_1_0_0_1_n_n 64 rfl rfl).symm k) = ix2 p k := funext fun a => Fin.ext (by
    match a with
    | ⟨0, _⟩ => exact dot64_lhs0 _ _
    | ⟨1, _⟩ => exact (dot64_lhs1 _ _).trans hk)
  have er : dot_S65536x64_S64x1_S65536x1_1_0_0_1_n_n.rhsIdx (ix2 p q) ((ValueIdx.contrEquiv1 dot_S65536x64_S64x1_S65536x1_1_0_0_1_n_n 64 rfl rfl).symm k) = ix2 k q := funext fun a => Fin.ext (by
    match a with
    | ⟨0, _⟩ => exact (dot64_rhs0 _ _).trans hk
    | ⟨1, _⟩ => exact dot64_rhs1 _ _)
  rw [el, er]

/-! ## The sums over one axis -/

/-- The scalar shape has one index. -/
theorem first_eq_ix0 : Shape.Idx.first (Cert.ReferenceIdeal.Gen.h_S_) = ix0 := funext fun a => a.elim0

/-- The column sum of a [65536, 256] array at j: the initial value plus the sum over the rows. -/
theorem colSum_apply (x : FVec Ideal S65536x256 .f32) (init : FVec Ideal S_ .f32) (j : Fin 256) :
    Host.reduceAdd (F := Ideal) x init reducesTo_S65536x256_S256_d0 h_S_ (ix1 j) = init ix0 + ∑ r : Fin 65536, x (ix2 r j) := by
  rw [ValueIdx.hostReduceAdd_apply, first_eq_ix0]
  rw [Ideal.hostReduceAdd_single reducesTo_S65536x256_S256_d0 (by decide)]
  refine congrArg (_ + ·) (Finset.sum_congr rfl fun k _ => ?_)
  exact congrArg x (funext fun a => Fin.ext (by match a with | ⟨0, _⟩ => rfl | ⟨1, _⟩ => rfl))

/-- The row sum of a [65536, 128] array at r: the initial value plus the sum over the columns. -/
theorem rowSum_apply (x : FVec Ideal S65536x128 .f32) (init : FVec Ideal S_ .f32) (r : Fin 65536) :
    Host.reduceAdd (F := Ideal) x init reducesTo_S65536x128_S65536_d1 h_S_ (ix1 r) = init ix0 + ∑ k : Fin 128, x (ix2 r k) := by
  rw [ValueIdx.hostReduceAdd_apply, first_eq_ix0]
  rw [Ideal.hostReduceAdd_single reducesTo_S65536x128_S65536_d1 (by decide)]
  refine congrArg (_ + ·) (Finset.sum_congr rfl fun k _ => ?_)
  exact congrArg x (funext fun a => Fin.ext (by match a with | ⟨0, _⟩ => rfl | ⟨1, _⟩ => rfl))

/-! ## The broadcasts -/

/-- A vector as a one-row matrix, read at (0, j). -/
theorem asRow_apply {n : Nat} {α : Type} (h : (⟨1, ![n]⟩ : Shape).BroadcastsInDim ⟨2, ![1, n]⟩ ![1]) (v : (⟨1, ![n]⟩ : Shape).Idx → α) (j : Fin n) :
    broadcastInDim ⟨2, ![1, n]⟩ ![1] h v (ix2 (0 : Fin 1) j) = v (ix1 j) := by
  refine broadcastInDim_apply ![1] h v (ix2 (0 : Fin 1) j) (ix1 j) ?_
  intro a
  match a with
  | ⟨0, _⟩ =>
    show j.val = if n = 1 then 0 else j.val
    split_ifs with hn
    · have := j.isLt; omega
    · rfl

/-- A vector broadcast along the rows of an [m, n] matrix, read at (r, j). -/
theorem rows_apply {m n : Nat} {α : Type} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (j : Fin n) :
    broadcastInDim ⟨2, ![m, n]⟩ ![0, 1] h2 (broadcastInDim ⟨2, ![1, n]⟩ ![1] h1 v) (ix2 r j) = v (ix1 j) :=
  (broadcastInDim_oneRow_apply h2 _ r j).trans (asRow_apply h1 v j)

/-- A one-element vector broadcast to 65536 entries, read at r. -/
theorem one_apply {α : Type} (v : S1.Idx → α) (r : Fin 65536) :
    broadcastInDim S65536 ![0] bcast_S1_S65536_0 v (ix1 r) = v (ix1 (0 : Fin 1)) := by
  refine broadcastInDim_apply ![0] bcast_S1_S65536_0 v (ix1 r) (ix1 (0 : Fin 1)) ?_
  intro a
  match a with
  | ⟨0, _⟩ => rfl

/-! ## The same broadcasts at the program's shapes -/

theorem rows256_apply {α : Type} (v : S256.Idx → α) (r : Fin 65536) (j : Fin 256) :
    broadcastInDim S65536x256 ![0, 1] bcast_S1x256_S65536x256_0_1 (broadcastInDim S1x256 ![1] bcast_S256_S1x256_1 v) (ix2 r j) = v (ix1 j) :=
  rows_apply bcast_S256_S1x256_1 bcast_S1x256_S65536x256_0_1 v r j

theorem rows128_apply {α : Type} (v : S128.Idx → α) (r : Fin 65536) (j : Fin 128) :
    broadcastInDim S65536x128 ![0, 1] bcast_S1x128_S65536x128_0_1 (broadcastInDim S1x128 ![1] bcast_S128_S1x128_1 v) (ix2 r j) = v (ix1 j) :=
  rows_apply bcast_S128_S1x128_1 bcast_S1x128_S65536x128_0_1 v r j

theorem rows64_apply {α : Type} (v : S64.Idx → α) (r : Fin 65536) (j : Fin 64) :
    broadcastInDim S65536x64 ![0, 1] bcast_S1x64_S65536x64_0_1 (broadcastInDim S1x64 ![1] bcast_S64_S1x64_1 v) (ix2 r j) = v (ix1 j) :=
  rows_apply bcast_S64_S1x64_1 bcast_S1x64_S65536x64_0_1 v r j

theorem rows1_apply {α : Type} (v : S1.Idx → α) (r : Fin 65536) (j : Fin 1) :
    broadcastInDim S65536x1 ![0, 1] bcast_S1x1_S65536x1_0_1 (broadcastInDim S1x1 ![1] bcast_S1_S1x1_1 v) (ix2 r j) = v (ix1 j) :=
  rows_apply bcast_S1_S1x1_1 bcast_S1x1_S65536x1_0_1 v r j

theorem oneRow256_apply {α : Type} (y : S1x256.Idx → α) (r : Fin 65536) (j : Fin 256) :
    broadcastInDim S65536x256 ![0, 1] bcast_S1x256_S65536x256_0_1 y (ix2 r j) = y (ix2 (0 : Fin 1) j) :=
  broadcastInDim_oneRow_apply bcast_S1x256_S65536x256_0_1 y r j

theorem asRow256_apply {α : Type} (v : S256.Idx → α) (j : Fin 256) :
    broadcastInDim S1x256 ![1] bcast_S256_S1x256_1 v (ix2 (0 : Fin 1) j) = v (ix1 j) :=
  asRow_apply bcast_S256_S1x256_1 v j

theorem scalar_S256_apply {α : Type} (x : S_.Idx → α) (j : S256.Idx) : broadcastInDim S256 ![] bcast_S_S256 x j = x ix0 :=
  broadcastInDim_scalar_apply bcast_S_S256 x j

theorem scalar_S1x256_apply {α : Type} (x : S_.Idx → α) (j : S1x256.Idx) : broadcastInDim S1x256 ![] bcast_S_S1x256 x j = x ix0 :=
  broadcastInDim_scalar_apply bcast_S_S1x256 x j

theorem scalar_S65536x256_apply {α : Type} (x : S_.Idx → α) (j : S65536x256.Idx) : broadcastInDim S65536x256 ![] bcast_S_S65536x256 x j = x ix0 :=
  broadcastInDim_scalar_apply bcast_S_S65536x256 x j

theorem scalar_S65536x128_apply {α : Type} (x : S_.Idx → α) (j : S65536x128.Idx) : broadcastInDim S65536x128 ![] bcast_S_S65536x128 x j = x ix0 :=
  broadcastInDim_scalar_apply bcast_S_S65536x128 x j

theorem scalar_S65536_apply {α : Type} (x : S_.Idx → α) (j : S65536.Idx) : broadcastInDim S65536 ![] bcast_S_S65536 x j = x ix0 :=
  broadcastInDim_scalar_apply bcast_S_S65536 x j

theorem scalar_S65536x64_apply {α : Type} (x : S_.Idx → α) (j : S65536x64.Idx) : broadcastInDim S65536x64 ![] bcast_S_S65536x64 x j = x ix0 :=
  broadcastInDim_scalar_apply bcast_S_S65536x64 x j

/-! ## The reshape of a one-column matrix -/

theorem column_apply {α : Type} (x : S65536x1.Idx → α) (r : Fin 65536) :
    shapeCast S65536 x shapeCasts_S65536x1_S65536 (ix1 r) = x (ix2 r (0 : Fin 1)) := by
  refine shapeCast_apply x shapeCasts_S65536x1_S65536 (ix1 r) (ix2 r (0 : Fin 1)) ?_
  rw [Shape.rowMajor_val_two, Shape.rowMajor_val_one]
  show r.val * 1 + 0 = r.val
  omega

/-! ## The concatenation of three [65536, 128] blocks along the columns -/

section Concat
variable {α : Type} (x y z : S65536x128.Idx → α)

theorem concat_A (r : Fin 65536) (k : Fin 128) :
    concatenate S65536x384 1 [⟨S65536x128, x⟩, ⟨S65536x128, y⟩, ⟨S65536x128, z⟩] concatenates_S65536x128_S65536x128_S65536x128_S65536x384_d1
      (ix2 r (⟨k.val, by omega⟩ : Fin 384)) = x (ix2 r k) := by
  refine concatenate_apply_piece (1 : Fin S65536x384.rank) _ _ _ 0 (by simp) S65536x128 x rfl rfl 0 rfl (ix2 r k) ?_ ?_
  · intro b hb
    match b with
    | ⟨0, _⟩ => rfl
    | ⟨1, _⟩ => exact absurd rfl hb
  · show 0 + k.val = k.val
    omega

theorem concat_B (r : Fin 65536) (k : Fin 128) :
    concatenate S65536x384 1 [⟨S65536x128, x⟩, ⟨S65536x128, y⟩, ⟨S65536x128, z⟩] concatenates_S65536x128_S65536x128_S65536x128_S65536x384_d1
      (ix2 r (⟨128 + k.val, by omega⟩ : Fin 384)) = y (ix2 r k) := by
  refine concatenate_apply_piece (1 : Fin S65536x384.rank) _ _ _ 1 (by simp) S65536x128 y rfl rfl 128 rfl (ix2 r k) ?_ ?_
  · intro b hb
    match b with
    | ⟨0, _⟩ => rfl
    | ⟨1, _⟩ => exact absurd rfl hb
  · rfl

theorem concat_C (r : Fin 65536) (k : Fin 128) :
    concatenate S65536x384 1 [⟨S65536x128, x⟩, ⟨S65536x128, y⟩, ⟨S65536x128, z⟩] concatenates_S65536x128_S65536x128_S65536x128_S65536x384_d1
      (ix2 r (⟨256 + k.val, by omega⟩ : Fin 384)) = z (ix2 r k) := by
  refine concatenate_apply_piece (1 : Fin S65536x384.rank) _ _ _ 2 (by simp) S65536x128 z rfl rfl 256 rfl (ix2 r k) ?_ ?_
  · intro b hb
    match b with
    | ⟨0, _⟩ => rfl
    | ⟨1, _⟩ => exact absurd rfl hb
  · rfl

end Concat

/-- A sum over 384 indices is the sum over its three blocks of 128. -/
theorem sum_384 {M : Type} [AddCommMonoid M] (f : Fin 384 → M) :
    ∑ c : Fin 384, f c
      = ((∑ k : Fin 128, f ⟨k.val, by omega⟩) + ∑ k : Fin 128, f ⟨128 + k.val, by omega⟩) + ∑ k : Fin 128, f ⟨256 + k.val, by omega⟩ := by
  show ∑ c : Fin (128 + 128 + 128), f c = _
  rw [Fin.sum_univ_add, Fin.sum_univ_add]
  rfl

/-! ## Words as extended reals -/

/-- The word 0x47800000 is 65536. -/
theorem word_nRows : Ideal.ofBits .f32 0x47800000#32 = ((65536 : ℝ) : EReal) := by
  simp [Ideal.ofBits, Ideal.ieee, -EReal.coe_mul]; norm_num

theorem word_nRows_pos : (0 : EReal) < Ideal.ofBits .f32 0x47800000#32 := by
  rw [word_nRows]; exact EReal.coe_pos.mpr (by norm_num)

/-- The signed integer word 0 as a float is 0. -/
theorem sitofp_zero : (((0#32 : BitVec 32).toInt : ℝ) : EReal) = 0 := by
  simp

end Cert.ReferenceIdeal.RefRead

end
-- ==== Proof.RefRead2.lean ====
/-
  Each stage that is not a pointwise operation, read at an index through the stage before it: a contraction as the
  sum over its contracted axis, a column or row sum as the initial value plus the sum, a broadcast at the index it
  reads, the reshape of the one-column matrix, the concatenation at each of its three blocks.
-/
import proofs.«166000_j82308753261052_2_alg».proof.Proof.RefValueStages
import proofs.«166000_j82308753261052_2_alg».proof.Proof.RefRead1

noncomputable section

namespace Cert.ReferenceIdeal.RefRead

open Cert.ReferenceIdeal Cert.ReferenceIdeal.Gen Cert.ReferenceIdeal.RefValue Idealize.ShloMosaic Idealize.ShloMosaic.ValueIdx
open scoped BigOperators

theorem main_v0_apply (a0 : FVec Ideal S65536x512 .f32) (a2 : FVec Ideal S512x256 .f32) (p : Fin 65536) (q : Fin 256) :
    s_main_v0 a0 a2 (ix2 p q) = ∑ k : Fin 512, a0 (ix2 p k) * a2 (ix2 k q) := by
  unfold s_main_v0; exact dot512_apply _ _ p q

theorem main_v1_apply (a3 : FVec Ideal S256 .f32) (j : Fin 256) :
    s_main_v1 a3 (ix2 (0 : Fin 1) j) = a3 (ix1 j) := by
  unfold s_main_v1; exact asRow_apply _ _ j

theorem main_v2_apply (a3 : FVec Ideal S256 .f32) (r : Fin 65536) (j : Fin 256) :
    s_main_v2 a3 (ix2 r j) = (s_main_v1 a3) (ix2 (0 : Fin 1) j) := by
  unfold s_main_v2; exact broadcastInDim_oneRow_apply _ _ r j

theorem main_v4_apply (a0 : FVec Ideal S65536x512 .f32) (a2 : FVec Ideal S512x256 .f32) (a3 : FVec Ideal S256 .f32) (j : Fin 256) :
    s_main_v4 a0 a2 a3 (ix1 j) = s_main_cst ix0 + ∑ r : Fin 65536, (s_main_v3 a0 a2 a3) (ix2 r j) := by
  unfold s_main_v4; exact colSum_apply _ _ j

theorem main_v5_apply  (j : S256.Idx) :
    s_main_v5 j = s_main_cst_0 ix0 := by
  unfold s_main_v5; exact broadcastInDim_scalar_apply _ _ j

theorem main_call0_v0_apply (a0 : FVec Ideal S65536x512 .f32) (a2 : FVec Ideal S512x256 .f32) (a3 : FVec Ideal S256 .f32) (j : Fin 256) :
    s_main_call0_v0 a0 a2 a3 (ix1 j) = s_main_call0_cst ix0 + ∑ r : Fin 65536, (s_main_v3 a0 a2 a3) (ix2 r j) := by
  unfold s_main_call0_v0; exact colSum_apply _ _ j

theorem main_call0_v1_apply (a0 : FVec Ideal S65536x512 .f32) (a2 : FVec Ideal S512x256 .f32) (a3 : FVec Ideal S256 .f32) (j : Fin 256) :
    s_main_call0_v1 a0 a2 a3 (ix2 (0 : Fin 1) j) = (s_main_call0_v0 a0 a2 a3) (ix1 j) := by
  unfold s_main_call0_v1; exact asRow_apply _ _ j

theorem main_call0_v2_apply  (j : S1x256.Idx) :
    s_main_call0_v2 j = s_main_call0_cst_0 ix0 := by
  unfold s_main_call0_v2; exact broadcastInDim_scalar_apply _ _ j

theorem main_call0_v4_apply (a0 : FVec Ideal S65536x512 .f32) (a2 : FVec Ideal S512x256 .f32) (a3 : FVec Ideal S256 .f32) (r : Fin 65536) (j : Fin 256) :
    s_main_call0_v4 a0 a2 a3 (ix2 r j) = (s_main_call0_v3 a0 a2 a3) (ix2 (0 : Fin 1) j) := by
  unfold s_main_call0_v4; exact broadcastInDim_oneRow_apply _ _ r j

theorem main_call0_v9_apply (a0 : FVec Ideal S65536x512 .f32) (a2 : FVec Ideal S512x256 .f32) (a3 : FVec Ideal S256 .f32) (j : Fin 256) :
    s_main_call0_v9 a0 a2 a3 (ix1 j) = s_main_call0_cst_2 ix0 + ∑ r : Fin 65536, (s_main_call0_v6 a0 a2 a3) (ix2 r j) := by
  unfold s_main_call0_v9; exact colSum_apply _ _ j

theorem main_call0_v10_apply  (j : S256.Idx) :
    s_main_call0_v10 j = s_main_call0_v8 ix0 := by
  unfold s_main_call0_v10; exact broadcastInDim_scalar_apply _ _ j

theorem main_call0_call0_v1_apply  (j : S256.Idx) :
    s_main_call0_call0_v1 j = s_main_call0_call0_v0 ix0 := by
  unfold s_main_call0_call0_v1; exact broadcastInDim_scalar_apply _ _ j

theorem main_v8_apply (a0 : FVec Ideal S65536x512 .f32) (a2 : FVec Ideal S512x256 .f32) (a3 : FVec Ideal S256 .f32) (j : Fin 256) :
    s_main_v8 a0 a2 a3 (ix2 (0 : Fin 1) j) = (s_main_v6 a0 a2 a3) (ix1 j) := by
  unfold s_main_v8; exact asRow_apply _ _ j

theorem main_v9_apply (a0 : FVec Ideal S65536x512 .f32) (a2 : FVec Ideal S512x256 .f32) (a3 : FVec Ideal S256 .f32) (r : Fin 65536) (j : Fin 256) :
    s_main_v9 a0 a2 a3 (ix2 r j) = (s_main_v8 a0 a2 a3) (ix2 (0 : Fin 1) j) := by
  unfold s_main_v9; exact broadcastInDim_oneRow_apply _ _ r j

theorem main_v11_apply (a4 : FVec Ideal S256 .f32) (j : Fin 256) :
    s_main_v11 a4 (ix2 (0 : Fin 1) j) = a4 (ix1 j) := by
  unfold s_main_v11; exact asRow_apply _ _ j

theorem main_v12_apply (a4 : FVec Ideal S256 .f32) (r : Fin 65536) (j : Fin 256) :
    s_main_v12 a4 (ix2 r j) = (s_main_v11 a4) (ix2 (0 : Fin 1) j) := by
  unfold s_main_v12; exact broadcastInDim_oneRow_apply _ _ r j

theorem main_v14_apply  (j : S256.Idx) :
    s_main_v14 j = s_main_cst_1 ix0 := by
  unfold s_main_v14; exact broadcastInDim_scalar_apply _ _ j

theorem main_v17_apply (a0 : FVec Ideal S65536x512 .f32) (a2 : FVec Ideal S512x256 .f32) (a3 : FVec Ideal S256 .f32) (j : Fin 256) :
    s_main_v17 a0 a2 a3 (ix2 (0 : Fin 1) j) = (s_main_v16 a0 a2 a3) (ix1 j) := by
  unfold s_main_v17; exact asRow_apply _ _ j

theorem main_v18_apply (a0 : FVec Ideal S65536x512 .f32) (a2 : FVec Ideal S512x256 .f32) (a3 : FVec Ideal S256 .f32) (r : Fin 65536) (j : Fin 256) :
    s_main_v18 a0 a2 a3 (ix2 r j) = (s_main_v17 a0 a2 a3) (ix2 (0 : Fin 1) j) := by
  unfold s_main_v18; exact broadcastInDim_oneRow_apply _ _ r j

theorem main_v20_apply (a5 : FVec Ideal S256 .f32) (j : Fin 256) :
    s_main_v20 a5 (ix2 (0 : Fin 1) j) = a5 (ix1 j) := by
  unfold s_main_v20; exact asRow_apply _ _ j

theorem main_v21_apply (a5 : FVec Ideal S256 .f32) (r : Fin 65536) (j : Fin 256) :
    s_main_v21 a5 (ix2 r j) = (s_main_v20 a5) (ix2 (0 : Fin 1) j) := by
  unfold s_main_v21; exact broadcastInDim_oneRow_apply _ _ r j

theorem main_call1_v0_apply  (j : S65536x256.Idx) :
    s_main_call1_v0 j = s_main_call1_cst ix0 := by
  unfold s_main_call1_v0; exact broadcastInDim_scalar_apply _ _ j

theorem main_v24_apply (a0 : FVec Ideal S65536x512 .f32) (a2 : FVec Ideal S512x256 .f32) (a3 : FVec Ideal S256 .f32) (a4 : FVec Ideal S256 .f32) (a5 : FVec Ideal S256 .f32) (a6 : FVec Ideal S256x128 .f32) (p : Fin 65536) (q : Fin 128) :
    s_main_v24 a0 a2 a3 a4 a5 a6 (ix2 p q) = ∑ k : Fin 256, (s_main_v23 a0 a2 a3 a4 a5) (ix2 p k) * a6 (ix2 k q) := by
  unfold s_main_v24; exact dot256_apply _ _ p q

theorem main_v25_apply (a7 : FVec Ideal S128 .f32) (j : Fin 128) :
    s_main_v25 a7 (ix2 (0 : Fin 1) j) = a7 (ix1 j) := by
  unfold s_main_v25; exact asRow_apply _ _ j

theorem main_v26_apply (a7 : FVec Ideal S128 .f32) (r : Fin 65536) (j : Fin 128) :
    s_main_v26 a7 (ix2 r j) = (s_main_v25 a7) (ix2 (0 : Fin 1) j) := by
  unfold s_main_v26; exact broadcastInDim_oneRow_apply _ _ r j

theorem main_call2_v0_apply  (j : S65536x128.Idx) :
    s_main_call2_v0 j = s_main_call2_cst ix0 := by
  unfold s_main_call2_v0; exact broadcastInDim_scalar_apply _ _ j

theorem main_v29_apply (a1 : FVec Ideal S65536x512 .f32) (a2 : FVec Ideal S512x256 .f32) (p : Fin 65536) (q : Fin 256) :
    s_main_v29 a1 a2 (ix2 p q) = ∑ k : Fin 512, a1 (ix2 p k) * a2 (ix2 k q) := by
  unfold s_main_v29; exact dot512_apply _ _ p q

theorem main_v30_apply (a3 : FVec Ideal S256 .f32) (j : Fin 256) :
    s_main_v30 a3 (ix2 (0 : Fin 1) j) = a3 (ix1 j) := by
  unfold s_main_v30; exact asRow_apply _ _ j

theorem main_v31_apply (a3 : FVec Ideal S256 .f32) (r : Fin 65536) (j : Fin 256) :
    s_main_v31 a3 (ix2 r j) = (s_main_v30 a3) (ix2 (0 : Fin 1) j) := by
  unfold s_main_v31; exact broadcastInDim_oneRow_apply _ _ r j

theorem main_v33_apply (a1 : FVec Ideal S65536x512 .f32) (a2 : FVec Ideal S512x256 .f32) (a3 : FVec Ideal S256 .f32) (j : Fin 256) :
    s_main_v33 a1 a2 a3 (ix1 j) = s_main_cst_2 ix0 + ∑ r : Fin 65536, (s_main_v32 a1 a2 a3) (ix2 r j) := by
  unfold s_main_v33; exact colSum_apply _ _ j

theorem main_v34_apply  (j : S256.Idx) :
    s_main_v34 j = s_main_cst_3 ix0 := by
  unfold s_main_v34; exact broadcastInDim_scalar_apply _ _ j

theorem main_call3_v0_apply (a1 : FVec Ideal S65536x512 .f32) (a2 : FVec Ideal S512x256 .f32) (a3 : FVec Ideal S256 .f32) (j : Fin 256) :
    s_main_call3_v0 a1 a2 a3 (ix1 j) = s_main_call3_cst ix0 + ∑ r : Fin 65536, (s_main_v32 a1 a2 a3) (ix2 r j) := by
  unfold s_main_call3_v0; exact colSum_apply _ _ j

theorem main_call3_v1_apply (a1 : FVec Ideal S65536x512 .f32) (a2 : FVec Ideal S512x256 .f32) (a3 : FVec Ideal S256 .f32) (j : Fin 256) :
    s_main_call3_v1 a1 a2 a3 (ix2 (0 : Fin 1) j) = (s_main_call3_v0 a1 a2 a3) (ix1 j) := by
  unfold s_main_call3_v1; exact asRow_apply _ _ j

theorem main_call3_v2_apply  (j : S1x256.Idx) :
    s_main_call3_v2 j = s_main_call3_cst_0 ix0 := by
  unfold s_main_call3_v2; exact broadcastInDim_scalar_apply _ _ j

theorem main_call3_v4_apply (a1 : FVec Ideal S65536x512 .f32) (a2 : FVec Ideal S512x256 .f32) (a3 : FVec Ideal S256 .f32) (r : Fin 65536) (j : Fin 256) :
    s_main_call3_v4 a1 a2 a3 (ix2 r j) = (s_main_call3_v3 a1 a2 a3) (ix2 (0 : Fin 1) j) := by
  unfold s_main_call3_v4; exact broadcastInDim_oneRow_apply _ _ r j

theorem main_call3_v9_apply (a1 : FVec Ideal S65536x512 .f32) (a2 : FVec Ideal S512x256 .f32) (a3 : FVec Ideal S256 .f32) (j : Fin 256) :
    s_main_call3_v9 a1 a2 a3 (ix1 j) = s_main_call3_cst_2 ix0 + ∑ r : Fin 65536, (s_main_call3_v6 a1 a2 a3) (ix2 r j) := by
  unfold s_main_call3_v9; exact colSum_apply _ _ j

theorem main_call3_v10_apply  (j : S256.Idx) :
    s_main_call3_v10 j = s_main_call3_v8 ix0 := by
  unfold s_main_call3_v10; exact broadcastInDim_scalar_apply _ _ j

theorem main_call3_call0_v1_apply  (j : S256.Idx) :
    s_main_call3_call0_v1 j = s_main_call3_call0_v0 ix0 := by
  unfold s_main_call3_call0_v1; exact broadcastInDim_scalar_apply _ _ j

theorem main_v37_apply (a1 : FVec Ideal S65536x512 .f32) (a2 : FVec Ideal S512x256 .f32) (a3 : FVec Ideal S256 .f32) (j : Fin 256) :
    s_main_v37 a1 a2 a3 (ix2 (0 : Fin 1) j) = (s_main_v35 a1 a2 a3) (ix1 j) := by
  unfold s_main_v37; exact asRow_apply _ _ j

theorem main_v38_apply (a1 : FVec Ideal S65536x512 .f32) (a2 : FVec Ideal S512x256 .f32) (a3 : FVec Ideal S256 .f32) (r : Fin 65536) (j : Fin 256) :
    s_main_v38 a1 a2 a3 (ix2 r j) = (s_main_v37 a1 a2 a3) (ix2 (0 : Fin 1) j) := by
  unfold s_main_v38; exact broadcastInDim_oneRow_apply _ _ r j

theorem main_v40_apply (a4 : FVec Ideal S256 .f32) (j : Fin 256) :
    s_main_v40 a4 (ix2 (0 : Fin 1) j) = a4 (ix1 j) := by
  unfold s_main_v40; exact asRow_apply _ _ j

theorem main_v41_apply (a4 : FVec Ideal S256 .f32) (r : Fin 65536) (j : Fin 256) :
    s_main_v41 a4 (ix2 r j) = (s_main_v40 a4) (ix2 (0 : Fin 1) j) := by
  unfold s_main_v41; exact broadcastInDim_oneRow_apply _ _ r j

theorem main_v43_apply  (j : S256.Idx) :
    s_main_v43 j = s_main_cst_5 ix0 := by
  unfold s_main_v43; exact broadcastInDim_scalar_apply _ _ j

theorem main_v46_apply (a1 : FVec Ideal S65536x512 .f32) (a2 : FVec Ideal S512x256 .f32) (a3 : FVec Ideal S256 .f32) (j : Fin 256) :
    s_main_v46 a1 a2 a3 (ix2 (0 : Fin 1) j) = (s_main_v45 a1 a2 a3) (ix1 j) := by
  unfold s_main_v46; exact asRow_apply _ _ j

theorem main_v47_apply (a1 : FVec Ideal S65536x512 .f32) (a2 : FVec Ideal S512x256 .f32) (a3 : FVec Ideal S256 .f32) (r : Fin 65536) (j : Fin 256) :
    s_main_v47 a1 a2 a3 (ix2 r j) = (s_main_v46 a1 a2 a3) (ix2 (0 : Fin 1) j) := by
  unfold s_main_v47; exact broadcastInDim_oneRow_apply _ _ r j

theorem main_v49_apply (a5 : FVec Ideal S256 .f32) (j : Fin 256) :
    s_main_v49 a5 (ix2 (0 : Fin 1) j) = a5 (ix1 j) := by
  unfold s_main_v49; exact asRow_apply _ _ j

theorem main_v50_apply (a5 : FVec Ideal S256 .f32) (r : Fin 65536) (j : Fin 256) :
    s_main_v50 a5 (ix2 r j) = (s_main_v49 a5) (ix2 (0 : Fin 1) j) := by
  unfold s_main_v50; exact broadcastInDim_oneRow_apply _ _ r j

theorem main_call4_v0_apply  (j : S65536x256.Idx) :
    s_main_call4_v0 j = s_main_call4_cst ix0 := by
  unfold s_main_call4_v0; exact broadcastInDim_scalar_apply _ _ j

theorem main_v53_apply (a1 : FVec Ideal S65536x512 .f32) (a2 : FVec Ideal S512x256 .f32) (a3 : FVec Ideal S256 .f32) (a4 : FVec Ideal S256 .f32) (a5 : FVec Ideal S256 .f32) (a6 : FVec Ideal S256x128 .f32) (p : Fin 65536) (q : Fin 128) :
    s_main_v53 a1 a2 a3 a4 a5 a6 (ix2 p q) = ∑ k : Fin 256, (s_main_v52 a1 a2 a3 a4 a5) (ix2 p k) * a6 (ix2 k q) := by
  unfold s_main_v53; exact dot256_apply _ _ p q

theorem main_v54_apply (a7 : FVec Ideal S128 .f32) (j : Fin 128) :
    s_main_v54 a7 (ix2 (0 : Fin 1) j) = a7 (ix1 j) := by
  unfold s_main_v54; exact asRow_apply _ _ j

theorem main_v55_apply (a7 : FVec Ideal S128 .f32) (r : Fin 65536) (j : Fin 128) :
    s_main_v55 a7 (ix2 r j) = (s_main_v54 a7) (ix2 (0 : Fin 1) j) := by
  unfold s_main_v55; exact broadcastInDim_oneRow_apply _ _ r j

theorem main_call5_v0_apply  (j : S65536x128.Idx) :
    s_main_call5_v0 j = s_main_call5_cst ix0 := by
  unfold s_main_call5_v0; exact broadcastInDim_scalar_apply _ _ j

theorem main_v59_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) :
    s_main_v59 a0 a1 a2 a3 a4 a5 a6 a7 (ix1 r) = s_main_cst_6 ix0 + ∑ k : Fin 128, (s_main_v58 a0 a1 a2 a3 a4 a5 a6 a7) (ix2 r k) := by
  unfold s_main_v59; exact rowSum_apply _ _ r

theorem main_v61_apply (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) :
    s_main_v61 a0 a2 a3 a4 a5 a6 a7 (ix1 r) = s_main_cst_7 ix0 + ∑ k : Fin 128, (s_main_v60 a0 a2 a3 a4 a5 a6 a7) (ix2 r k) := by
  unfold s_main_v61; exact rowSum_apply _ _ r

theorem main_v63_apply  (j : S65536.Idx) :
    s_main_v63 j = s_main_cst_8 ix0 := by
  unfold s_main_v63; exact broadcastInDim_scalar_apply _ _ j

theorem main_v65_apply  (j : S65536.Idx) :
    s_main_v65 j = s_main_cst_9 ix0 := by
  unfold s_main_v65; exact broadcastInDim_scalar_apply _ _ j

theorem main_v68_apply (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) :
    s_main_v68 a1 a2 a3 a4 a5 a6 a7 (ix1 r) = s_main_cst_10 ix0 + ∑ k : Fin 128, (s_main_v67 a1 a2 a3 a4 a5 a6 a7) (ix2 r k) := by
  unfold s_main_v68; exact rowSum_apply _ _ r

theorem main_v70_apply  (j : S65536.Idx) :
    s_main_v70 j = s_main_cst_11 ix0 := by
  unfold s_main_v70; exact broadcastInDim_scalar_apply _ _ j

theorem main_v72_apply  (j : S65536.Idx) :
    s_main_v72 j = s_main_cst_12 ix0 := by
  unfold s_main_v72; exact broadcastInDim_scalar_apply _ _ j

theorem main_call6_v1_apply  (j : S65536.Idx) :
    s_main_call6_v1 j = s_main_call6_v0 ix0 := by
  unfold s_main_call6_v1; exact broadcastInDim_scalar_apply _ _ j

theorem main_call6_v4_apply  (j : S65536.Idx) :
    s_main_call6_v4 j = s_main_call6_v3 ix0 := by
  unfold s_main_call6_v4; exact broadcastInDim_scalar_apply _ _ j

theorem main_v81_apply_A (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) (k : Fin 128) :
    s_main_v81 a0 a1 a2 a3 a4 a5 a6 a7 (ix2 r (⟨k.val, by omega⟩ : Fin 384)) = (s_main_v77 a0 a1 a2 a3 a4 a5 a6 a7) (ix2 r k) := by
  unfold s_main_v81; exact concat_A _ _ _ r k

theorem main_v81_apply_B (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) (k : Fin 128) :
    s_main_v81 a0 a1 a2 a3 a4 a5 a6 a7 (ix2 r (⟨128 + k.val, by omega⟩ : Fin 384)) = (s_main_v79 a0 a1 a2 a3 a4 a5 a6 a7) (ix2 r k) := by
  unfold s_main_v81; exact concat_B _ _ _ r k

theorem main_v81_apply_C (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) (k : Fin 128) :
    s_main_v81 a0 a1 a2 a3 a4 a5 a6 a7 (ix2 r (⟨256 + k.val, by omega⟩ : Fin 384)) = (s_main_v80 a0 a1 a2 a3 a4 a5 a6 a7) (ix2 r k) := by
  unfold s_main_v81; exact concat_C _ _ _ r k

theorem main_v82_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (p : Fin 65536) (q : Fin 64) :
    s_main_v82 a0 a1 a2 a3 a4 a5 a6 a7 a8 (ix2 p q) = ∑ k : Fin 384, (s_main_v81 a0 a1 a2 a3 a4 a5 a6 a7) (ix2 p k) * a8 (ix2 k q) := by
  unfold s_main_v82; exact dot384_apply _ _ p q

theorem main_v83_apply (a9 : FVec Ideal S64 .f32) (j : Fin 64) :
    s_main_v83 a9 (ix2 (0 : Fin 1) j) = a9 (ix1 j) := by
  unfold s_main_v83; exact asRow_apply _ _ j

theorem main_v84_apply (a9 : FVec Ideal S64 .f32) (r : Fin 65536) (j : Fin 64) :
    s_main_v84 a9 (ix2 r j) = (s_main_v83 a9) (ix2 (0 : Fin 1) j) := by
  unfold s_main_v84; exact broadcastInDim_oneRow_apply _ _ r j

theorem main_call7_v0_apply  (j : S65536x64.Idx) :
    s_main_call7_v0 j = s_main_call7_cst ix0 := by
  unfold s_main_call7_v0; exact broadcastInDim_scalar_apply _ _ j

theorem main_v87_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (p : Fin 65536) (q : Fin 1) :
    s_main_v87 a0 a1 a2 a3 a4 a5 a6 a7 a8 a9 a10 (ix2 p q) = ∑ k : Fin 64, (s_main_v86 a0 a1 a2 a3 a4 a5 a6 a7 a8 a9) (ix2 p k) * a10 (ix2 k q) := by
  unfold s_main_v87; exact dot64_apply _ _ p q

theorem main_v88_apply (a11 : FVec Ideal S1 .f32) (j : Fin 1) :
    s_main_v88 a11 (ix2 (0 : Fin 1) j) = a11 (ix1 j) := by
  unfold s_main_v88; exact asRow_apply _ _ j

theorem main_v89_apply (a11 : FVec Ideal S1 .f32) (r : Fin 65536) (j : Fin 1) :
    s_main_v89 a11 (ix2 r j) = (s_main_v88 a11) (ix2 (0 : Fin 1) j) := by
  unfold s_main_v89; exact broadcastInDim_oneRow_apply _ _ r j

theorem main_v91_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (r : Fin 65536) :
    s_main_v91 a0 a1 a2 a3 a4 a5 a6 a7 a8 a9 a10 a11 (ix1 r) = (s_main_v90 a0 a1 a2 a3 a4 a5 a6 a7 a8 a9 a10 a11) (ix2 r (0 : Fin 1)) := by
  unfold s_main_v91; exact column_apply _ r

theorem main_v92_apply (a12 : FVec Ideal S1 .f32) (r : Fin 65536) :
    s_main_v92 a12 (ix1 r) = a12 (ix1 (0 : Fin 1)) := by
  unfold s_main_v92; exact one_apply _ r

theorem main_v96_apply  (j : S65536.Idx) :
    s_main_v96 j = s_main_cst_15 ix0 := by
  unfold s_main_v96; exact broadcastInDim_scalar_apply _ _ j

theorem main_v98_apply  (j : S65536.Idx) :
    s_main_v98 j = s_main_cst_16 ix0 := by
  unfold s_main_v98; exact broadcastInDim_scalar_apply _ _ j

theorem main_v100_apply (a13 : FVec Ideal S1 .f32) (r : Fin 65536) :
    s_main_v100 a13 (ix1 r) = a13 (ix1 (0 : Fin 1)) := by
  unfold s_main_v100; exact one_apply _ r

theorem main_call8_v1_apply  (j : S65536.Idx) :
    s_main_call8_v1 j = s_main_call8_v0 ix0 := by
  unfold s_main_call8_v1; exact broadcastInDim_scalar_apply _ _ j

theorem main_call8_v4_apply  (j : S65536.Idx) :
    s_main_call8_v4 j = s_main_call8_v3 ix0 := by
  unfold s_main_call8_v4; exact broadcastInDim_scalar_apply _ _ j

end Cert.ReferenceIdeal.RefRead

end
-- ==== Proof.RefRead3.lean ====
/-
  The reference's stages read at an index, in the order of the computation: the projection, its column mean and its
  two-pass variance (the divisor 65536 − 0 is 65536 and is positive, so the guarded quotient is the quotient), the
  normalised and rectified row, the second layer, the clamped cosine of the two hidden rows, the combining layer over
  the concatenation (its 384-term contraction as three 128-term ones against the three row blocks of W3), the learned
  score, and the clamped mix (the expanded sigmoid is the logistic function). Then the result is the relation
  network's forward pass with the two-pass variance.
-/
import proofs.«166000_j82308753261052_2_alg».proof.Proof.RefRead2
import proofs.«166000_j82308753261052_2_alg».proof.Proof.Relation

noncomputable section

namespace Cert.ReferenceIdeal.RefRead

open Cert.ReferenceIdeal Cert.ReferenceIdeal.Gen Cert.ReferenceIdeal.RefValue Idealize.ShloMosaic Idealize.ShloMosaic.ValueIdx
open scoped BigOperators

/-! ## The host's one-operand operations at an index (by definition) -/

section Apply
variable {s : Shape} {φ : FTy}
theorem hostRsqrt_apply (x : FVec Ideal s φ) (i : s.Idx) : Host.rsqrt x i = Ideal.rsqrt (x i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostNegf_apply (x : FVec Ideal s φ) (i : s.Idx) : Host.negf x i = -(x i) := rfl
theorem hostAbsf_apply (x : FVec Ideal s φ) (i : s.Idx) : Host.absf x i = max (x i) (-(x i)) := rfl
end Apply

/-- Adding to the word of zero adds nothing. -/
theorem zero_word_add (x : EReal) : Ideal.ofBits .f32 0x00000000#32 + x = x := by
  rw [Ideal.ofBits_zero_f32, zero_add]

/-! ## The first layer and its column statistics -/

theorem proj_apply (a0 : FVec Ideal S65536x512 .f32) (a2 : FVec Ideal S512x256 .f32) (a3 : FVec Ideal S256 .f32) (r : Fin 65536) (j : Fin 256) :
    s_main_v3 a0 a2 a3 (ix2 r j) = (Relation.proj (fun r k => a0 (ix2 r k)) (fun k j => a2 (ix2 k j)) (fun j => a3 (ix1 j))) r j := by
  simp only [s_main_v3, main_v0_apply, main_v2_apply, main_v1_apply, addf_apply, subf_apply, mulf_apply, maximumf_apply, minimumf_apply, hostDivf_apply, constant_apply]
  rfl

theorem mean_apply (a0 : FVec Ideal S65536x512 .f32) (a2 : FVec Ideal S512x256 .f32) (a3 : FVec Ideal S256 .f32) (j : Fin 256) :
    s_main_v6 a0 a2 a3 (ix1 j) = Relation.mean (Relation.proj (fun r k => a0 (ix2 r k)) (fun k j => a2 (ix2 k j)) (fun j => a3 (ix1 j))) j := by
  simp only [s_main_v6, main_v4_apply, s_main_cst, main_v5_apply, s_main_cst_0, addf_apply, subf_apply, mulf_apply, maximumf_apply, minimumf_apply, hostDivf_apply, constant_apply, zero_word_add, proj_apply]
  rfl

/-- The variance's divisor, 65536 − 0 with the 0 an integer word made a float, is 65536. -/
theorem divisor0 : s_main_call0_v8 ix0 = Relation.nRows := by
  simp only [s_main_call0_v8, s_main_call0_cst_1, s_main_call0_v7, s_main_c, subf_apply, constant_apply, sitofp_apply]
  show Ideal.ofBits .f32 0x47800000#32 - (((0#32 : BitVec 32).toInt : ℝ) : EReal) = _
  rw [sitofp_zero, sub_zero]

/-- The divisor is positive: the guard of the quotient is true. -/
theorem guard0 : s_main_call0_v12 ix0 = 1#1 := by
  simp only [s_main_call0_v12, s_main_call0_cst_3, cmpf_apply, constant_apply, divisor0]
  show Ideal.cmp .ogt (Ideal.ofBits .f32 0x47800000#32) (Ideal.ofBits .f32 0x00000000#32) = 1#1
  rw [Ideal.ofBits_zero_f32]
  simp [Ideal.cmp, word_nRows_pos]

theorem var_apply (a0 : FVec Ideal S65536x512 .f32) (a2 : FVec Ideal S512x256 .f32) (a3 : FVec Ideal S256 .f32) (j : Fin 256) :
    s_main_v7 a0 a2 a3 (ix1 j) = Relation.varTwoPass (Relation.proj (fun r k => a0 (ix2 r k)) (fun k j => a2 (ix2 k j)) (fun j => a3 (ix1 j))) j := by
  simp only [s_main_v7, select_apply]
  rw [scalar_S256_apply, guard0, select_one]
  simp only [s_main_call0_v11, main_call0_v9_apply, s_main_call0_v6, s_main_call0_v5, main_call0_v4_apply, s_main_call0_v3, main_call0_v1_apply, main_call0_v0_apply, s_main_call0_cst, main_call0_v2_apply, s_main_call0_cst_0, s_main_call0_cst_2, main_call0_v10_apply, addf_apply, subf_apply, mulf_apply, maximumf_apply, minimumf_apply, hostDivf_apply, constant_apply, divisor0, zero_word_add, proj_apply]
  rfl

/-! ## Normalisation, rectifier and the second layer, on one row -/

theorem norm_apply (a0 : FVec Ideal S65536x512 .f32) (a2 : FVec Ideal S512x256 .f32) (a3 : FVec Ideal S256 .f32) (a4 : FVec Ideal S256 .f32) (a5 : FVec Ideal S256 .f32) (r : Fin 65536) (j : Fin 256) :
    s_main_v23 a0 a2 a3 a4 a5 (ix2 r j) = (Relation.normRow (Relation.mean (Relation.proj (fun r k => a0 (ix2 r k)) (fun k j => a2 (ix2 k j)) (fun j => a3 (ix1 j)))) (Relation.varTwoPass (Relation.proj (fun r k => a0 (ix2 r k)) (fun k j => a2 (ix2 k j)) (fun j => a3 (ix1 j)))) (fun j => a4 (ix1 j)) (fun j => a5 (ix1 j)) ((Relation.proj (fun r k => a0 (ix2 r k)) (fun k j => a2 (ix2 k j)) (fun j => a3 (ix1 j))) r)) j := by
  simp only [s_main_v23, s_main_v22, s_main_v19, s_main_v13, main_v12_apply, main_v11_apply, s_main_v10, main_v9_apply, main_v8_apply, main_v18_apply, main_v17_apply, s_main_v16, s_main_v15, main_v14_apply, s_main_cst_1, main_v21_apply, main_v20_apply, main_call1_v0_apply, s_main_call1_cst, addf_apply, subf_apply, mulf_apply, maximumf_apply, minimumf_apply, hostDivf_apply, constant_apply, hostRsqrt_apply, proj_apply, mean_apply, var_apply]
  rfl

theorem hidden_apply (a0 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) (k : Fin 128) :
    s_main_v28 a0 a2 a3 a4 a5 a6 a7 (ix2 r k) = (Relation.hidden (fun j k => a6 (ix2 j k)) (fun k => a7 (ix1 k)) (Relation.normRow (Relation.mean (Relation.proj (fun r k => a0 (ix2 r k)) (fun k j => a2 (ix2 k j)) (fun j => a3 (ix1 j)))) (Relation.varTwoPass (Relation.proj (fun r k => a0 (ix2 r k)) (fun k j => a2 (ix2 k j)) (fun j => a3 (ix1 j)))) (fun j => a4 (ix1 j)) (fun j => a5 (ix1 j)) ((Relation.proj (fun r k => a0 (ix2 r k)) (fun k j => a2 (ix2 k j)) (fun j => a3 (ix1 j))) r))) k := by
  simp only [s_main_v28, s_main_v27, main_v24_apply, main_v26_apply, main_v25_apply, main_call2_v0_apply, s_main_call2_cst, addf_apply, subf_apply, mulf_apply, maximumf_apply, minimumf_apply, hostDivf_apply, constant_apply, norm_apply]
  rfl

/-- The second input goes through the same operations: its hidden rows are the first input's stage at the second input. -/
theorem hidden2_eq (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) :
    s_main_v57 a1 a2 a3 a4 a5 a6 a7 = s_main_v28 a1 a2 a3 a4 a5 a6 a7 := by
  simp only [s_main_v57, s_main_v56, s_main_v53, s_main_v52, s_main_v51, s_main_v48, s_main_v42, s_main_v41, s_main_v40, s_main_v39, s_main_v32, s_main_v29, s_main_v31, s_main_v30, s_main_v38, s_main_v37, s_main_v35, s_main_v33, s_main_cst_2, s_main_v34, s_main_cst_3, s_main_v47, s_main_v46, s_main_v45, s_main_v44, s_main_v36, s_main_call3_v12, s_main_call3_v8, s_main_call3_cst_1, s_main_call3_v7, s_main_c_4, s_main_call3_cst_3, s_main_call3_v11, s_main_call3_v9, s_main_call3_v6, s_main_call3_v5, s_main_call3_v4, s_main_call3_v3, s_main_call3_v1, s_main_call3_v0, s_main_call3_cst, s_main_call3_v2, s_main_call3_cst_0, s_main_call3_cst_2, s_main_call3_v10, s_main_call3_call0_v1, s_main_call3_call0_v0, s_main_call3_cst_4, s_main_v43, s_main_cst_5, s_main_v50, s_main_v49, s_main_call4_v0, s_main_call4_cst, s_main_v55, s_main_v54, s_main_call5_v0, s_main_call5_cst, s_main_v28, s_main_v27, s_main_v24, s_main_v23, s_main_v22, s_main_v19, s_main_v13, s_main_v12, s_main_v11, s_main_v10, s_main_v3, s_main_v0, s_main_v2, s_main_v1, s_main_v9, s_main_v8, s_main_v6, s_main_v4, s_main_cst, s_main_v5, s_main_cst_0, s_main_v18, s_main_v17, s_main_v16, s_main_v15, s_main_v7, s_main_call0_v12, s_main_call0_v8, s_main_call0_cst_1, s_main_call0_v7, s_main_c, s_main_call0_cst_3, s_main_call0_v11, s_main_call0_v9, s_main_call0_v6, s_main_call0_v5, s_main_call0_v4, s_main_call0_v3, s_main_call0_v1, s_main_call0_v0, s_main_call0_cst, s_main_call0_v2, s_main_call0_cst_0, s_main_call0_cst_2, s_main_call0_v10, s_main_call0_call0_v1, s_main_call0_call0_v0, s_main_call0_cst_4, s_main_v14, s_main_cst_1, s_main_v21, s_main_v20, s_main_call1_v0, s_main_call1_cst, s_main_v26, s_main_v25, s_main_call2_v0, s_main_call2_cst]

/-! ## The two scores and their mix -/

theorem cosine_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (r : Fin 65536) :
    s_main_v76 a0 a1 a2 a3 a4 a5 a6 a7 (ix1 r) = Relation.cosine (fun k => s_main_v28 a0 a2 a3 a4 a5 a6 a7 (ix2 r k)) (fun k => s_main_v57 a1 a2 a3 a4 a5 a6 a7 (ix2 r k)) := by
  simp only [s_main_v76, main_call6_v4_apply, s_main_call6_v3, s_main_cst_14, s_main_call6_v2, main_call6_v1_apply, s_main_call6_v0, s_main_cst_13, s_main_v75, s_main_v74, main_v59_apply, s_main_v58, s_main_cst_6, s_main_v66, main_v65_apply, s_main_cst_9, s_main_v64, s_main_v62, main_v61_apply, s_main_v60, s_main_cst_7, main_v63_apply, s_main_cst_8, s_main_v73, main_v72_apply, s_main_cst_12, s_main_v71, s_main_v69, main_v68_apply, s_main_v67, s_main_cst_10, main_v70_apply, s_main_cst_11, addf_apply, subf_apply, mulf_apply, maximumf_apply, minimumf_apply, hostDivf_apply, constant_apply, hostSqrt_apply, zero_word_add]
  rfl

theorem combine_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (r : Fin 65536) (j : Fin 64) :
    s_main_v86 a0 a1 a2 a3 a4 a5 a6 a7 a8 a9 (ix2 r j)
      = Relation.combine (Relation.blockA (fun k j => a8 (ix2 k j))) (Relation.blockB (fun k j => a8 (ix2 k j))) (Relation.blockC (fun k j => a8 (ix2 k j))) (fun j => a9 (ix1 j)) (fun k => s_main_v28 a0 a2 a3 a4 a5 a6 a7 (ix2 r k)) (fun k => s_main_v57 a1 a2 a3 a4 a5 a6 a7 (ix2 r k)) j := by
  simp only [s_main_v86, s_main_v85, main_v82_apply, main_v84_apply, main_v83_apply, main_call7_v0_apply, s_main_call7_cst, addf_apply, subf_apply, mulf_apply, maximumf_apply, minimumf_apply, hostDivf_apply, constant_apply]
  rw [sum_384]
  simp only [main_v81_apply_A, main_v81_apply_B, main_v81_apply_C, s_main_v77, s_main_v79, s_main_v78, s_main_v80, addf_apply, subf_apply, mulf_apply, maximumf_apply, minimumf_apply, hostDivf_apply, constant_apply, hostAbsf_apply]
  rfl

theorem learned_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (r : Fin 65536) :
    s_main_v91 a0 a1 a2 a3 a4 a5 a6 a7 a8 a9 a10 a11 (ix1 r)
      = Relation.learned (fun j => a10 (ix2 j (0 : Fin 1))) (a11 (ix1 (0 : Fin 1))) (fun j => s_main_v86 a0 a1 a2 a3 a4 a5 a6 a7 a8 a9 (ix2 r j)) := by
  simp only [main_v91_apply, s_main_v90, main_v87_apply, main_v89_apply, main_v88_apply, addf_apply, subf_apply, mulf_apply, maximumf_apply, minimumf_apply, hostDivf_apply, constant_apply]
  rfl

theorem mix_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a12 : FVec Ideal S1 .f32) (a13 : FVec Ideal S1 .f32) (r : Fin 65536) :
    s_main_v103 a0 a1 a2 a3 a4 a5 a6 a7 a8 a9 a10 a11 a12 a13 (ix1 r)
      = Relation.mix (a12 (ix1 (0 : Fin 1))) (a13 (ix1 (0 : Fin 1))) (s_main_v76 a0 a1 a2 a3 a4 a5 a6 a7 (ix1 r))
          (s_main_v91 a0 a1 a2 a3 a4 a5 a6 a7 a8 a9 a10 a11 (ix1 r)) := by
  simp only [s_main_v103, main_call8_v4_apply, s_main_call8_v3, s_main_cst_18, s_main_call8_v2, main_call8_v1_apply, s_main_call8_v0, s_main_cst_17, s_main_v102, s_main_v93, main_v92_apply, s_main_v101, main_v100_apply, s_main_v99, main_v98_apply, s_main_cst_16, s_main_v97, main_v96_apply, s_main_cst_15, s_main_v95, s_main_v94, addf_apply, subf_apply, mulf_apply, maximumf_apply, minimumf_apply, hostDivf_apply, constant_apply, hostExp_apply, hostNegf_apply]
  simp only [Relation.mix, Ideal.logistic, Relation.one, Relation.zero, Ideal.ofBits_one_f32]

/-! ## The result -/

/-- The reference's result at row r is the relation network's forward pass, with the two-pass variance, at row r. -/
theorem result_apply (a0 : FVec Ideal S65536x512 .f32) (a1 : FVec Ideal S65536x512 .f32) (a2 : FVec Ideal S512x256 .f32) (a3 : FVec Ideal S256 .f32) (a4 : FVec Ideal S256 .f32) (a5 : FVec Ideal S256 .f32) (a6 : FVec Ideal S256x128 .f32) (a7 : FVec Ideal S128 .f32) (a8 : FVec Ideal S384x64 .f32) (a9 : FVec Ideal S64 .f32) (a10 : FVec Ideal S64x1 .f32) (a11 : FVec Ideal S1 .f32) (a12 : FVec Ideal S1 .f32) (a13 : FVec Ideal S1 .f32) (r : Fin 65536) :
    result a0 a1 a2 a3 a4 a5 a6 a7 a8 a9 a10 a11 a12 a13 (ValueIdx.ix1 r)
      = Cert.Relation.out Cert.Relation.varTwoPass (fun r k => a0 (ix2 r k)) (fun r k => a1 (ix2 r k)) (fun k j => a2 (ix2 k j))
          (fun j => a3 (ix1 j)) (fun j => a4 (ix1 j)) (fun j => a5 (ix1 j)) (fun j k => a6 (ix2 j k)) (fun k => a7 (ix1 k))
          (fun k j => a8 (ix2 k j)) (fun j => a9 (ix1 j)) (fun j => a10 (ix2 j 0)) (a11 (ix1 0)) (a12 (ix1 0)) (a13 (ix1 0)) r := by
  unfold result
  rw [mix_apply, cosine_apply, learned_apply]
  simp only [combine_apply, hidden2_eq, hidden_apply]
  rfl

end Cert.ReferenceIdeal.RefRead

end
-- ==== Proof.lean ====
/-
  The certificate of the relation network's kernel against its reference: under finite inputs, the idealized kernel
  program and the idealized reference end with equal results as extended reals.

  The kernel program runs the shared first layer h = x·W1 + b1 as a launch per input that also accumulates, per core,
  the half-column sums of h and of h²; forms the column mean and the clamped one-pass variance max(Σh²/n − μ², 0) on
  the host; and runs one fused row-local launch for normalisation, second layer, cosine score, combining perceptron
  and the final mix. The reference is the same network in plain array operations with the two-pass variance
  Σ(h − μ)²/n and one contraction against the concatenation [p∘q, |p − q|, p + q].

  Both results are `Relation.out` of the argument arrays at each row, the kernel's with the one-pass variance, the
  reference's with the two-pass one. The two variances agree on real columns, and finite inputs make every projected
  entry real: a finite sum of products of reals plus a real. Nothing else uses finiteness: regrouping the sums
  (halves of the rows, the three blocks of the concatenation) needs only commutativity and associativity.
  Nothing was rewritten by the idealization, so its soundness statement is empty.
-/
import proofs.«166000_j82308753261052_2_alg».proof.Defs
import proofs.«166000_j82308753261052_2_alg».proof.Proof.Gen.Kernel
import proofs.«166000_j82308753261052_2_alg».proof.Proof.Gen.Kernel.Skeleton
import proofs.«166000_j82308753261052_2_alg».proof.Proof.Gen.Kernel.Launch
import proofs.«166000_j82308753261052_2_alg».proof.Proof.Gen.Kernel.Points
import proofs.«166000_j82308753261052_2_alg».proof.Proof.Gen.Kernel.Frame
import proofs.«166000_j82308753261052_2_alg».proof.Proof.Gen.KernelIdeal
import proofs.«166000_j82308753261052_2_alg».proof.Proof.Gen.KernelIdeal.Skeleton
import proofs.«166000_j82308753261052_2_alg».proof.Proof.Gen.KernelIdeal.Launch
import proofs.«166000_j82308753261052_2_alg».proof.Proof.Gen.KernelIdeal.Points
import proofs.«166000_j82308753261052_2_alg».proof.Proof.Gen.KernelIdeal.Frame
import proofs.«166000_j82308753261052_2_alg».proof.Proof.Gen.ReferenceIdeal
import proofs.«166000_j82308753261052_2_alg».proof.Proof.Gen.Pre_finite_inputs
import proofs.«166000_j82308753261052_2_alg».proof.Proof.KernelRun
import proofs.«166000_j82308753261052_2_alg».proof.Proof.KernelArrays
import proofs.«166000_j82308753261052_2_alg».proof.Proof.FiniteInputs
import proofs.«166000_j82308753261052_2_alg».proof.Proof.Statistics
import proofs.«166000_j82308753261052_2_alg».proof.Proof.RefValue
import proofs.«166000_j82308753261052_2_alg».proof.Proof.RefRead3
import Idealize.ShloMosaic.Adequacy
import Idealize.ShloMosaic.Init

noncomputable section

namespace Cert.Proof

open Idealize.ShloMosaic Idealize.ShloMosaic.ValueIdx Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories agreeing on the arguments the two idealized programs end with equal results: at each row the
    forward pass of the arguments, with the one-pass variance on one side and the two-pass one on the other, equal
    because every projected entry is real. -/
theorem algebraic : Cert.algebraic_KernelIdeal_ReferenceIdeal := by
  intro m ρ m' ρ' hpre hagree
  refine ⟨fun c => Cert.KernelIdeal.HostStages.resArr m ρ c, Cert.KernelIdeal.RunValue.run (F := Ideal) m ρ, ?_⟩
  refine (θ_run Cert.ReferenceIdeal.defs _ _).mono (fun _ h c => ⟨(h c).1.trans ?_, (h c).2⟩) (Cert.ReferenceIdeal.RefValue.run m' ρ')
  obtain ⟨e0, e1, e2, e3, e4, e5, e6, e7, e8, e9, e10, e11, e12, e13⟩ := hagree c
  rw [e0, e1, e2, e3, e4, e5, e6, e7, e8, e9, e10, e11, e12, e13]
  obtain ⟨f0, f1, f2, f3⟩ := Cert.FiniteInputs.real_of_pre _ _ _ _ _ _ _ _ _ _ _ _ _ _ (hpre c)
  show (_ : Cert.KernelIdeal.S65536.Idx → EReal) = _
  refine funext fun i => ?_
  obtain ⟨r, rfl⟩ : ∃ r : Fin 65536, i = ix1 r := ⟨i 0, eq_ix1 i⟩
  rw [Cert.ReferenceIdeal.RefRead.result_apply]
  refine Eq.trans ?_ (Cert.KernelIdeal.KernelValue.result_apply m ρ c r).symm
  exact (Cert.Relation.out_onePass_eq_twoPass (Cert.KernelIdeal.KernelValue.X1 m c) (Cert.KernelIdeal.KernelValue.X2 m c)
    (Cert.KernelIdeal.KernelValue.Wt1 m c) (Cert.KernelIdeal.KernelValue.Bs1 m c) _ _ _ _ _ _ _ _ _ _ r
    (fun r k => f0 (ix2 r k)) (fun r k => f1 (ix2 r k)) (fun k j => f2 (ix2 k j)) (fun j => f3 (ix1 j))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
